-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S128x2048 .f32 .bf16
  ∧ IdealRules.truncf_extf.Statement Cert.KernelIdeal.S128x2048 .f32 .bf16
  ∧ IdealRules.truncf_extf.Statement Cert.KernelIdeal.S1024x2048 .f32 .bf16
  ∧ IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x2048 : Shape := ⟨3, ![2, 8192, 2048]⟩
abbrev S31x2048 : Shape := ⟨2, ![31, 2048]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S31x2048 : S_.BroadcastsInDim S31x2048 (![] : Fin 0 → Fin S31x2048.rank)
  reducesTo_S31x2048_S_d0_1 : S31x2048.ReducesTo [0, 1] S_

variable [Facts]

def fn {F : FTy → Type} [FloatOps F] (main_arg0 : FVec F S2x8192x2048 .f32) (main_arg1 : FVec F S31x2048 .f32) (main_arg2 : FVec F S31x2048 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  let main_v4 : FVec F S31x2048 .f32 := Host.absf main_arg1
  let main_cst_0 : FVec F S_ .f32 := constant S_ .f32 0x7F800000#32
  let main_v5 : FVec F S31x2048 .f32 := broadcastInDim S31x2048 ![] bcast_S_S31x2048 main_cst_0
  let main_v6 : IVec S31x2048 1 := cmpf .olt main_v4 main_v5
  let main_c_1 : IVec S_ 1 := constantI S_ 1 1#1
  let main_v7 : IVec S_ 1 := (fun x v => Host.reduce IntOp.andi x v reducesTo_S31x2048_S_d0_1 h_S_) main_v6 main_c_1
  let main_v8 : IVec S_ 1 := andi main_v3 main_v7
  let main_v9 : FVec F S31x2048 .f32 := Host.absf main_arg2
  let main_cst_2 : FVec F S_ .f32 := constant S_ .f32 0x7F800000#32
  let main_v10 : FVec F S31x2048 .f32 := broadcastInDim S31x2048 ![] bcast_S_S31x2048 main_cst_2
  let main_v11 : IVec S31x2048 1 := cmpf .olt main_v9 main_v10
  let main_c_3 : IVec S_ 1 := constantI S_ 1 1#1
  let main_v12 : IVec S_ 1 := (fun x v => Host.reduce IntOp.andi x v reducesTo_S31x2048_S_d0_1 h_S_) main_v11 main_c_3
  let main_v13 : IVec S_ 1 := andi main_v8 main_v12
  main_v13
-- ==== Kernel.lean ====
abbrev S2x8192x2048 : Shape := ⟨3, ![2, 8192, 2048]⟩
abbrev S31x2048 : Shape := ⟨2, ![31, 2048]⟩
abbrev S16384x2048 : Shape := ⟨2, ![16384, 2048]⟩
abbrev S_ : Shape := ⟨0, ![]⟩
abbrev S128x2048 : Shape := ⟨2, ![128, 2048]⟩
abbrev S16384x128 : Shape := ⟨2, ![16384, 128]⟩
abbrev S1024x2048 : Shape := ⟨2, ![1024, 2048]⟩
abbrev S1024x128 : Shape := ⟨2, ![1024, 128]⟩
abbrev S2097152 : Shape := ⟨1, ![2097152]⟩
abbrev S32768 : Shape := ⟨1, ![32768]⟩
abbrev S16 : Shape := ⟨1, ![16]⟩

abbrev nBuf : Table → Nat
  | .hbm => 16
  | .local .tc .vmem => 10
  | .local .scVector .vmem => 2
  | _ => 0

abbrev bufTy : (tb : Table) → Fin (nBuf tb) → BufTy
  | .hbm, ⟨0, _⟩ => ⟨S2x8192x2048, .f32⟩
  | .hbm, ⟨1, _⟩ => ⟨S31x2048, .f32⟩
  | .hbm, ⟨2, _⟩ => ⟨S31x2048, .f32⟩
  | .hbm, ⟨3, _⟩ => ⟨S16384x2048, .f32⟩
  | .hbm, ⟨4, _⟩ => ⟨S_, .i32⟩
  | .hbm, ⟨5, _⟩ => ⟨S_, .f32⟩
  | .hbm, ⟨6, _⟩ => ⟨S128x2048, .f32⟩
  | .hbm, ⟨7, _⟩ => ⟨S_, .i32⟩
  | .hbm, ⟨8, _⟩ => ⟨S_, .f32⟩
  | .hbm, ⟨9, _⟩ => ⟨S128x2048, .f32⟩
  | .hbm, ⟨10, _⟩ => ⟨S128x2048, .bf16⟩
  | .hbm, ⟨11, _⟩ => ⟨S16384x128, .f32⟩
  | .hbm, ⟨12, _⟩ => ⟨S2097152, .f32⟩
  | .hbm, ⟨13, _⟩ => ⟨S2097152, .f32⟩
  | .hbm, ⟨14, _⟩ => ⟨S16384x128, .f32⟩
  | .hbm, ⟨15, _⟩ => ⟨S16384x2048, .f32⟩
  | .local .tc .vmem, ⟨0, _⟩ => ⟨S1024x2048, .f32⟩
  | .local .tc .vmem, ⟨1, _⟩ => ⟨S1024x2048, .f32⟩
  | .local .tc .vmem, ⟨2, _⟩ => ⟨S128x2048, .f32⟩
  | .local .tc .vmem, ⟨3, _⟩ => ⟨S1024x128, .f32⟩
  | .local .tc .vmem, ⟨4, _⟩ => ⟨S1024x128, .f32⟩
  | .local .tc .vmem, ⟨5, _⟩ => ⟨S1024x128, .f32⟩
  | .local .tc .vmem, ⟨6, _⟩ => ⟨S1024x128, .f32⟩
  | .local .tc .vmem, ⟨7, _⟩ => ⟨S128x2048, .bf16⟩
  | .local .tc .vmem, ⟨8, _⟩ => ⟨S1024x2048, .f32⟩
  | .local .tc .vmem, ⟨9, _⟩ => ⟨S1024x2048, .f32⟩
  | .local .scVector .vmem, ⟨0, _⟩ => ⟨S32768, .f32⟩
  | .local .scVector .vmem, ⟨1, _⟩ => ⟨S32768, .f32⟩
  | _, _ => ⟨S2x8192x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v5_scv : Ref sig .scVector := ⟨.hbm, 12, rfl⟩
abbrev main_v6_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg2_1 : Ref sig .tc := ⟨.vmem, 9, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

@[reducible] def k1_t1_loop : Scf.Loop 32 :=
  let c0_i32_0 : BitVec 32 := 0#32
  let c2048_i32 : BitVec 32 := 2048#32
  let v5 : BitVec 32 := Scalar.addi c0_i32_0 c2048_i32
  let c1_i32 : BitVec 32 := 1#32
  ⟨c0_i32_0, v5, c1_i32⟩
def k1_off1 (k1_t1 : Fin k1_t1_loop.trips) : Fin 1 → Nat :=
  let c0_i32_0 : BitVec 32 := 0#32
  let c1_i32 : BitVec 32 := 1#32
  let arg6 : BitVec 32 := Scf.iv c0_i32_0 c1_i32 k1_t1
  let c16_i32_16 : BitVec 32 := 16#32
  let v11 : BitVec 32 := Scalar.muli arg6 c16_i32_16
  let v12 : Index := Scalar.indexCast v11
  ![v12.toNat]
def k1_off2 (i : grid1.Coords) (c0_i32_2 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v6 : BitVec 32 := Scalar.addi v2 c0_i32_2
  ![v6.toNat]
@[reducible] def k1_t2_loop : Scf.Loop 32 :=
  let c0_i32_4 : BitVec 32 := 0#32
  let c16_i32 : BitVec 32 := 16#32
  let v7 : BitVec 32 := Scalar.addi c0_i32_4 c16_i32
  let c1_i32_5 : BitVec 32 := 1#32
  ⟨c0_i32_4, v7, c1_i32_5⟩

def k1_chk1 (v17 : IVec S16 32) : Prop :=
  (∀ a x, ((![v17] : Fin 1 → IVec S16 32) a x).toNat < S32768.size a) ∧
  (∀ a x, ((![v17] : Fin 1 → IVec S16 32) a x).toNat < S32768.size a)
instance k1_chk1.dec : ∀ (v17 : IVec S16 32), Decidable (k1_chk1 v17) := fun v17 => decidable_of_iff' _ (Iff.of_eq (k1_chk1.eq_1 v17))
theorem k1_idx1_inb : ∀ (v17 : IVec S16 32) (k1_hw1 : k1_chk1 v17), ∀ a x, ((![v17] : Fin 1 → IVec S16 32) a x).toNat < S32768.size a := fun v17 k1_hw1 => k1_hw1.1
theorem k1_idx2_inb : ∀ (v17 : IVec S16 32) (k1_hw1 : k1_chk1 v17), ∀ a x, ((![v17] : Fin 1 → IVec S16 32) a x).toNat < S32768.size a := fun v17 k1_hw1 => k1_hw1.2

def k1_chk2 (v29 : IVec S16 32) : Prop :=
  (∀ a x, ((![v29] : Fin 1 → IVec S16 32) a x).toNat < S32768.size a) ∧
  (∀ a x, ((![v29] : Fin 1 → IVec S16 32) a x).toNat < S32768.size a)
instance k1_chk2.dec : ∀ (v29 : IVec S16 32), Decidable (k1_chk2 v29) := fun v29 => decidable_of_iff' _ (Iff.of_eq (k1_chk2.eq_1 v29))
theorem k1_idx3_inb : ∀ (v29 : IVec S16 32) (k1_hw2 : k1_chk2 v29), ∀ a x, ((![v29] : Fin 1 → IVec S16 32) a x).toNat < S32768.size a := fun v29 k1_hw2 => k1_hw2.1
theorem k1_idx4_inb : ∀ (v29 : IVec S16 32) (k1_hw2 : k1_chk2 v29), ∀ a x, ((![v29] : Fin 1 → IVec S16 32) a x).toNat < S32768.size a := fun v29 k1_hw2 => k1_hw2.2

def k1_chk3 (v41 : IVec S16 32) : Prop :=
  (∀ a x, ((![v41] : Fin 1 → IVec S16 32) a x).toNat < S32768.size a) ∧
  (∀ a x, ((![v41] : Fin 1 → IVec S16 32) a x).toNat < S32768.size a)
instance k1_chk3.dec : ∀ (v41 : IVec S16 32), Decidable (k1_chk3 v41) := fun v41 => decidable_of_iff' _ (Iff.of_eq (k1_chk3.eq_1 v41))
theorem k1_idx5_inb : ∀ (v41 : IVec S16 32) (k1_hw3 : k1_chk3 v41), ∀ a x, ((![v41] : Fin 1 → IVec S16 32) a x).toNat < S32768.size a := fun v41 k1_hw3 => k1_hw3.1
theorem k1_idx6_inb : ∀ (v41 : IVec S16 32) (k1_hw3 : k1_chk3 v41), ∀ a x, ((![v41] : Fin 1 → IVec S16 32) a x).toNat < S32768.size a := fun v41 k1_hw3 => k1_hw3.2

def k1_chk4 (v53 : IVec S16 32) : Prop :=
  (∀ a x, ((![v53] : Fin 1 → IVec S16 32) a x).toNat < S32768.size a) ∧
  (∀ a x, ((![v53] : Fin 1 → IVec S16 32) a x).toNat < S32768.size a)
instance k1_chk4.dec : ∀ (v53 : IVec S16 32), Decidable (k1_chk4 v53) := fun v53 => decidable_of_iff' _ (Iff.of_eq (k1_chk4.eq_1 v53))
theorem k1_idx7_inb : ∀ (v53 : IVec S16 32) (k1_hw4 : k1_chk4 v53), ∀ a x, ((![v53] : Fin 1 → IVec S16 32) a x).toNat < S32768.size a := fun v53 k1_hw4 => k1_hw4.1
theorem k1_idx8_inb : ∀ (v53 : IVec S16 32) (k1_hw4 : k1_chk4 v53), ∀ a x, ((![v53] : Fin 1 → IVec S16 32) a x).toNat < S32768.size a := fun v53 k1_hw4 => k1_hw4.2

def k1_chk5 (v65 : IVec S16 32) : Prop :=
  (∀ a x, ((![v65] : Fin 1 → IVec S16 32) a x).toNat < S32768.size a) ∧
  (∀ a x, ((![v65] : Fin 1 → IVec S16 32) a x).toNat < S32768.size a)
instance k1_chk5.dec : ∀ (v65 : IVec S16 32), Decidable (k1_chk5 v65) := fun v65 => decidable_of_iff' _ (Iff.of_eq (k1_chk5.eq_1 v65))
theorem k1_idx9_inb : ∀ (v65 : IVec S16 32) (k1_hw5 : k1_chk5 v65), ∀ a x, ((![v65] : Fin 1 → IVec S16 32) a x).toNat < S32768.size a := fun v65 k1_hw5 => k1_hw5.1
theorem k1_idx10_inb : ∀ (v65 : IVec S16 32) (k1_hw5 : k1_chk5 v65), ∀ a x, ((![v65] : Fin 1 → IVec S16 32) a x).toNat < S32768.size a := fun v65 k1_hw5 => k1_hw5.2
@[reducible] def k1_t3_loop : Scf.Loop 32 :=
  let c0_i32_8 : BitVec 32 := 0#32
  let c256_i32 : BitVec 32 := 256#32
  let v9 : BitVec 32 := Scalar.addi c0_i32_8 c256_i32
  let c1_i32_9 : BitVec 32 := 1#32
  ⟨c0_i32_8, v9, c1_i32_9⟩
def k1_off3 (k1_t3 : Fin k1_t3_loop.trips) : Fin 1 → Nat :=
  let c0_i32_8 : BitVec 32 := 0#32
  let c1_i32_9 : BitVec 32 := 1#32
  let arg6 : BitVec 32 := Scf.iv c0_i32_8 c1_i32_9 k1_t3
  let c128_i32 : BitVec 32 := 128#32
  let v11 : BitVec 32 := Scalar.muli arg6 c128_i32
  let v12 : Index := Scalar.indexCast v11
  ![v12.toNat]
def k1_off4 (k1_t3 : Fin k1_t3_loop.trips) : Fin 1 → Nat :=
  let c0_i32_8 : BitVec 32 := 0#32
  let c1_i32_9 : BitVec 32 := 1#32
  let arg6 : BitVec 32 := Scf.iv c0_i32_8 c1_i32_9 k1_t3
  let c128_i32_16 : BitVec 32 := 128#32
  let v14 : BitVec 32 := Scalar.muli arg6 c128_i32_16
  let c16_i32_17 : BitVec 32 := 16#32
  let v15 : BitVec 32 := Scalar.addi v14 c16_i32_17
  let v16 : Index := Scalar.indexCast v15
  ![v16.toNat]
@[reducible] def k1_t4_loop : Scf.Loop 32 :=
  let c0_i32_12 : BitVec 32 := 0#32
  let c16_i32_13 : BitVec 32 := 16#32
  let v10 : BitVec 32 := Scalar.addi c0_i32_12 c16_i32_13
  let c1_i32_14 : BitVec 32 := 1#32
  ⟨c0_i32_12, v10, c1_i32_14⟩

def k1_chk6 (v17 : IVec S16 32) : Prop :=
  (∀ a x, ((![v17] : Fin 1 → IVec S16 32) a x).toNat < S32768.size a) ∧
  (∀ a x, ((![v17] : Fin 1 → IVec S16 32) a x).toNat < S32768.size a)
instance k1_chk6.dec : ∀ (v17 : IVec S16 32), Decidable (k1_chk6 v17) := fun v17 => decidable_of_iff' _ (Iff.of_eq (k1_chk6.eq_1 v17))
theorem k1_idx11_inb : ∀ (v17 : IVec S16 32) (k1_hw6 : k1_chk6 v17), ∀ a x, ((![v17] : Fin 1 → IVec S16 32) a x).toNat < S32768.size a := fun v17 k1_hw6 => k1_hw6.1
theorem k1_idx12_inb : ∀ (v17 : IVec S16 32) (k1_hw6 : k1_chk6 v17), ∀ a x, ((![v17] : Fin 1 → IVec S16 32) a x).toNat < S32768.size a := fun v17 k1_hw6 => k1_hw6.2

def k1_chk7 (v29 : IVec S16 32) : Prop :=
  (∀ a x, ((![v29] : Fin 1 → IVec S16 32) a x).toNat < S32768.size a) ∧
  (∀ a x, ((![v29] : Fin 1 → IVec S16 32) a x).toNat < S32768.size a)
instance k1_chk7.dec : ∀ (v29 : IVec S16 32), Decidable (k1_chk7 v29) := fun v29 => decidable_of_iff' _ (Iff.of_eq (k1_chk7.eq_1 v29))
theorem k1_idx13_inb : ∀ (v29 : IVec S16 32) (k1_hw7 : k1_chk7 v29), ∀ a x, ((![v29] : Fin 1 → IVec S16 32) a x).toNat < S32768.size a := fun v29 k1_hw7 => k1_hw7.1
theorem k1_idx14_inb : ∀ (v29 : IVec S16 32) (k1_hw7 : k1_chk7 v29), ∀ a x, ((![v29] : Fin 1 → IVec S16 32) a x).toNat < S32768.size a := fun v29 k1_hw7 => k1_hw7.2

def k1_chk8 (v41 : IVec S16 32) : Prop :=
  (∀ a x, ((![v41] : Fin 1 → IVec S16 32) a x).toNat < S32768.size a) ∧
  (∀ a x, ((![v41] : Fin 1 → IVec S16 32) a x).toNat < S32768.size a)
instance k1_chk8.dec : ∀ (v41 : IVec S16 32), Decidable (k1_chk8 v41) := fun v41 => decidable_of_iff' _ (Iff.of_eq (k1_chk8.eq_1 v41))
theorem k1_idx15_inb : ∀ (v41 : IVec S16 32) (k1_hw8 : k1_chk8 v41), ∀ a x, ((![v41] : Fin 1 → IVec S16 32) a x).toNat < S32768.size a := fun v41 k1_hw8 => k1_hw8.1
theorem k1_idx16_inb : ∀ (v41 : IVec S16 32) (k1_hw8 : k1_chk8 v41), ∀ a x, ((![v41] : Fin 1 → IVec S16 32) a x).toNat < S32768.size a := fun v41 k1_hw8 => k1_hw8.2

def k1_chk9 (v53 : IVec S16 32) : Prop :=
  (∀ a x, ((![v53] : Fin 1 → IVec S16 32) a x).toNat < S32768.size a) ∧
  (∀ a x, ((![v53] : Fin 1 → IVec S16 32) a x).toNat < S32768.size a)
instance k1_chk9.dec : ∀ (v53 : IVec S16 32), Decidable (k1_chk9 v53) := fun v53 => decidable_of_iff' _ (Iff.of_eq (k1_chk9.eq_1 v53))
theorem k1_idx17_inb : ∀ (v53 : IVec S16 32) (k1_hw9 : k1_chk9 v53), ∀ a x, ((![v53] : Fin 1 → IVec S16 32) a x).toNat < S32768.size a := fun v53 k1_hw9 => k1_hw9.1
theorem k1_idx18_inb : ∀ (v53 : IVec S16 32) (k1_hw9 : k1_chk9 v53), ∀ a x, ((![v53] : Fin 1 → IVec S16 32) a x).toNat < S32768.size a := fun v53 k1_hw9 => k1_hw9.2

def k1_chk10 (v65 : IVec S16 32) : Prop :=
  (∀ a x, ((![v65] : Fin 1 → IVec S16 32) a x).toNat < S32768.size a) ∧
  (∀ a x, ((![v65] : Fin 1 → IVec S16 32) a x).toNat < S32768.size a)
instance k1_chk10.dec : ∀ (v65 : IVec S16 32), Decidable (k1_chk10 v65) := fun v65 => decidable_of_iff' _ (Iff.of_eq (k1_chk10.eq_1 v65))
theorem k1_idx19_inb : ∀ (v65 : IVec S16 32) (k1_hw10 : k1_chk10 v65), ∀ a x, ((![v65] : Fin 1 → IVec S16 32) a x).toNat < S32768.size a := fun v65 k1_hw10 => k1_hw10.1
theorem k1_idx20_inb : ∀ (v65 : IVec S16 32) (k1_hw10 : k1_chk10 v65), ∀ a x, ((![v65] : Fin 1 → IVec S16 32) a x).toNat < S32768.size a := fun v65 k1_hw10 => k1_hw10.2
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S2x8192x2048_S16384x2048 : S2x8192x2048.ShapeCasts S16384x2048
  pads_S31x2048_S128x2048_0970_000 : S31x2048.Pads (![0, 0] : Fin 2 → Nat) ![97, 0] ![0, 0] S128x2048
  h_S_ : 0 < S_.numel
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x128_S1024x128_0_0 : ∀ a, (![0, 0] : Fin 2 → Nat) a + S1024x128.size a ≤ S1024x128.size a
  h_S1024x128 : 0 < S1024x128.numel
  shapeCasts_S16384x128_S2097152 : S16384x128.ShapeCasts S2097152
  iota_S16_d0_w32_scVector : S16.Iotas .scVector 32 [0]
  h_S16 : 0 < S16.numel
  h_S32768 : 0 < S32768.numel
  natLt_1_32 : 1 < 32
  shapeCasts_S2097152_S16384x128 : S2097152.ShapeCasts S16384x128
  shapeCasts_S1024x128_S1024x128 : S1024x128.ShapeCasts S1024x128
  dot_S1024x2048_S128x2048_S1024x128_1_1_0_0_n_n_wf : DotDims.WF S1024x2048 S128x2048 S1024x128 [1] [1] [0] [0] [] []
  dot_S1024x128_S128x2048_S1024x2048_1_0_0_1_n_n_wf : DotDims.WF S1024x128 S128x2048 S1024x2048 [1] [0] [0] [1] [] []
  hcc1_scoped0 : 5 + S_.numel ≤ 14
  hcc1_scoped1 : 6 + S_.numel ≤ 14
  hcc1_scoped2 : 7 + S_.numel ≤ 14
  hcc1_scoped3 : 8 + S_.numel ≤ 14
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .f32 = 32 ∨ (Rect.block (s := S128x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)
  hcore1 : grid1.bound 0 ≤ τ.nSC
  hsub1 : grid1.bound 1 ≤ τ.nSub
  k1_t1_ok : k1_t1_loop.OK
  k1_off1_inb : ∀ k1_t1 : Fin k1_t1_loop.trips, ∀ a, (k1_off1 k1_t1) a + S16.size a ≤ S32768.size a
  k1_off2_inb : ∀ i : grid1.Coords, ∀ (r : Fin 2), ∀ a, (k1_off2 i (BitVec.ofNat 32 (32768 * r.val))) a + S32768.size a ≤ S2097152.size a
  k1_t2_ok : k1_t2_loop.OK
  k1_t3_ok : k1_t3_loop.OK
  k1_off3_inb : ∀ k1_t3 : Fin k1_t3_loop.trips, ∀ a, (k1_off3 k1_t3) a + S16.size a ≤ S32768.size a
  k1_off4_inb : ∀ k1_t3 : Fin k1_t3_loop.trips, ∀ a, (k1_off4 k1_t3) a + S16.size a ≤ S32768.size a
  k1_t4_ok : k1_t4_loop.OK
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S16384x128.size a
  hwx2_0 : ∀ i : grid2.Coords, EltTy.bits .f32 = 32 ∨ (Rect.block (s := S16384x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2048.size a ≤ S128x2048.size a
  hwx2_1 : ∀ i : grid2.Coords, EltTy.bits .bf16 = 32 ∨ (Rect.block (s := S128x2048) S128x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S16384x2048.size a
  hwx2_2 : ∀ i : grid2.Coords, EltTy.bits .f32 = 32 ∨ (Rect.block (s := S16384x2048) S1024x2048.size (cc2_transform_2 i) (hinb2_2 i)).WholeWords (EltTy.packing .f32)

variable [Facts₀]

abbrev cc1_scoped0 : DmaSems sig S_ := SemArray.consecutive 5 S_ hcc1_scoped0
abbrev cc1_scoped1 : DmaSems sig S_ := SemArray.consecutive 6 S_ hcc1_scoped1
abbrev cc1_scoped2 : DmaSems sig S_ := SemArray.consecutive 7 S_ hcc1_scoped2
abbrev cc1_scoped3 : DmaSems sig S_ := SemArray.consecutive 8 S_ hcc1_scoped3
def dot_S1024x2048_S128x2048_S1024x128_1_1_0_0_n_n : DotDims S1024x2048 S128x2048 S1024x128 where
  lhsContracting := [1]
  rhsContracting := [1]
  lhsNonContracting := [0]
  rhsNonContracting := [0]
  lhsBatch := []
  rhsBatch := []
  wf := dot_S1024x2048_S128x2048_S1024x128_1_1_0_0_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v7) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S128x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x8192x2048 : Shape := ⟨3, ![2, 8192, 2048]⟩
abbrev S31x2048 : Shape := ⟨2, ![31, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1 : Shape := ⟨1, ![1]⟩
abbrev S1x1 : Shape := ⟨2, ![1, 1]⟩

abbrev nBuf : Space → Nat
  | .hbm => 343
  | .vmem => 0
  | .smem => 0
  | _ => 0

abbrev hbmTy0_0 (i : Nat) : BufTy := match i % 128 with
  | 0 => ⟨S2x8192x2048, .f32⟩
  | 1 => ⟨S31x2048, .f32⟩
  | 2 => ⟨S31x2048, .f32⟩
  | 3 => ⟨S16384x2048, .f32⟩
  | 4 => ⟨S_, .i32⟩
  | 5 => ⟨S16384, .i32⟩
  | 6 => ⟨S_, .f32⟩
  | 7 => ⟨S16384x2048, .f32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S1, .i32⟩
  | 17 => ⟨S_, .i32⟩
  | 18 => ⟨S16384x1, .i32⟩
  | 19 => ⟨S16384x1, .i1⟩
  | 20 => ⟨S1x1, .i32⟩
  | 21 => ⟨S16384x1, .i32⟩
  | 22 => ⟨S16384x1, .i1⟩
  | 23 => ⟨S16384x1, .i1⟩
  | 24 => ⟨S_, .i1⟩
  | 25 => ⟨S16384, .i1⟩
  | 26 => ⟨S16384x2048, .f32⟩
  | 27 => ⟨S16384x2048, .i1⟩
  | 28 => ⟨S_, .f32⟩
  | 29 => ⟨S16384x2048, .f32⟩
  | 30 => ⟨S16384x2048, .f32⟩
  | 31 => ⟨S16384x2048, .f32⟩
  | 32 => ⟨S_, .f32⟩
  | 33 => ⟨S16384, .f32⟩
  | 34 => ⟨S_, .f32⟩
  | 35 => ⟨S16384, .f32⟩
  | 36 => ⟨S16384, .f32⟩
  | 37 => ⟨S_, .i32⟩
  | 38 => ⟨S16384, .i32⟩
  | 39 => ⟨S16384, .i1⟩
  | 40 => ⟨S_, .i32⟩
  | 41 => ⟨S16384, .i32⟩
  | 42 => ⟨S16384, .i32⟩
  | 43 => ⟨S16384, .i32⟩
  | 44 => ⟨S16384x1, .i32⟩
  | 45 => ⟨S1, .i32⟩
  | 46 => ⟨S_, .i32⟩
  | 47 => ⟨S16384x1, .i32⟩
  | 48 => ⟨S16384x1, .i1⟩
  | 49 => ⟨S1x1, .i32⟩
  | 50 => ⟨S16384x1, .i32⟩
  | 51 => ⟨S16384x1, .i1⟩
  | 52 => ⟨S16384x1, .i1⟩
  | 53 => ⟨S_, .i1⟩
  | 54 => ⟨S16384, .i1⟩
  | 55 => ⟨S16384x2048, .f32⟩
  | 56 => ⟨S16384x2048, .i1⟩
  | 57 => ⟨S_, .f32⟩
  | 58 => ⟨S16384x2048, .f32⟩
  | 59 => ⟨S16384x2048, .f32⟩
  | 60 => ⟨S16384x1, .f32⟩
  | 61 => ⟨S16384x2048, .f32⟩
  | 62 => ⟨S16384x2048, .f32⟩
  | 63 => ⟨S16384x2048, .f32⟩
  | 64 => ⟨S_, .i32⟩
  | 65 => ⟨S16384, .i32⟩
  | 66 => ⟨S16384, .i32⟩
  | 67 => ⟨S_, .i32⟩
  | 68 => ⟨S16384, .i32⟩
  | 69 => ⟨S16384, .i32⟩
  | 70 => ⟨S_, .f32⟩
  | 71 => ⟨S16384, .f32⟩
  | 72 => ⟨S16384, .i1⟩
  | 73 => ⟨S16384, .i32⟩
  | 74 => ⟨S16384, .i32⟩
  | 75 => ⟨S_, .i32⟩
  | 76 => ⟨S16384, .i32⟩
  | 77 => ⟨S16384, .i1⟩
  | 78 => ⟨S_, .i32⟩
  | 79 => ⟨S16384, .i32⟩
  | 80 => ⟨S16384, .i32⟩
  | 81 => ⟨S16384, .i32⟩
  | 82 => ⟨S16384x1, .i32⟩
  | 83 => ⟨S1, .i32⟩
  | 84 => ⟨S_, .i32⟩
  | 85 => ⟨S16384x1, .i32⟩
  | 86 => ⟨S16384x1, .i1⟩
  | 87 => ⟨S1x1, .i32⟩
  | 88 => ⟨S16384x1, .i32⟩
  | 89 => ⟨S16384x1, .i1⟩
  | 90 => ⟨S16384x1, .i1⟩
  | 91 => ⟨S_, .i1⟩
  | 92 => ⟨S16384, .i1⟩
  | 93 => ⟨S16384x2048, .f32⟩
  | 94 => ⟨S16384x2048, .i1⟩
  | 95 => ⟨S_, .f32⟩
  | 96 => ⟨S16384x2048, .f32⟩
  | 97 => ⟨S16384x2048, .f32⟩
  | 98 => ⟨S16384x2048, .f32⟩
  | 99 => ⟨S_, .f32⟩
  | 100 => ⟨S16384, .f32⟩
  | 101 => ⟨S_, .f32⟩
  | 102 => ⟨S16384, .f32⟩
  | 103 => ⟨S16384, .f32⟩
  | 104 => ⟨S_, .i32⟩
  | 105 => ⟨S16384, .i32⟩
  | 106 => ⟨S16384, .i1⟩
  | 107 => ⟨S_, .i32⟩
  | 108 => ⟨S16384, .i32⟩
  | 109 => ⟨S16384, .i32⟩
  | 110 => ⟨S16384, .i32⟩
  | 111 => ⟨S16384x1, .i32⟩
  | 112 => ⟨S1, .i32⟩
  | 113 => ⟨S_, .i32⟩
  | 114 => ⟨S16384x1, .i32⟩
  | 115 => ⟨S16384x1, .i1⟩
  | 116 => ⟨S1x1, .i32⟩
  | 117 => ⟨S16384x1, .i32⟩
  | 118 => ⟨S16384x1, .i1⟩
  | 119 => ⟨S16384x1, .i1⟩
  | 120 => ⟨S_, .i1⟩
  | 121 => ⟨S16384, .i1⟩
  | 122 => ⟨S16384x2048, .f32⟩
  | 123 => ⟨S16384x2048, .i1⟩
  | 124 => ⟨S_, .f32⟩
  | 125 => ⟨S16384x2048, .f32⟩
  | 126 => ⟨S16384x2048, .f32⟩
  | 127 => ⟨S16384x1, .f32⟩
  | _ => ⟨S2x8192x2048, .f32⟩

abbrev hbmTy0_1 (i : Nat) : BufTy := match i % 128 with
  | 0 => ⟨S16384x2048, .f32⟩
  | 1 => ⟨S16384x2048, .f32⟩
  | 2 => ⟨S16384x2048, .f32⟩
  | 3 => ⟨S_, .i32⟩
  | 4 => ⟨S16384, .i32⟩
  | 5 => ⟨S16384, .i32⟩
  | 6 => ⟨S_, .i32⟩
  | 7 => ⟨S16384, .i32⟩
  | 8 => ⟨S16384, .i32⟩
  | 9 => ⟨S_, .f32⟩
  | 10 => ⟨S16384, .f32⟩
  | 11 => ⟨S16384, .i1⟩
  | 12 => ⟨S16384, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x2048, .f32⟩
  | 33 => ⟨S16384x2048, .i1⟩
  | 34 => ⟨S_, .f32⟩
  | 35 => ⟨S16384x2048, .f32⟩
  | 36 => ⟨S16384x2048, .f32⟩
  | 37 => ⟨S16384x2048, .f32⟩
  | 38 => ⟨S_, .f32⟩
  | 39 => ⟨S16384, .f32⟩
  | 40 => ⟨S_, .f32⟩
  | 41 => ⟨S16384, .f32⟩
  | 42 => ⟨S16384, .f32⟩
  | 43 => ⟨S_, .i32⟩
  | 44 => ⟨S16384, .i32⟩
  | 45 => ⟨S16384, .i1⟩
  | 46 => ⟨S_, .i32⟩
  | 47 => ⟨S16384, .i32⟩
  | 48 => ⟨S16384, .i32⟩
  | 49 => ⟨S16384, .i32⟩
  | 50 => ⟨S16384x1, .i32⟩
  | 51 => ⟨S1, .i32⟩
  | 52 => ⟨S_, .i32⟩
  | 53 => ⟨S16384x1, .i32⟩
  | 54 => ⟨S16384x1, .i1⟩
  | 55 => ⟨S1x1, .i32⟩
  | 56 => ⟨S16384x1, .i32⟩
  | 57 => ⟨S16384x1, .i1⟩
  | 58 => ⟨S16384x1, .i1⟩
  | 59 => ⟨S_, .i1⟩
  | 60 => ⟨S16384, .i1⟩
  | 61 => ⟨S16384x2048, .f32⟩
  | 62 => ⟨S16384x2048, .i1⟩
  | 63 => ⟨S_, .f32⟩
  | 64 => ⟨S16384x2048, .f32⟩
  | 65 => ⟨S16384x2048, .f32⟩
  | 66 => ⟨S16384x1, .f32⟩
  | 67 => ⟨S16384x2048, .f32⟩
  | 68 => ⟨S16384x2048, .f32⟩
  | 69 => ⟨S16384x2048, .f32⟩
  | 70 => ⟨S_, .i32⟩
  | 71 => ⟨S16384, .i32⟩
  | 72 => ⟨S16384, .i32⟩
  | 73 => ⟨S_, .i32⟩
  | 74 => ⟨S16384, .i32⟩
  | 75 => ⟨S16384, .i32⟩
  | 76 => ⟨S_, .f32⟩
  | 77 => ⟨S16384, .f32⟩
  | 78 => ⟨S16384, .i1⟩
  | 79 => ⟨S16384, .i32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x2048, .f32⟩
  | 100 => ⟨S16384x2048, .i1⟩
  | 101 => ⟨S_, .f32⟩
  | 102 => ⟨S16384x2048, .f32⟩
  | 103 => ⟨S16384x2048, .f32⟩
  | 104 => ⟨S16384x2048, .f32⟩
  | 105 => ⟨S_, .f32⟩
  | 106 => ⟨S16384, .f32⟩
  | 107 => ⟨S_, .f32⟩
  | 108 => ⟨S16384, .f32⟩
  | 109 => ⟨S16384, .f32⟩
  | 110 => ⟨S_, .i32⟩
  | 111 => ⟨S16384, .i32⟩
  | 112 => ⟨S16384, .i1⟩
  | 113 => ⟨S_, .i32⟩
  | 114 => ⟨S16384, .i32⟩
  | 115 => ⟨S16384, .i32⟩
  | 116 => ⟨S16384, .i32⟩
  | 117 => ⟨S16384x1, .i32⟩
  | 118 => ⟨S1, .i32⟩
  | 119 => ⟨S_, .i32⟩
  | 120 => ⟨S16384x1, .i32⟩
  | 121 => ⟨S16384x1, .i1⟩
  | 122 => ⟨S1x1, .i32⟩
  | 123 => ⟨S16384x1, .i32⟩
  | 124 => ⟨S16384x1, .i1⟩
  | 125 => ⟨S16384x1, .i1⟩
  | 126 => ⟨S_, .i1⟩
  | 127 => ⟨S16384, .i1⟩
  | _ => ⟨S2x8192x2048, .f32⟩

abbrev hbmTy0_2 (i : Nat) : BufTy := match i % 128 with
  | 0 => ⟨S16384x2048, .f32⟩
  | 1 => ⟨S16384x2048, .i1⟩
  | 2 => ⟨S_, .f32⟩
  | 3 => ⟨S16384x2048, .f32⟩
  | 4 => ⟨S16384x2048, .f32⟩
  | 5 => ⟨S16384x1, .f32⟩
  | 6 => ⟨S16384x2048, .f32⟩
  | 7 => ⟨S16384x2048, .f32⟩
  | 8 => ⟨S16384x2048, .f32⟩
  | 9 => ⟨S_, .i32⟩
  | 10 => ⟨S16384, .i32⟩
  | 11 => ⟨S16384, .i32⟩
  | 12 => ⟨S_, .i32⟩
  | 13 => ⟨S16384, .i32⟩
  | 14 => ⟨S16384, .i32⟩
  | 15 => ⟨S_, .f32⟩
  | 16 => ⟨S16384, .f32⟩
  | 17 => ⟨S16384, .i1⟩
  | 18 => ⟨S16384, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S1, .i32⟩
  | 29 => ⟨S_, .i32⟩
  | 30 => ⟨S16384x1, .i32⟩
  | 31 => ⟨S16384x1, .i1⟩
  | 32 => ⟨S1x1, .i32⟩
  | 33 => ⟨S16384x1, .i32⟩
  | 34 => ⟨S16384x1, .i1⟩
  | 35 => ⟨S16384x1, .i1⟩
  | 36 => ⟨S_, .i1⟩
  | 37 => ⟨S16384, .i1⟩
  | 38 => ⟨S16384x2048, .f32⟩
  | 39 => ⟨S16384x2048, .i1⟩
  | 40 => ⟨S_, .f32⟩
  | 41 => ⟨S16384x2048, .f32⟩
  | 42 => ⟨S16384x2048, .f32⟩
  | 43 => ⟨S16384x2048, .f32⟩
  | 44 => ⟨S_, .f32⟩
  | 45 => ⟨S16384, .f32⟩
  | 46 => ⟨S_, .f32⟩
  | 47 => ⟨S16384, .f32⟩
  | 48 => ⟨S16384, .f32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S1, .i32⟩
  | 58 => ⟨S_, .i32⟩
  | 59 => ⟨S16384x1, .i32⟩
  | 60 => ⟨S16384x1, .i1⟩
  | 61 => ⟨S1x1, .i32⟩
  | 62 => ⟨S16384x1, .i32⟩
  | 63 => ⟨S16384x1, .i1⟩
  | 64 => ⟨S16384x1, .i1⟩
  | 65 => ⟨S_, .i1⟩
  | 66 => ⟨S16384, .i1⟩
  | 67 => ⟨S16384x2048, .f32⟩
  | 68 => ⟨S16384x2048, .i1⟩
  | 69 => ⟨S_, .f32⟩
  | 70 => ⟨S16384x2048, .f32⟩
  | 71 => ⟨S16384x2048, .f32⟩
  | 72 => ⟨S16384x1, .f32⟩
  | 73 => ⟨S16384x2048, .f32⟩
  | 74 => ⟨S16384x2048, .f32⟩
  | 75 => ⟨S16384x2048, .f32⟩
  | 76 => ⟨S_, .i32⟩
  | 77 => ⟨S16384, .i32⟩
  | 78 => ⟨S16384, .i32⟩
  | 79 => ⟨S_, .i32⟩
  | 80 => ⟨S16384, .i32⟩
  | 81 => ⟨S16384, .i32⟩
  | 82 => ⟨S_, .f32⟩
  | 83 => ⟨S16384, .f32⟩
  | 84 => ⟨S16384, .i1⟩
  | 85 => ⟨S16384, .i32⟩
  | 86 => ⟨S16384, .i32⟩
  | _ => ⟨S2x8192x2048, .f32⟩

abbrev hbmTy (i : Nat) : BufTy := match i / 128 with
  | 0 => hbmTy0_0 i
  | 1 => hbmTy0_1 i
  | 2 => hbmTy0_2 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_call1_cst : Ref sig .tc := ⟨.hbm, 34, rfl⟩
abbrev main_call1_v0 : Ref sig .tc := ⟨.hbm, 35, rfl⟩
abbrev main_v6 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_call2_cst : Ref sig .tc := ⟨.hbm, 57, rfl⟩
abbrev main_call2_v15 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_c_1 : Ref sig .tc := ⟨.hbm, 64, rfl⟩
abbrev main_v12 : Ref sig .tc := ⟨.hbm, 65, rfl⟩
abbrev main_v13 : Ref sig .tc := ⟨.hbm, 66, rfl⟩
abbrev main_c_2 : Ref sig .tc := ⟨.hbm, 67, rfl⟩
abbrev main_v14 : Ref sig .tc := ⟨.hbm, 68, rfl⟩
abbrev main_v15 : Ref sig .tc := ⟨.hbm, 69, rfl⟩
abbrev main_cst_3 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_call3_cst : Ref sig .tc := ⟨.hbm, 95, rfl⟩
abbrev main_call3_v15 : Ref sig .tc := ⟨.hbm, 96, rfl⟩
abbrev main_v20 : Ref sig .tc := ⟨.hbm, 97, rfl⟩
abbrev main_v21 : Ref sig .tc := ⟨.hbm, 98, rfl⟩
abbrev main_cst_4 : Ref sig .tc := ⟨.hbm, 99, rfl⟩
abbrev main_v22 : Ref sig .tc := ⟨.hbm, 100, rfl⟩
abbrev main_call4_cst : Ref sig .tc := ⟨.hbm, 101, rfl⟩
abbrev main_call4_v0 : Ref sig .tc := ⟨.hbm, 102, rfl⟩
abbrev main_v23 : Ref sig .tc := ⟨.hbm, 103, rfl⟩
abbrev main_call5_c : Ref sig .tc := ⟨.hbm, 104, rfl⟩
abbrev main_call5_v0 : Ref sig .tc := ⟨.hbm, 105, rfl⟩
abbrev main_call5_v1 : Ref sig .tc := ⟨.hbm, 106, rfl⟩
abbrev main_call5_c_0 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_call5_c_1 : Ref sig .tc := ⟨.hbm, 112, rfl⟩
abbrev main_call5_c_2 : Ref sig .tc := ⟨.hbm, 113, rfl⟩
abbrev main_call5_v6 : Ref sig .tc := ⟨.hbm, 114, rfl⟩
abbrev main_call5_v7 : Ref sig .tc := ⟨.hbm, 115, rfl⟩
abbrev main_call5_v8 : Ref sig .tc := ⟨.hbm, 116, rfl⟩
abbrev main_call5_v9 : Ref sig .tc := ⟨.hbm, 117, rfl⟩
abbrev main_call5_v10 : Ref sig .tc := ⟨.hbm, 118, rfl⟩
abbrev main_call5_v11 : Ref sig .tc := ⟨.hbm, 119, rfl⟩
abbrev main_call5_c_3 : Ref sig .tc := ⟨.hbm, 120, rfl⟩
abbrev main_call5_v12 : Ref sig .tc := ⟨.hbm, 121, rfl⟩
abbrev main_call5_v13 : Ref sig .tc := ⟨.hbm, 122, rfl⟩
abbrev main_call5_v14 : Ref sig .tc := ⟨.hbm, 123, rfl⟩
abbrev main_call5_cst : Ref sig .tc := ⟨.hbm, 124, rfl⟩
abbrev main_call5_v15 : Ref sig .tc := ⟨.hbm, 125, rfl⟩
abbrev main_v24 : Ref sig .tc := ⟨.hbm, 126, rfl⟩
abbrev main_v25 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_c_5 : Ref sig .tc := ⟨.hbm, 131, rfl⟩
abbrev main_v29 : Ref sig .tc := ⟨.hbm, 132, rfl⟩
abbrev main_v30 : Ref sig .tc := ⟨.hbm, 133, rfl⟩
abbrev main_c_6 : Ref sig .tc := ⟨.hbm, 134, rfl⟩
abbrev main_v31 : Ref sig .tc := ⟨.hbm, 135, rfl⟩
abbrev main_v32 : Ref sig .tc := ⟨.hbm, 136, rfl⟩
abbrev main_cst_7 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_call6_c : Ref sig .tc := ⟨.hbm, 142, rfl⟩
abbrev main_call6_v0 : Ref sig .tc := ⟨.hbm, 143, rfl⟩
abbrev main_call6_v1 : Ref sig .tc := ⟨.hbm, 144, rfl⟩
abbrev main_call6_c_0 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_call6_v5 : Ref sig .tc := ⟨.hbm, 149, rfl⟩
abbrev main_call6_c_1 : Ref sig .tc := ⟨.hbm, 150, rfl⟩
abbrev main_call6_c_2 : Ref sig .tc := ⟨.hbm, 151, rfl⟩
abbrev main_call6_v6 : Ref sig .tc := ⟨.hbm, 152, rfl⟩
abbrev main_call6_v7 : Ref sig .tc := ⟨.hbm, 153, rfl⟩
abbrev main_call6_v8 : Ref sig .tc := ⟨.hbm, 154, rfl⟩
abbrev main_call6_v9 : Ref sig .tc := ⟨.hbm, 155, rfl⟩
abbrev main_call6_v10 : Ref sig .tc := ⟨.hbm, 156, rfl⟩
abbrev main_call6_v11 : Ref sig .tc := ⟨.hbm, 157, rfl⟩
abbrev main_call6_c_3 : Ref sig .tc := ⟨.hbm, 158, rfl⟩
abbrev main_call6_v12 : Ref sig .tc := ⟨.hbm, 159, rfl⟩
abbrev main_call6_v13 : Ref sig .tc := ⟨.hbm, 160, rfl⟩
abbrev main_call6_v14 : Ref sig .tc := ⟨.hbm, 161, rfl⟩
abbrev main_call6_cst : Ref sig .tc := ⟨.hbm, 162, rfl⟩
abbrev main_call6_v15 : Ref sig .tc := ⟨.hbm, 163, rfl⟩
abbrev main_v37 : Ref sig .tc := ⟨.hbm, 164, rfl⟩
abbrev main_v38 : Ref sig .tc := ⟨.hbm, 165, rfl⟩
abbrev main_cst_8 : Ref sig .tc := ⟨.hbm, 166, rfl⟩
abbrev main_v39 : Ref sig .tc := ⟨.hbm, 167, rfl⟩
abbrev main_call7_cst : Ref sig .tc := ⟨.hbm, 168, rfl⟩
abbrev main_call7_v0 : Ref sig .tc := ⟨.hbm, 169, rfl⟩
abbrev main_v40 : Ref sig .tc := ⟨.hbm, 170, rfl⟩
abbrev main_call8_c : Ref sig .tc := ⟨.hbm, 171, rfl⟩
abbrev main_call8_v0 : Ref sig .tc := ⟨.hbm, 172, rfl⟩
abbrev main_call8_v1 : Ref sig .tc := ⟨.hbm, 173, rfl⟩
abbrev main_call8_c_0 : Ref sig .tc := ⟨.hbm, 174, rfl⟩
abbrev main_call8_v2 : Ref sig .tc := ⟨.hbm, 175, rfl⟩
abbrev main_call8_v3 : Ref sig .tc := ⟨.hbm, 176, rfl⟩
abbrev main_call8_v4 : Ref sig .tc := ⟨.hbm, 177, rfl⟩
abbrev main_call8_v5 : Ref sig .tc := ⟨.hbm, 178, rfl⟩
abbrev main_call8_c_1 : Ref sig .tc := ⟨.hbm, 179, rfl⟩
abbrev main_call8_c_2 : Ref sig .tc := ⟨.hbm, 180, rfl⟩
abbrev main_call8_v6 : Ref sig .tc := ⟨.hbm, 181, rfl⟩
abbrev main_call8_v7 : Ref sig .tc := ⟨.hbm, 182, rfl⟩
abbrev main_call8_v8 : Ref sig .tc := ⟨.hbm, 183, rfl⟩
abbrev main_call8_v9 : Ref sig .tc := ⟨.hbm, 184, rfl⟩
abbrev main_call8_v10 : Ref sig .tc := ⟨.hbm, 185, rfl⟩
abbrev main_call8_v11 : Ref sig .tc := ⟨.hbm, 186, rfl⟩
abbrev main_call8_c_3 : Ref sig .tc := ⟨.hbm, 187, rfl⟩
abbrev main_call8_v12 : Ref sig .tc := ⟨.hbm, 188, rfl⟩
abbrev main_call8_v13 : Ref sig .tc := ⟨.hbm, 189, rfl⟩
abbrev main_call8_v14 : Ref sig .tc := ⟨.hbm, 190, rfl⟩
abbrev main_call8_cst : Ref sig .tc := ⟨.hbm, 191, rfl⟩
abbrev main_call8_v15 : Ref sig .tc := ⟨.hbm, 192, rfl⟩
abbrev main_v41 : Ref sig .tc := ⟨.hbm, 193, rfl⟩
abbrev main_v42 : Ref sig .tc := ⟨.hbm, 194, rfl⟩
abbrev main_v43 : Ref sig .tc := ⟨.hbm, 195, rfl⟩
abbrev main_v44 : Ref sig .tc := ⟨.hbm, 196, rfl⟩
abbrev main_v45 : Ref sig .tc := ⟨.hbm, 197, rfl⟩
abbrev main_c_9 : Ref sig .tc := ⟨.hbm, 198, rfl⟩
abbrev main_v46 : Ref sig .tc := ⟨.hbm, 199, rfl⟩
abbrev main_v47 : Ref sig .tc := ⟨.hbm, 200, rfl⟩
abbrev main_c_10 : Ref sig .tc := ⟨.hbm, 201, rfl⟩
abbrev main_v48 : Ref sig .tc := ⟨.hbm, 202, rfl⟩
abbrev main_v49 : Ref sig .tc := ⟨.hbm, 203, rfl⟩
abbrev main_cst_11 : Ref sig .tc := ⟨.hbm, 204, rfl⟩
abbrev main_v50 : Ref sig .tc := ⟨.hbm, 205, rfl⟩
abbrev main_v51 : Ref sig .tc := ⟨.hbm, 206, rfl⟩
abbrev main_v52 : Ref sig .tc := ⟨.hbm, 207, rfl⟩
abbrev main_v53 : Ref sig .tc := ⟨.hbm, 208, rfl⟩
abbrev main_call9_c : Ref sig .tc := ⟨.hbm, 209, rfl⟩
abbrev main_call9_v0 : Ref sig .tc := ⟨.hbm, 210, rfl⟩
abbrev main_call9_v1 : Ref sig .tc := ⟨.hbm, 211, rfl⟩
abbrev main_call9_c_0 : Ref sig .tc := ⟨.hbm, 212, rfl⟩
abbrev main_call9_v2 : Ref sig .tc := ⟨.hbm, 213, rfl⟩
abbrev main_call9_v3 : Ref sig .tc := ⟨.hbm, 214, rfl⟩
abbrev main_call9_v4 : Ref sig .tc := ⟨.hbm, 215, rfl⟩
abbrev main_call9_v5 : Ref sig .tc := ⟨.hbm, 216, rfl⟩
abbrev main_call9_c_1 : Ref sig .tc := ⟨.hbm, 217, rfl⟩
abbrev main_call9_c_2 : Ref sig .tc := ⟨.hbm, 218, rfl⟩
abbrev main_call9_v6 : Ref sig .tc := ⟨.hbm, 219, rfl⟩
abbrev main_call9_v7 : Ref sig .tc := ⟨.hbm, 220, rfl⟩
abbrev main_call9_v8 : Ref sig .tc := ⟨.hbm, 221, rfl⟩
abbrev main_call9_v9 : Ref sig .tc := ⟨.hbm, 222, rfl⟩
abbrev main_call9_v10 : Ref sig .tc := ⟨.hbm, 223, rfl⟩
abbrev main_call9_v11 : Ref sig .tc := ⟨.hbm, 224, rfl⟩
abbrev main_call9_c_3 : Ref sig .tc := ⟨.hbm, 225, rfl⟩
abbrev main_call9_v12 : Ref sig .tc := ⟨.hbm, 226, rfl⟩
abbrev main_call9_v13 : Ref sig .tc := ⟨.hbm, 227, rfl⟩
abbrev main_call9_v14 : Ref sig .tc := ⟨.hbm, 228, rfl⟩
abbrev main_call9_cst : Ref sig .tc := ⟨.hbm, 229, rfl⟩
abbrev main_call9_v15 : Ref sig .tc := ⟨.hbm, 230, rfl⟩
abbrev main_v54 : Ref sig .tc := ⟨.hbm, 231, rfl⟩
abbrev main_v55 : Ref sig .tc := ⟨.hbm, 232, rfl⟩
abbrev main_cst_12 : Ref sig .tc := ⟨.hbm, 233, rfl⟩
abbrev main_v56 : Ref sig .tc := ⟨.hbm, 234, rfl⟩
abbrev main_call10_cst : Ref sig .tc := ⟨.hbm, 235, rfl⟩
abbrev main_call10_v0 : Ref sig .tc := ⟨.hbm, 236, rfl⟩
abbrev main_v57 : Ref sig .tc := ⟨.hbm, 237, rfl⟩
abbrev main_call11_c : Ref sig .tc := ⟨.hbm, 238, rfl⟩
abbrev main_call11_v0 : Ref sig .tc := ⟨.hbm, 239, rfl⟩
abbrev main_call11_v1 : Ref sig .tc := ⟨.hbm, 240, rfl⟩
abbrev main_call11_c_0 : Ref sig .tc := ⟨.hbm, 241, rfl⟩
abbrev main_call11_v2 : Ref sig .tc := ⟨.hbm, 242, rfl⟩
abbrev main_call11_v3 : Ref sig .tc := ⟨.hbm, 243, rfl⟩
abbrev main_call11_v4 : Ref sig .tc := ⟨.hbm, 244, rfl⟩
abbrev main_call11_v5 : Ref sig .tc := ⟨.hbm, 245, rfl⟩
abbrev main_call11_c_1 : Ref sig .tc := ⟨.hbm, 246, rfl⟩
abbrev main_call11_c_2 : Ref sig .tc := ⟨.hbm, 247, rfl⟩
abbrev main_call11_v6 : Ref sig .tc := ⟨.hbm, 248, rfl⟩
abbrev main_call11_v7 : Ref sig .tc := ⟨.hbm, 249, rfl⟩
abbrev main_call11_v8 : Ref sig .tc := ⟨.hbm, 250, rfl⟩
abbrev main_call11_v9 : Ref sig .tc := ⟨.hbm, 251, rfl⟩
abbrev main_call11_v10 : Ref sig .tc := ⟨.hbm, 252, rfl⟩
abbrev main_call11_v11 : Ref sig .tc := ⟨.hbm, 253, rfl⟩
abbrev main_call11_c_3 : Ref sig .tc := ⟨.hbm, 254, rfl⟩
abbrev main_call11_v12 : Ref sig .tc := ⟨.hbm, 255, rfl⟩
abbrev main_call11_v13 : Ref sig .tc := ⟨.hbm, 256, rfl⟩
abbrev main_call11_v14 : Ref sig .tc := ⟨.hbm, 257, rfl⟩
abbrev main_call11_cst : Ref sig .tc := ⟨.hbm, 258, rfl⟩
abbrev main_call11_v15 : Ref sig .tc := ⟨.hbm, 259, rfl⟩
abbrev main_v58 : Ref sig .tc := ⟨.hbm, 260, rfl⟩
abbrev main_v59 : Ref sig .tc := ⟨.hbm, 261, rfl⟩
abbrev main_v60 : Ref sig .tc := ⟨.hbm, 262, rfl⟩
abbrev main_v61 : Ref sig .tc := ⟨.hbm, 263, rfl⟩
abbrev main_v62 : Ref sig .tc := ⟨.hbm, 264, rfl⟩
abbrev main_c_13 : Ref sig .tc := ⟨.hbm, 265, rfl⟩
abbrev main_v63 : Ref sig .tc := ⟨.hbm, 266, rfl⟩
abbrev main_v64 : Ref sig .tc := ⟨.hbm, 267, rfl⟩
abbrev main_c_14 : Ref sig .tc := ⟨.hbm, 268, rfl⟩
abbrev main_v65 : Ref sig .tc := ⟨.hbm, 269, rfl⟩
abbrev main_v66 : Ref sig .tc := ⟨.hbm, 270, rfl⟩
abbrev main_cst_15 : Ref sig .tc := ⟨.hbm, 271, rfl⟩
abbrev main_v67 : Ref sig .tc := ⟨.hbm, 272, rfl⟩
abbrev main_v68 : Ref sig .tc := ⟨.hbm, 273, rfl⟩
abbrev main_v69 : Ref sig .tc := ⟨.hbm, 274, rfl⟩
abbrev main_v70 : Ref sig .tc := ⟨.hbm, 275, rfl⟩
abbrev main_call12_c : Ref sig .tc := ⟨.hbm, 276, rfl⟩
abbrev main_call12_v0 : Ref sig .tc := ⟨.hbm, 277, rfl⟩
abbrev main_call12_v1 : Ref sig .tc := ⟨.hbm, 278, rfl⟩
abbrev main_call12_c_0 : Ref sig .tc := ⟨.hbm, 279, rfl⟩
abbrev main_call12_v2 : Ref sig .tc := ⟨.hbm, 280, rfl⟩
abbrev main_call12_v3 : Ref sig .tc := ⟨.hbm, 281, rfl⟩
abbrev main_call12_v4 : Ref sig .tc := ⟨.hbm, 282, rfl⟩
abbrev main_call12_v5 : Ref sig .tc := ⟨.hbm, 283, rfl⟩
abbrev main_call12_c_1 : Ref sig .tc := ⟨.hbm, 284, rfl⟩
abbrev main_call12_c_2 : Ref sig .tc := ⟨.hbm, 285, rfl⟩
abbrev main_call12_v6 : Ref sig .tc := ⟨.hbm, 286, rfl⟩
abbrev main_call12_v7 : Ref sig .tc := ⟨.hbm, 287, rfl⟩
abbrev main_call12_v8 : Ref sig .tc := ⟨.hbm, 288, rfl⟩
abbrev main_call12_v9 : Ref sig .tc := ⟨.hbm, 289, rfl⟩
abbrev main_call12_v10 : Ref sig .tc := ⟨.hbm, 290, rfl⟩
abbrev main_call12_v11 : Ref sig .tc := ⟨.hbm, 291, rfl⟩
abbrev main_call12_c_3 : Ref sig .tc := ⟨.hbm, 292, rfl⟩
abbrev main_call12_v12 : Ref sig .tc := ⟨.hbm, 293, rfl⟩
abbrev main_call12_v13 : Ref sig .tc := ⟨.hbm, 294, rfl⟩
abbrev main_call12_v14 : Ref sig .tc := ⟨.hbm, 295, rfl⟩
abbrev main_call12_cst : Ref sig .tc := ⟨.hbm, 296, rfl⟩
abbrev main_call12_v15 : Ref sig .tc := ⟨.hbm, 297, rfl⟩
abbrev main_v71 : Ref sig .tc := ⟨.hbm, 298, rfl⟩
abbrev main_v72 : Ref sig .tc := ⟨.hbm, 299, rfl⟩
abbrev main_cst_16 : Ref sig .tc := ⟨.hbm, 300, rfl⟩
abbrev main_v73 : Ref sig .tc := ⟨.hbm, 301, rfl⟩
abbrev main_call13_cst : Ref sig .tc := ⟨.hbm, 302, rfl⟩
abbrev main_call13_v0 : Ref sig .tc := ⟨.hbm, 303, rfl⟩
abbrev main_v74 : Ref sig .tc := ⟨.hbm, 304, rfl⟩
abbrev main_call14_c : Ref sig .tc := ⟨.hbm, 305, rfl⟩
abbrev main_call14_v0 : Ref sig .tc := ⟨.hbm, 306, rfl⟩
abbrev main_call14_v1 : Ref sig .tc := ⟨.hbm, 307, rfl⟩
abbrev main_call14_c_0 : Ref sig .tc := ⟨.hbm, 308, rfl⟩
abbrev main_call14_v2 : Ref sig .tc := ⟨.hbm, 309, rfl⟩
abbrev main_call14_v3 : Ref sig .tc := ⟨.hbm, 310, rfl⟩
abbrev main_call14_v4 : Ref sig .tc := ⟨.hbm, 311, rfl⟩
abbrev main_call14_v5 : Ref sig .tc := ⟨.hbm, 312, rfl⟩
abbrev main_call14_c_1 : Ref sig .tc := ⟨.hbm, 313, rfl⟩
abbrev main_call14_c_2 : Ref sig .tc := ⟨.hbm, 314, rfl⟩
abbrev main_call14_v6 : Ref sig .tc := ⟨.hbm, 315, rfl⟩
abbrev main_call14_v7 : Ref sig .tc := ⟨.hbm, 316, rfl⟩
abbrev main_call14_v8 : Ref sig .tc := ⟨.hbm, 317, rfl⟩
abbrev main_call14_v9 : Ref sig .tc := ⟨.hbm, 318, rfl⟩
abbrev main_call14_v10 : Ref sig .tc := ⟨.hbm, 319, rfl⟩
abbrev main_call14_v11 : Ref sig .tc := ⟨.hbm, 320, rfl⟩
abbrev main_call14_c_3 : Ref sig .tc := ⟨.hbm, 321, rfl⟩
abbrev main_call14_v12 : Ref sig .tc := ⟨.hbm, 322, rfl⟩
abbrev main_call14_v13 : Ref sig .tc := ⟨.hbm, 323, rfl⟩
abbrev main_call14_v14 : Ref sig .tc := ⟨.hbm, 324, rfl⟩
abbrev main_call14_cst : Ref sig .tc := ⟨.hbm, 325, rfl⟩
abbrev main_call14_v15 : Ref sig .tc := ⟨.hbm, 326, rfl⟩
abbrev main_v75 : Ref sig .tc := ⟨.hbm, 327, rfl⟩
abbrev main_v76 : Ref sig .tc := ⟨.hbm, 328, rfl⟩
abbrev main_v77 : Ref sig .tc := ⟨.hbm, 329, rfl⟩
abbrev main_v78 : Ref sig .tc := ⟨.hbm, 330, rfl⟩
abbrev main_v79 : Ref sig .tc := ⟨.hbm, 331, rfl⟩
abbrev main_c_17 : Ref sig .tc := ⟨.hbm, 332, rfl⟩
abbrev main_v80 : Ref sig .tc := ⟨.hbm, 333, rfl⟩
abbrev main_v81 : Ref sig .tc := ⟨.hbm, 334, rfl⟩
abbrev main_c_18 : Ref sig .tc := ⟨.hbm, 335, rfl⟩
abbrev main_v82 : Ref sig .tc := ⟨.hbm, 336, rfl⟩
abbrev main_v83 : Ref sig .tc := ⟨.hbm, 337, rfl⟩
abbrev main_cst_19 : Ref sig .tc := ⟨.hbm, 338, rfl⟩
abbrev main_v84 : Ref sig .tc := ⟨.hbm, 339, rfl⟩
abbrev main_v85 : Ref sig .tc := ⟨.hbm, 340, rfl⟩
abbrev main_v86 : Ref sig .tc := ⟨.hbm, 341, rfl⟩
abbrev main_v87 : Ref sig .tc := ⟨.hbm, 342, rfl⟩

abbrev nD : Nat := 1
abbrev τ : Topo := Topo.v7x

variable {F : FTy → Type} [FloatOps F]

class Facts₀ : Prop where
  shapeCasts_S2x8192x2048_S16384x2048 : S2x8192x2048.ShapeCasts S16384x2048
  bcast_S_S16384 : S_.BroadcastsInDim S16384 (![] : Fin 0 → Fin S16384.rank)
  bcast_S_S16384x2048 : S_.BroadcastsInDim S16384x2048 (![] : Fin 0 → Fin S16384x2048.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x2048_0 : S16384.BroadcastsInDim S16384x2048 (![0] : Fin 1 → Fin S16384x2048.rank)
  reducesTo_S16384x2048_S16384_d1 : S16384x2048.ReducesTo [1] S16384
  bcast_S16384x1_S16384x2048_0_1 : S16384x1.BroadcastsInDim S16384x2048 (![0, 1] : Fin 2 → Fin S16384x2048.rank)
  natLt_1_32 : 1 < 32
  gather_S31x2048_S16384x1_S16384x2048_1_0_n_n_0_1_12048_wf : GatherDims.WF S31x2048 S16384x1 S16384x2048 [1] [0] [] [0] [] 1 ![1, 2048]

variable [Facts₀]

def gather_S31x2048_S16384x1_S16384x2048_1_0_n_n_0_1_12048 : GatherDims S31x2048 S16384x1 S16384x2048 where
  offsetDims := [1]
  collapsedSliceDims := [0]
  operandBatchingDims := []
  startIndicesBatchingDims := []
  startIndexMap := [0]
  indexVectorDim := 1
  sliceSizes := ![1, 2048]
  wf := gather_S31x2048_S16384x1_S16384x2048_1_0_n_n_0_1_12048_wf

class Facts : Prop extends Facts₀ where

variable [Facts]
-- ==== Proof.Preserves.lean ====
/-
  The idealized kernel differs from the kernel in four places, each a widening back of a narrowing to bf16 replaced
  by its operand: at the extended reals a change of float format is the identity.
-/
import proofs.«207443_g73169062855234_cont_9to1c4b_643_41_alg».proof.Defs

noncomputable section

namespace Cert.Proof.Parts

open Idealize.ShloMosaic

theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

end Cert.Proof.Parts

end
-- ==== Proof.ICommon.lean ====
/-
  The idealized kernel's program as the SparseCore launch theorem sees it: its label signature (two TensorCore
  pipelines beside one SparseCore call), its body table, and the ghost algebra the proof runs in — the launch
  handshakes' rounds, the two pipelines' staging cells' rounds, and the counters of the tiles' own local copies.
-/
import proofs.«207443_g73169062855234_cont_9to1c4b_643_41_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207443_g73169062855234_cont_9to1c4b_643_41_alg».proof.Proof.Gen.KernelIdeal
import proofs.«207443_g73169062855234_cont_9to1c4b_643_41_alg».proof.Proof.Gen.KernelIdeal.Skeleton
import proofs.«207443_g73169062855234_cont_9to1c4b_643_41_alg».proof.Proof.Gen.KernelIdeal.Launch
import proofs.«207443_g73169062855234_cont_9to1c4b_643_41_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- the launch handshakes' rounds, -/
abbrev UH : Type := URounds (GSem nD τ sig) ℕ
/-- the pipelines' staging cells' rounds, -/
abbrev UP : Type := URounds (GSem nD τ sig) Unit
/-- and both beside the counters of the tiles' local copies. -/
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

end Cert.Proof.KI

end
-- ==== Proof.IMain.lean ====
/-
  The TensorCore's program of the idealized kernel as a chain of six items: a stretch of host operations (the
  reshape of x, the two zero paddings of the weight tables, the narrowing of the second), the first pipeline (the
  logits), a reshape, the SparseCore call (the routing), a reshape, the second pipeline (the output product).
  The buffers' contents between the items are folds of the host operations over the launch memory, with what each
  pipeline and the call leave named as parameters.
-/
import proofs.«207443_g73169062855234_cont_9to1c4b_643_41_alg».proof.Proof.ICommon

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## @main's host stretches -/

/-- Before the first pipeline: x laid out as 16384 rows; each weight table padded with zero rows to 128; the
    second narrowed. -/
abbrev hostOps0 : List (HloOp τ sig (Elt F)) :=
  [StableHlo.reshape main_arg0 main_v0 rfl shapeCasts_S2x8192x2048_S16384x2048,
   StableHlo.nullary main_c (constantI S_ 32 0#32),
   StableHlo.TRef.unary (.of main_c : StableHlo.TRef sig ⟨S_, .i32⟩) main_call0.v0 (sitofp .f32),
   StableHlo.TRef.binary (.of main_arg1 : StableHlo.TRef sig ⟨S31x2048, .f32⟩) main_call0.v0 main_call0.v1 (fun x v => pad S128x2048 ![0, 0] ![97, 0] ![0, 0] x v pads_S31x2048_S128x2048_0970_000 h_S_),
   StableHlo.nullary main_c_0 (constantI S_ 32 0#32),
   StableHlo.TRef.unary (.of main_c_0 : StableHlo.TRef sig ⟨S_, .i32⟩) main_call1.v0 (sitofp .f32),
   StableHlo.TRef.binary (.of main_arg2 : StableHlo.TRef sig ⟨S31x2048, .f32⟩) main_call1.v0 main_call1.v1 (fun x v => pad S128x2048 ![0, 0] ![97, 0] ![0, 0] x v pads_S31x2048_S128x2048_0970_000 h_S_),
   StableHlo.unary main_v2 main_v3 ((truncf .bf16 · bitsLt_bf16_f32) : (⟨S128x2048, .f32⟩ : BufTy).Contents (Elt F) → (⟨S128x2048, .bf16⟩ : BufTy).Contents (Elt F))]

/-- Between the first pipeline and the call: the logits as one row of 2097152 words. -/
abbrev hostOps1 : List (HloOp τ sig (Elt F)) :=
  [StableHlo.reshape main_v4 main_v5 rfl shapeCasts_S16384x128_S2097152]

/-- Between the call and the second pipeline: the routed coefficients as 16384 rows of 128. -/
abbrev hostOps2 : List (HloOp τ sig (Elt F)) :=
  [StableHlo.reshape main_v6 main_v7 rfl shapeCasts_S2097152_S16384x128]

/-- @main is the chain of its six items. -/
theorem main_chain (d : Dev nD) : main (F := F) d = Pipeline.chain
    [StableHlo.seq hostOps0,
     Prog.lift (.customCall (SparseCore.inner (Pipeline.entry 0)) ()),
     StableHlo.seq hostOps1,
     sc.run d 0,
     StableHlo.seq hostOps2,
     Prog.lift (.customCall (SparseCore.inner (Pipeline.entry 1)) ())] := by
  chain_rfl

end Cert.Proof.KI

end
-- ==== Proof.ILaunchElem.lean ====
/-
  The launch element of the idealized kernel's ghost state: the handshakes' rounds for the SparseCore call, the two
  pipelines' staging cells' rounds funded as each TensorCore's ghost state for its two regions, and the tiles'
  copy counters, which no part of the launch consumes.
-/
import proofs.«207443_g73169062855234_cont_9to1c4b_643_41_alg».proof.Proof.IMain

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-- The pipelines have no prefetched tables. -/
abbrev adm : (p : Fin 2) → (pcfgs (F := F) p).Adm := fun p => (cfgs p).toPCfg_adm

/-- The launch element: the handshake cells' and the staging cells' initial rounds, the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What the launch deals each TensorCore for its two regions: both pipelines' cells' ghost state and duty tokens. -/
def G (d : Dev nD) : sProp 𝕄 :=
  iprop((bigSep Finset.univ fun p : Fin 2 => Pipeline.cellsGhost (Pipeline.pin (pcfgs (F := F)) adm) (EP (F := F)) p d)
    ∗ (bigSep Finset.univ fun p : Fin 2 => (Pipeline.toksInit (Pipeline.pin (pcfgs (F := F)) adm) (EP (F := F)) p d : sProp 𝕄)))

theorem bigSep_emp' {I : Type} (s : Finset I) : (bigSep s fun _ => iprop(emp)) = (iprop(emp) : sProp 𝕄) := bigSep_emp_const s

set_option backward.isDefEq.respectTransparency.types false in
/-- The launch element yields the handshakes' rounds, every TensorCore's ghost state for its regions, and nothing
    for the kernels' proofs (which consume nothing of the launch's). -/
theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (F := F) (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · unfold G; rw [bigSep_sep']
    isplitl [Hg]; · iexact Hg
    iexact Ht
  simp only [hx]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.IRegionStep.lean ====
/-
  One TensorCore pipeline entered from inside the SparseCore program's @main: the call of the pipeline's entry label
  is, in the extended label table, the lifted call of the pipeline library's own table, so the library's region step
  applies under the lifting.
-/
import proofs.«207443_g73169062855234_cont_9to1c4b_643_41_alg».proof.Proof.ILaunchElem

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

open Idealize.ShloMosaic.Pipeline (Dat RegionSeg)

set_option backward.isDefEq.respectTransparency.types false in
/-- The region step, lifted: from the boundary, the region's entry state, the level facts and the pipeline's ghost
    state, the lifted call runs to the boundary and the region's exit state. -/
theorem region_step {p : Fin 2}
    {pdats : (p : Fin 2) → (c : Dev nD) → Dat τ (Elt F) (HIx 1) ℕ UU ℕ (Pipeline.pin (pcfgs (F := F)) adm p) c}
    (R : RegionSeg (pcfgs (F := F)) adm pdats (none : HIx 1) (defs₀ (F := F)) 𝒱₀ (K (F := F)).L (K (F := F)).lev p)
    (d : Dev nD) (Φ : PUnit → sProp 𝕄) :
    iprop((iprop(boundary (T d) ∗ R.post d) -∗ Φ ⟨⟩)
        ∗ boundary (T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (T d) none) Set.univ
          (Prog.lift (.customCall (SparseCore.inner (Pipeline.entry p)) ())) Φ := by
  refine BI.Entails.trans ?_ ((K (F := F)).wp_liftProg (D (F := F)) 𝒱 (T d) Set.univ none
    (Prog.lift (.customCall (Pipeline.entry p) ())) Φ)
  refine BI.Entails.trans ?_ (Pipeline.RegionSeg.wp (pcfgs (F := F)) adm pdats (none : HIx 1) cellOf_inj (EP (F := F)) (defs₀ (F := F)) 𝒱₀
    (K (F := F)).L (K (F := F)).lev R d none (fun u hu => absurd hu (by simp)) (fun x => .ret x) Φ)
  show (_ : sProp 𝕄) ⊢ _
  iintro ⟨Hk, Hb, Hpre, Hlv, Hg, Ht⟩
  isplitl [Hk]
  · iintro H
    rw [wp_ret]; imodintro
    iapply Hk; iexact H
  isplitl [Hb]; · iexact Hb
  isplitl [Hpre]; · iexact Hpre
  isplitl [Hlv]; · iexact Hlv
  isplitl [Hg]; · iexact Hg
  iexact Ht

end Cert.Proof.KI

end
-- ==== Proof.IReg.lean ====
/-
  The two TensorCore pipelines of the idealized kernel as the pipeline rule sees them: per pipeline, at a parameter
  `V` (the TensorCore's unscoped buffers' contents when the pipeline is entered), each window's block at a grid
  point, what the body leaves in the output window's staging buffer (the one store's payload over the two loaded
  blocks), the body's triple, the proof data (arrays at `V`, tallies and recorded pairs constant over the points)
  and the body obligation.
-/
import proofs.«207443_g73169062855234_cont_9to1c4b_643_41_alg».proof.Proof.ICommon
import Idealize.ShloMosaic.Lib.Pipeline.FrameBody
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- The index the pipelines' waits record their pairs at. -/
abbrev ι₀ : HIx 1 := none

/-! # Pipeline 0 (custom_call 0, `cc0__logits_block`), at the entry contents `V` -/

section Region0
variable (V : (c : Dev nD) → (b : Ref sig .tc) → Buf (Elt F) ((c : Thread nD τ).loc b))
variable (O : Dev nD → CellTallies nD τ sig (HIx 1)) (B : Dev nD → Set (SemLoc sig × HIx 1))

/-- Window `w`'s block at point `t`, read off its array as the pipeline finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s and
    whose body leaves the block in place. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block (the whole table) at every point, fetched there or not: its
    block index never moves. -/
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev r0_0 : Rect S1024x2048 := Rect.unit (s := S1024x2048) ![0, 0] S1024x2048.size Gen.inb_S1024x2048_S1024x2048_0_0
abbrev r0_1 : Rect S128x2048 := Rect.unit (s := S128x2048) ![0, 0] S128x2048.size Gen.inb_S128x2048_S128x2048_0_0
abbrev r0_2 : Rect S1024x128 := Rect.unit (s := S1024x128) ![0, 0] S1024x128.size Gen.inb_S1024x128_S1024x128_0_0

/-- The output window's staging buffer after the body, from the input windows' blocks: its one store, of the
    payload over the two loaded blocks. -/
def out0_2 (x0 : Vec F S1024x2048 .f32) (x1 : Vec F S128x2048 .f32) : Vec F S1024x128 .f32 :=
  View.canon [⟨r0_2, k0_pay1 (View.ld x1 r0_1) (View.ld x0 r0_0)⟩]

/-- The store covers the buffer. -/
theorem cover0_2 (p0 : Vec F S1024x128 .f32) (y : S1024x128.Idx) :
    ∃ pc ∈ ([⟨r0_2, p0⟩] : List (View.Piece (Elt F) S1024x128 .f32)), y ∈ pc.1.set :=
  View.cover_of_tiled [⟨r0_2, p0⟩] S1024x128.size (by rfl) y

set_option maxHeartbeats 1000000 in
/-- The body on whole staging memrefs, the inputs' at contents `x0`, `x1` and the output's at anything, runs to the
    continuation holding the inputs' as they were and the output's at `out0_2` of them. -/
theorem sound_kernel0 (c : Dev nD) (E : Set ℕ) (i : grid0.Coords) (arg0 : Memref sig .tc .vmem S1024x2048 .f32) (harg0 : arg0.IsWhole)
    (arg1 : Memref sig .tc .vmem S128x2048 .f32) (harg1 : arg1.IsWhole) (arg2 : Memref sig .tc .vmem S1024x128 .f32) (harg2 : arg2.IsWhole)
    (x0 : Vec F S1024x2048 .f32) (x1 : Vec F S128x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__logits_block i arg0 harg0 arg1 harg1 arg2 harg2) K := by
  simp only [cc0__logits_block_eq_skeleton]; unfold cc0__logits_block_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the pipeline on core `c`: the arrays as the pipeline finds them (`V`); after the body at point
    `t` each input's buffer at its block and the output's at `out0_2` of the input blocks; the invariant the core's scoped
    buffers that are no staging buffer of the pipeline, untouched; the core's tallies `O c` and recorded pairs within `B c` at every
    point (the body takes on nothing, pays nothing and waits for nothing); full shares. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.scopedRest (Ix := HIx 1) (Name := ℕ) (U := UU) (Lvl := ℕ) (Val := Elt F) spec0 c
  q _ := fullShare
  owed _ := O c
  recorded _ := B c

theorem A_eq0 (c : Dev nD) (w : Fin cfg0.W) : (dat0 V O B c).A w = V c (Pipeline.arrRef spec0 w) := by
  dsimp only [dat0]
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = out0_2 (iblk0 V c 0 t) (iblk0 V c 1 t) := by dsimp only [dat0]

theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d

/-! ## The body obligation -/

def bodyPre0 (c : Dev nD) (t : Fin cfg0.N) : sProp 𝕄 :=
  iprop((dat0 V O B c).Φ t.castSucc ∗ (dat0 V O B c).owesAt ι₀ t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d)))

def bodyPost0 (c : Dev nD) (t : Fin cfg0.N) : sProp 𝕄 :=
  iprop((dat0 V O B c).Φ t.succ ∗ (dat0 V O B c).owesAt ι₀ t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t))

/-- The body at any point: the inputs' memrefs hold their blocks, so `sound_kernel0` applies; the invariant and the
    core's `owes` pass through unread. -/
theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1]
  rw [show (dat0 V O B c).Φ t.succ = (dat0 V O B c).Φ t.castSucc from rfl,
    show (dat0 V O B c).owesAt ι₀ t.succ = (dat0 V O B c).owesAt ι₀ t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V O B c) (defs₀ (F := F)) Variants.none ι₀ Set.univ := fun t => by
  rw [bigSep_W0, bigSep_W0]
  exact sound_body0 V O B c t

end Region0

/-! # Pipeline 1 (custom_call 2, `cc2__out_block`), at the entry contents `V` -/

section Region2
variable (V : (c : Dev nD) → (b : Ref sig .tc) → Buf (Elt F) ((c : Thread nD τ).loc b))
variable (O : Dev nD → CellTallies nD τ sig (HIx 1)) (B : Dev nD → Set (SemLoc sig × HIx 1))

/-- Window `w`'s block at point `t`, read off its array as the pipeline finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is `V`'s and
    whose body leaves the block in place. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block (the whole table) at every point, fetched there or not: its
    block index never moves. -/
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole staging buffer -/

abbrev r2_0 : Rect S1024x128 := Rect.unit (s := S1024x128) ![0, 0] S1024x128.size Gen.inb_S1024x128_S1024x128_0_0
abbrev r2_1 : Rect S128x2048 := Rect.unit (s := S128x2048) ![0, 0] S128x2048.size Gen.inb_S128x2048_S128x2048_0_0
abbrev r2_2 : Rect S1024x2048 := Rect.unit (s := S1024x2048) ![0, 0] S1024x2048.size Gen.inb_S1024x2048_S1024x2048_0_0

/-- The output window's staging buffer after the body, from the input windows' blocks: its one store, of the
    payload over the two loaded blocks. -/
def out2_2 (x0 : Vec F S1024x128 .f32) (x1 : Vec F S128x2048 .bf16) : Vec F S1024x2048 .f32 :=
  View.canon [⟨r2_2, k2_pay1 (View.ld x0 r2_0) (View.ld x1 r2_1)⟩]

/-- The store covers the buffer. -/
theorem cover2_2 (p0 : Vec F S1024x2048 .f32) (y : S1024x2048.Idx) :
    ∃ pc ∈ ([⟨r2_2, p0⟩] : List (View.Piece (Elt F) S1024x2048 .f32)), y ∈ pc.1.set :=
  View.cover_of_tiled [⟨r2_2, p0⟩] S1024x2048.size (by rfl) y

set_option maxHeartbeats 1000000 in
/-- The body on whole staging memrefs, the inputs' at contents `x0`, `x1` and the output's at anything, runs to the
    continuation holding the inputs' as they were and the output's at `out2_2` of them. -/
theorem sound_kernel2 (c : Dev nD) (E : Set ℕ) (i : grid2.Coords) (arg0 : Memref sig .tc .vmem S1024x128 .f32) (harg0 : arg0.IsWhole)
    (arg1 : Memref sig .tc .vmem S128x2048 .bf16) (harg1 : arg1.IsWhole) (arg2 : Memref sig .tc .vmem S1024x2048 .f32) (harg2 : arg2.IsWhole)
    (x0 : Vec F S1024x128 .f32) (x1 : Vec F S128x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__out_block i arg0 harg0 arg1 harg1 arg2 harg2) K := by
  simp only [cc2__out_block_eq_skeleton]; unfold cc2__out_block_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data -/

/-- The proof data of the pipeline on core `c`: the arrays as the pipeline finds them (`V`); after the body at point
    `t` each input's buffer at its block and the output's at `out2_2` of the input blocks; the invariant the core's scoped
    buffers that are no staging buffer of the pipeline, untouched; the core's tallies `O c` and recorded pairs within `B c` at every
    point (the body takes on nothing, pays nothing and waits for nothing); full shares. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.scopedRest (Ix := HIx 1) (Name := ℕ) (U := UU) (Lvl := ℕ) (Val := Elt F) spec2 c
  q _ := fullShare
  owed _ := O c
  recorded _ := B c

theorem A_eq2 (c : Dev nD) (w : Fin cfg2.W) : (dat2 V O B c).A w = V c (Pipeline.arrRef spec2 w) := by
  dsimp only [dat2]
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = out2_2 (iblk2 V c 0 t) (iblk2 V c 1 t) := by dsimp only [dat2]

theorem before2_0 (c : Dev nD) (t : Fin cfg2.N) (d) : (dat2 V O B c).before 0 t d = iblk2 V c 0 t :=
  before2_0_of V (dat2 V O B c) (A_eq2 V O B c 0) (after2_0 V O B c) t d
theorem before2_1 (c : Dev nD) (t : Fin cfg2.N) (d) : (dat2 V O B c).before 1 t d = iblk2 V c 1 t :=
  before2_1_of V (dat2 V O B c) (A_eq2 V O B c 1) (after2_1 V O B c) t d

/-! ## The body obligation -/

def bodyPre2 (c : Dev nD) (t : Fin cfg2.N) : sProp 𝕄 :=
  iprop((dat2 V O B c).Φ t.castSucc ∗ (dat2 V O B c).owesAt ι₀ t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d)))

def bodyPost2 (c : Dev nD) (t : Fin cfg2.N) : sProp 𝕄 :=
  iprop((dat2 V O B c).Φ t.succ ∗ (dat2 V O B c).owesAt ι₀ t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t))

/-- The body at any point: the inputs' memrefs hold their blocks, so `sound_kernel2` applies; the invariant and the
    core's `owes` pass through unread. -/
theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1]
  rw [show (dat2 V O B c).Φ t.succ = (dat2 V O B c).Φ t.castSucc from rfl,
    show (dat2 V O B c).owesAt ι₀ t.succ = (dat2 V O B c).owesAt ι₀ t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V O B c) (defs₀ (F := F)) Variants.none ι₀ Set.univ := fun t => by
  rw [bigSep_W2, bigSep_W2]
  exact sound_body2 V O B c t

end Region2

/-! # The proof data family -/

/-- The prefetched tables' admissible contents: no pipeline has a table. -/
abbrev aA : (p : Fin 2) → (pcfgs (F := F) p).Adm := fun p => (cfgs p).toPCfg_adm

/-- Both pipelines' proof data, each at its own entry contents, tallies and recorded pairs: a literal `match`, so that
    `Pipeline.pin pcfgs aA p` at a numeral reduces to the printed configuration. -/
def pdats (V0 V2 : (c : Dev nD) → (b : Ref sig .tc) → Buf (Elt F) ((c : Thread nD τ).loc b))
    (O : (p : Fin 2) → Dev nD → CellTallies nD τ sig (HIx 1)) (B : (p : Fin 2) → Dev nD → Set (SemLoc sig × HIx 1)) :
    (p : Fin 2) → (c : Dev nD) → Dat τ (Elt F) (HIx 1) ℕ UU ℕ (Pipeline.pin (pcfgs (F := F)) aA p) c
  | ⟨0, _⟩ => fun c => dat0 V0 (O 0) (B 0) c
  | ⟨1, _⟩ => fun c => dat2 V2 (O 1) (B 1) c

section Family
variable (V0 V2 : (c : Dev nD) → (b : Ref sig .tc) → Buf (Elt F) ((c : Thread nD τ).loc b))
  (O : (p : Fin 2) → Dev nD → CellTallies nD τ sig (HIx 1)) (B : (p : Fin 2) → Dev nD → Set (SemLoc sig × HIx 1))

theorem pdats_zero (c : Dev nD) : pdats V0 V2 O B 0 c = dat0 V0 (O 0) (B 0) c := rfl
theorem pdats_one (c : Dev nD) : pdats V0 V2 O B 1 c = dat2 V2 (O 1) (B 1) c := rfl

/-- The body obligations, as the pipeline rule takes them. -/
theorem hbody0 (c : Dev nD) : BodyObligationLoose (pdats V0 V2 O B 0 c) (defs₀ (F := F)) 𝒱₀ ι₀ Set.univ :=
  (body_obligation0 V0 (O 0) (B 0) c).loose
theorem hbody2 (c : Dev nD) : BodyObligationLoose (pdats V0 V2 O B 1 c) (defs₀ (F := F)) 𝒱₀ ι₀ Set.univ :=
  (body_obligation2 V2 (O 1) (B 1) c).loose

/-! ## The arrays at entry and the input arrays at exit -/

theorem arrAt0_zero (c : Dev nD) (w : Fin cfg0.W) : (pdats V0 V2 O B 0 c).arrAt w 0 = V0 c (Pipeline.arrRef spec0 w) :=
  A_eq0 V0 (O 0) (B 0) c w
theorem arrAt2_zero (c : Dev nD) (w : Fin cfg2.W) : (pdats V0 V2 O B 1 c).arrAt w 0 = V2 c (Pipeline.arrRef spec2 w) :=
  A_eq2 V2 (O 1) (B 1) c w
theorem arrAt0_in0 (c : Dev nD) (n : Nat) : (pdats V0 V2 O B 0 c).arrAt 0 n = V0 c main_v0 :=
  ((dat0 V0 (O 0) (B 0) c).arrAt_in 0 rfl n).trans (A_eq0 V0 (O 0) (B 0) c 0)
theorem arrAt0_in1 (c : Dev nD) (n : Nat) : (pdats V0 V2 O B 0 c).arrAt 1 n = V0 c main_v1 :=
  ((dat0 V0 (O 0) (B 0) c).arrAt_in 1 rfl n).trans (A_eq0 V0 (O 0) (B 0) c 1)
theorem arrAt2_in0 (c : Dev nD) (n : Nat) : (pdats V0 V2 O B 1 c).arrAt 0 n = V2 c main_v7 :=
  ((dat2 V2 (O 1) (B 1) c).arrAt_in 0 rfl n).trans (A_eq2 V2 (O 1) (B 1) c 0)
theorem arrAt2_in1 (c : Dev nD) (n : Nat) : (pdats V0 V2 O B 1 c).arrAt 1 n = V2 c main_v3 :=
  ((dat2 V2 (O 1) (B 1) c).arrAt_in 1 rfl n).trans (A_eq2 V2 (O 1) (B 1) c 1)

/-- The invariant, the tallies and the recorded pairs of either pipeline's data, at every point. -/
theorem pdats_Φ0 (c : Dev nD) (t) : (pdats V0 V2 O B 0 c).Φ t = Pipeline.scopedRest (Ix := HIx 1) (Name := ℕ) (U := UU) (Lvl := ℕ) (Val := Elt F) spec0 c := rfl
theorem pdats_Φ2 (c : Dev nD) (t) : (pdats V0 V2 O B 1 c).Φ t = Pipeline.scopedRest (Ix := HIx 1) (Name := ℕ) (U := UU) (Lvl := ℕ) (Val := Elt F) spec2 c := rfl
theorem pdats_owed0 (c : Dev nD) (t) : (pdats V0 V2 O B 0 c).owed t = O 0 c := rfl
theorem pdats_owed2 (c : Dev nD) (t) : (pdats V0 V2 O B 1 c).owed t = O 1 c := rfl
theorem pdats_recorded0 (c : Dev nD) (t) : (pdats V0 V2 O B 0 c).recorded t = B 0 c := rfl
theorem pdats_recorded2 (c : Dev nD) (t) : (pdats V0 V2 O B 1 c).recorded t = B 1 c := rfl

end Family

end Cert.Proof.KI

end
-- ==== Proof.IRegions.lean ====
/-
  The two TensorCore pipelines as regions of @main over one thread state: between two items the TensorCore holds
  every unscoped buffer whole at a named valuation, beside what it owes the SparseCore launch (the start signals of
  the one call, owed until the call) with its recorded waits below that call's levels. Region 0 computes the logits
  from the reshaped x and the padded W1; region 1 the output from the routed coefficients and the padded, narrowed W2.
-/
import proofs.«207443_g73169062855234_cont_9to1c4b_643_41_alg».proof.Proof.IRegionStep
import proofs.«207443_g73169062855234_cont_9to1c4b_643_41_alg».proof.Proof.IReg
import Idealize.ShloMosaic.Lib.Pipeline.Frame
import Idealize.ShloMosaic.Lib.Pipeline.RegionsLoop
import Idealize.ShloMosaic.Lib.Pipeline.FrameSuffix

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

open Idealize.ShloMosaic.Pipeline (Dat RegionSeg)

variable (m : (ℓ : Loc nD τ sig) → Buf (Elt F) ℓ)
-- the unscoped buffers' contents after the SparseCore call: a parameter here (the routing's value)
variable (W4 : Dev nD → Valuation τ sig (Elt F))

/-! ## What the TensorCore owes and has recorded, before call `n` -/

/-- Before call `n` the TensorCore owes the later calls' start signals; -/
abbrev OO : (p : Fin 2) → Dev nD → CellTallies nD τ sig (HIx 1) := fun p d => (K (F := F)).Otc d p.val
/-- and its recorded waits sit at or below level `8 n`. -/
abbrev BB : (p : Fin 2) → Dev nD → Set (SemLoc sig × HIx 1) := fun p d => {x | (K (F := F)).lev (T d, x.1) x.2 ≤ 8 * p.val}

/-- The handshake debts sit at a call's index, never at the pipelines' own. -/
theorem OO_none (p : Fin 2) (d : Dev nD) (g : GSem nD τ sig) : OO (F := F) p d g none = 0 := by
  by_contra h
  have := SparseCore.Cfg.lev_of_Otc_pos (K := K (F := F)) (d := d) (n := p.val) (g := g) (ι := none) (Nat.pos_of_ne_zero h)
  rw [SparseCore.Cfg.lev_none] at this; omega

/-- The thread state's debt part before call `n`. -/
abbrev Rr (p : Fin 2) (d : Dev nD) : sProp 𝕄 :=
  iprop(∃ W, ⌜(K (F := F)).WBelow (T d) W (8 * p.val)⌝ ∗ owes (T d) ((K (F := F)).Otc d p.val) W)

/-! ## The buffers' contents between the items -/

abbrev W0 (d : Dev nD) : Valuation τ sig (Elt F) := fun b => m (d, b)
abbrev W1 (d : Dev nD) : Valuation τ sig (Elt F) := StableHlo.after hostOps0 (W0 m d)
abbrev V1 : (c : Dev nD) → (b : Ref sig .tc) → Buf (Elt F) ((c : Thread nD τ).loc b) := fun c b => W1 m c b
/-- After the first pipeline: its arrays at what it leaves, everything else as entered. -/
def W2 (d : Dev nD) : Valuation τ sig (Elt F) :=
  Pipeline.withArrays spec0 d (W1 m d) fun w => (dat0 (V1 m) (OO (F := F) 0) (BB (F := F) 0) d).arrAt w cfg0.N
abbrev V2 : (c : Dev nD) → (b : Ref sig .tc) → Buf (Elt F) ((c : Thread nD τ).loc b) := fun c b => W2 m c b
abbrev W3 (d : Dev nD) : Valuation τ sig (Elt F) := StableHlo.after hostOps1 (W2 m d)
abbrev W5 (d : Dev nD) : Valuation τ sig (Elt F) := StableHlo.after hostOps2 (W4 d)
abbrev V5 : (c : Dev nD) → (b : Ref sig .tc) → Buf (Elt F) ((c : Thread nD τ).loc b) := fun c b => W5 W4 c b
/-- After the second pipeline. -/
def W6 (d : Dev nD) : Valuation τ sig (Elt F) :=
  Pipeline.withArrays spec2 d (W5 W4 d) fun w => (dat2 (V5 W4) (OO (F := F) 1) (BB (F := F) 1) d).arrAt w cfg2.N
abbrev V6 : (c : Dev nD) → (b : Ref sig .tc) → Buf (Elt F) ((c : Thread nD τ).loc b) := fun c b => W6 W4 c b

/-- Both pipelines' proof data, each at its region's entry contents. -/
abbrev PD : (p : Fin 2) → (c : Dev nD) → Dat τ (Elt F) (HIx 1) ℕ UU ℕ (Pipeline.pin (pcfgs (F := F)) aA p) c :=
  pdats (V1 m) (V5 W4) (OO (F := F)) (BB (F := F))

theorem W2_arr (c : Dev nD) (w : Fin cfg0.W) :
    W2 m c (Proc.devRef .tc (Pipeline.arrRef spec0 w)) = (dat0 (V1 m) (OO (F := F) 0) (BB (F := F) 0) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) (OO (F := F) 0) (BB (F := F) 0) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W6_arr (c : Dev nD) (w : Fin cfg2.W) :
    W6 W4 c (Proc.devRef .tc (Pipeline.arrRef spec2 w)) = (dat2 (V5 W4) (OO (F := F) 1) (BB (F := F) 1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 W4 c (Proc.devRef .tc b) = W5 W4 c (Proc.devRef .tc b) := by
  unfold W6; exact Pipeline.withArrays_of_ne spec2 c _ _ b hb
theorem hF2 (c : Dev nD) (w : Fin cfg2.W) : (dat2 (V5 W4) (OO (F := F) 1) (BB (F := F) 1) c).arrAt w cfg2.N = V6 W4 c (Pipeline.arrRef spec2 w) :=
  (W6_arr W4 c w).symm
theorem hrest2 (c : Dev nD) : ∀ b, b ∉ Finset.univ.image (Pipeline.arrRef spec2) → V6 W4 c b = V5 W4 c b :=
  fun b hb => W6_of_ne W4 c b fun w e => hb (Finset.mem_image.mpr ⟨w, Finset.mem_univ _, e⟩)

/-! ## The wait evidence: the pipelines' waits sit at the index no handshake debt is at -/

theorem hwaits (p : Fin 2) (c : Dev nD) :
    (levAts (K (F := F)).L (K (F := F)).lev : sProp 𝕄) ⊢ Pipeline.cellsWaits (Pipeline.pin (pcfgs (F := F)) aA) (PD m W4) (none : HIx 1) p c :=
  Pipeline.cellsWaits_intro (Pipeline.pin (pcfgs (F := F)) aA) (PD m W4) (none : HIx 1) p c fun w s t => by
    have ho : (PD m W4 p c).owed t = OO (F := F) p c := by
      match p with
      | ⟨0, _⟩ => rfl
      | ⟨1, _⟩ => rfl
    rw [ho]
    exact (K (F := F)).mayWait_none _ (OO_none p c)

end Cert.Proof.KI

end
-- ==== Proof.IRegSegs.lean ====
/-
  The two pipelines' segment records: what the pipeline library's region step asks of each region beyond its body.
-/
import proofs.«207443_g73169062855234_cont_9to1c4b_643_41_alg».proof.Proof.IRegions

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

open Idealize.ShloMosaic.Pipeline (Dat RegionSeg)

variable (m : (ℓ : Loc nD τ sig) → Buf (Elt F) ℓ) (W4 : Dev nD → Valuation τ sig (Elt F))

set_option backward.isDefEq.respectTransparency.types false in
/-- Pipeline 0 as a region over the thread state: its arrays split out of the unscoped buffers at entry and put back
    at the exit contents; the debt to the launch carried through unchanged, its recorded waits still below the
    call's levels (the pipeline's own waits sit at level zero); no semaphore of the kernel's own. -/
def reg0 : RegionSeg (pcfgs (F := F)) aA (PD m W4) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := hbody0 (V1 m) (V5 W4) (OO (F := F)) (BB (F := F)) c
  hwaits c := hwaits m W4 0 c
  pre c := iprop(held (T c) (Pipeline.ucRefs τ sig) (W1 m c) ∗ Rr (F := F) 0 c)
  post c := iprop(held (T c) (Pipeline.ucRefs τ sig) (W2 m c) ∗ Rr (F := F) 0 c)
  X c := iprop(emp)
  Y c := iprop(emp)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) aA (PD m W4) launch0.win launch0.arr_whole c
      ((PD m W4 0 c).share_full fun _ => rfl) (V1 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun x hx => Or.inl (hW x hx)
      iexact HO
    isplitr; · iempintro
    iexact Hrest
  hin c := by
    rw [pdats_Φ0]
    iintro ⟨-, -, Hr⟩; iexact Hr
  hout c := by
    rw [Pipeline.ownSems0_none, pdats_Φ0]
    iintro Hr
    isplitr; · iempintro
    isplitr; · iempintro
    iexact Hr
  hexit c := by
    have hjoin := Pipeline.unscopedBufs_of_arrays (p := 0) (pcfgs (F := F)) aA (Ix := HIx 1) (Name := ℕ) (U := UU) (Lvl := ℕ)
      launch0.win launch0.arr_whole c (PD m W4) ((PD m W4 0 c).share_full fun _ => rfl)
      (V1 m c) (V2 m c) ((PD m W4 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro x hx
      rcases hW hx with h | ⟨w, s, rfl⟩
      · exact h
      · exact Nat.zero_le _
    iexact HO

set_option backward.isDefEq.respectTransparency.types false in
/-- Pipeline 1 as a region over the thread state: its arrays split out of the unscoped buffers at entry and put back
    at the exit contents; the debt to the launch carried through unchanged, its recorded waits still below the
    call's levels (the pipeline's own waits sit at level zero); no semaphore of the kernel's own. -/
def reg1 : RegionSeg (pcfgs (F := F)) aA (PD m W4) (none : HIx 1) (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := hbody2 (V1 m) (V5 W4) (OO (F := F)) (BB (F := F)) c
  hwaits c := hwaits m W4 1 c
  pre c := iprop(held (T c) (Pipeline.ucRefs τ sig) (W5 W4 c) ∗ Rr (F := F) 1 c)
  post c := iprop(held (T c) (Pipeline.ucRefs τ sig) (W6 W4 c) ∗ Rr (F := F) 1 c)
  X c := iprop(emp)
  Y c := iprop(emp)
  Z c := Pipeline.unscopedRest (Ix := HIx 1) (Name := ℕ) (U := UU) (Lvl := ℕ) spec2 c (V5 W4 c)
  hentry c := by
    rw [Pipeline.ownSems0_none]
    have hsplit := Pipeline.arrays_of_unscopedBufs (p := 1) (pcfgs (F := F)) aA (PD m W4) launch2.win launch2.arr_whole c
      ((PD m W4 1 c).share_full fun _ => rfl) (V5 W4 c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun x hx => Or.inl (hW x hx)
      iexact HO
    isplitr; · iempintro
    iexact Hrest
  hin c := by
    rw [pdats_Φ2]
    iintro ⟨-, -, Hr⟩; iexact Hr
  hout c := by
    rw [Pipeline.ownSems0_none, pdats_Φ2]
    iintro Hr
    isplitr; · iempintro
    isplitr; · iempintro
    iexact Hr
  hexit c := by
    have hjoin := Pipeline.unscopedBufs_of_arrays (p := 1) (pcfgs (F := F)) aA (Ix := HIx 1) (Name := ℕ) (U := UU) (Lvl := ℕ)
      launch2.win launch2.arr_whole c (PD m W4) ((PD m W4 1 c).share_full fun _ => rfl)
      (V5 W4 c) (V6 W4 c) ((PD m W4 1 c).arrAt · cfg2.N) (hF2 W4 c) (hrest2 W4 c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro x hx
      rcases hW hx with h | ⟨w, s, rfl⟩
      · exact h
      · exact Nat.zero_le _
    iexact HO

end Cert.Proof.KI

end
-- ==== Proof.IHMain.lean ====
/-
  @main on the TensorCore, inside the SparseCore launch: the first host stretch, the first pipeline's region (entered
  owing the call's start signals), the reshape of the logits, the SparseCore call (the logits and the coefficient
  array handed over whole, taken back with the coefficients routed), the reshape back, the second pipeline's region.
-/
import proofs.«207443_g73169062855234_cont_9to1c4b_643_41_alg».proof.Proof.IRegSegs

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

open Idealize.ShloMosaic.Pipeline (Dat RegionSeg)

variable (m : (ℓ : Loc nD τ sig) → Buf (Elt F) ℓ) (ρ : Dev nD → PrngReg) (W4 : Dev nD → Valuation τ sig (Elt F))

/-! ## The host stretches touch only unscoped buffers and allocate none -/

theorem hsub0 : ∀ op ∈ (hostOps0 : List (HloOp τ sig (Elt F))), op.bufs ⊆ Pipeline.ucRefs τ sig := by
  intro op h
  simp only [hostOps0, List.mem_cons, List.mem_nil_iff, or_false] at h
  rcases h with rfl | rfl | rfl | rfl | rfl | rfl | rfl | rfl <;>
    exact Pipeline.sub_ucRefs _ (by first | exact StableHlo.reshape_bufs_sub .. | exact StableHlo.nullary_bufs_sub .. | exact StableHlo.unary_bufs_sub .. | exact StableHlo.binary_bufs_sub ..)
theorem hfresh0 : ∀ op ∈ (hostOps0 : List (HloOp τ sig (Elt F))), op.fresh = ∅ := by
  intro op h
  simp only [hostOps0, List.mem_cons, List.mem_nil_iff, or_false] at h
  rcases h with rfl | rfl | rfl | rfl | rfl | rfl | rfl | rfl <;> rfl
theorem hsub1 : ∀ op ∈ (hostOps1 : List (HloOp τ sig (Elt F))), op.bufs ⊆ Pipeline.ucRefs τ sig := by
  intro op h
  simp only [hostOps1, List.mem_cons, List.mem_nil_iff, or_false] at h
  subst h; exact Pipeline.sub_ucRefs _ (by first | exact StableHlo.reshape_bufs_sub .. | exact StableHlo.nullary_bufs_sub .. | exact StableHlo.unary_bufs_sub .. | exact StableHlo.binary_bufs_sub ..)
theorem hfresh1 : ∀ op ∈ (hostOps1 : List (HloOp τ sig (Elt F))), op.fresh = ∅ := by
  intro op h
  simp only [hostOps1, List.mem_cons, List.mem_nil_iff, or_false] at h
  subst h; rfl
theorem hsub2 : ∀ op ∈ (hostOps2 : List (HloOp τ sig (Elt F))), op.bufs ⊆ Pipeline.ucRefs τ sig := by
  intro op h
  simp only [hostOps2, List.mem_cons, List.mem_nil_iff, or_false] at h
  subst h; exact Pipeline.sub_ucRefs _ (by first | exact StableHlo.reshape_bufs_sub .. | exact StableHlo.nullary_bufs_sub .. | exact StableHlo.unary_bufs_sub .. | exact StableHlo.binary_bufs_sub ..)
theorem hfresh2 : ∀ op ∈ (hostOps2 : List (HloOp τ sig (Elt F))), op.fresh = ∅ := by
  intro op h
  simp only [hostOps2, List.mem_cons, List.mem_nil_iff, or_false] at h
  subst h; rfl

/-! ## The call's two arrays among the unscoped buffers -/

abbrev v5' : DevRef τ sig := Proc.devRef .tc (main_v5 : Ref sig .tc)
abbrev v6' : DevRef τ sig := Proc.devRef .tc (main_v6 : Ref sig .tc)
abbrev S56 : Finset (DevRef τ sig) := {v5', v6'}

theorem S56_sub : S56 ⊆ Pipeline.ucRefs τ sig := by decide

theorem held_S56 (d : Dev nD) (W : Valuation τ sig (Elt F)) :
    (held (SparseCore.T d) S56 W : sProp 𝕄) = iprop(((SparseCore.T d).loc main_v5 ↦{fullShare} W v5') ∗ ((SparseCore.T d).loc main_v6 ↦{fullShare} W v6')) := by
  unfold held S56
  rw [SparseCore.bigSep_insert' (by decide), bigSep_singleton]

/-- What @main leaves the claim: every unscoped buffer at the last valuation. -/
abbrev FIN (d : Dev nD) : sProp 𝕄 := held (SparseCore.T d) (Pipeline.ucRefs τ sig) (W6 W4 d)

/-- The two pipelines' ghost state, one after the other. -/
theorem G_eq (d : Dev nD) : G (F := F) d
    = iprop((Pipeline.cellsGhost (Pipeline.pin (pcfgs (F := F)) adm) (EP (F := F)) 0 d ∗ Pipeline.cellsGhost (Pipeline.pin (pcfgs (F := F)) adm) (EP (F := F)) 1 d)
        ∗ ((Pipeline.toksInit (Pipeline.pin (pcfgs (F := F)) adm) (EP (F := F)) 0 d : sProp 𝕄) ∗ Pipeline.toksInit (Pipeline.pin (pcfgs (F := F)) adm) (EP (F := F)) 1 d)) := by
  unfold G
  rw [show (Finset.univ : Finset (Fin 2)) = {0, 1} by decide, SparseCore.bigSep_insert' (by decide), bigSep_singleton,
    SparseCore.bigSep_insert' (by decide), bigSep_singleton]

include W4 in
set_option backward.isDefEq.respectTransparency.types false in
/-- Pipeline 0's region step with its entry and exit states spelt out. -/
theorem region0_step (d : Dev nD) (Φ : PUnit → sProp 𝕄) :
    iprop((iprop(boundary (SparseCore.T d) ∗ held (SparseCore.T d) (Pipeline.ucRefs τ sig) (W2 m d) ∗ Rr (F := F) 0 d) -∗ Φ ⟨⟩)
        ∗ boundary (SparseCore.T d) ∗ (held (SparseCore.T d) (Pipeline.ucRefs τ sig) (W1 m d) ∗ Rr (F := F) 0 d) ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d) none) Set.univ
          (Prog.lift (.customCall (SparseCore.inner (Pipeline.entry 0)) ())) Φ :=
  region_step (reg0 m W4) d Φ

include m in
set_option backward.isDefEq.respectTransparency.types false in
/-- Pipeline 1's region step with its entry and exit states spelt out. -/
theorem region1_step (d : Dev nD) (Φ : PUnit → sProp 𝕄) :
    iprop((iprop(boundary (SparseCore.T d) ∗ held (SparseCore.T d) (Pipeline.ucRefs τ sig) (W6 W4 d) ∗ Rr (F := F) 1 d) -∗ Φ ⟨⟩)
        ∗ boundary (SparseCore.T d) ∗ (held (SparseCore.T d) (Pipeline.ucRefs τ sig) (W5 W4 d) ∗ Rr (F := F) 1 d) ∗ levAts (K (F := F)).L (K (F := F)).lev
        ∗ Pipeline.cellsGhost (Pipeline.pin (pcfgs (F := F)) adm) (EP (F := F)) 1 d ∗ Pipeline.toksInit (Pipeline.pin (pcfgs (F := F)) adm) (EP (F := F)) 1 d)
      ⊢ wp frame (wpE ((K (F := F)).defs (D (F := F))) 𝒱 (SparseCore.T d) none) Set.univ
          (Prog.lift (.customCall (SparseCore.inner (Pipeline.entry 1)) ())) Φ :=
  region_step (reg1 m W4) d Φ

set_option backward.isDefEq.respectTransparency.types false in
/-- @main on device `d`'s TensorCore. -/
theorem hmain (P : (K (F := F)).Pay (nD := nD) (Val := Elt F) (Name := ℕ) (U := UU))
    (hst : ∀ d : Dev nD, iprop(((SparseCore.T d).loc main_v5 ↦{fullShare} W3 m d v5') ∗ ∃ f, (SparseCore.T d).loc main_v6 ↦{fullShare} f)
      ⊢ (bigSep Finset.univ fun c : Fin ((K (F := F)).nCore 0) => P.st 0 d c : sProp 𝕄))
    (hdn : ∀ d : Dev nD, (bigSep Finset.univ fun c : Fin ((K (F := F)).nCore 0) => P.dn 0 d c : sProp 𝕄)
      ⊢ iprop(((SparseCore.T d).loc main_v5 ↦{fullShare} W3 m d v5') ∗ ((SparseCore.T d).loc main_v6 ↦{fullShare} W4 d v6')))
    (hW4 : ∀ (d : Dev nD) (b : DevRef τ sig), b ≠ v6' → W4 d b = W3 m d b)
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN W4 d) := by
  rw [main_chain d]
  simp only [Pipeline.chain_cons, Pipeline.chain_nil]
  unfold SparseCore.Cfg.tcRes
  rw [show (unscopedBufs d (fun b => m ((SparseCore.T d).loc b)) : sProp 𝕄) = held (SparseCore.T d) (Pipeline.ucRefs τ sig) (W0 m d) from
    Pipeline.unscopedBufs_held d (W0 m d), G_eq]
  iintro ⟨#Hctx, Hst, ⟨Hb, Hheld, -, -⟩, ⟨Hg0, Hg1⟩, ⟨Ht0, Ht1⟩⟩
  ihave #Hlv := (SparseCore.Cfg.ctx_levAts κ) $$ Hctx
  -- item 0: the first host stretch
  iapply (StableHlo.wp_seq 𝒱 none Set.univ d (Pipeline.ucRefs τ sig) _ hostOps0 hsub0 hfresh0 (W0 m d)) $$ [Hb Hheld]
  · isplitl [Hb] <;> iassumption
  iintro ⟨Hb, Hheld⟩
  -- item 1: the first pipeline, entered owing the call's start signals
  rw [wp_bind]
  unfold SparseCore.Cfg.tcSt
  icases Hst with ⟨HO, Hrest⟩
  iapply (region0_step m W4 d _) $$ [Hb Hheld HO Hg0 Ht0 Hrest Hg1 Ht1]
  isplitr [Hb Hheld HO Hg0 Ht0]
  swap
  · isplitl [Hb]; · iexact Hb
    isplitl [Hheld HO]
    · isplitl [Hheld]; · iexact Hheld
      iexact HO
    isplitr; · iexact Hlv
    isplitl [Hg0]; · iexact Hg0
    iexact Ht0
  iintro ⟨Hb, Hheld, HO⟩
  -- item 2: the logits as one row
  iapply (StableHlo.wp_seq 𝒱 none Set.univ d (Pipeline.ucRefs τ sig) _ hostOps1 hsub1 hfresh1 (W2 m d)) $$ [Hb Hheld]
  · isplitl [Hb] <;> iassumption
  iintro ⟨Hb, Hheld⟩
  -- item 3: the SparseCore call
  rw [wp_bind]
  ihave Hh := (Entails.of_eq (StableHlo.held_sub_split (SparseCore.T d) S56_sub (W3 m d))) $$ Hheld
  icases Hh with ⟨H56, Hother⟩
  ihave H56' := (Entails.of_eq (held_S56 (F := F) d (W3 m d))) $$ H56
  icases H56' with ⟨H5, H6⟩
  iapply ((K (F := F)).wp_run (D (F := F)) 𝒱 (EH := EH) (P := P) κ d 0) $$ [HO Hrest H5 H6 Hb Hother Hg1 Ht1]
  isplitr; · iexact Hctx
  isplitl [HO Hrest]
  · unfold SparseCore.Cfg.tcSt
    isplitl [HO]; · iexact HO
    iexact Hrest
  isplitl [H5 H6]
  · iapply (hst d)
    isplitl [H5]; · iexact H5
    iexists _; iexact H6
  iintro ⟨Hst, Hdn⟩
  ihave Hdn' := (hdn d) $$ Hdn
  icases Hdn' with ⟨H5, H6⟩
  -- the unscoped buffers after the call
  ihave Hheld := (show iprop(((SparseCore.T d).loc main_v5 ↦{fullShare} W3 m d v5') ∗ ((SparseCore.T d).loc main_v6 ↦{fullShare} W4 d v6')
        ∗ held (SparseCore.T d) (Pipeline.ucRefs τ sig \ S56) (W3 m d)) ⊢ (held (SparseCore.T d) (Pipeline.ucRefs τ sig) (W4 d) : sProp 𝕄) from by
      rw [StableHlo.held_sub_split (SparseCore.T d) S56_sub (W4 d), held_S56, hW4 d v5' (by decide),
        show (held (SparseCore.T d) (Pipeline.ucRefs τ sig \ S56) (W4 d) : sProp 𝕄) = held (SparseCore.T d) (Pipeline.ucRefs τ sig \ S56) (W3 m d) from
          bigSep_congr fun b hb => by
            rw [hW4 d b (fun e => (Finset.mem_sdiff.mp hb).2 (e ▸ by decide))]]
      iintro ⟨H5, H6, Ho⟩
      isplitl [H5 H6]
      · isplitl [H5] <;> iassumption
      iexact Ho) $$ [H5 H6 Hother]
  · isplitl [H5]; · iexact H5
    isplitl [H6]; · iexact H6
    iexact Hother
  -- item 4: the routed coefficients as rows
  iapply (StableHlo.wp_seq 𝒱 none Set.univ d (Pipeline.ucRefs τ sig) _ hostOps2 hsub2 hfresh2 (W4 d)) $$ [Hb Hheld]
  · isplitl [Hb] <;> iassumption
  iintro ⟨Hb, Hheld⟩
  -- item 5: the second pipeline, owing nothing more
  rw [wp_bind]
  unfold SparseCore.Cfg.tcSt
  icases Hst with ⟨HO, Hrest⟩
  iapply (region1_step m W4 d _) $$ [Hb Hheld HO Hg1 Ht1 Hrest]
  isplitr [Hb Hheld HO Hg1 Ht1]
  swap
  · isplitl [Hb]; · iexact Hb
    isplitl [Hheld HO]
    · isplitl [Hheld]; · iexact Hheld
      iexact HO
    isplitr; · iexact Hlv
    isplitl [Hg1]; · iexact Hg1
    iexact Ht1
  iintro ⟨-, Hheld, HO⟩
  rw [wp_pure]; imodintro
  isplitl [HO Hrest]
  · isplitl [HO]; · iexact HO
    iexact Hrest
  iexact Hheld

end Cert.Proof.KI

end
-- ==== Proof.IScPure.lean ====
/-
  The routing walk as a function of a flat array of logits, for any float instance: a row of 128 words is walked from
  node 0 for five levels, going to child `2 n + 1`, or to `2 n + 2` when the word at `n` is greater than zero; the
  routed row holds the rectified word at each visited node and zero elsewhere.
-/
import proofs.«207443_g73169062855234_cont_9to1c4b_643_41_alg».proof.Proof.ICommon
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

section Pure

variable [FloatOps F]

/-- The float zero the walk compares against and rectifies with. -/
def z32 : F .f32 := FloatOps.ofBits .f32 0#32

/-- `1` when the word is (ordered) greater than zero, else `0`: the step to the right child. -/
def posBit (x : F .f32) : ℕ := (FloatOps.cmpf .ogt x (z32 (F := F))).toNat

theorem posBit_le_one (x : F .f32) : posBit x ≤ 1 := by
  unfold posBit; have := (FloatOps.cmpf .ogt x (z32 (F := F))).isLt; omega

/-- The node a row's walk visits at level `l`. -/
def pathN (row : ℕ → F .f32) : ℕ → ℕ
  | 0 => 0
  | l + 1 => 2 * pathN row l + 1 + posBit (row (pathN row l))

theorem pathN_zero (row : ℕ → F .f32) : pathN row 0 = 0 := rfl
theorem pathN_succ (row : ℕ → F .f32) (l : ℕ) : pathN row (l + 1) = 2 * pathN row l + 1 + posBit (row (pathN row l)) := rfl

/-- The node at level `l` is at most `2 ^ (l + 1) - 2`. -/
theorem pathN_le (row : ℕ → F .f32) : ∀ l, pathN row l + 2 ≤ 2 ^ (l + 1)
  | 0 => by simp [pathN]
  | l + 1 => by
    have h := pathN_le row l
    have hb := posBit_le_one (row (pathN row l))
    rw [pathN_succ, pow_succ]; omega

theorem pathN_lt_succ (row : ℕ → F .f32) (l : ℕ) : pathN row l < pathN row (l + 1) := by
  rw [pathN_succ]; omega

theorem pathN_strictMono (row : ℕ → F .f32) : StrictMono (pathN row) := strictMono_nat_of_lt_succ (pathN_lt_succ row)

/-- `n` is one of the five nodes the row's walk visits. -/
def onPath (row : ℕ → F .f32) (n : ℕ) : Prop :=
  n = pathN row 0 ∨ n = pathN row 1 ∨ n = pathN row 2 ∨ n = pathN row 3 ∨ n = pathN row 4

instance (row : ℕ → F .f32) (n : ℕ) : Decidable (onPath row n) := by unfold onPath; infer_instance

theorem onPath_iff (row : ℕ → F .f32) (n : ℕ) : onPath row n ↔ ∃ l, l < 5 ∧ n = pathN row l := by
  unfold onPath
  constructor
  · rintro (h | h | h | h | h)
    exacts [⟨0, by omega, h⟩, ⟨1, by omega, h⟩, ⟨2, by omega, h⟩, ⟨3, by omega, h⟩, ⟨4, by omega, h⟩]
  · rintro ⟨l, hl, h⟩
    have : l = 0 ∨ l = 1 ∨ l = 2 ∨ l = 3 ∨ l = 4 := by omega
    rcases this with rfl | rfl | rfl | rfl | rfl <;> simp [h]

/-- The routed row: the rectified word at a visited node, zero elsewhere. -/
def routeRow (row : ℕ → F .f32) (n : ℕ) : F .f32 :=
  if onPath row n then FloatOps.maximumf (row n) (z32 (F := F)) else z32

/-- Word `k` of a flat array; zero past its end. -/
def rdW {N : ℕ} (L : (⟨1, ![N]⟩ : Shape).Idx → F .f32) (k : ℕ) : F .f32 :=
  if h : k < N then L (ix1 ⟨k, h⟩) else z32

/-- Row `t` of a flat array of rows of 128 words. -/
def rowOf {N : ℕ} (L : (⟨1, ![N]⟩ : Shape).Idx → F .f32) (t : ℕ) : ℕ → F .f32 := fun n => rdW L (128 * t + n % 128)

/-- The routed array: every row of 128 words routed. -/
def routeV {N : ℕ} (L : (⟨1, ![N]⟩ : Shape).Idx → F .f32) : (⟨1, ![N]⟩ : Shape).Idx → F .f32 :=
  fun j => routeRow (rowOf L ((j 0).val / 128)) ((j 0).val % 128)

end Pure

end Cert.Proof.KI

end
-- ==== Proof.IScDefs.lean ====
/-
  The routing kernel's operands as the launch sees them: the two flat arrays (the logits and the routed coefficients)
  cut into the 64 chunks of 32768 words the 32 vector subcores copy in and out, two per subcore, and what the launch's
  handshakes carry: the logits unchanged and the coefficients, on the way back, the routed logits.
-/
import proofs.«207443_g73169062855234_cont_9to1c4b_643_41_alg».proof.Proof.IScPure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The two arrays and their chunks -/

abbrev v5Loc (d : Dev nD) : Loc nD τ sig := (SparseCore.T d).loc main_v5
abbrev v6Loc (d : Dev nD) : Loc nD τ sig := (SparseCore.T d).loc main_v6

-- the kernel's memrefs, spelt as the body table passes them
local notation "v5V" => (Memref.whole Cert.KernelIdeal.main_v5_scv : Memref Cert.KernelIdeal.sig Kind.scVector Space.hbm Cert.KernelIdeal.S2097152 EltTy.f32)
local notation "v6V" => (Memref.whole Cert.KernelIdeal.main_v6_scv : Memref Cert.KernelIdeal.sig Kind.scVector Space.hbm Cert.KernelIdeal.S2097152 EltTy.f32)

/-- The routed logits, at the arrays' own types. -/
def route [FloatOps F] {d : Dev nD} (L : Buf (Elt F) (v5Loc d)) : Buf (Elt F) (v6Loc d) := routeV (F := F) (N := 2097152) L

/-- Where chunk `r` of vector subcore `s` of SparseCore `c` begins. -/
def chunkOff (c : Fin 2) (s : Fin 16) (r : Fin 2) : ℕ := 131072 * s.val + 65536 * c.val + 32768 * r.val

theorem chunk_inb (c : Fin 2) (s : Fin 16) (r : Fin 2) : ∀ a, (![chunkOff c s r] : Fin 1 → ℕ) a + S32768.size a ≤ S2097152.size a := by
  intro a
  have hc := c.isLt; have hs := s.isLt; have hr := r.isLt
  match a with
  | 0 => show chunkOff c s r + 32768 ≤ 2097152; unfold chunkOff; omega

abbrev chunk (c : Fin 2) (s : Fin 16) (r : Fin 2) : Rect S2097152 := Rect.unit (s := S2097152) ![chunkOff c s r] S32768.size (chunk_inb c s r)
abbrev chunkSet (c : Fin 2) (s : Fin 16) (r : Fin 2) : Finset S2097152.Idx := (chunk c s r).set

theorem mem_chunkSet {c : Fin 2} {s : Fin 16} {r : Fin 2} {j : S2097152.Idx} :
    j ∈ chunkSet c s r ↔ chunkOff c s r ≤ (j 0).val ∧ (j 0).val < chunkOff c s r + 32768 := by
  unfold chunkSet chunk
  rw [Rect.mem_set_unit]
  constructor
  · intro h; exact h 0
  · intro h a; match a with | 0 => exact h

variable [FloatOps F]

/-- A chunk of the logits at `f`, a chunk of the coefficients at `f`. -/
abbrev pc5 (d : Dev nD) (c : Fin 2) (s : Fin 16) (r : Fin 2) (f : Buf (Elt F) (v5Loc d)) : sProp 𝕄 := v5Loc d ↦[chunkSet c s r]{fullShare} f
abbrev pc6 (d : Dev nD) (c : Fin 2) (s : Fin 16) (r : Fin 2) (f : Buf (Elt F) (v6Loc d)) : sProp 𝕄 := v6Loc d ↦[chunkSet c s r]{fullShare} f

/-- What a vector subcore's task is handed: its two chunks of the logits, its two chunks of the coefficients at
    whatever they hold. -/
def goP (Lf : (d : Dev nD) → Buf (Elt F) (v5Loc d)) (d : Dev nD) (c : Fin 2) (s : Fin 16) : sProp 𝕄 :=
  iprop(pc5 d c s 0 (Lf d) ∗ pc5 d c s 1 (Lf d) ∗ (∃ f, pc6 d c s 0 f) ∗ (∃ f, pc6 d c s 1 f))

/-- What it hands back: the logits' chunks unchanged, the coefficients' chunks at the routed logits. -/
def tdP (Lf : (d : Dev nD) → Buf (Elt F) (v5Loc d)) (d : Dev nD) (c : Fin 2) (s : Fin 16) : sProp 𝕄 :=
  iprop(pc5 d c s 0 (Lf d) ∗ pc5 d c s 1 (Lf d) ∗ pc6 d c s 0 (route (Lf d)) ∗ pc6 d c s 1 (route (Lf d)))

instance goP_storable (Lf : (d : Dev nD) → Buf (Elt F) (v5Loc d)) (d : Dev nD) (c : Fin 2) (s : Fin 16) :
    BI.Storable (upEmb : UEmb _ 𝕄) (goP (F := F) Lf d c s) := by unfold goP; infer_instance
instance tdP_storable (Lf : (d : Dev nD) → Buf (Elt F) (v5Loc d)) (d : Dev nD) (c : Fin 2) (s : Fin 16) :
    BI.Storable (upEmb : UEmb _ 𝕄) (tdP (F := F) Lf d c s) := by unfold tdP; infer_instance

/-- The one SparseCore call's payloads: a SparseCore is handed its sixteen subcores' tasks' chunks and hands them back;
    a task its own. Nothing of the launch's is consumed by the kernel's proof. -/
def P (_m : (ℓ : Loc nD τ sig) → Buf (Elt F) ℓ) (Lf : (d : Dev nD) → Buf (Elt F) (v5Loc d)) :
    (K (F := F)).Pay (nD := nD) (Val := Elt F) (Name := ℕ) (U := UU) where
  st := fun q d c => match q with | 0 => bigSep Finset.univ fun s : Fin 16 => goP Lf d (Fin.cast nCore_zero c) s
  dn := fun q d c => match q with | 0 => bigSep Finset.univ fun s : Fin 16 => tdP Lf d (Fin.cast nCore_zero c) s
  go := fun q d c i => match q with | 0 => goP Lf d (Fin.cast nCore_zero c) (Fin.cast nSub_zero i)
  td := fun q d c i => match q with | 0 => tdP Lf d (Fin.cast nCore_zero c) (Fin.cast nSub_zero i)
  x := fun _ _ => iprop(emp)

variable (m : (ℓ : Loc nD τ sig) → Buf (Elt F) ℓ) (Lf : (d : Dev nD) → Buf (Elt F) (v5Loc d))

instance P_storable : (P (F := F) m Lf).IsStorable where
  st q d c := match q with
    | 0 => (inferInstance : BI.Storable (upEmb : UEmb _ 𝕄) (bigSep Finset.univ fun s : Fin 16 => goP Lf d (Fin.cast nCore_zero c) s))
  dn q d c := match q with
    | 0 => (inferInstance : BI.Storable (upEmb : UEmb _ 𝕄) (bigSep Finset.univ fun s : Fin 16 => tdP Lf d (Fin.cast nCore_zero c) s))
  go q d c i := match q with
    | 0 => (inferInstance : BI.Storable (upEmb : UEmb _ 𝕄) (goP Lf d (Fin.cast nCore_zero c) (Fin.cast nSub_zero i)))
  td q d c i := match q with
    | 0 => (inferInstance : BI.Storable (upEmb : UEmb _ 𝕄) (tdP Lf d (Fin.cast nCore_zero c) (Fin.cast nSub_zero i)))

end Cert.Proof.KI

end
-- ==== Proof.IScTile.lean ====
/-
  One vector subcore's task of the routing kernel, as the launch deals it: the subcore's two chunks of each array as
  the body slices them against the chunks the launch names, and the subcore's own scratch buffers and DMA cells.
-/
import proofs.«207443_g73169062855234_cont_9to1c4b_643_41_alg».proof.Proof.IScDefs
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}
open Idealize.ShloMosaic.Tactic

local notation "𝕄" => MT nD τ sig (HIx 1) (Elt F) ℕ UU ℕ

-- the kernel's memrefs, spelt as the body table passes them
local notation "v5V" => (Memref.whole Cert.KernelIdeal.main_v5_scv : Memref Cert.KernelIdeal.sig Kind.scVector Space.hbm Cert.KernelIdeal.S2097152 EltTy.f32)
local notation "v6V" => (Memref.whole Cert.KernelIdeal.main_v6_scv : Memref Cert.KernelIdeal.sig Kind.scVector Space.hbm Cert.KernelIdeal.S2097152 EltTy.f32)
local notation "a4V" => (Memref.whole Cert.KernelIdeal.cc1_scratch0 : Memref Cert.KernelIdeal.sig Kind.scVector Space.vmem Cert.KernelIdeal.S32768 EltTy.f32)
local notation "a5V" => (Memref.whole Cert.KernelIdeal.cc1_scratch1 : Memref Cert.KernelIdeal.sig Kind.scVector Space.vmem Cert.KernelIdeal.S32768 EltTy.f32)

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)
abbrev VT (d : Dev nD) (L : grid1.Coords) : Thread nD τ := V d (cV L) (jV L)

/-- The two chunks of each array AS THE BODY SLICES THEM. -/
abbrev rect0 (L : grid1.Coords) : Rect S2097152 := Rect.unit (s := S2097152) (k1_off2 L 0#32) S32768.size (k1_off2_inb L 0)
abbrev rect1 (L : grid1.Coords) : Rect S2097152 := Rect.unit (s := S2097152) (k1_off2 L 32768#32) S32768.size (k1_off2_inb L 1)
abbrev v5c0 (L : grid1.Coords) : Memref sig .scVector .hbm S32768 .f32 := (v5V).slice (rect0 L) (fun _ => rfl)
abbrev v5c1 (L : grid1.Coords) : Memref sig .scVector .hbm S32768 .f32 := (v5V).slice (rect1 L) (fun _ => rfl)
abbrev v6c0 (L : grid1.Coords) : Memref sig .scVector .hbm S32768 .f32 := (v6V).slice (rect0 L) (fun _ => rfl)
abbrev v6c1 (L : grid1.Coords) : Memref sig .scVector .hbm S32768 .f32 := (v6V).slice (rect1 L) (fun _ => rfl)

theorem off0_eq : k1_off2 L 0#32 = ![chunkOff (cL L) (sL L) 0] := by
  have h := k1_off2_eq L ⟨0, by decide⟩
  refine h.trans ?_
  funext a; match a with | 0 => simp [chunkOff]
theorem off1_eq : k1_off2 L 32768#32 = ![chunkOff (cL L) (sL L) 1] := by
  have h := k1_off2_eq L ⟨1, by decide⟩
  refine h.trans ?_
  funext a; match a with | 0 => simp [chunkOff]
theorem rect0_eq : rect0 L = chunk (cL L) (sL L) 0 := Rect.unit_congr (off0_eq L) _ _
theorem rect1_eq : rect1 L = chunk (cL L) (sL L) 1 := Rect.unit_congr (off1_eq L) _ _

theorem slice5_set (c : Fin 2) (s : Fin 16) (r : Fin 2) : ((v5V).view.slice (chunk c s r)).set = chunkSet c s r := by
  show ((View.whole (main_v5_scv : Ref sig .scVector)).slice (chunk c s r)).set = _
  rw [View.set_slice]; exact Finset.map_refl
theorem slice6_set (c : Fin 2) (s : Fin 16) (r : Fin 2) : ((v6V).view.slice (chunk c s r)).set = chunkSet c s r := by
  show ((View.whole (main_v6_scv : Ref sig .scVector)).slice (chunk c s r)).set = _
  rw [View.set_slice]; exact Finset.map_refl

theorem set_v5c0 : (v5c0 L).view.set = chunkSet (cL L) (sL L) 0 := by
  show ((v5V).view.slice (rect0 L)).set = _
  exact rect0_eq L ▸ slice5_set (cL L) (sL L) 0
theorem set_v5c1 : (v5c1 L).view.set = chunkSet (cL L) (sL L) 1 := by
  show ((v5V).view.slice (rect1 L)).set = _
  exact rect1_eq L ▸ slice5_set (cL L) (sL L) 1
theorem set_v6c0 : (v6c0 L).view.set = chunkSet (cL L) (sL L) 0 := by
  show ((v6V).view.slice (rect0 L)).set = _
  exact rect0_eq L ▸ slice6_set (cL L) (sL L) 0
theorem set_v6c1 : (v6c1 L).view.set = chunkSet (cL L) (sL L) 1 := by
  show ((v6V).view.slice (rect1 L)).set = _
  exact rect1_eq L ▸ slice6_set (cL L) (sL L) 1

theorem pts_v5c0 (f : Buf (Elt F) (v5Loc d)) :
    ((v5c0 L).view.loc (VT d L) ↦[(v5c0 L).view.set]{fullShare} f : sProp 𝕄) = v5Loc d ↦[chunkSet (cL L) (sL L) 0]{fullShare} f := by
  rw [set_v5c0]
theorem pts_v5c1 (f : Buf (Elt F) (v5Loc d)) :
    ((v5c1 L).view.loc (VT d L) ↦[(v5c1 L).view.set]{fullShare} f : sProp 𝕄) = v5Loc d ↦[chunkSet (cL L) (sL L) 1]{fullShare} f := by
  rw [set_v5c1]
theorem pts_v6c0 (f : Buf (Elt F) (v6Loc d)) :
    ((v6c0 L).view.loc (VT d L) ↦[(v6c0 L).view.set]{fullShare} f : sProp 𝕄) = v6Loc d ↦[chunkSet (cL L) (sL L) 0]{fullShare} f := by
  rw [set_v6c0]
theorem pts_v6c1 (f : Buf (Elt F) (v6Loc d)) :
    ((v6c1 L).view.loc (VT d L) ↦[(v6c1 L).view.set]{fullShare} f : sProp 𝕄) = v6Loc d ↦[chunkSet (cL L) (sL L) 1]{fullShare} f := by
  rw [set_v6c1]
theorem pts_a4 (f : Buf (Elt F) ((VT d L).loc cc1_scratch0)) :
    ((a4V).view.loc (VT d L) ↦[(a4V).view.set]{fullShare} f : sProp 𝕄) = (VT d L).loc cc1_scratch0 ↦{fullShare} f := by
  rw [View.set_whole]
theorem pts_a5 (f : Buf (Elt F) ((VT d L).loc cc1_scratch1)) :
    ((a5V).view.loc (VT d L) ↦[(a5V).view.set]{fullShare} f : sProp 𝕄) = (VT d L).loc cc1_scratch1 ↦{fullShare} f := by
  rw [View.set_whole]

/-- The four DMA cells the task names, one per copy. -/
abbrev cell0 (d : Dev nD) (L : grid1.Coords) : GSem nD τ sig := (VT d L, SemLoc.dma cc1_scoped0.sem)
abbrev cell1 (d : Dev nD) (L : grid1.Coords) : GSem nD τ sig := (VT d L, SemLoc.dma cc1_scoped1.sem)
abbrev cell2 (d : Dev nD) (L : grid1.Coords) : GSem nD τ sig := (VT d L, SemLoc.dma cc1_scoped2.sem)
abbrev cell3 (d : Dev nD) (L : grid1.Coords) : GSem nD τ sig := (VT d L, SemLoc.dma cc1_scoped3.sem)
abbrev cells0 (d : Dev nD) (L : grid1.Coords) : sProp 𝕄 :=
  iprop(semVal (cell0 d L) 0 ∗ semVal (cell1 d L) 0 ∗ semVal (cell2 d L) 0 ∗ semVal (cell3 d L) 0)

theorem cell_mem (s : DmaSem sig) : ((VT d L, SemLoc.dma s) : GSem nD τ sig) ∈ ownCells (VT d L) :=
  mem_ownCells.mpr ⟨rfl, (show ∀ s : DmaSem sig, (SemLoc.dma s : SemLoc sig).isScoped .scVector = true by decide) _⟩

theorem cell_ne {s s' : DmaSem sig} (h : s ≠ s') : ((VT d L, SemLoc.dma s) : GSem nD τ sig) ≠ (VT d L, SemLoc.dma s') :=
  fun e => h (by have := congrArg (fun g : GSem nD τ sig => g.2) e; simpa using this)

theorem sem10 : (cc1_scoped1.sem : DmaSem sig) ≠ cc1_scoped0.sem := by decide
theorem sem20 : (cc1_scoped2.sem : DmaSem sig) ≠ cc1_scoped0.sem := by decide
theorem sem21 : (cc1_scoped2.sem : DmaSem sig) ≠ cc1_scoped1.sem := by decide
theorem sem30 : (cc1_scoped3.sem : DmaSem sig) ≠ cc1_scoped0.sem := by decide
theorem sem31 : (cc1_scoped3.sem : DmaSem sig) ≠ cc1_scoped1.sem := by decide
theorem sem32 : (cc1_scoped3.sem : DmaSem sig) ≠ cc1_scoped2.sem := by decide

/-- The subcore's own cells at zero: the four the task names, one by one, and the rest. -/
theorem ownSems0_V :
    (ownSems0 (VT d L) : sProp 𝕄)
      = iprop(semVal (cell0 d L) 0 ∗ semVal (cell1 d L) 0 ∗ semVal (cell2 d L) 0 ∗ semVal (cell3 d L) 0
          ∗ bigSep (((((ownCells (VT d L)).erase (cell0 d L)).erase (cell1 d L)).erase (cell2 d L)).erase (cell3 d L)) fun g => semVal g 0) := by
  unfold SparseCore.Cfg.ownSems0
  rw [SparseCore.bigSep_erase' (cell_mem d L cc1_scoped0.sem),
    SparseCore.bigSep_erase' (Finset.mem_erase.mpr ⟨cell_ne d L sem10, cell_mem d L cc1_scoped1.sem⟩),
    SparseCore.bigSep_erase' (Finset.mem_erase.mpr ⟨cell_ne d L sem21, Finset.mem_erase.mpr ⟨cell_ne d L sem20, cell_mem d L cc1_scoped2.sem⟩⟩),
    SparseCore.bigSep_erase' (Finset.mem_erase.mpr ⟨cell_ne d L sem32, Finset.mem_erase.mpr ⟨cell_ne d L sem31,
      Finset.mem_erase.mpr ⟨cell_ne d L sem30, cell_mem d L cc1_scoped3.sem⟩⟩⟩)]

/-- The two scratch buffers are among the subcore's own: they are them, at some contents, and the rest. -/
theorem ownBufs_V :
    (ownBufs (VT d L) : sProp 𝕄)
      = iprop((∃ f, (VT d L).loc cc1_scratch0 ↦{fullShare} f) ∗ (∃ f, (VT d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Tile

end Cert.Proof.KI

end
-- ==== Proof.IScVal.lean ====
/-
  The pure facts the routing kernel's loop invariants step by: the scratch zeroed sixteen words a trip, the first 32
  words of a row re-zeroed a row a trip, and a chunk's rows routed as the whole array's are.
-/
import proofs.«207443_g73169062855234_cont_9to1c4b_643_41_alg».proof.Proof.IScPure
import Idealize.ShloMosaic.Lib.WritesUnit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The zeroing passes, and a chunk's rows against the whole array's -/

section Val

variable [FloatOps F]

local notation "a5V" => (Memref.whole Cert.KernelIdeal.cc1_scratch1 : Memref Cert.KernelIdeal.sig Kind.scVector Space.vmem Cert.KernelIdeal.S32768 EltTy.f32)

/-- the scratch zeroed below word `16 k` -/
def Φ1 (k : ℕ) (g : Vec F S32768 .f32) : Prop := ∀ j : S32768.Idx, (j 0).val < 16 * k → g j = z32

/-- the walk's invariant: rows below `16 k` routed, the rest zero -/
def Φw (A : Vec F S32768 .f32) (k : ℕ) (g : Vec F S32768 .f32) : Prop :=
  ∀ j : S32768.Idx, g j = if (j 0).val / 128 < 16 * k then routeV (F := F) (N := 32768) A j else z32

/-- the rows below `k` re-zeroed in their first 32 words, the rest as `R` -/
def Φz (R : Vec F S32768 .f32) (k : ℕ) (g : Vec F S32768 .f32) : Prop :=
  ∀ j : S32768.Idx, g j = if (j 0).val / 128 < k ∧ (j 0).val % 128 < 32 then z32 else R j

theorem pay17_apply (x : S16.Idx) : (k1_pay17 (F := F)) x = z32 := rfl

theorem Φ1_step (k : Fin k1_t1_loop.trips) (g : Vec F S32768 .f32) (h : ∀ a, (k1_off1 k) a + S16.size a ≤ S32768.size a)
    (hg : Φ1 (F := F) k.val g) :
    Φ1 (F := F) (k.val + 1) ((a5V).view.writes (Elt F) g [⟨Rect.unit (k1_off1 k) S16.size h, k1_pay17⟩]) := by
  intro j hj
  have hr := View.read_writes_cons_unit (Val := Elt F) (a5V).view g h (k1_pay17 (F := F)) [] j (k1_off1_eq k)
  rw [show (a5V).view.read (Elt F) ((a5V).view.writes (Elt F) g [⟨Rect.unit (k1_off1 k) S16.size h, k1_pay17⟩]) j
      = ((a5V).view.writes (Elt F) g [⟨Rect.unit (k1_off1 k) S16.size h, k1_pay17⟩]) j from rfl] at hr
  rw [hr]
  split
  · rfl
  · rename_i hn
    have hlt : (j 0).val < 16 * k.val := by
      by_contra hc
      apply hn
      intro a
      match a with
      | 0 => exact ⟨by show 16 * k.val ≤ (j 0).val; omega, by show (j 0).val < 16 * k.val + 16; omega⟩
    exact hg j hlt

theorem Φ1_zero (g : Vec F S32768 .f32) : Φ1 (F := F) 0 g := by
  intro j hj; omega

theorem Φw_init (A g : Vec F S32768 .f32) (hg : Φ1 (F := F) 2048 g) : Φw (F := F) A 0 g := by
  intro j
  rw [if_neg (by omega)]
  have hj : (j 0).val < 32768 := (j 0).isLt
  exact hg j (by show (j 0).val < 16 * 2048; omega)

theorem Φz_zero (R : Vec F S32768 .f32) : Φz (F := F) R 0 R := by
  intro j
  rw [if_neg (by omega)]

theorem Φz_step (k : Fin k1_t3_loop.trips) (R g : Vec F S32768 .f32)
    (h4 : ∀ a, (k1_off4 k) a + S16.size a ≤ S32768.size a) (h3 : ∀ a, (k1_off3 k) a + S16.size a ≤ S32768.size a)
    (hg : Φz (F := F) R k.val g) :
    Φz (F := F) R (k.val + 1)
      ((a5V).view.writes (Elt F) g [⟨Rect.unit (k1_off4 k) S16.size h4, k1_pay17⟩, ⟨Rect.unit (k1_off3 k) S16.size h3, k1_pay17⟩]) := by
  intro j
  have hk : k.val < 256 := Nat.lt_of_lt_of_le k.isLt k1_t3_abs.2.1
  have hr4 := View.read_writes_cons_unit (Val := Elt F) (a5V).view g h4 (k1_pay17 (F := F))
    [⟨Rect.unit (k1_off3 k) S16.size h3, k1_pay17⟩] j (k1_off4_eq k)
  have hr3 := View.read_writes_cons_unit (Val := Elt F) (a5V).view g h3 (k1_pay17 (F := F)) [] j (k1_off3_eq k)
  rw [show (a5V).view.read (Elt F) ((a5V).view.writes (Elt F) g [⟨Rect.unit (k1_off4 k) S16.size h4, k1_pay17⟩, ⟨Rect.unit (k1_off3 k) S16.size h3, k1_pay17⟩]) j
      = ((a5V).view.writes (Elt F) g [⟨Rect.unit (k1_off4 k) S16.size h4, k1_pay17⟩, ⟨Rect.unit (k1_off3 k) S16.size h3, k1_pay17⟩]) j from rfl] at hr4
  rw [hr4]
  have hgj := hg j
  split
  · rename_i hin
    have h0 := hin 0
    have h1 : 128 * k.val + 16 ≤ (j 0).val := h0.1
    have h2 : (j 0).val < 128 * k.val + 16 + 16 := h0.2
    rw [if_pos ⟨by omega, by omega⟩]
    rfl
  · rename_i hn4
    rw [hr3]
    split
    · rename_i hin
      have h0 := hin 0
      have h1 : 128 * k.val ≤ (j 0).val := h0.1
      have h2 : (j 0).val < 128 * k.val + 16 := h0.2
      rw [if_pos ⟨by omega, by omega⟩]
      rfl
    · rename_i hn3
      show g j = _
      rw [hgj]
      have hout : ¬ (128 * k.val ≤ (j 0).val ∧ (j 0).val < 128 * k.val + 32) := by
        intro ⟨hlo, hhi⟩
        by_cases hc : (j 0).val < 128 * k.val + 16
        · exact hn3 fun a => match a with | 0 => ⟨hlo, hc⟩
        · exact hn4 fun a => match a with | 0 => ⟨by show 128 * k.val + 16 ≤ (j 0).val; omega, by show (j 0).val < 128 * k.val + 16 + 16; omega⟩
      by_cases hc : (j 0).val / 128 < k.val ∧ (j 0).val % 128 < 32
      · rw [if_pos hc, if_pos ⟨by omega, hc.2⟩]
      · rw [if_neg hc, if_neg]
        intro ⟨hl, hm⟩
        apply hc
        refine ⟨?_, hm⟩
        by_contra hge
        apply hout
        omega

/-- A word beyond node 30 of a row is never visited: the routed row is zero there. -/
theorem routeRow_high (row : ℕ → F .f32) (n : ℕ) (hn : 31 ≤ n) : routeRow row n = z32 := by
  unfold routeRow
  rw [if_neg]
  intro h
  obtain ⟨l, hl, rfl⟩ := (onPath_iff row n).mp h
  have h1 := pathN_le row l
  have h2 : 2 ^ (l + 1) ≤ 2 ^ 5 := Nat.pow_le_pow_right (by decide) (by omega)
  omega

/-- After the re-zeroing pass over all 256 rows, the routed chunk is all zero. -/
theorem Φw_of_Φz (A A' R g : Vec F S32768 .f32) (hR : Φw (F := F) A 16 R) (hg : Φz (F := F) R 256 g) : Φw (F := F) A' 0 g := by
  intro j
  rw [if_neg (by omega), hg j]
  have hj : (j 0).val < 32768 := (j 0).isLt
  by_cases hm : (j 0).val % 128 < 32
  · rw [if_pos ⟨by omega, hm⟩]
  · rw [if_neg (fun h => hm h.2), hR j, if_pos (by omega)]
    exact routeRow_high _ _ (by omega)

/-- A chunk of 32768 words at a multiple of 32768 routes as those rows of the whole array do. -/
theorem routeV_chunk (Lf : (⟨1, ![2097152]⟩ : Shape).Idx → F .f32) (A : (⟨1, ![32768]⟩ : Shape).Idx → F .f32) (q : ℕ) (hq : q < 64)
    (hA : ∀ x : (⟨1, ![32768]⟩ : Shape).Idx, A x = rdW Lf (32768 * q + (x 0).val))
    (x : (⟨1, ![32768]⟩ : Shape).Idx) (j : (⟨1, ![2097152]⟩ : Shape).Idx) (hj : (j 0).val = 32768 * q + (x 0).val) :
    routeV (F := F) A x = routeV (F := F) Lf j := by
  have hx : (x 0).val < 32768 := (x 0).isLt
  unfold routeV
  rw [hj, show (32768 * q + (x 0).val) / 128 = 256 * q + (x 0).val / 128 by omega,
    show (32768 * q + (x 0).val) % 128 = (x 0).val % 128 by omega]
  congr 1
  funext n
  unfold rowOf
  have hm : 128 * ((x 0).val / 128) + n % 128 < 32768 := by omega
  rw [show rdW A (128 * ((x 0).val / 128) + n % 128) = A (ix1 ⟨128 * ((x 0).val / 128) + n % 128, hm⟩) from dif_pos hm, hA]
  congr 1
  show 32768 * q + (128 * ((x 0).val / 128) + n % 128) = 128 * (256 * q + (x 0).val / 128) + n % 128
  omega

end Val

end Cert.Proof.KI

end
-- ==== Proof.IScRLanes.lean ====
/-
  Two facts about the routing walk's vectors of sixteen lanes.  An indexed store without mask or accumulation whose
  lanes name distinct elements writes lane `k`'s value at the element lane `k` names and leaves every other element.
  The walk's index vectors, lane by lane, are the first word of row `16 k + lane` plus a node: the node starts at zero
  and goes to `2 n + 1`, plus one where the word read is positive, so it stays below 128 and the index below the
  32768 words of the chunk; as 32-bit words nothing wraps.
-/
import proofs.«207443_g73169062855234_cont_9to1c4b_643_41_alg».proof.Proof.IScPure

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## An indexed store whose lanes name distinct elements -/

section StoreIdx

variable {s : Shape} {e : EltTy} {dd : Fin 1 → Nat}

theorem idx_ext_iff {j i : s.Idx} : (∀ a, (j a).val = (i a).val) ↔ j = i :=
  ⟨fun h => funext fun a => Fin.ext (h a), fun h a => by rw [h]⟩

/-- One lane of an unmasked indexed store without accumulation. -/
def laneStore (idxs : Fin s.rank → IVec ⟨1, dd⟩ 32) (v : Vec F ⟨1, dd⟩ e) (h : ∀ a x, (idxs a x).toNat < s.size a)
    (g : Vec F s e) (k : Fin (dd 0)) : Vec F s e :=
  fun j => if (∀ a, (j a).val = ((idxAt idxs h (Shape.ofLane k)) a).val) then v (Shape.ofLane k) else g j

theorem storeIdx_eq_foldl (f : Vec F s e) (idxs : Fin s.rank → IVec ⟨1, dd⟩ 32) (v : Vec F ⟨1, dd⟩ e)
    (h : ∀ a x, (idxs a x).toNat < s.size a) :
    storeIdx f idxs v (fun _ => 1#1) false h = (List.finRange (dd 0)).foldl (laneStore idxs v h) f := by
  unfold storeIdx
  congr 1
  funext g k
  simp
  rfl

theorem foldl_laneStore_miss (idxs : Fin s.rank → IVec ⟨1, dd⟩ 32) (v : Vec F ⟨1, dd⟩ e) (h : ∀ a x, (idxs a x).toNat < s.size a) (j : s.Idx) :
    ∀ (l : List (Fin (dd 0))) (g : Vec F s e), (∀ k ∈ l, idxAt idxs h (Shape.ofLane k) ≠ j) → (l.foldl (laneStore idxs v h) g) j = g j
  | [], g, _ => rfl
  | k :: l, g, hm => by
    rw [List.foldl_cons, foldl_laneStore_miss idxs v h j l _ fun k' hk' => hm k' (List.mem_cons_of_mem _ hk')]
    unfold laneStore
    rw [if_neg]
    intro hji
    exact hm k (List.mem_cons_self ..) (idx_ext_iff.mp hji).symm

theorem foldl_laneStore_hit (idxs : Fin s.rank → IVec ⟨1, dd⟩ 32) (v : Vec F ⟨1, dd⟩ e) (h : ∀ a x, (idxs a x).toNat < s.size a)
    (hinj : ∀ k k' : Fin (dd 0), idxAt idxs h (Shape.ofLane k) = idxAt idxs h (Shape.ofLane k') → k = k') (k : Fin (dd 0)) :
    ∀ (l : List (Fin (dd 0))) (g : Vec F s e), l.Nodup → k ∈ l →
      (l.foldl (laneStore idxs v h) g) (idxAt idxs h (Shape.ofLane k)) = v (Shape.ofLane k)
  | [], _, _, hk => absurd hk (List.not_mem_nil)
  | k0 :: l, g, hnd, hk => by
    rw [List.foldl_cons]
    rcases List.mem_cons.mp hk with rfl | hk'
    · rw [foldl_laneStore_miss idxs v h _ l _ fun k' hk' e' => (List.nodup_cons.mp hnd).1 (hinj k' k e' ▸ hk')]
      unfold laneStore
      rw [if_pos fun a => rfl]
    · exact foldl_laneStore_hit idxs v h hinj k l _ (List.nodup_cons.mp hnd).2 hk'

/-- Distinct lanes: the element lane `k` names takes lane `k`'s value. -/
theorem storeIdx_hit (f : Vec F s e) (idxs : Fin s.rank → IVec ⟨1, dd⟩ 32) (v : Vec F ⟨1, dd⟩ e) (h : ∀ a x, (idxs a x).toNat < s.size a)
    (hinj : ∀ k k' : Fin (dd 0), idxAt idxs h (Shape.ofLane k) = idxAt idxs h (Shape.ofLane k') → k = k') (k : Fin (dd 0)) :
    storeIdx f idxs v (fun _ => 1#1) false h (idxAt idxs h (Shape.ofLane k)) = v (Shape.ofLane k) := by
  rw [storeIdx_eq_foldl]
  exact foldl_laneStore_hit idxs v h hinj k _ f (List.nodup_finRange _) (List.mem_finRange k)

/-- An element no lane names keeps its value. -/
theorem storeIdx_miss (f : Vec F s e) (idxs : Fin s.rank → IVec ⟨1, dd⟩ 32) (v : Vec F ⟨1, dd⟩ e) (h : ∀ a x, (idxs a x).toNat < s.size a)
    (j : s.Idx) (hm : ∀ k : Fin (dd 0), idxAt idxs h (Shape.ofLane k) ≠ j) :
    storeIdx f idxs v (fun _ => 1#1) false h j = f j := by
  rw [storeIdx_eq_foldl]
  exact foldl_laneStore_miss idxs v h j _ f fun k _ => hm k

end StoreIdx

/-! ## The walk's index vectors, lane by lane -/

section Walk

/-- The sixteen lane numbers. -/
abbrev v4i : IVec S16 32 := iota .scVector S16 32 [0] iota_S16_d0_w32_scVector

/-- A lane's number. -/
abbrev ln (x : S16.Idx) : ℕ := (x 0).val
theorem ln_lt (x : S16.Idx) : ln x < 16 := (x 0).isLt

theorem v4i_apply (x : S16.Idx) : v4i x = BitVec.ofNat 32 (ln x) := by
  unfold v4i iota
  simp

/-- `b` holds, lane by lane, the first word of row `16 k + lane`. -/
def RowBase (b : IVec S16 32) (k : ℕ) : Prop := ∀ x, (b x).toNat = 128 * (16 * k + ln x)
/-- `n` holds, lane by lane, the node `N`. -/
def NodeIs (n : IVec S16 32) (N : S16.Idx → ℕ) : Prop := ∀ x, (n x).toNat = N x

theorem rowBase_t2 (k : Fin k1_t2_loop.trips) : RowBase (k1_pay1 v4i 0#32 1#32 k) k.val := by
  intro x
  have hk : k.val < 16 := Nat.lt_of_lt_of_le k.isLt k1_t2_abs.2.1
  have hx := ln_lt x
  unfold k1_pay1
  simp only [muli, addi, broadcast, IntOp.muli, IntOp.addi, Scalar.muli, Scf.iv, v4i_apply]
  simp only [BitVec.toNat_mul, BitVec.toNat_add, BitVec.toNat_ofNat]
  omega
theorem rowBase_t4 (k : Fin k1_t4_loop.trips) : RowBase (k1_pay9 v4i 0#32 1#32 k) k.val := by
  intro x
  have hk : k.val < 16 := Nat.lt_of_lt_of_le k.isLt k1_t4_abs.2.1
  have hx := ln_lt x
  unfold k1_pay9
  simp only [muli, addi, broadcast, IntOp.muli, IntOp.addi, Scalar.muli, Scf.iv, v4i_apply]
  simp only [BitVec.toNat_mul, BitVec.toNat_add, BitVec.toNat_ofNat]
  omega

/-- A row's base plus a node below 128 does not wrap. -/
theorem idx_toNat {b n : IVec S16 32} {k : ℕ} {N : S16.Idx → ℕ} (hb : RowBase b k) (hn : NodeIs n N) (hk : k < 16) (hN : ∀ x, N x < 128)
    (x : S16.Idx) : (addi b n x).toNat = 128 * (16 * k + ln x) + N x := by
  have h1 := hb x; have h2 := hn x; have h3 := hN x; have hx := ln_lt x
  simp only [addi, IntOp.addi, BitVec.toNat_add, h1, h2]
  omega

theorem idx_inb {b n : IVec S16 32} {k : ℕ} {N : S16.Idx → ℕ} (hb : RowBase b k) (hn : NodeIs n N) (hk : k < 16) (hN : ∀ x, N x < 128) :
    ∀ a x, ((![addi b n] : Fin 1 → IVec S16 32) a x).toNat < S32768.size a := by
  intro a x
  match a with
  | 0 =>
    show (addi b n x).toNat < 32768
    rw [idx_toNat hb hn hk hN]
    have h3 := hN x; have hx := ln_lt x
    omega

/-- The next node: twice the node plus one, plus one more where the word read is positive. -/
def nxt (n : IVec S16 32) (v : Vec F S16 .f32) : IVec S16 32 :=
  addi (addi (muli (broadcast S16 2#32) n) (broadcast S16 1#32))
    (extui 32 (cmpf .ogt v (broadcast S16 (FloatOps.ofBits .f32 0#32))) natLt_1_32)

theorem nxt_node {n : IVec S16 32} {N : S16.Idx → ℕ} (hn : NodeIs n N) (hN : ∀ x, N x < 128) (v : Vec F S16 .f32) :
    NodeIs (nxt n v) fun x => 2 * N x + 1 + posBit (v x) := by
  intro x
  have h2 := hn x; have h3 := hN x
  have hb : posBit (v x) ≤ 1 := posBit_le_one _
  unfold nxt posBit z32 at *
  simp only [addi, muli, broadcast, extui, cmpf, IntOp.addi, IntOp.muli, BitVec.toNat_add, BitVec.toNat_mul, BitVec.toNat_ofNat,
    BitVec.toNat_setWidth, h2] at *
  omega

end Walk

/-! ## The walk's payloads as steps of the node, and the index checks -/

section Checks

theorem pay2_eq : k1_pay2 = broadcast S16 (0#32 : BitVec 32) := rfl
theorem pay10_eq : k1_pay10 = broadcast S16 (0#32 : BitVec 32) := rfl
theorem pay4_eq (v18 : Vec F S16 .f32) : k1_pay4 v18 = nxt k1_pay2 v18 := rfl
theorem pay6_eq (v18 v30 : Vec F S16 .f32) : k1_pay6 v18 v30 = nxt (k1_pay4 v18) v30 := rfl
theorem pay18_eq (v18 v30 v42 : Vec F S16 .f32) :
    k1_pay18 v42 (k1_pay8 v18 v30) (FloatOps.ofBits .f32 0#32) = nxt (k1_pay6 v18 v30) v42 := rfl
theorem pay20_eq (b : IVec S16 32) (v18 v30 v42 v54 : Vec F S16 .f32) :
    k1_pay20 b v42 (k1_pay8 v18 v30) (FloatOps.ofBits .f32 0#32) v54
      = addi b (nxt (k1_pay18 v42 (k1_pay8 v18 v30) (FloatOps.ofBits .f32 0#32)) v54) := rfl
theorem pay12_eq (v18 : Vec F S16 .f32) : k1_pay12 v18 = nxt k1_pay10 v18 := rfl
theorem pay14_eq (v18 v30 : Vec F S16 .f32) : k1_pay14 v18 v30 = nxt (k1_pay12 v18) v30 := rfl
theorem pay22_eq (v18 v30 v42 : Vec F S16 .f32) :
    k1_pay22 v42 (k1_pay16 v18 v30) (FloatOps.ofBits .f32 0#32) = nxt (k1_pay14 v18 v30) v42 := rfl
theorem pay24_eq (b : IVec S16 32) (v18 v30 v42 v54 : Vec F S16 .f32) :
    k1_pay24 b v42 (k1_pay16 v18 v30) (FloatOps.ofBits .f32 0#32) v54
      = addi b (nxt (k1_pay22 v42 (k1_pay16 v18 v30) (FloatOps.ofBits .f32 0#32)) v54) := rfl

/-- Every lane's node is at most `B`. -/
def NodeLe (n : IVec S16 32) (B : ℕ) : Prop := ∀ x, (n x).toNat ≤ B

theorem nodeLe_zero : NodeLe (broadcast S16 (0#32 : BitVec 32)) 0 := fun _ => Nat.le_refl 0

/-- A step from nodes at most `B` ends at nodes at most `2 B + 2`. -/
theorem nxt_le {n : IVec S16 32} {B : ℕ} (hn : NodeLe n B) (hB : B < 128) (v : Vec F S16 .f32) : NodeLe (nxt n v) (2 * B + 2) := by
  intro x
  have h : (nxt n v x).toNat = 2 * (n x).toNat + 1 + posBit (v x) :=
    nxt_node (n := n) (N := fun x => (n x).toNat) (fun _ => rfl) (fun x => Nat.lt_of_le_of_lt (hn x) hB) v x
  have hb : posBit (v x) ≤ 1 := posBit_le_one _
  have hx := hn x
  rw [h]; omega

theorem idx_inb_le {b n : IVec S16 32} {k B : ℕ} (hb : RowBase b k) (hk : k < 16) (hn : NodeLe n B) (hB : B < 128) :
    ∀ a x, ((![addi b n] : Fin 1 → IVec S16 32) a x).toNat < S32768.size a :=
  idx_inb (N := fun x => (n x).toNat) hb (fun _ => rfl) hk fun x => Nat.lt_of_le_of_lt (hn x) hB

theorem t2_lt (k : Fin k1_t2_loop.trips) : k.val < 16 := Nat.lt_of_lt_of_le k.isLt k1_t2_abs.2.1
theorem t4_lt (k : Fin k1_t4_loop.trips) : k.val < 16 := Nat.lt_of_lt_of_le k.isLt k1_t4_abs.2.1

theorem le_pay2 : NodeLe k1_pay2 0 := nodeLe_zero
theorem le_pay4 (v18 : Vec F S16 .f32) : NodeLe (k1_pay4 v18) 2 := nxt_le le_pay2 (by decide) v18
theorem le_pay6 (v18 v30 : Vec F S16 .f32) : NodeLe (k1_pay6 v18 v30) 6 := nxt_le (le_pay4 v18) (by decide) v30
theorem le_pay18 (v18 v30 v42 : Vec F S16 .f32) :
    NodeLe (k1_pay18 v42 (k1_pay8 v18 v30) (FloatOps.ofBits .f32 0#32)) 14 := nxt_le (le_pay6 v18 v30) (by decide) v42
theorem le_nxt18 (v18 v30 v42 v54 : Vec F S16 .f32) :
    NodeLe (nxt (k1_pay18 v42 (k1_pay8 v18 v30) (FloatOps.ofBits .f32 0#32)) v54) 30 := nxt_le (le_pay18 v18 v30 v42) (by decide) v54
theorem le_pay10 : NodeLe k1_pay10 0 := nodeLe_zero
theorem le_pay12 (v18 : Vec F S16 .f32) : NodeLe (k1_pay12 v18) 2 := nxt_le le_pay10 (by decide) v18
theorem le_pay14 (v18 v30 : Vec F S16 .f32) : NodeLe (k1_pay14 v18 v30) 6 := nxt_le (le_pay12 v18) (by decide) v30
theorem le_pay22 (v18 v30 v42 : Vec F S16 .f32) :
    NodeLe (k1_pay22 v42 (k1_pay16 v18 v30) (FloatOps.ofBits .f32 0#32)) 14 := nxt_le (le_pay14 v18 v30) (by decide) v42
theorem le_nxt22 (v18 v30 v42 v54 : Vec F S16 .f32) :
    NodeLe (nxt (k1_pay22 v42 (k1_pay16 v18 v30) (FloatOps.ofBits .f32 0#32)) v54) 30 := nxt_le (le_pay22 v18 v30 v42) (by decide) v54

theorem chk1_ok (k : Fin k1_t2_loop.trips) : k1_chk1 (addi (k1_pay1 v4i 0#32 1#32 k) k1_pay2) := by
  have h := idx_inb_le (rowBase_t2 k) (t2_lt k) le_pay2 (by decide)
  exact ⟨h, h⟩
theorem chk2_ok (k : Fin k1_t2_loop.trips) (v18 : Vec F S16 .f32) : k1_chk2 (addi (k1_pay1 v4i 0#32 1#32 k) (k1_pay4 v18)) := by
  have h := idx_inb_le (rowBase_t2 k) (t2_lt k) (le_pay4 v18) (by decide)
  exact ⟨h, h⟩
theorem chk3_ok (k : Fin k1_t2_loop.trips) (v18 v30 : Vec F S16 .f32) : k1_chk3 (addi (k1_pay1 v4i 0#32 1#32 k) (k1_pay6 v18 v30)) := by
  have h := idx_inb_le (rowBase_t2 k) (t2_lt k) (le_pay6 v18 v30) (by decide)
  exact ⟨h, h⟩
theorem chk4_ok (k : Fin k1_t2_loop.trips) (v18 v30 v42 : Vec F S16 .f32) :
    k1_chk4 (addi (k1_pay1 v4i 0#32 1#32 k) (k1_pay18 v42 (k1_pay8 v18 v30) (FloatOps.ofBits .f32 0#32))) := by
  have h := idx_inb_le (rowBase_t2 k) (t2_lt k) (le_pay18 v18 v30 v42) (by decide)
  exact ⟨h, h⟩
theorem chk5_ok (k : Fin k1_t2_loop.trips) (v18 v30 v42 v54 : Vec F S16 .f32) :
    k1_chk5 (k1_pay20 (k1_pay1 v4i 0#32 1#32 k) v42 (k1_pay8 v18 v30) (FloatOps.ofBits .f32 0#32) v54) := by
  rw [pay20_eq]
  have h := idx_inb_le (rowBase_t2 k) (t2_lt k) (le_nxt18 v18 v30 v42 v54) (by decide)
  exact ⟨h, h⟩
theorem chk6_ok (k : Fin k1_t4_loop.trips) : k1_chk6 (addi (k1_pay9 v4i 0#32 1#32 k) k1_pay10) := by
  have h := idx_inb_le (rowBase_t4 k) (t4_lt k) le_pay10 (by decide)
  exact ⟨h, h⟩
theorem chk7_ok (k : Fin k1_t4_loop.trips) (v18 : Vec F S16 .f32) : k1_chk7 (addi (k1_pay9 v4i 0#32 1#32 k) (k1_pay12 v18)) := by
  have h := idx_inb_le (rowBase_t4 k) (t4_lt k) (le_pay12 v18) (by decide)
  exact ⟨h, h⟩
theorem chk8_ok (k : Fin k1_t4_loop.trips) (v18 v30 : Vec F S16 .f32) : k1_chk8 (addi (k1_pay9 v4i 0#32 1#32 k) (k1_pay14 v18 v30)) := by
  have h := idx_inb_le (rowBase_t4 k) (t4_lt k) (le_pay14 v18 v30) (by decide)
  exact ⟨h, h⟩
theorem chk9_ok (k : Fin k1_t4_loop.trips) (v18 v30 v42 : Vec F S16 .f32) :
    k1_chk9 (addi (k1_pay9 v4i 0#32 1#32 k) (k1_pay22 v42 (k1_pay16 v18 v30) (FloatOps.ofBits .f32 0#32))) := by
  have h := idx_inb_le (rowBase_t4 k) (t4_lt k) (le_pay22 v18 v30 v42) (by decide)
  exact ⟨h, h⟩
theorem chk10_ok (k : Fin k1_t4_loop.trips) (v18 v30 v42 v54 : Vec F S16 .f32) :
    k1_chk10 (k1_pay24 (k1_pay9 v4i 0#32 1#32 k) v42 (k1_pay16 v18 v30) (FloatOps.ofBits .f32 0#32) v54) := by
  rw [pay24_eq]
  have h := idx_inb_le (rowBase_t4 k) (t4_lt k) (le_nxt22 v18 v30 v42 v54) (by decide)
  exact ⟨h, h⟩

theorem trips1 : Scf.trips k1_t1_loop.lb k1_t1_loop.ub k1_t1_loop.st = 2048 := by decide
theorem trips2 : Scf.trips k1_t2_loop.lb k1_t2_loop.ub k1_t2_loop.st = 16 := by decide
theorem trips3 : Scf.trips k1_t3_loop.lb k1_t3_loop.ub k1_t3_loop.st = 256 := by decide
theorem trips4 : Scf.trips k1_t4_loop.lb k1_t4_loop.ub k1_t4_loop.st = 16 := by decide

end Checks

end Cert.Proof.KI

end
-- ==== Proof.IScRWalk.lean ====
/-
  One trip of the routing walk.  Sixteen lanes walk sixteen consecutive rows of 128 words: row `16 k + lane`.  At
  each of the five levels a lane reads the word at its node, stores the word rectified at the same place of the
  routed array, and moves to child `2 n + 1`, or `2 n + 2` where the word is positive; so lane by lane the node at
  level `l` is the row's path node `pathN row l`.  Lanes lie in distinct rows, hence name distinct elements, and a
  level's store writes exactly the sixteen places `128 · row + pathN row l`.  From an array that holds the routed
  rows below row `16 k` and zero elsewhere, the five stores leave the routed rows below row `16 (k + 1)` and zero
  elsewhere: a place of one of the sixteen rows is written iff it is on the row's path, with the rectified word.
-/
import proofs.«207443_g73169062855234_cont_9to1c4b_643_41_alg».proof.Proof.IScRLanes
import proofs.«207443_g73169062855234_cont_9to1c4b_643_41_alg».proof.Proof.IScVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The element a lane names -/

section Lanes

/-- The index vector's words are inside the chunk of 32768 words. -/
abbrev Inb (i : IVec S16 32) : Prop := ∀ a x, ((![i] : Fin 1 → IVec S16 32) a x).toNat < S32768.size a

theorem ln_ofLane (l : Fin 16) : ln (Shape.ofLane (d := ![16]) l : S16.Idx) = l.val := rfl

/-- The element lane `x` names: word `node` of row `16 k + lane`. -/
theorem idxAt_val {b n : IVec S16 32} {k : ℕ} {N : S16.Idx → ℕ} (hb : RowBase b k) (hk : k < 16) (hn : NodeIs n N) (hN : ∀ x, N x < 128)
    (h : Inb (addi b n)) (x : S16.Idx) :
    ((idxAt (s := S32768) (![addi b n] : Fin 1 → IVec S16 32) h x) 0).val = 128 * (16 * k + ln x) + N x :=
  idx_toNat hb hn hk hN x

/-- Distinct lanes name distinct elements: they lie in distinct rows. -/
theorem lanes_inj {b n : IVec S16 32} {k : ℕ} {N : S16.Idx → ℕ} (hb : RowBase b k) (hk : k < 16) (hn : NodeIs n N) (hN : ∀ x, N x < 128)
    (h : Inb (addi b n)) (l l' : Fin 16)
    (e : idxAt (s := S32768) (![addi b n] : Fin 1 → IVec S16 32) h (Shape.ofLane (d := ![16]) l)
      = idxAt (s := S32768) (![addi b n] : Fin 1 → IVec S16 32) h (Shape.ofLane (d := ![16]) l')) : l = l' := by
  have e0 := congrArg (fun i : S32768.Idx => (i 0).val) e
  simp only [idxAt_val hb hk hn hN h, ln_ofLane] at e0
  have h1 := hN (Shape.ofLane (d := ![16]) l); have h2 := hN (Shape.ofLane (d := ![16]) l')
  exact Fin.ext (by omega)

end Lanes

/-! ## One level: sixteen words read, rectified, stored at the same places -/

section Level

/-- The rectification of sixteen words. -/
def relu16 (v : Vec F S16 .f32) : Vec F S16 .f32 := maximumf v (broadcast S16 (FloatOps.ofBits .f32 0#32))

/-- The sixteen words at the index vector's places. -/
def ld (A : Vec F S32768 .f32) (i : IVec S16 32) (h : Inb i) : Vec F S16 .f32 := loadIdx (F := F) (e := .f32) A ![i] h

/-- The array after a level: the rectified words stored at the places they were read from. -/
def st (A g : Vec F S32768 .f32) (i : IVec S16 32) (h h' : Inb i) : Vec F S32768 .f32 :=
  storeIdx (F := F) (e := .f32) g ![i] (relu16 (ld A i h)) (fun _ => 1#1) false h'

theorem relu16_apply (v : Vec F S16 .f32) (x : S16.Idx) : relu16 v x = FloatOps.maximumf (v x) (z32 (F := F)) := rfl

/-- The word a lane reads: word `N` of its row. -/
theorem ld_apply {b n : IVec S16 32} {k : ℕ} {N : S16.Idx → ℕ} (hb : RowBase b k) (hk : k < 16) (hn : NodeIs n N) (hN : ∀ x, N x < 128)
    (A : Vec F S32768 .f32) (h : Inb (addi b n)) (x : S16.Idx) :
    ld A (addi b n) h x = rowOf A (16 * k + ln x) (N x) := by
  have hx := ln_lt x; have hNx := hN x
  have hlt : 128 * (16 * k + ln x) + N x < 32768 := by omega
  have hi : idxAt (s := S32768) (![addi b n] : Fin 1 → IVec S16 32) h x = ix1 ⟨128 * (16 * k + ln x) + N x, hlt⟩ :=
    idx_ext_iff.mp fun a => match a with | 0 => idxAt_val hb hk hn hN h x
  unfold ld loadIdx
  rw [hi]
  unfold rowOf rdW
  rw [Nat.mod_eq_of_lt hNx, dif_pos hlt]

/-- After a level, an element holds the rectified word if some lane names it, and what it held otherwise. -/
theorem st_apply {b n : IVec S16 32} {k : ℕ} {N : S16.Idx → ℕ} (hb : RowBase b k) (hk : k < 16) (hn : NodeIs n N) (hN : ∀ x, N x < 128)
    (A g : Vec F S32768 .f32) (h h' : Inb (addi b n)) (j : S32768.Idx) :
    st A g (addi b n) h h' j
      = if ∃ l : Fin 16, (j 0).val = 128 * (16 * k + l.val) + N (Shape.ofLane (d := ![16]) l)
          then FloatOps.maximumf (A j) (z32 (F := F)) else g j := by
  unfold st
  split
  · next hex =>
    obtain ⟨l, hl⟩ := hex
    have hj : idxAt (s := S32768) (![addi b n] : Fin 1 → IVec S16 32) h' (Shape.ofLane (d := ![16]) l) = j :=
      idx_ext_iff.mp fun a => match a with | 0 => (idxAt_val hb hk hn hN h' _).trans hl.symm
    have hj' : idxAt (s := S32768) (![addi b n] : Fin 1 → IVec S16 32) h (Shape.ofLane (d := ![16]) l) = j := hj
    rw [← hj, storeIdx_hit g _ _ h' (lanes_inj hb hk hn hN h') l, relu16_apply]
    unfold ld loadIdx
    rw [hj']
  · next hne =>
    refine storeIdx_miss g _ _ h' j fun l hl => hne ⟨l, ?_⟩
    have := idxAt_val hb hk hn hN h' (Shape.ofLane (d := ![16]) l)
    rw [hl] at this
    exact this

end Level

/-! ## One trip -/

section Trip

variable (A : Vec F S32768 .f32) (k : ℕ)

/-- The node lane `x`'s row visits at level `l`. -/
abbrev Nl (l : ℕ) (x : S16.Idx) : ℕ := pathN (rowOf A (16 * k + ln x)) l

theorem Nl_lt (l : ℕ) (hl : l ≤ 4) (x : S16.Idx) : Nl A k l x < 128 := by
  have h := pathN_le (rowOf A (16 * k + ln x)) l
  have : 2 ^ (l + 1) ≤ 2 ^ 5 := Nat.pow_le_pow_right (by decide) (by omega)
  show pathN _ l < 128
  omega

/-- A step of the node vector follows the rows' paths. -/
theorem nodeIs_succ {b n : IVec S16 32} (hb : RowBase b k) (hk : k < 16) (l : ℕ) (hl : l ≤ 4) (hn : NodeIs n (Nl A k l))
    (h : Inb (addi b n)) : NodeIs (nxt n (ld A (addi b n) h)) (Nl A k (l + 1)) := by
  intro x
  have e : (nxt n (ld A (addi b n) h) x).toNat = 2 * Nl A k l x + 1 + posBit (ld A (addi b n) h x) :=
    nxt_node hn (Nl_lt A k l hl) (ld A (addi b n) h) x
  rw [e, ld_apply hb hk hn (Nl_lt A k l hl) A h x]
  rfl

/-- A level's places, row by row: the row's path node at that level. -/
theorem hit_iff (l : ℕ) (hl : l ≤ 4) (j : S32768.Idx) :
    (∃ κ : Fin 16, (j 0).val = 128 * (16 * k + κ.val) + Nl A k l (Shape.ofLane (d := ![16]) κ))
      ↔ (16 * k ≤ (j 0).val / 128 ∧ (j 0).val / 128 < 16 * k + 16 ∧ (j 0).val % 128 = pathN (rowOf A ((j 0).val / 128)) l) := by
  constructor
  · rintro ⟨κ, hκ⟩
    have hN := Nl_lt A k l hl (Shape.ofLane (d := ![16]) κ)
    have hκl := κ.isLt
    have hr : (j 0).val / 128 = 16 * k + κ.val := by omega
    have hm : (j 0).val % 128 = Nl A k l (Shape.ofLane (d := ![16]) κ) := by omega
    refine ⟨by omega, by omega, ?_⟩
    rw [hm, hr]
    rfl
  · rintro ⟨h1, h2, h3⟩
    refine ⟨⟨(j 0).val / 128 - 16 * k, by omega⟩, ?_⟩
    have hr : 16 * k + ((j 0).val / 128 - 16 * k) = (j 0).val / 128 := by omega
    show (j 0).val = 128 * (16 * k + ((j 0).val / 128 - 16 * k)) + pathN (rowOf A (16 * k + ((j 0).val / 128 - 16 * k))) l
    rw [hr, ← h3]
    omega

/-- The word of a row at a place of the chunk. -/
theorem rowOf_at (j : S32768.Idx) : rowOf A ((j 0).val / 128) ((j 0).val % 128) = A j := by
  unfold rowOf rdW
  have hj : (j 0).val < 32768 := (j 0).isLt
  have e : 128 * ((j 0).val / 128) + (j 0).val % 128 % 128 = (j 0).val := by omega
  rw [dif_pos (by omega)]
  congr 1
  funext a; match a with | ⟨0, _⟩ => exact Fin.ext e

theorem ite5 {α : Type} (c0 c1 c2 c3 c4 : Prop) [Decidable c0] [Decidable c1] [Decidable c2] [Decidable c3] [Decidable c4] (M z : α) :
    (if c4 then M else if c3 then M else if c2 then M else if c1 then M else if c0 then M else z)
      = if (c0 ∨ c1 ∨ c2 ∨ c3 ∨ c4) then M else z := by
  by_cases h4 : c4 <;> by_cases h3 : c3 <;> by_cases h2 : c2 <;> by_cases h1 : c1 <;> by_cases h0 : c0 <;> simp [*]

/-- Five levels from the root over sixteen rows: the rows routed, everything else as it was. -/
theorem walk_core (g : Vec F S32768 .f32) (hk : k < 16) (b : IVec S16 32) (hb : RowBase b k) (hg : Φw (F := F) A k g)
    (n0 n1 n2 n3 n4 : IVec S16 32)
    (h0 h0' : Inb (addi b n0)) (h1 h1' : Inb (addi b n1)) (h2 h2' : Inb (addi b n2)) (h3 h3' : Inb (addi b n3)) (h4 h4' : Inb (addi b n4))
    (e0 : n0 = broadcast S16 (0#32 : BitVec 32))
    (e1 : n1 = nxt n0 (ld A (addi b n0) h0)) (e2 : n2 = nxt n1 (ld A (addi b n1) h1))
    (e3 : n3 = nxt n2 (ld A (addi b n2) h2)) (e4 : n4 = nxt n3 (ld A (addi b n3) h3)) :
    Φw (F := F) A (k + 1)
      (st A (st A (st A (st A (st A g (addi b n0) h0 h0') (addi b n1) h1 h1') (addi b n2) h2 h2') (addi b n3) h3 h3') (addi b n4) h4 h4') := by
  have hn0 : NodeIs n0 (Nl A k 0) := by subst e0; intro x; rfl
  have hn1 : NodeIs n1 (Nl A k 1) := by subst e1; exact nodeIs_succ A k hb hk 0 (by decide) hn0 h0
  have hn2 : NodeIs n2 (Nl A k 2) := by subst e2; exact nodeIs_succ A k hb hk 1 (by decide) hn1 h1
  have hn3 : NodeIs n3 (Nl A k 3) := by subst e3; exact nodeIs_succ A k hb hk 2 (by decide) hn2 h2
  have hn4 : NodeIs n4 (Nl A k 4) := by subst e4; exact nodeIs_succ A k hb hk 3 (by decide) hn3 h3
  intro j
  rw [st_apply hb hk hn4 (Nl_lt A k 4 (by decide)), st_apply hb hk hn3 (Nl_lt A k 3 (by decide)),
    st_apply hb hk hn2 (Nl_lt A k 2 (by decide)), st_apply hb hk hn1 (Nl_lt A k 1 (by decide)),
    st_apply hb hk hn0 (Nl_lt A k 0 (by decide)), hg j]
  simp only [hit_iff A k _ (by decide : (4 : ℕ) ≤ 4), hit_iff A k _ (by decide : (3 : ℕ) ≤ 4), hit_iff A k _ (by decide : (2 : ℕ) ≤ 4),
    hit_iff A k _ (by decide : (1 : ℕ) ≤ 4), hit_iff A k _ (by decide : (0 : ℕ) ≤ 4)]
  by_cases hr : 16 * k ≤ (j 0).val / 128 ∧ (j 0).val / 128 < 16 * k + 16
  · have c1 : ¬ (j 0).val / 128 < 16 * k := by omega
    have c2 : (j 0).val / 128 < 16 * (k + 1) := by omega
    simp only [hr.1, hr.2, true_and, c1, c2, if_true, if_false]
    unfold routeV routeRow onPath
    rw [rowOf_at]
    exact ite5 _ _ _ _ _ _ _
  · have c : ((j 0).val / 128 < 16 * (k + 1)) ↔ ((j 0).val / 128 < 16 * k) := by omega
    have f : ∀ p : Prop, ¬ (16 * k ≤ (j 0).val / 128 ∧ (j 0).val / 128 < 16 * k + 16 ∧ p) := fun p hp => hr ⟨hp.1, hp.2.1⟩
    simp only [f, if_false, c]

end Trip

/-! ## The two walks' trips, as the kernel spells them -/

section Trips

theorem walk_trip2 (A g : Vec F S32768 .f32) (k : Fin k1_t2_loop.trips) (hg : Φw (F := F) A k.val g) :
    Φw (F := F) A (k.val + 1)
      (let b := k1_pay1 v4i 0#32 1#32 k
       let i0 := addi b k1_pay2
       let l0 := loadIdx (F := F) (e := .f32) A ![i0] (chk1_ok k).1
       let i1 := addi b (k1_pay4 l0)
       let l1 := loadIdx (F := F) (e := .f32) A ![i1] (chk2_ok k l0).1
       let i2 := addi b (k1_pay6 l0 l1)
       let l2 := loadIdx (F := F) (e := .f32) A ![i2] (chk3_ok k l0 l1).1
       let i3 := addi b (k1_pay18 l2 (k1_pay8 l0 l1) (FloatOps.ofBits .f32 0#32))
       let l3 := loadIdx (F := F) (e := .f32) A ![i3] (chk4_ok k l0 l1 l2).1
       let i4 := k1_pay20 b l2 (k1_pay8 l0 l1) (FloatOps.ofBits .f32 0#32) l3
       let l4 := loadIdx (F := F) (e := .f32) A ![i4] (chk5_ok k l0 l1 l2 l3).1
       storeIdx (storeIdx (storeIdx (storeIdx (storeIdx g ![i0] (k1_pay3 l0) (fun _ => 1#1) false (chk1_ok k).2) ![i1] (k1_pay5 l1) (fun _ => 1#1) false (chk2_ok k l0).2)
         ![i2] (k1_pay7 l2) (fun _ => 1#1) false (chk3_ok k l0 l1).2) ![i3] (k1_pay19 l3) (fun _ => 1#1) false (chk4_ok k l0 l1 l2).2) ![i4] (k1_pay21 l4) (fun _ => 1#1) false (chk5_ok k l0 l1 l2 l3).2) := by
  have h := walk_core A k.val g (t2_lt k) (k1_pay1 v4i 0#32 1#32 k) (rowBase_t2 k) hg k1_pay2 (k1_pay4 (loadIdx (F := F) (e := .f32) A ![addi (k1_pay1 v4i 0#32 1#32 k) k1_pay2] (chk1_ok k).1)) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)) (k1_pay18 (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (k1_pay8 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)) (FloatOps.ofBits .f32 0#32))
    (nxt (k1_pay18 (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (k1_pay8 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)) (FloatOps.ofBits .f32 0#32)) (loadIdx (F := F) (e := .f32) A ![addi (k1_pay1 v4i 0#32 1#32 k) (k1_pay18 (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (k1_pay8 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)) (FloatOps.ofBits .f32 0#32))] (chk4_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1)).1))
    (chk1_ok k).1 (chk1_ok k).2 (chk2_ok k (loadIdx (F := F) (e := .f32) A ![addi (k1_pay1 v4i 0#32 1#32 k) k1_pay2] (chk1_ok k).1)).1 (chk2_ok k (loadIdx (F := F) (e := .f32) A ![addi (k1_pay1 v4i 0#32 1#32 k) k1_pay2] (chk1_ok k).1)).2 (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1 (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).2
    (chk4_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1)).1 (chk4_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1)).2 (chk5_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (loadIdx (F := F) (e := .f32) A ![addi (k1_pay1 v4i 0#32 1#32 k) (k1_pay18 (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (k1_pay8 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)) (FloatOps.ofBits .f32 0#32))] (chk4_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1)).1)).1 (chk5_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (loadIdx (F := F) (e := .f32) A ![addi (k1_pay1 v4i 0#32 1#32 k) (k1_pay18 (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (k1_pay8 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)) (FloatOps.ofBits .f32 0#32))] (chk4_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1)).1)).2
    rfl rfl rfl rfl rfl
  exact h

theorem walk_trip4 (A g : Vec F S32768 .f32) (k : Fin k1_t4_loop.trips) (hg : Φw (F := F) A k.val g) :
    Φw (F := F) A (k.val + 1)
      (let b := k1_pay9 v4i 0#32 1#32 k
       let i0 := addi b k1_pay10
       let l0 := loadIdx (F := F) (e := .f32) A ![i0] (chk6_ok k).1
       let i1 := addi b (k1_pay12 l0)
       let l1 := loadIdx (F := F) (e := .f32) A ![i1] (chk7_ok k l0).1
       let i2 := addi b (k1_pay14 l0 l1)
       let l2 := loadIdx (F := F) (e := .f32) A ![i2] (chk8_ok k l0 l1).1
       let i3 := addi b (k1_pay22 l2 (k1_pay16 l0 l1) (FloatOps.ofBits .f32 0#32))
       let l3 := loadIdx (F := F) (e := .f32) A ![i3] (chk9_ok k l0 l1 l2).1
       let i4 := k1_pay24 b l2 (k1_pay16 l0 l1) (FloatOps.ofBits .f32 0#32) l3
       let l4 := loadIdx (F := F) (e := .f32) A ![i4] (chk10_ok k l0 l1 l2 l3).1
       storeIdx (storeIdx (storeIdx (storeIdx (storeIdx g ![i0] (k1_pay11 l0) (fun _ => 1#1) false (chk6_ok k).2) ![i1] (k1_pay13 l1) (fun _ => 1#1) false (chk7_ok k l0).2)
         ![i2] (k1_pay15 l2) (fun _ => 1#1) false (chk8_ok k l0 l1).2) ![i3] (k1_pay23 l3) (fun _ => 1#1) false (chk9_ok k l0 l1 l2).2) ![i4] (k1_pay25 l4) (fun _ => 1#1) false (chk10_ok k l0 l1 l2 l3).2) := by
  have h := walk_core A k.val g (t4_lt k) (k1_pay9 v4i 0#32 1#32 k) (rowBase_t4 k) hg k1_pay10 (k1_pay12 (loadIdx (F := F) (e := .f32) A ![addi (k1_pay9 v4i 0#32 1#32 k) k1_pay10] (chk6_ok k).1)) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)) (k1_pay22 (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (k1_pay16 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)) (FloatOps.ofBits .f32 0#32))
    (nxt (k1_pay22 (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (k1_pay16 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)) (FloatOps.ofBits .f32 0#32)) (loadIdx (F := F) (e := .f32) A ![addi (k1_pay9 v4i 0#32 1#32 k) (k1_pay22 (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (k1_pay16 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)) (FloatOps.ofBits .f32 0#32))] (chk9_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1)).1))
    (chk6_ok k).1 (chk6_ok k).2 (chk7_ok k (loadIdx (F := F) (e := .f32) A ![addi (k1_pay9 v4i 0#32 1#32 k) k1_pay10] (chk6_ok k).1)).1 (chk7_ok k (loadIdx (F := F) (e := .f32) A ![addi (k1_pay9 v4i 0#32 1#32 k) k1_pay10] (chk6_ok k).1)).2 (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1 (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).2
    (chk9_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1)).1 (chk9_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1)).2 (chk10_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (loadIdx (F := F) (e := .f32) A ![addi (k1_pay9 v4i 0#32 1#32 k) (k1_pay22 (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (k1_pay16 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)) (FloatOps.ofBits .f32 0#32))] (chk9_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1)).1)).1 (chk10_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (loadIdx (F := F) (e := .f32) A ![addi (k1_pay9 v4i 0#32 1#32 k) (k1_pay22 (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (k1_pay16 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)) (FloatOps.ofBits .f32 0#32))] (chk9_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1)).1)).2
    rfl rfl rfl rfl rfl
  exact h

end Trips

end Cert.Proof.KI

end
-- ==== Proof.IScOut.lean ====
/-
  What the routing task's two passes leave, against the routed array: a chunk of the logits copied into the scratch
  and routed row by row is the routed whole array at the chunk's words, so the coefficients' chunk written back from
  the routed scratch holds the routed logits there.
-/
import proofs.«207443_g73169062855234_cont_9to1c4b_643_41_alg».proof.Proof.IScTile
import proofs.«207443_g73169062855234_cont_9to1c4b_643_41_alg».proof.Proof.IScVal
import Idealize.ShloMosaic.Lib.Pipeline.Value

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

-- the kernel's memrefs, spelt as the body table passes them
local notation "v5V" => (Memref.whole Cert.KernelIdeal.main_v5_scv : Memref Cert.KernelIdeal.sig Kind.scVector Space.hbm Cert.KernelIdeal.S2097152 EltTy.f32)
local notation "v6V" => (Memref.whole Cert.KernelIdeal.main_v6_scv : Memref Cert.KernelIdeal.sig Kind.scVector Space.hbm Cert.KernelIdeal.S2097152 EltTy.f32)
local notation "a4V" => (Memref.whole Cert.KernelIdeal.cc1_scratch0 : Memref Cert.KernelIdeal.sig Kind.scVector Space.vmem Cert.KernelIdeal.S32768 EltTy.f32)
local notation "a5V" => (Memref.whole Cert.KernelIdeal.cc1_scratch1 : Memref Cert.KernelIdeal.sig Kind.scVector Space.vmem Cert.KernelIdeal.S32768 EltTy.f32)

section Out

variable (d : Dev nD) (L : grid1.Coords) [FloatOps F]

/-- A chunk read off the logits and routed on its own is the routed whole array at the chunk's words. -/
theorem chunk_route (Lf : Buf (Elt F) (v5Loc d)) (c : Fin 2) (s : Fin 16) (r : Fin 2) (A : Vec F S32768 .f32)
    (hA : ∀ x : S32768.Idx, A x = Lf ((chunk c s r).emb x)) (x : S32768.Idx) :
    routeV (F := F) (N := 32768) A x = (route Lf : Buf (Elt F) (v6Loc d)) ((chunk c s r).emb x) := by
  have hc := c.isLt; have hs := s.isLt; have hr := r.isLt
  have hx : (x 0).val < 32768 := (x 0).isLt
  have hemb : (((chunk c s r).emb x) 0).val = 32768 * (4 * s.val + 2 * c.val + r.val) + (x 0).val := by
    show chunkOff c s r + 1 * (x 0).val = _
    unfold chunkOff; omega
  refine routeV_chunk (F := F) Lf A (4 * s.val + 2 * c.val + r.val) (by omega) (fun y => ?_) x ((chunk c s r).emb x) hemb
  have hy : (y 0).val < 32768 := (y 0).isLt
  rw [hA y]
  unfold rdW
  rw [dif_pos (by omega)]
  congr 1
  funext a
  match a with
  | ⟨0, _⟩ =>
    refine Fin.ext ?_
    show chunkOff c s r + 1 * (y 0).val = 32768 * (4 * s.val + 2 * c.val + r.val) + (y 0).val
    unfold chunkOff; omega

/-- A word of the subcore's chunk, as the body slices it, is that word of the chunk the launch names. -/
theorem emb0_eq (y : S32768.Idx) : (rect0 L).emb y = (chunk (cL L) (sL L) 0).emb y :=
  funext fun a => match a with
    | ⟨0, _⟩ => Fin.ext (by
      show k1_off2 L 0#32 0 + 1 * (y 0).val = chunkOff (cL L) (sL L) 0 + 1 * (y 0).val
      rw [off0_eq L]; rfl)
theorem emb1_eq (y : S32768.Idx) : (rect1 L).emb y = (chunk (cL L) (sL L) 1).emb y :=
  funext fun a => match a with
    | ⟨0, _⟩ => Fin.ext (by
      show k1_off2 L 32768#32 0 + 1 * (y 0).val = chunkOff (cL L) (sL L) 1 + 1 * (y 0).val
      rw [off1_eq L]; rfl)

/-- The scratch a pass routes holds the subcore's chunk of the logits. -/
theorem scratch0 (Lf : Buf (Elt F) (v5Loc d)) (A : Vec F S32768 .f32)
    (hA : (a4V).view.writes (Elt F) (a4V).view.junk [⟨Rect.whole cc1_scratch0.ty.shape, ReadAs.same.apply ((v5c0 L).view.read (Elt F) Lf)⟩] = A)
    (x : S32768.Idx) : A x = Lf ((rect0 L).emb x) := by
  have h := congrFun (View.read_writes_whole (Val := Elt F) (a4V).view (a4V).view.junk (ReadAs.same.apply ((v5c0 L).view.read (Elt F) Lf))) x
  rw [hA] at h
  exact h
theorem scratch1 (Lf : Buf (Elt F) (v5Loc d)) (A : Vec F S32768 .f32)
    (hA : (a4V).view.writes (Elt F) (a4V).view.junk [⟨Rect.whole cc1_scratch0.ty.shape, ReadAs.same.apply ((v5c1 L).view.read (Elt F) Lf)⟩] = A)
    (x : S32768.Idx) : A x = Lf ((rect1 L).emb x) := by
  have h := congrFun (View.read_writes_whole (Val := Elt F) (a4V).view (a4V).view.junk (ReadAs.same.apply ((v5c1 L).view.read (Elt F) Lf))) x
  rw [hA] at h
  exact h

theorem out0 (Lf : Buf (Elt F) (v5Loc d)) (A g2 : Vec F S32768 .f32)
    (hA : (a4V).view.writes (Elt F) (a4V).view.junk [⟨Rect.whole cc1_scratch0.ty.shape, ReadAs.same.apply ((v5c0 L).view.read (Elt F) Lf)⟩] = A)
    (hg2 : Φw (F := F) A 16 g2) :
    ∀ i ∈ (v6c0 L).view.set, ((v6c0 L).view.writes (Elt F) (v6c0 L).view.junk [⟨Rect.whole S32768, ReadAs.same.apply ((a5V).view.read (Elt F) g2)⟩]) i = (route Lf : Buf (Elt F) (v6Loc d)) i := by
  intro i hi
  obtain ⟨x, rfl⟩ := View.exists_emb_of_mem_set _ hi
  have hx : (x 0).val < 32768 := (x 0).isLt
  have h1 := congrFun (View.read_writes_whole (Val := Elt F) (v6c0 L).view (v6c0 L).view.junk (ReadAs.same.apply ((a5V).view.read (Elt F) g2))) x
  rw [View.read_apply, cast_eq] at h1
  have hemb : (v6c0 L).view.emb x = (chunk (cL L) (sL L) 0).emb x := (emb0_eq L x)
  rw [h1, hemb]
  show g2 x = _
  rw [hg2 x, if_pos (by omega)]
  have hA' : ∀ y : S32768.Idx, A y = Lf ((chunk (cL L) (sL L) 0).emb y) := fun y => (scratch0 d L Lf A hA y).trans (congrArg Lf (emb0_eq L y))
  exact chunk_route d Lf (cL L) (sL L) 0 A hA' x

theorem out1 (Lf : Buf (Elt F) (v5Loc d)) (A1 g : Vec F S32768 .f32)
    (hA1 : (a4V).view.writes (Elt F) (a4V).view.junk [⟨Rect.whole cc1_scratch0.ty.shape, ReadAs.same.apply ((v5c1 L).view.read (Elt F) Lf)⟩] = A1)
    (hg : Φw (F := F) A1 16 g) : ∀ x : S32768.Idx, g x = (route Lf : Buf (Elt F) (v6Loc d)) ((rect1 L).emb x) := by
  intro x
  have hx : (x 0).val < 32768 := (x 0).isLt
  rw [hg x, if_pos (by omega)]
  have hA' : ∀ y : S32768.Idx, A1 y = Lf ((chunk (cL L) (sL L) 1).emb y) := fun y => (scratch1 d L Lf A1 hA1 y).trans (congrArg Lf (emb1_eq L y))
  rw [chunk_route d Lf (cL L) (sL L) 1 A1 hA' x, emb1_eq L x]

theorem out1' (Lf : Buf (Elt F) (v5Loc d)) (f61 : Buf (Elt F) (v6Loc d)) (g : Vec F S32768 .f32)
    (hg : ∀ x : S32768.Idx, g x = (route Lf : Buf (Elt F) (v6Loc d)) ((rect1 L).emb x)) :
    ∀ i ∈ (v6c1 L).view.set, ((v6c1 L).view.writes (Elt F) f61 [⟨Rect.whole S32768, ReadAs.same.apply ((a5V).view.read (Elt F) g)⟩]) i = (route Lf : Buf (Elt F) (v6Loc d)) i := by
  intro i hi
  obtain ⟨x, rfl⟩ := View.exists_emb_of_mem_set _ hi
  have h1 := congrFun (View.read_writes_whole (Val := Elt F) (v6c1 L).view f61 (ReadAs.same.apply ((a5V).view.read (Elt F) g))) x
  rw [View.read_apply, cast_eq] at h1
  have hemb : (v6c1 L).view.emb x = (rect1 L).emb x := rfl
  rw [h1, hemb]
  exact hg x

end Out

end Cert.Proof.KI

end
-- ==== Proof.IScBody.lean ====
/-
  The routing kernel's body on one vector subcore: the coefficients' scratch zeroed, a chunk of logits copied in, each
  of its 256 rows walked from the root for five levels — sixteen rows a trip, a level being a gather of the sixteen
  words at the rows' current nodes, their rectified values scattered to the same places of the coefficients' scratch, the
  nodes stepped to a child —, the scratch copied out; then the second chunk the same, only the first 32 words of each row
  re-zeroed (a walk writes nodes up to 30). The loops by invariants that carry the value; what leaves is the routed logits.
-/
import proofs.«207443_g73169062855234_cont_9to1c4b_643_41_alg».proof.Proof.IScTile
import proofs.«207443_g73169062855234_cont_9to1c4b_643_41_alg».proof.Proof.IScVal
import proofs.«207443_g73169062855234_cont_9to1c4b_643_41_alg».proof.Proof.IScRLanes
import proofs.«207443_g73169062855234_cont_9to1c4b_643_41_alg».proof.Proof.IScRWalk
import proofs.«207443_g73169062855234_cont_9to1c4b_643_41_alg».proof.Proof.IScOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}
open Idealize.ShloMosaic.Tactic

local notation "𝕄" => MT nD τ sig (HIx 1) (Elt F) ℕ UU ℕ

-- the kernel's memrefs, spelt as the body table passes them
local notation "v5V" => (Memref.whole Cert.KernelIdeal.main_v5_scv : Memref Cert.KernelIdeal.sig Kind.scVector Space.hbm Cert.KernelIdeal.S2097152 EltTy.f32)
local notation "v6V" => (Memref.whole Cert.KernelIdeal.main_v6_scv : Memref Cert.KernelIdeal.sig Kind.scVector Space.hbm Cert.KernelIdeal.S2097152 EltTy.f32)
local notation "a4V" => (Memref.whole Cert.KernelIdeal.cc1_scratch0 : Memref Cert.KernelIdeal.sig Kind.scVector Space.vmem Cert.KernelIdeal.S32768 EltTy.f32)
local notation "a5V" => (Memref.whole Cert.KernelIdeal.cc1_scratch1 : Memref Cert.KernelIdeal.sig Kind.scVector Space.vmem Cert.KernelIdeal.S32768 EltTy.f32)

section Tile

variable (d : Dev nD) (L : grid1.Coords)

variable [FloatOps F]
/-- The first zeroing loop's invariant: the coefficients' scratch zero below word `16 k`. -/
def I1 (k : ℕ) (_ : PUnit) : sProp 𝕄 :=
  iprop(∃ g : Buf (Elt F) ((a5V).view.loc (VT d L)), ((a5V).view.loc (VT d L) ↦[(a5V).view.set]{fullShare} g) ∗ ⌜Φ1 (F := F) k g⌝)

/-- A walk loop's invariant: the logits' scratch at the chunk, the coefficients' scratch routed in its rows below `16 k`, zero above. -/
def I2 (A : Buf (Elt F) ((a4V).view.loc (VT d L))) (k : ℕ) (_ : PUnit) : sProp 𝕄 :=
  iprop(((a4V).view.loc (VT d L) ↦[(a4V).view.set]{fullShare} A)
    ∗ ∃ g : Buf (Elt F) ((a5V).view.loc (VT d L)), ((a5V).view.loc (VT d L) ↦[(a5V).view.set]{fullShare} g) ∗ ⌜Φw (F := F) A k g⌝)

/-- One level of the walk: sixteen words gathered from the logits' scratch, rectified, scattered into the
    coefficients' scratch at the same places. -/
theorem wp_level {α : Type} (idx : IVec S16 32)
    (h1 h2 : ∀ a x, ((![idx] : Fin 1 → IVec S16 32) a x).toNat < S32768.size a)
    (pay : Vec F S16 .f32 → Vec F S16 .f32)
    (A : Buf (Elt F) ((a4V).view.loc (VT d L))) (g : Buf (Elt F) ((a5V).view.loc (VT d L)))
    (k : Vec F S16 .f32 → Prog (TpuEff nD τ sig (Elt F) Λ₀ (VT d L).2) α) (Q : α → sProp 𝕄) :
    (iprop(((a4V).view.loc (VT d L) ↦[(a4V).view.set]{fullShare} A)
        ∗ ((a5V).view.loc (VT d L) ↦[(a5V).view.set]{fullShare} g)
        ∗ ((((a4V).view.loc (VT d L) ↦[(a4V).view.set]{fullShare} A)
            ∗ ((a5V).view.loc (VT d L) ↦[(a5V).view.set]{fullShare}
                (storeIdx (F := F) (e := .f32) g ![idx] (pay (loadIdx (F := F) (e := .f32) A ![idx] h1)) (fun _ => 1#1) false h2 : Vec F S32768 .f32)))
          -∗ wp frame (wpE (defs₀ (F := F)) 𝒱₀ (VT d L) none) Set.univ (k (loadIdx (F := F) (e := .f32) A ![idx] h1)) Q)) : sProp 𝕄)
      ⊢ wp frame (wpE (defs₀ (F := F)) 𝒱₀ (VT d L) none) Set.univ
          (SparseCore.vectorLoadIdx a4V ![idx] h1 (View.loads_vmem h_S32768) >>= fun v =>
            SparseCore.vectorStoreIdx a5V ![idx] (pay v) (fun _ => 1#1) false h2 (View.stores_vmem_bits_univ h_S32768 rfl) >>= fun _ => k v) Q := by
  iintro ⟨H4, H5, Hk⟩
  iapply (SparseCore.wp_vectorLoadIdx (defs := defs₀ (F := F)) 𝒱₀ (VT d L) none Set.univ (base := a4V) (S := (a4V).view.set) (q := fullShare) (f := A)
    (by rw [Memref.set_access_whole, View.set_whole])) $$ H4
  iintro H4
  iapply (SparseCore.wp_vectorStoreIdx (defs := defs₀ (F := F)) 𝒱₀ (VT d L) none Set.univ (base := a5V) (f := g)) $$ [H5]
  · rw [Memref.set_access_whole, ← View.set_whole]; iexact H5
  iintro H5
  simp only [Memref.read_access_whole, Memref.write_access_whole_univ]
  iapply Hk
  isplitl [H4]; · iexact H4
  rw [Memref.set_access_whole, ← View.set_whole]
  iexact H5

/-- The re-zeroing loop's invariant. -/
def I3 (R : Buf (Elt F) ((a5V).view.loc (VT d L))) (k : ℕ) (_ : PUnit) : sProp 𝕄 :=
  iprop(∃ g : Buf (Elt F) ((a5V).view.loc (VT d L)), ((a5V).view.loc (VT d L) ↦[(a5V).view.set]{fullShare} g) ∗ ⌜Φz (F := F) R k g⌝)

/-- The kernel up to its last copy-out: both chunks walked, the first copied out, the second left routed in the scratch. -/
theorem part3_run (Lf : Buf (Elt F) (v5Loc d)) (O : CellTallies nD τ sig (HIx 1)) (W : Waits sig (HIx 1))
    (f60 : Buf (Elt F) (v6Loc d)) (g4 : Buf (Elt F) ((a4V).view.loc (VT d L))) (g5 : Buf (Elt F) ((a5V).view.loc (VT d L))) :
    (iprop(Transfers.MayWaits (VT d L) (default : HIx 1) O
        ∗ ((v5c0 L).view.loc (VT d L) ↦[(v5c0 L).view.set]{fullShare} Lf)
        ∗ ((v5c1 L).view.loc (VT d L) ↦[(v5c1 L).view.set]{fullShare} Lf)
        ∗ ((v6c0 L).view.loc (VT d L) ↦[(v6c0 L).view.set]{fullShare} f60)
        ∗ ((a4V).view.loc (VT d L) ↦[(a4V).view.set]{fullShare} g4)
        ∗ ((a5V).view.loc (VT d L) ↦[(a5V).view.set]{fullShare} g5)
        ∗ semVal (cell0 d L) 0 ∗ semVal (cell1 d L) 0 ∗ semVal (cell2 d L) 0
        ∗ owes (VT d L) O W) : sProp 𝕄)
      ⊢ wp frame (wpE (defs₀ (F := F)) 𝒱₀ (VT d L) none) Set.univ
          (k1_part3 L v5V (Memref.isWhole_whole _) v6V (Memref.isWhole_whole _) a4V (Memref.isWhole_whole _) a5V (Memref.isWhole_whole _)
            cc1_scoped0 cc1_scoped1 cc1_scoped2 cc1_scoped3)
          fun _ => iprop(((v5c0 L).view.loc (VT d L) ↦[(v5c0 L).view.set]{fullShare} Lf)
            ∗ ((v5c1 L).view.loc (VT d L) ↦[(v5c1 L).view.set]{fullShare} Lf)
            ∗ ((v6c0 L).view.loc (VT d L) ↦[(v6c0 L).view.set]{fullShare} (route Lf : Buf (Elt F) (v6Loc d)))
            ∗ (∃ g, (a4V).view.loc (VT d L) ↦[(a4V).view.set]{fullShare} g)
            ∗ (∃ g : Buf (Elt F) ((a5V).view.loc (VT d L)), ((a5V).view.loc (VT d L) ↦[(a5V).view.set]{fullShare} g)
                ∗ ⌜∀ x : S32768.Idx, g x = (route Lf : Buf (Elt F) (v6Loc d)) ((rect1 L).emb x)⌝)
            ∗ semVal (cell0 d L) 0 ∗ semVal (cell1 d L) 0 ∗ semVal (cell2 d L) 0
            ∗ ∃ W', owes (VT d L) O W') := by
  iintro ⟨#Hmw, H50, H51, H60, H4, H5, Hc0, Hc1, Hc2, HO⟩
  sl_unfold [k1_part3, k1_part3_skel]
  sl_exec
  sl_for (I1 (F := F) d L) $$ [H5]
  case region =>
    intro k _
    unfold I1
    iintro ⟨%g, H5, %hg⟩
    sl_exec
    sl_step
    iexists _
    isplitl [H5]; · iexact H5
    ipureintro
    exact Φ1_step k g _ hg
  · unfold I1
    iexists g5
    isplitl [H5]; · iexact H5
    ipureintro
    exact Φ1_zero g5
  iintro %_ HI
  unfold I1
  icases HI with ⟨%g1, H5, %hg1⟩
  sl_exec
  unfold part3_run.sl.dma0
  generalize hA : View.writes _ (Elt F) (View.junk _) [_] = A
  sl_for (I2 (F := F) d L A) $$ [H4 H5]
  case region =>
    intro k _
    unfold I2
    iintro ⟨H4, %g, H5, %hg⟩
    sl_exec (disch := first | sl_exact chk1_ok k)
    iapply (wp_level (F := F) d L)
    isplitl [H4]; · iexact H4
    isplitl [H5]; · iexact H5
    iintro ⟨H4, H5⟩
    sl_exec (disch := first | exact chk2_ok k _)
    iapply (wp_level (F := F) d L)
    isplitl [H4]; · iexact H4
    isplitl [H5]; · iexact H5
    iintro ⟨H4, H5⟩
    sl_exec (disch := first | exact chk3_ok k _ _)
    iapply (wp_level (F := F) d L)
    isplitl [H4]; · iexact H4
    isplitl [H5]; · iexact H5
    iintro ⟨H4, H5⟩
    sl_exec (disch := first | exact chk4_ok k _ _ _)
    iapply (wp_level (F := F) d L)
    isplitl [H4]; · iexact H4
    isplitl [H5]; · iexact H5
    iintro ⟨H4, H5⟩
    sl_exec (disch := first | exact chk5_ok k _ _ _ _)
    iapply (wp_level (F := F) d L)
    isplitl [H4]; · iexact H4
    isplitl [H5]; · iexact H5
    iintro ⟨H4, H5⟩
    sl_exec
    sl_step
    isplitl [H4]; · iexact H4
    iexists _
    isplitl [H5]; · iexact H5
    ipureintro
    unfold part3_run.sl.v17 part3_run.sl.v29 part3_run.sl.v41 part3_run.sl.v53 part3_run.sl.v65 part3_run.sl.v4
    exact walk_trip2 A g k hg
  · unfold I2
    isplitl [H4]; · iexact H4
    iexists g1
    isplitl [H5]; · iexact H5
    ipureintro
    exact Φw_init A g1 (trips1 ▸ hg1)
  iintro %_ HI
  unfold I2
  icases HI with ⟨H4, %g2, H5, %hg2⟩
  sl_exec
  unfold part3_run.sl.dma0_1 part3_run.sl.dma0_2
  generalize hA1 : View.writes (Memref.whole cc1_scratch0).view (Elt F) (View.junk _) [_] = A1
  sl_for (I3 (F := F) d L g2) $$ [H5]
  case region =>
    intro k _
    unfold I3
    iintro ⟨%g, H5, %hg⟩
    sl_exec
    sl_step
    iexists _
    isplitl [H5]; · iexact H5
    ipureintro
    exact Φz_step k g2 g _ _ hg
  · unfold I3
    iexists g2
    isplitl [H5]; · iexact H5
    ipureintro
    exact Φz_zero g2
  iintro %_ HI
  unfold I3
  icases HI with ⟨%g3, H5, %hg3⟩
  sl_for (I2 (F := F) d L A1) $$ [H4 H5]
  case region =>
    intro k _
    unfold I2
    iintro ⟨H4, %g, H5, %hg⟩
    sl_exec (disch := first | sl_exact chk6_ok k)
    iapply (wp_level (F := F) d L)
    isplitl [H4]; · iexact H4
    isplitl [H5]; · iexact H5
    iintro ⟨H4, H5⟩
    sl_exec (disch := first | exact chk7_ok k _)
    iapply (wp_level (F := F) d L)
    isplitl [H4]; · iexact H4
    isplitl [H5]; · iexact H5
    iintro ⟨H4, H5⟩
    sl_exec (disch := first | exact chk8_ok k _ _)
    iapply (wp_level (F := F) d L)
    isplitl [H4]; · iexact H4
    isplitl [H5]; · iexact H5
    iintro ⟨H4, H5⟩
    sl_exec (disch := first | exact chk9_ok k _ _ _)
    iapply (wp_level (F := F) d L)
    isplitl [H4]; · iexact H4
    isplitl [H5]; · iexact H5
    iintro ⟨H4, H5⟩
    sl_exec (disch := first | exact chk10_ok k _ _ _ _)
    iapply (wp_level (F := F) d L)
    isplitl [H4]; · iexact H4
    isplitl [H5]; · iexact H5
    iintro ⟨H4, H5⟩
    sl_exec
    sl_step
    isplitl [H4]; · iexact H4
    iexists _
    isplitl [H5]; · iexact H5
    ipureintro
    unfold part3_run.sl.v17_1 part3_run.sl.v29_1 part3_run.sl.v41_1 part3_run.sl.v53_1 part3_run.sl.v65_1 part3_run.sl.v4
    exact walk_trip4 A1 g k hg
  · unfold I2
    isplitl [H4]; · iexact H4
    iexists g3
    isplitl [H5]; · iexact H5
    ipureintro
    exact Φw_of_Φz A A1 g2 g3 (trips2 ▸ hg2) (trips3 ▸ hg3)
  iintro %_ HI
  unfold I2
  icases HI with ⟨H4, %g4', H5, %hg4⟩
  sl_exec
  sl_step
  isplitl [H50]; · iexact H50
  isplitl [H51]; · iexact H51
  isplitl [H60]
  · iapply (Entails.of_eq (pointsTo_congr (out0 (F := F) d L Lf A g2 hA (trips2 ▸ hg2))))
    iexact H60
  isplitl [H4]; · iexists _; iexact H4
  isplitl [H5]
  · iexists g4'
    isplitl [H5]; · iexact H5
    ipureintro
    exact out1 (F := F) d L Lf A1 g4' hA1 (trips4 ▸ hg4)
  isplitl [Hc0]; · iexact Hc0
  isplitl [Hc1]; · iexact Hc1
  isplitl [Hc2]; · iexact Hc2
  iexists _; iexact HO

/-- The task's body run from the pieces the launch dealt it, in the BODY'S spelling. -/
theorem tile_run (Lf : Buf (Elt F) (v5Loc d)) (O : CellTallies nD τ sig (HIx 1)) (W : Waits sig (HIx 1))
    (f60 f61 : Buf (Elt F) (v6Loc d)) (g4 : Buf (Elt F) ((a4V).view.loc (VT d L))) (g5 : Buf (Elt F) ((a5V).view.loc (VT d L))) :
    (iprop(Transfers.MayWaits (VT d L) (default : HIx 1) O
        ∗ ((v5c0 L).view.loc (VT d L) ↦[(v5c0 L).view.set]{fullShare} Lf)
        ∗ ((v5c1 L).view.loc (VT d L) ↦[(v5c1 L).view.set]{fullShare} Lf)
        ∗ ((v6c0 L).view.loc (VT d L) ↦[(v6c0 L).view.set]{fullShare} f60)
        ∗ ((v6c1 L).view.loc (VT d L) ↦[(v6c1 L).view.set]{fullShare} f61)
        ∗ ((a4V).view.loc (VT d L) ↦[(a4V).view.set]{fullShare} g4)
        ∗ ((a5V).view.loc (VT d L) ↦[(a5V).view.set]{fullShare} g5)
        ∗ cells0 d L
        ∗ owes (VT d L) O W) : sProp 𝕄)
      ⊢ wp frame (wpE (defs₀ (F := F)) 𝒱₀ (VT d L) none) Set.univ
          (cc1__route_kernel L v5V (Memref.isWhole_whole _) v6V (Memref.isWhole_whole _) a4V (Memref.isWhole_whole _) a5V (Memref.isWhole_whole _)
            cc1_scoped0 cc1_scoped1 cc1_scoped2 cc1_scoped3)
          fun _ => iprop(((v5c0 L).view.loc (VT d L) ↦[(v5c0 L).view.set]{fullShare} Lf)
            ∗ ((v5c1 L).view.loc (VT d L) ↦[(v5c1 L).view.set]{fullShare} Lf)
            ∗ ((v6c0 L).view.loc (VT d L) ↦[(v6c0 L).view.set]{fullShare} (route Lf : Buf (Elt F) (v6Loc d)))
            ∗ ((v6c1 L).view.loc (VT d L) ↦[(v6c1 L).view.set]{fullShare} (route Lf : Buf (Elt F) (v6Loc d)))
            ∗ (∃ g, (a4V).view.loc (VT d L) ↦[(a4V).view.set]{fullShare} g)
            ∗ (∃ g, (a5V).view.loc (VT d L) ↦[(a5V).view.set]{fullShare} g)
            ∗ cells0 d L
            ∗ ∃ W', owes (VT d L) O W') := by
  iintro ⟨#Hmw, H50, H51, H60, H61, H4, H5, ⟨Hc0, Hc1, Hc2, Hc3⟩, HO⟩
  sl_unfold [cc1__route_kernel, cc1__route_kernel_skel]
  iapply (Entails.of_eq (wp_bind _ _ _ _ _ _).symm)
  iapply (wp_wand_r Idealize.ShloMosaic.frame (wpE (defs₀ (F := F)) 𝒱₀ (VT d L) none) Set.univ)
  isplitl [H50 H51 H60 H4 H5 Hc0 Hc1 Hc2 HO]
  · iapply (part3_run (F := F) d L Lf O W f60 g4 g5)
    isplitr; · iexact Hmw
    isplitl [H50]; · iexact H50
    isplitl [H51]; · iexact H51
    isplitl [H60]; · iexact H60
    isplitl [H4]; · iexact H4
    isplitl [H5]; · iexact H5
    isplitl [Hc0]; · iexact Hc0
    isplitl [Hc1]; · iexact Hc1
    isplitl [Hc2]; · iexact Hc2
    iexact HO
  iintro %_ ⟨H50, H51, H60, ⟨%a4, H4⟩, ⟨%g, H5, %hg⟩, Hc0, Hc1, Hc2, ⟨%W', HO⟩⟩
  sl_exec
  sl_step
  unfold tile_run.sl.dma0
  isplitl [H50]; · iexact H50
  isplitl [H51]; · iexact H51
  isplitl [H60]; · iexact H60
  isplitl [H61]
  · iapply (Entails.of_eq (pointsTo_congr (out1' (F := F) d L Lf f61 g hg)))
    iexact H61
  isplitl [H4]; · iexists _; iexact H4
  isplitl [H5]; · iexists _; iexact H5
  isplitl [Hc0 Hc1 Hc2 Hc3]
  · isplitl [Hc0]; · iexact Hc0
    isplitl [Hc1]; · iexact Hc1
    isplitl [Hc2]; · iexact Hc2
    iexact Hc3
  iexists _; iexact HO

/-- The task on vector subcore `(L 0, L 1)` of device `d`, from what the launch deals it to what it hands back. -/
theorem tile_body (hF : (K (F := F)).Facts) (Lf : (d : Dev nD) → Buf (Elt F) (v5Loc d))
    (O : CellTallies nD τ sig (HIx 1)) (W : Waits sig (HIx 1)) (hO : ∀ g, O g none = 0) :
    iprop(levAts (K (F := F)).L (K (F := F)).lev ∗ emp
        ∗ goP (F := F) Lf d (cL L) (sL L)
        ∗ scopedBufs (VT d L) ∗ scopedSems0 (VT d L) ∗ owes (VT d L) O W)
      ⊢ wp frame (wpE (defs₀ (F := F)) 𝒱₀ (VT d L) none) Set.univ
          (cc1__route_kernel L v5V (Memref.isWhole_whole _) v6V (Memref.isWhole_whole _) a4V (Memref.isWhole_whole _) a5V (Memref.isWhole_whole _)
            cc1_scoped0 cc1_scoped1 cc1_scoped2 cc1_scoped3)
          fun _ => iprop(tdP (F := F) Lf d (cL L) (sL L)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold goP tdP
  iintro ⟨#Hlv, -, ⟨H50, H51, ⟨%f60, H60⟩, ⟨%f61, H61⟩⟩, ⟨⟨%g4, H4⟩, ⟨%g5, H5⟩, Hbufs⟩, ⟨Hc0, Hc1, Hc2, Hc3, Hsems⟩, HO⟩
  ihave Hmw := (show levAts (K (F := F)).L (K (F := F)).lev ⊢ Transfers.MayWaits (VT d L) (default : HIx 1) O from
    (K (F := F)).mayWaits_none (thr := VT d L) hO) $$ Hlv
  ihave H50 := (Entails.of_eq (pts_v5c0 (F := F) d L _).symm) $$ H50
  ihave H51 := (Entails.of_eq (pts_v5c1 (F := F) d L _).symm) $$ H51
  ihave H60 := (Entails.of_eq (pts_v6c0 (F := F) d L _).symm) $$ H60
  ihave H61 := (Entails.of_eq (pts_v6c1 (F := F) d L _).symm) $$ H61
  ihave H4 := (Entails.of_eq (pts_a4 (F := F) d L _).symm) $$ H4
  ihave H5 := (Entails.of_eq (pts_a5 (F := F) d L _).symm) $$ H5
  iapply (wp_wand_r Idealize.ShloMosaic.frame (wpE (defs₀ (F := F)) 𝒱₀ (VT d L) none) Set.univ)
  isplitl [H50 H51 H60 H61 H4 H5 Hc0 Hc1 Hc2 Hc3 HO]
  · iapply (tile_run (F := F) d L (Lf d) O W f60 f61 g4 g5)
    isplitr; · iexact Hmw
    isplitl [H50]; · iexact H50
    isplitl [H51]; · iexact H51
    isplitl [H60]; · iexact H60
    isplitl [H61]; · iexact H61
    isplitl [H4]; · iexact H4
    isplitl [H5]; · iexact H5
    isplitl [Hc0 Hc1 Hc2 Hc3]
    · isplitl [Hc0]; · iexact Hc0
      isplitl [Hc1]; · iexact Hc1
      isplitl [Hc2]; · iexact Hc2
      iexact Hc3
    iexact HO
  iintro %_ ⟨H50, H51, H60, H61, ⟨%a4, H4⟩, ⟨%a5, H5⟩, ⟨Hc0, Hc1, Hc2, Hc3⟩, ⟨%W', HO⟩⟩
  isplitl [H50 H51 H60 H61]
  · isplitl [H50]; · iapply (Entails.of_eq (pts_v5c0 (F := F) d L _)); iexact H50
    isplitl [H51]; · iapply (Entails.of_eq (pts_v5c1 (F := F) d L _)); iexact H51
    isplitl [H60]; · iapply (Entails.of_eq (pts_v6c0 (F := F) d L _)); iexact H60
    iapply (Entails.of_eq (pts_v6c1 (F := F) d L _)); iexact H61
  isplitl [H4 H5 Hbufs]
  · isplitl [H4]; · iexists _; iapply (Entails.of_eq (pts_a4 (F := F) d L _)); iexact H4
    isplitl [H5]; · iexists _; iapply (Entails.of_eq (pts_a5 (F := F) d L _)); iexact H5
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists W'; isplitr
  · ipureintro; intro p _
    rcases p.2 with _ | q
    · exact .inr (.inl rfl)
    · exact .inr (.inr (congrArg some (Subsingleton.elim q 0)))
  · iexact HO

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__route_kernel (coordsV c s)
          v5V (Memref.isWhole_whole _) v6V (Memref.isWhole_whole _) a4V (Memref.isWhole_whole _) a5V (Memref.isWhole_whole _)
          cc1_scoped0 cc1_scoped1 cc1_scoped2 cc1_scoped3) ⟨⟩ c s := rfl

theorem tileObl (m : (ℓ : Loc nD τ sig) → Buf (Elt F) ℓ) (Lf : (d : Dev nD) → Buf (Elt F) (v5Loc d)) :
    (K (F := F)).TileObl (D (F := F)) 𝒱 (P m Lf) v₀ 0 := by
  intro d c i O W hO _ _
  simp only [show (P m Lf).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) facts Lf O W hO

end Tile

end Cert.Proof.KI

end
-- ==== Proof.IScTSplit.lean ====
/-
  The routing call's operands split and gathered: the 64 chunks of 32768 words — two per vector subcore, sixteen
  subcores per SparseCore, two SparseCores — are pairwise disjoint and cover the 2097152 words of a flat array, so each
  array held whole is its chunks held one by one, and back; and a SparseCore's share is by definition its sixteen
  subcores' shares.
-/
import proofs.«207443_g73169062855234_cont_9to1c4b_643_41_alg».proof.Proof.IScDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The 64 chunks partition a flat array -/

/-- A chunk's name: SparseCore, vector subcore, first or second chunk. -/
abbrev CIx : Type := Fin 2 × Fin 16 × Fin 2
abbrev chunkOf (p : CIx) : Finset S2097152.Idx := chunkSet p.1 p.2.1 p.2.2

/-- Two chunks with different names share no word: a word's chunk is its number divided by 32768. -/
theorem chunk_disjoint : ∀ p ∈ (Finset.univ : Finset CIx), ∀ p' ∈ (Finset.univ : Finset CIx), p ≠ p' → Disjoint (chunkOf p) (chunkOf p') := by
  rintro ⟨c, s, r⟩ - ⟨c', s', r'⟩ - h
  show Disjoint (chunkSet c s r) (chunkSet c' s' r')
  rw [Finset.disjoint_left]
  intro j hj hj'
  rw [mem_chunkSet] at hj hj'
  unfold chunkOff at hj hj'
  have h1 := c.isLt; have h2 := s.isLt; have h3 := r.isLt
  have h1' := c'.isLt; have h2' := s'.isLt; have h3' := r'.isLt
  apply h
  have hc : c = c' := Fin.ext (by omega)
  have hs : s = s' := Fin.ext (by omega)
  have hr : r = r' := Fin.ext (by omega)
  rw [hc, hs, hr]

/-- Every word is in a chunk. -/
theorem chunk_cover : (Finset.univ : Finset S2097152.Idx) = (Finset.univ : Finset CIx).biUnion chunkOf := by
  ext j
  simp only [Finset.mem_univ, Finset.mem_biUnion, true_and, true_iff]
  have hj : (j 0).val < 2097152 := (j 0).isLt
  refine ⟨((⟨(j 0).val / 65536 % 2, Nat.mod_lt _ (by decide)⟩ : Fin 2), (⟨(j 0).val / 131072, by omega⟩ : Fin 16), (⟨(j 0).val / 32768 % 2, Nat.mod_lt _ (by decide)⟩ : Fin 2)), ?_⟩
  show j ∈ chunkSet _ _ _
  rw [mem_chunkSet]
  unfold chunkOff
  dsimp only
  omega

variable [FloatOps F]

/-- An array held whole is its chunks held one by one, grouped by SparseCore and subcore. -/
theorem whole_eq_chunks (ℓ : Loc nD τ sig) (Kc : CIx → Finset (Idx ℓ))
    (hd : ∀ p ∈ (Finset.univ : Finset CIx), ∀ p' ∈ (Finset.univ : Finset CIx), p ≠ p' → Disjoint (Kc p) (Kc p'))
    (hc : (Finset.univ : Finset (Idx ℓ)) = (Finset.univ : Finset CIx).biUnion Kc) (f : Buf (Elt F) ℓ) :
    (ℓ ↦{fullShare} f : sProp 𝕄)
      = bigSep Finset.univ fun c : Fin 2 => bigSep Finset.univ fun s : Fin 16 =>
          iprop((ℓ ↦[Kc (c, s, 0)]{fullShare} f) ∗ ℓ ↦[Kc (c, s, 1)]{fullShare} f) := by
  show (pointsTo ℓ Finset.univ fullShare f : sProp 𝕄) = _
  rw [hc, pointsTo_biUnion _ _ hd, bigSep_univ_prod]
  refine bigSep_congr fun c _ => ?_
  rw [bigSep_univ_prod]
  refine bigSep_congr fun s _ => ?_
  exact bigSep_univ_two _

/-- Both arrays held whole are, subcore by subcore, the subcore's two chunks of each. -/
theorem both_eq_chunks (d : Dev nD) (f5 : Buf (Elt F) (v5Loc d)) (f6 : Buf (Elt F) (v6Loc d)) :
    (iprop((v5Loc d ↦{fullShare} f5) ∗ v6Loc d ↦{fullShare} f6) : sProp 𝕄)
      = bigSep Finset.univ fun c : Fin 2 => bigSep Finset.univ fun s : Fin 16 =>
          iprop(iprop(pc5 d c s 0 f5 ∗ pc5 d c s 1 f5) ∗ iprop(pc6 d c s 0 f6 ∗ pc6 d c s 1 f6)) := by
  rw [whole_eq_chunks (v5Loc d) chunkOf chunk_disjoint chunk_cover f5, whole_eq_chunks (v6Loc d) chunkOf chunk_disjoint chunk_cover f6,
    ← bigSep_sep']
  exact bigSep_congr fun c _ => (bigSep_sep' _ _ _).symm

variable (m : (ℓ : Loc nD τ sig) → Buf (Elt F) ℓ) (Lf : (d : Dev nD) → Buf (Elt F) (v5Loc d))

/-! ## The call's operands dealt to the SparseCores, and its results gathered -/

/-- A subcore's two chunks of each array, the coefficients' at `f`, are its task's operands; -/
theorem goP_of_chunks (d : Dev nD) (c : Fin 2) (s : Fin 16) (f : Buf (Elt F) (v6Loc d)) :
    (iprop(iprop(pc5 d c s 0 (Lf d) ∗ pc5 d c s 1 (Lf d)) ∗ iprop(pc6 d c s 0 f ∗ pc6 d c s 1 f)) : sProp 𝕄) ⊢ goP Lf d c s := by
  unfold goP
  iintro ⟨⟨H0, H1⟩, ⟨H2, H3⟩⟩
  isplitl [H0]; · iexact H0
  isplitl [H1]; · iexact H1
  isplitl [H2]; · iexists f; iexact H2
  iexists f; iexact H3

/-- and its task's results are its two chunks of each array, the coefficients' at the routed logits. -/
theorem chunks_of_tdP (d : Dev nD) (c : Fin 2) (s : Fin 16) :
    (tdP Lf d c s : sProp 𝕄)
      ⊢ iprop(iprop(pc5 d c s 0 (Lf d) ∗ pc5 d c s 1 (Lf d)) ∗ iprop(pc6 d c s 0 (route (Lf d)) ∗ pc6 d c s 1 (route (Lf d)))) := by
  unfold tdP
  iintro ⟨H0, H1, H2, H3⟩
  isplitl [H0 H1]
  · isplitl [H0]; · iexact H0
    iexact H1
  isplitl [H2]; · iexact H2
  iexact H3

theorem st0_at (d : Dev nD) (f : Buf (Elt F) (v6Loc d)) :
    iprop((v5Loc d ↦{fullShare} Lf d) ∗ v6Loc d ↦{fullShare} f)
      ⊢ (bigSep Finset.univ (fun c : Fin ((K (F := F)).nCore 0) => (P m Lf).st 0 d c) : sProp 𝕄) := by
  rw [both_eq_chunks d (Lf d) f]
  show _ ⊢ bigSep (Finset.univ : Finset (Fin 2)) fun c => bigSep Finset.univ fun s : Fin 16 => goP Lf d (Fin.cast nCore_zero c) s
  refine bigSep_mono fun c _ => bigSep_mono fun s _ => ?_
  rw [show Fin.cast nCore_zero c = c from Fin.ext rfl]
  exact goP_of_chunks Lf d c s f

/-- The TensorCore's two arrays, the logits at `Lf d` and the coefficients at anything, are the SparseCores' operands. -/
theorem st0 (d : Dev nD) :
    iprop(((SparseCore.T d).loc main_v5 ↦{fullShare} Lf d) ∗ ∃ f, (SparseCore.T d).loc main_v6 ↦{fullShare} f)
      ⊢ (bigSep Finset.univ (fun c : Fin ((K (F := F)).nCore 0) => (P m Lf).st 0 d c) : sProp 𝕄) := by
  iintro ⟨H5, ⟨%f, H6⟩⟩
  iapply (st0_at m Lf d f)
  isplitl [H5]; · iexact H5
  iexact H6

/-- The SparseCores' results are the two arrays whole: the logits unchanged, the coefficients the routed logits. -/
theorem dn0 (d : Dev nD) :
    (bigSep Finset.univ (fun c : Fin ((K (F := F)).nCore 0) => (P m Lf).dn 0 d c) : sProp 𝕄)
      ⊢ iprop(((SparseCore.T d).loc main_v5 ↦{fullShare} Lf d) ∗ (SparseCore.T d).loc main_v6 ↦{fullShare} route (Lf d)) := by
  show _ ⊢ (iprop((v5Loc d ↦{fullShare} Lf d) ∗ v6Loc d ↦{fullShare} route (Lf d)) : sProp 𝕄)
  rw [both_eq_chunks d (Lf d) (route (Lf d))]
  show (bigSep (Finset.univ : Finset (Fin 2)) fun c => bigSep Finset.univ fun s : Fin 16 => tdP Lf d (Fin.cast nCore_zero c) s) ⊢ _
  refine bigSep_mono fun c _ => bigSep_mono fun s _ => ?_
  rw [show Fin.cast nCore_zero c = c from Fin.ext rfl]
  exact chunks_of_tdP Lf d c s

/-- A SparseCore's operands are its sixteen subcores' tasks' operands, and its results theirs. -/
theorem vecSplit : (K (F := F)).VecSplit' (P m Lf) 0 := by
  intro d c
  have hgo : (bigSep Finset.univ fun i : Fin ((K (F := F)).nSub 0) => (P m Lf).go 0 d c i) = (P m Lf).st 0 d c := by
    show (bigSep (Finset.univ : Finset (Fin 16)) fun i => goP Lf d (Fin.cast nCore_zero c) (Fin.cast nSub_zero i))
      = bigSep Finset.univ fun s : Fin 16 => goP Lf d (Fin.cast nCore_zero c) s
    exact bigSep_congr fun i _ => congrArg (goP Lf d (Fin.cast nCore_zero c)) (Fin.ext rfl)
  have htd : (bigSep Finset.univ fun i : Fin ((K (F := F)).nSub 0) => (P m Lf).td 0 d c i) = (P m Lf).dn 0 d c := by
    show (bigSep (Finset.univ : Finset (Fin 16)) fun i => tdP Lf d (Fin.cast nCore_zero c) (Fin.cast nSub_zero i))
      = bigSep Finset.univ fun s : Fin 16 => tdP Lf d (Fin.cast nCore_zero c) s
    exact bigSep_congr fun i _ => congrArg (tdP Lf d (Fin.cast nCore_zero c)) (Fin.ext rfl)
  rw [hgo, htd]
  iintro H
  imodintro
  isplitl [H]; · iexact H
  iintro H; iexact H

end Cert.Proof.KI

end
-- ==== Proof.ISc.lean ====
/-
  The routing kernel's side of the launch, gathered: the arrays' locations, the routed logits, the handshakes' payloads,
  each vector subcore's task, how a SparseCore's share splits among its subcores, and the call's operands and results
  as the TensorCore holds them.
-/
import proofs.«207443_g73169062855234_cont_9to1c4b_643_41_alg».proof.Proof.IScBody
import proofs.«207443_g73169062855234_cont_9to1c4b_643_41_alg».proof.Proof.IScTSplit
-- ==== Proof.IRun.lean ====
/-
  The idealized kernel's run: every weakly fair execution of the device's threads — @main on the TensorCore, the two
  sequencers, the thirty-two vector subcores — terminates, nothing faulting, and every unscoped buffer of the
  TensorCore ends at the last valuation of the fold through @main, the SparseCore call's array at the routed logits.
-/
import proofs.«207443_g73169062855234_cont_9to1c4b_643_41_alg».proof.Proof.IHMain
import proofs.«207443_g73169062855234_cont_9to1c4b_643_41_alg».proof.Proof.ISc

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The logits as the call finds them, -/
def Lf (d : Dev nD) : Buf (Elt F) (v5Loc d) := W3 m d v5'
/-- and the unscoped buffers after the call: the coefficient array at the routed logits, the rest untouched. -/
def W4r (d : Dev nD) : Valuation τ sig (Elt F) := Function.update (W3 m d) v6' (route (Lf m d))

theorem W4r_ne (d : Dev nD) (b : DevRef τ sig) (h : b ≠ v6') : W4r m d b = W3 m d b := Function.update_of_ne h _ _
theorem W4r_v6 (d : Dev nD) : W4r m d v6' = route (Lf m d) := Function.update_self _ _ _

/-- What the claim reads off a final state: every unscoped buffer of the TensorCore at the last valuation. -/
abbrev fq (d : Dev nD) (s' : Phys nD τ sig (Elt F)) : Prop :=
  ∀ b ∈ Pipeline.ucRefs τ sig, s'.mem.mem ((d, b) : Loc nD τ sig) = W6 (W4r m) d b

theorem hfin (d : Dev nD) (s' : Phys nD τ sig (Elt F)) : iprop(FIN (W4r m) d ∗ SI s') ⊢ (⌜fq m d s'⌝ : sProp 𝕄) := by
  rw [show FIN (W4r m) d = (bigSep (Pipeline.ucRefs τ sig) fun b => (((d, b) : Loc nD τ sig) ↦{fullShare} W6 (W4r m) d b : sProp 𝕄)) from rfl]
  iintro ⟨Hh, HSI⟩
  ihave Hr := (pointsTo_read_all (Pipeline.ucRefs τ sig) (fun b => ((d, b) : Loc nD τ sig)) (W6 (W4r m) d) s') $$ [Hh HSI]
  · isplitl [Hh] <;> iassumption
  icases Hr with ⟨%h, -⟩
  ipureintro; exact h

abbrev QC : PUnit × MemSt nD τ sig (Elt F) → Prop :=
  fun r => ∀ d : Dev nD, ∀ b ∈ Pipeline.ucRefs τ sig, r.2.mem ((d, b) : Loc nD τ sig) = W6 (W4r m) d b

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (Lf m)) facts v₀
    (fun q hq => match q with | 0 => nomatch hq)
    (fun q _ => match q with | 0 => tileObl m (Lf m))
    (fun q _ => match q with | 0 => SparseCore.Cfg.VecSplit.of_plain (vecSplit m (Lf m)))
    m ρ main (G (F := F)) (FIN (W4r m)) (u₀ (F := F))
    (sep_elim_left.trans (hu₀ (P m (Lf m)) (fun _ _ => rfl)))
    (hmain m ρ (W4r m) (P m (Lf m)) (fun d => st0 m (Lf m) d)
      (fun d => by rw [W4r_v6]; exact dn0 m (Lf m) d) (W4r_ne m))
    (fq m) (hfin m) (QC m) (fun _ h => h)

end Cert.Proof.KI

end
-- ==== Proof.IArgs.lean ====
/-
  The three argument arrays end as launched: no host operation writes one, neither pipeline has one among its output
  windows, and the call writes the routed coefficients only. A buffer that nothing after the first host stretch writes
  holds at the end what that stretch left.
-/
import proofs.«207443_g73169062855234_cont_9to1c4b_643_41_alg».proof.Proof.IRegions

set_option maxRecDepth 16384

noncomputable section

namespace Cert.Proof.KI

open Cert.KernelIdeal Cert.KernelIdeal.Gen
open Idealize.ShloMosaic Idealize.ShloMosaic.TcCoe
open Idealize.ShloMosaic.StableHlo
open Idealize.SL.Sem

variable {F : FTy → Type} [FloatOps F]

/-! ## What the host stretches leave at a buffer they do not write -/

section Host
variable (Vv : Valuation τ sig (Elt F))

theorem host0_arg0 : after (hostOps0 (F := F)) Vv (Proc.devRef .tc main_arg0) = Vv (Proc.devRef .tc main_arg0) := by
  simp only [hostOps0]
  after_results_simp
theorem host0_arg1 : after (hostOps0 (F := F)) Vv (Proc.devRef .tc main_arg1) = Vv (Proc.devRef .tc main_arg1) := by
  simp only [hostOps0]
  after_results_simp
theorem host0_arg2 : after (hostOps0 (F := F)) Vv (Proc.devRef .tc main_arg2) = Vv (Proc.devRef .tc main_arg2) := by
  simp only [hostOps0]
  after_results_simp

/-- The second stretch writes the flat logits only; -/
theorem host1_of_ne (r : Ref sig .tc) (h : r ≠ main_v5) : after (hostOps1 (F := F)) Vv (Proc.devRef .tc r) = Vv (Proc.devRef .tc r) := by
  simp only [hostOps1, after_cons, after_nil]
  exact reshape_result_ne _ _ _ _ _ _ Vv h

/-- the third the coefficients as rows only. -/
theorem host2_of_ne (r : Ref sig .tc) (h : r ≠ main_v7) : after (hostOps2 (F := F)) Vv (Proc.devRef .tc r) = Vv (Proc.devRef .tc r) := by
  simp only [hostOps2, after_cons, after_nil]
  exact reshape_result_ne _ _ _ _ _ _ Vv h

end Host

/-! ## The buffers nothing after the first stretch writes -/

section Rest
variable (m : (ℓ : Loc nD τ sig) → Buf (Elt F) ℓ) (W4 : Dev nD → Valuation τ sig (Elt F))
variable (hW4 : ∀ (d : Dev nD) (b : DevRef τ sig), b ≠ Proc.devRef .tc main_v6 → W4 d b = W3 m d b)
include hW4

/-- A buffer that neither the first pipeline's windows, nor the call, nor the two reshapes write holds after the third
    stretch what the first stretch left (`hW4`: the call writes the routed coefficients only). -/
theorem W5_of (c : Dev nD) (r : Ref sig .tc)
    (h7 : r ≠ main_v7) (h6 : r ≠ main_v6) (h5 : r ≠ main_v5) (h0 : ∀ w, Pipeline.arrRef spec0 w ≠ r) :
    W5 W4 c (Proc.devRef .tc r) = W1 m c (Proc.devRef .tc r) :=
  calc W5 W4 c (Proc.devRef .tc r)
    _ = W4 c (Proc.devRef .tc r) := host2_of_ne (W4 c) r h7
    _ = W3 m c (Proc.devRef .tc r) := hW4 c _ (devRef_ne_of_ne h6)
    _ = W2 m c (Proc.devRef .tc r) := host1_of_ne (W2 m c) r h5
    _ = W1 m c (Proc.devRef .tc r) := W2_of_ne m c r h0

/-- The same after the second pipeline, for a buffer that is none of its arrays either. -/
theorem W6_of (c : Dev nD) (r : Ref sig .tc)
    (h7 : r ≠ main_v7) (h6 : r ≠ main_v6) (h5 : r ≠ main_v5) (h0 : ∀ w, Pipeline.arrRef spec0 w ≠ r) (h2 : ∀ w, Pipeline.arrRef spec2 w ≠ r) :
    W6 W4 c (Proc.devRef .tc r) = W1 m c (Proc.devRef .tc r) :=
  (W6_of_ne W4 c r h2).trans (W5_of m W4 hW4 c r h7 h6 h5 h0)

/-- The arguments end as launched. -/
theorem W6_arg0 (c : Dev nD) : W6 W4 c (Proc.devRef .tc main_arg0) = m ((c, Proc.devRef .tc main_arg0) : Loc nD τ sig) :=
  (W6_of m W4 hW4 c main_arg0 (by decide) (by decide) (by decide) (by decide) (by decide)).trans (host0_arg0 (W0 m c))
theorem W6_arg1 (c : Dev nD) : W6 W4 c (Proc.devRef .tc main_arg1) = m ((c, Proc.devRef .tc main_arg1) : Loc nD τ sig) :=
  (W6_of m W4 hW4 c main_arg1 (by decide) (by decide) (by decide) (by decide) (by decide)).trans (host0_arg1 (W0 m c))
theorem W6_arg2 (c : Dev nD) : W6 W4 c (Proc.devRef .tc main_arg2) = m ((c, Proc.devRef .tc main_arg2) : Loc nD τ sig) :=
  (W6_of m W4 hW4 c main_arg2 (by decide) (by decide) (by decide) (by decide) (by decide)).trans (host0_arg2 (W0 m c))

end Rest

end Cert.Proof.KI

end
-- ==== Proof.IFrame.lean ====
/-
  The idealized kernel's run read at the claim's buffers: the result array at the last valuation's, each argument array
  as launched (no host operation, no pipeline and not the call writes an argument).
-/
import proofs.«207443_g73169062855234_cont_9to1c4b_643_41_alg».proof.Proof.IRun
import proofs.«207443_g73169062855234_cont_9to1c4b_643_41_alg».proof.Proof.IArgs

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

theorem mem_uc (b : Ref sig .tc) (h : ¬ (Proc.devRef .tc b : DevRef τ sig).isScoped := by decide) : Proc.devRef .tc b ∈ Pipeline.ucRefs τ sig :=
  Finset.mem_filter.mpr ⟨StableHlo.devRef_mem_tcRefs b, h⟩

/-- Every weakly fair execution terminates; the result array ends at the last valuation's, the arguments as launched. -/
theorem frame_run [∀ e, Nonempty (Elt F e)] :
    θ_run (Cert.KernelIdeal.defs (F := F)) (Cert.KernelIdeal.threads (F := F)) ⟨m, fun _ => 0, ρ⟩ (fun r => ∀ c : Dev nD,
      r.2.mem ((c.tc : Thread nD τ).loc main_v8) = W6 (W4r m) c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.KernelIdeal.defs (F := F)) _ _).mono (fun r h c =>
    ⟨h c _ (mem_uc main_v8),
      (h c _ (mem_uc main_arg0)).trans (W6_arg0 m (W4r m) (W4r_ne m) c),
      (h c _ (mem_uc main_arg1)).trans (W6_arg1 m (W4r m) (W4r_ne m) c),
      (h c _ (mem_uc main_arg2)).trans (W6_arg2 m (W4r m) (W4r_ne m) c)⟩) (run_main m ρ)

end Cert.Proof.KI

end
-- ==== Proof.IRegArr.lean ====
/-
  What the two pipelines leave in their output arrays, in closed form: block `t` of the output is the body's payload
  of block `t` of the blocked input and of the whole table, so the array after the last point is one function of the
  two input arrays as the pipeline found them (`logitsOf`, `outOf`), generic in the float values.
-/
import proofs.«207443_g73169062855234_cont_9to1c4b_643_41_alg».proof.Proof.IReg
import Idealize.ShloMosaic.Lib.Pipeline.Value
import Idealize.ShloMosaic.Lib.ValueIdx

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]

theorem hz2 : (![0, 0] : Fin 2 → Nat) = fun _ => 0 := funext fun a => by fin_cases a <;> rfl

/-- Rows `1024 q … 1024 q + 1023` of an array of 16384 rows: its `q`-th block of rows. -/
def rowBlk {n : ℕ} {α : Type} (a : (⟨2, ![16384, n]⟩ : Shape).Idx → α) (q : Fin 16) : (⟨2, ![1024, n]⟩ : Shape).Idx → α :=
  fun j => a (ix2 (⟨q.val * 1024 + (j 0).val, by have := idx2_lt0 j; have := q.isLt; omega⟩ : Fin 16384) (j 1))

/-- The block of rows an array index lies in, and its row within the block. -/
abbrev blkOf {n : ℕ} (i : (⟨2, ![16384, n]⟩ : Shape).Idx) : Fin 16 := ⟨(i 0).val / 1024, by have := idx2_lt0 i; omega⟩
abbrev inBlk {n : ℕ} (i : (⟨2, ![16384, n]⟩ : Shape).Idx) : (⟨2, ![1024, n]⟩ : Shape).Idx :=
  ix2 (⟨(i 0).val % 1024, Nat.mod_lt _ (by decide)⟩ : Fin 1024) (i 1)

/-- An index that sits at row `j 0` of block `q` and column `j 1` has that block and that place in it. -/
theorem blkOf_inBlk {n : ℕ} (i : (⟨2, ![16384, n]⟩ : Shape).Idx) (q : Fin 16) (j : (⟨2, ![1024, n]⟩ : Shape).Idx)
    (h0 : (i 0).val = q.val * 1024 + (j 0).val) (h1 : (i 1).val = (j 1).val) : blkOf i = q ∧ inBlk i = j := by
  have hj := idx2_lt0 j
  refine ⟨Fin.ext (by show (i 0).val / 1024 = q.val; omega), ?_⟩
  funext a
  match a with
  | ⟨0, _⟩ => exact Fin.ext (by show (i 0).val % 1024 = (j 0).val; omega)
  | ⟨1, _⟩ => exact Fin.ext h1

/-- The logits array: block `q` of its rows is the first body's payload of the whole table `w` and block `q` of the
    rows of `a`. -/
def logitsOf (a : FVec F S16384x2048 .f32) (w : FVec F S128x2048 .f32) : FVec F S16384x128 .f32 :=
  fun i => k0_pay1 w (rowBlk a (blkOf i)) (inBlk i)

/-- The output array: block `q` of its rows is the second body's payload of block `q` of the rows of `cf` and the whole
    table `w`. -/
def outOf (cf : FVec F S16384x128 .f32) (w : FVec F S128x2048 .bf16) : FVec F S16384x2048 .f32 :=
  fun i => k2_pay1 (rowBlk cf (blkOf i)) w (inBlk i)

theorem logitsOf_blk (a : FVec F S16384x2048 .f32) (w : FVec F S128x2048 .f32) (i : S16384x128.Idx) (q : Fin 16) (j : S1024x128.Idx)
    (h0 : (i 0).val = q.val * 1024 + (j 0).val) (h1 : (i 1).val = (j 1).val) : logitsOf a w i = k0_pay1 w (rowBlk a q) j := by
  obtain ⟨hq, hj⟩ := blkOf_inBlk i q j h0 h1
  unfold logitsOf; rw [hq, hj]

theorem outOf_blk (cf : FVec F S16384x128 .f32) (w : FVec F S128x2048 .bf16) (i : S16384x2048.Idx) (q : Fin 16) (j : S1024x2048.Idx)
    (h0 : (i 0).val = q.val * 1024 + (j 0).val) (h1 : (i 1).val = (j 1).val) : outOf cf w i = k2_pay1 (rowBlk cf q) w j := by
  obtain ⟨hq, hj⟩ := blkOf_inBlk i q j h0 h1
  unfold outOf; rw [hq, hj]

/-! # Pipeline 0 -/

section Region0
variable (V : (c : Dev nD) → (b : Ref sig .tc) → Buf (Elt F) ((c : Thread nD τ).loc b))
variable (O : Dev nD → CellTallies nD τ sig (HIx 1)) (B : Dev nD → Set (SemLoc sig × HIx 1))

/-- The printed index maps, decided over the 16 points: the blocked windows are at block `t` of the rows, the table at
    its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid point as a block of rows. -/
abbrev pt0 (t : Fin cfg0.N) : Fin 16 := ⟨t.val, by have h : t.val < grid0.N := t.isLt; rw [N_0] at h; exact h⟩

/-- Window 0's block at point `t` is block `t` of its array's rows. -/
theorem iblk0_0_eq (c : Dev nD) (t : Fin cfg0.N) : iblk0 V c 0 t = rowBlk (V c main_v0) (pt0 t) := by
  obtain ⟨e0, e1, e2, e3, e4, e5⟩ := idx_facts0 t
  funext j
  show V c main_v0 (((cfg0.win 0).blk t).view.emb j) = V c main_v0 (ix2 (⟨t.val * 1024 + (j 0).val, _⟩ : Fin 16384) (j 1))
  congr 1
  funext a; apply Fin.ext
  match a with
  | ⟨0, _⟩ => show win0_0.index t (0 : Fin 2) * 1024 + 1 * (j 0).val = t.val * 1024 + (j 0).val; omega
  | ⟨1, _⟩ => show win0_0.index t (1 : Fin 2) * 2048 + 1 * (j 1).val = (j 1).val; omega

/-- Window 1's block at any point is its whole array. -/
theorem iblk0_1_eq (c : Dev nD) (t : Fin cfg0.N) : iblk0 V c 1 t = V c main_v1 := by
  obtain ⟨e0, e1, e2, e3, e4, e5⟩ := idx_facts0 t
  funext j
  show V c main_v1 (((cfg0.win 1).blk t).view.emb j) = V c main_v1 j
  congr 1
  funext a; apply Fin.ext
  match a with
  | ⟨0, _⟩ => show win0_1.index t (0 : Fin 2) * 128 + 1 * (j 0).val = (j 0).val; omega
  | ⟨1, _⟩ => show win0_1.index t (1 : Fin 2) * 2048 + 1 * (j 1).val = (j 1).val; omega

/-- What point `t` writes back is block `t` of `logitsOf` of the two input arrays as the pipeline finds them. -/
theorem flushed0_eq (c : Dev nD) (t : Fin cfg0.N) :
    (dat0 V O B c).flushed 2 t = ((cfg0.win 2).blk t).view.read (Elt F) (logitsOf (V c main_v0) (V c main_v1)) := by
  show (cfg0.win 2).cut (grid0.coords t) ((dat0 V O B c).after 2 t) = _
  rw [after0_2]
  unfold out0_2
  rw [View.canon_unit_zero hz2]
  simp only [View.ld_unit_zero (S := S1024x2048) hz2, View.ld_unit_zero (S := S128x2048) hz2]
  rw [iblk0_0_eq, iblk0_1_eq]
  obtain ⟨e0, e1, e2, e3, e4, e5⟩ := idx_facts0 t
  funext j
  show k0_pay1 (V c main_v1) (rowBlk (V c main_v0) (pt0 t)) j = logitsOf (V c main_v0) (V c main_v1) (((cfg0.win 2).blk t).view.emb j)
  refine (logitsOf_blk _ _ _ (pt0 t) j ?_ ?_).symm
  · show win0_2.index t (0 : Fin 2) * 1024 + 1 * (j 0).val = t.val * 1024 + (j 0).val; omega
  · show win0_2.index t (1 : Fin 2) * 128 + 1 * (j 1).val = (j 1).val; omega

/-- An index of the output array is in point `t`'s block iff each coordinate is in the block's range on its axis. -/
theorem mem_blk0 (t : Fin cfg0.N) (i : S16384x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v4).slice (win0_2.rect t)).set ↔ _
  rw [View.set_slice_whole, Rect.mem_set_unit]
  exact Iff.rfl

/-- The 16 blocks of rows cover the output array. -/
theorem cover0 (i : S16384x128.Idx) :
    ∃ t : Fin cfg0.N, (cfg0.win 2).flush t = true ∧ i ∈ ((cfg0.win 2).blk t).view.set := by
  have hi0 := idx2_lt0 i
  have hi1 := idx2_lt1 i
  have hN : cfg0.N = 16 := N_0
  let t : Fin cfg0.N := ⟨(i 0).val / 1024, by rw [hN]; omega⟩
  obtain ⟨e0, e1, e2, e3, e4, e5⟩ := idx_facts0 t
  have ht : t.val = (i 0).val / 1024 := rfl
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- The output array after the last point. -/
theorem final0 (c : Dev nD) : (dat0 V O B c).arrAt 2 cfg0.N = logitsOf (V c main_v0) (V c main_v1) :=
  (dat0 V O B c).arrAt_eq_of_cover 2 _ (fun t _ => flushed0_eq V O B c t) cover0

end Region0

/-! # Pipeline 1 -/

section Region2
variable (V : (c : Dev nD) → (b : Ref sig .tc) → Buf (Elt F) ((c : Thread nD τ).loc b))
variable (O : Dev nD → CellTallies nD τ sig (HIx 1)) (B : Dev nD → Set (SemLoc sig × HIx 1))

/-- The printed index maps, decided over the 16 points: the blocked windows are at block `t` of the rows, the table at
    its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The grid point as a block of rows. -/
abbrev pt2 (t : Fin cfg2.N) : Fin 16 := ⟨t.val, by have h : t.val < grid2.N := t.isLt; rw [N_2] at h; exact h⟩

/-- Window 0's block at point `t` is block `t` of its array's rows. -/
theorem iblk2_0_eq (c : Dev nD) (t : Fin cfg2.N) : iblk2 V c 0 t = rowBlk (V c main_v7) (pt2 t) := by
  obtain ⟨e0, e1, e2, e3, e4, e5⟩ := idx_facts2 t
  funext j
  show V c main_v7 (((cfg2.win 0).blk t).view.emb j) = V c main_v7 (ix2 (⟨t.val * 1024 + (j 0).val, _⟩ : Fin 16384) (j 1))
  congr 1
  funext a; apply Fin.ext
  match a with
  | ⟨0, _⟩ => show win2_0.index t (0 : Fin 2) * 1024 + 1 * (j 0).val = t.val * 1024 + (j 0).val; omega
  | ⟨1, _⟩ => show win2_0.index t (1 : Fin 2) * 128 + 1 * (j 1).val = (j 1).val; omega

/-- Window 1's block at any point is its whole array. -/
theorem iblk2_1_eq (c : Dev nD) (t : Fin cfg2.N) : iblk2 V c 1 t = V c main_v3 := by
  obtain ⟨e0, e1, e2, e3, e4, e5⟩ := idx_facts2 t
  funext j
  show V c main_v3 (((cfg2.win 1).blk t).view.emb j) = V c main_v3 j
  congr 1
  funext a; apply Fin.ext
  match a with
  | ⟨0, _⟩ => show win2_1.index t (0 : Fin 2) * 128 + 1 * (j 0).val = (j 0).val; omega
  | ⟨1, _⟩ => show win2_1.index t (1 : Fin 2) * 2048 + 1 * (j 1).val = (j 1).val; omega

/-- What point `t` writes back is block `t` of `outOf` of the two input arrays as the pipeline finds them. -/
theorem flushed2_eq (c : Dev nD) (t : Fin cfg2.N) :
    (dat2 V O B c).flushed 2 t = ((cfg2.win 2).blk t).view.read (Elt F) (outOf (V c main_v7) (V c main_v3)) := by
  show (cfg2.win 2).cut (grid2.coords t) ((dat2 V O B c).after 2 t) = _
  rw [after2_2]
  unfold out2_2
  rw [View.canon_unit_zero hz2]
  simp only [View.ld_unit_zero (S := S1024x128) hz2, View.ld_unit_zero (S := S128x2048) hz2]
  rw [iblk2_0_eq, iblk2_1_eq]
  obtain ⟨e0, e1, e2, e3, e4, e5⟩ := idx_facts2 t
  funext j
  show k2_pay1 (rowBlk (V c main_v7) (pt2 t)) (V c main_v3) j = outOf (V c main_v7) (V c main_v3) (((cfg2.win 2).blk t).view.emb j)
  refine (outOf_blk _ _ _ (pt2 t) j ?_ ?_).symm
  · show win2_2.index t (0 : Fin 2) * 1024 + 1 * (j 0).val = t.val * 1024 + (j 0).val; omega
  · show win2_2.index t (1 : Fin 2) * 2048 + 1 * (j 1).val = (j 1).val; omega

/-- An index of the output array is in point `t`'s block iff each coordinate is in the block's range on its axis. -/
theorem mem_blk2 (t : Fin cfg2.N) (i : S16384x2048.Idx) :
    i ∈ ((cfg2.win 2).blk t).view.set ↔ ∀ a : Fin 2, win2_2.index t a * S1024x2048.size a ≤ (i a).val ∧ (i a).val < win2_2.index t a * S1024x2048.size a + S1024x2048.size a := by
  show i ∈ ((View.whole main_v8).slice (win2_2.rect t)).set ↔ _
  rw [View.set_slice_whole, Rect.mem_set_unit]
  exact Iff.rfl

/-- The 16 blocks of rows cover the output array. -/
theorem cover2 (i : S16384x2048.Idx) :
    ∃ t : Fin cfg2.N, (cfg2.win 2).flush t = true ∧ i ∈ ((cfg2.win 2).blk t).view.set := by
  have hi0 := idx2_lt0 i
  have hi1 := idx2_lt1 i
  have hN : cfg2.N = 16 := N_2
  let t : Fin cfg2.N := ⟨(i 0).val / 1024, by rw [hN]; omega⟩
  obtain ⟨e0, e1, e2, e3, e4, e5⟩ := idx_facts2 t
  have ht : t.val = (i 0).val / 1024 := rfl
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 2048 ≤ (i 1).val ∧ (i 1).val < win2_2.index t (1 : Fin 2) * 2048 + 2048; omega

/-- The output array after the last point. -/
theorem final2 (c : Dev nD) : (dat2 V O B c).arrAt 2 cfg2.N = outOf (V c main_v7) (V c main_v3) :=
  (dat2 V O B c).arrAt_eq_of_cover 2 _ (fun t _ => flushed2_eq V O B c t) cover2

end Region2

section Family
variable (V0 V2 : (c : Dev nD) → (b : Ref sig .tc) → Buf (Elt F) ((c : Thread nD τ).loc b))
  (O : (p : Fin 2) → Dev nD → CellTallies nD τ sig (HIx 1)) (B : (p : Fin 2) → Dev nD → Set (SemLoc sig × HIx 1))

/-- The logits array as the first pipeline leaves it. -/
theorem arrAt0_out (c : Dev nD) : (pdats V0 V2 O B 0 c).arrAt 2 cfg0.N = logitsOf (V0 c main_v0) (V0 c main_v1) :=
  final0 V0 (O 0) (B 0) c
/-- The output array as the second pipeline leaves it. -/
theorem arrAt2_out (c : Dev nD) : (pdats V0 V2 O B 1 c).arrAt 2 cfg2.N = outOf (V2 c main_v7) (V2 c main_v3) :=
  final2 V2 (O 1) (B 1) c

end Family

end Cert.Proof.KI

end
-- ==== Proof.IRegValue.lean ====
/-
  The two pipelines' closed forms read at the extended reals, one element at a time: an element of the logits array is
  the inner product of a row of the tokens with a row of the first table (for finite inputs: the body splits each
  operand into a leading part and two residuals `x − x`, `(x − x) − (x − x)`, which vanish when the operand is finite,
  and with them five of the six products), and an element of the output array is the inner product of a row of the
  coefficients with a column of the second table.
-/
import proofs.«207443_g73169062855234_cont_9to1c4b_643_41_alg».proof.Proof.IRegArr
import Idealize.ShloMosaic.PureOps.Ideal.Laws

set_option maxRecDepth 16384

noncomputable section

namespace Cert.Proof.KI

open Cert.KernelIdeal Cert.KernelIdeal.Gen
open Idealize.ShloMosaic Idealize.ShloMosaic.ValueIdx
open scoped BigOperators

/-- The first body's product: rows of a [1024, 2048] block against rows of the [128, 2048] table. -/
abbrev D0 : DotDims S1024x2048 S128x2048 S1024x128 := dot_S1024x2048_S128x2048_S1024x128_1_1_0_0_n_n
/-- The second body's product: rows of a [1024, 128] block against columns of the [128, 2048] table. -/
abbrev D2 : DotDims S1024x128 S128x2048 S1024x2048 := dot_S1024x128_S128x2048_S1024x2048_1_0_0_1_n_n

/-! ## The operand indices of the two products, axis by axis -/

theorem lhs0_0 (i : S1024x128.Idx) (q : D0.contr.Idx) : (D0.lhsIdx i q 0).val = (i 0).val := by
  unfold DotDims.lhsIdx
  rw [dif_neg (show ¬(0 : Fin S1024x2048.rank) ∈ D0.lhsBatch by decide), dif_pos (show (0 : Fin S1024x2048.rank) ∈ D0.lhsNonContracting by decide)]
  rfl
theorem lhs0_1 (i : S1024x128.Idx) (q : D0.contr.Idx) : (D0.lhsIdx i q 1).val = (q ⟨0, by decide⟩).val :=
  D0.lhsIdx_val_of_single rfl i q
theorem rhs0_0 (i : S1024x128.Idx) (q : D0.contr.Idx) : (D0.rhsIdx i q 0).val = (i 1).val := by
  unfold DotDims.rhsIdx
  rw [dif_neg (show ¬(0 : Fin S128x2048.rank) ∈ D0.rhsBatch by decide), dif_pos (show (0 : Fin S128x2048.rank) ∈ D0.rhsNonContracting by decide)]
  rfl
theorem rhs0_1 (i : S1024x128.Idx) (q : D0.contr.Idx) : (D0.rhsIdx i q 1).val = (q ⟨0, by decide⟩).val :=
  D0.rhsIdx_val_of_single rfl i q

theorem lhs2_0 (i : S1024x2048.Idx) (q : D2.contr.Idx) : (D2.lhsIdx i q 0).val = (i 0).val := by
  unfold DotDims.lhsIdx
  rw [dif_neg (show ¬(0 : Fin S1024x128.rank) ∈ D2.lhsBatch by decide), dif_pos (show (0 : Fin S1024x128.rank) ∈ D2.lhsNonContracting by decide)]
  rfl
theorem lhs2_1 (i : S1024x2048.Idx) (q : D2.contr.Idx) : (D2.lhsIdx i q 1).val = (q ⟨0, by decide⟩).val :=
  D2.lhsIdx_val_of_single rfl i q
theorem rhs2_0 (i : S1024x2048.Idx) (q : D2.contr.Idx) : (D2.rhsIdx i q 0).val = (q ⟨0, by decide⟩).val :=
  D2.rhsIdx_val_of_single rfl i q
theorem rhs2_1 (i : S1024x2048.Idx) (q : D2.contr.Idx) : (D2.rhsIdx i q 1).val = (i 1).val := by
  unfold DotDims.rhsIdx
  rw [dif_neg (show ¬(1 : Fin S128x2048.rank) ∈ D2.rhsBatch by decide), dif_pos (show (1 : Fin S128x2048.rank) ∈ D2.rhsNonContracting by decide)]
  rfl

/-! ## The two products into a zero accumulator, read at an element -/

/-- Element `(p, n)` of the first product is the inner product of row `p` of the left operand with row `n` of the right. -/
theorem mm0_apply {φ₁ φ₂ : FTy} (x : FVec Ideal S1024x2048 φ₁) (w : FVec Ideal S128x2048 φ₂) (p : Fin 1024) (n : Fin 128) :
    FloatOps.matmul D0 none x w (constant (F := Ideal) S1024x128 .f32 0x00000000#32) (ix2 p n)
      = ∑ k : Fin 2048, x (ix2 p k) * w (ix2 n k) := by
  rw [Ideal.matmul_constant_zero_apply, ← Equiv.sum_comp (contrEquiv1 D0 2048 rfl rfl).symm]
  refine Finset.sum_congr rfl fun k _ => ?_
  have hk := contrEquiv1_symm_val D0 2048 rfl rfl k
  have el : D0.lhsIdx (ix2 p n) ((contrEquiv1 D0 2048 rfl rfl).symm k) = ix2 p k := funext fun a => Fin.ext (by
    match a with
    | ⟨0, _⟩ => exact lhs0_0 _ _
    | ⟨1, _⟩ => exact (lhs0_1 _ _).trans hk)
  have er : D0.rhsIdx (ix2 p n) ((contrEquiv1 D0 2048 rfl rfl).symm k) = ix2 n k := funext fun a => Fin.ext (by
    match a with
    | ⟨0, _⟩ => exact rhs0_0 _ _
    | ⟨1, _⟩ => exact (rhs0_1 _ _).trans hk)
  rw [el, er]

/-- Element `(p, j)` of the second product is the inner product of row `p` of the left operand with column `j` of the right. -/
theorem mm2_apply {φ₁ φ₂ : FTy} (x : FVec Ideal S1024x128 φ₁) (w : FVec Ideal S128x2048 φ₂) (p : Fin 1024) (j : Fin 2048) :
    FloatOps.matmul D2 none x w (constant (F := Ideal) S1024x2048 .f32 0x00000000#32) (ix2 p j)
      = ∑ n : Fin 128, x (ix2 p n) * w (ix2 n j) := by
  rw [Ideal.matmul_constant_zero_apply, ← Equiv.sum_comp (contrEquiv1 D2 128 rfl rfl).symm]
  refine Finset.sum_congr rfl fun k _ => ?_
  have hk := contrEquiv1_symm_val D2 128 rfl rfl k
  have el : D2.lhsIdx (ix2 p j) ((contrEquiv1 D2 128 rfl rfl).symm k) = ix2 p k := funext fun a => Fin.ext (by
    match a with
    | ⟨0, _⟩ => exact lhs2_0 _ _
    | ⟨1, _⟩ => exact (lhs2_1 _ _).trans hk)
  have er : D2.rhsIdx (ix2 p j) ((contrEquiv1 D2 128 rfl rfl).symm k) = ix2 k j := funext fun a => Fin.ext (by
    match a with
    | ⟨0, _⟩ => exact (rhs2_0 _ _).trans hk
    | ⟨1, _⟩ => exact rhs2_1 _ _)
  rw [el, er]

/-! ## The payloads read at an element -/

/-- A finite extended real minus itself is zero. -/
theorem sub_self_of_real {x : EReal} (h : ∃ r : ℝ, x = (r : EReal)) : x - x = 0 := by
  obtain ⟨r, rfl⟩ := h
  rw [← EReal.coe_sub, sub_self, EReal.coe_zero]

/-- The first body's payload on finite blocks: of its six products only the leading parts' survives, the residuals of
    finite operands being zero. -/
theorem k0_pay1_apply (w : FVec Ideal S128x2048 .f32) (x : FVec Ideal S1024x2048 .f32)
    (hw : ∀ i, ∃ r : ℝ, w i = (r : EReal)) (hx : ∀ i, ∃ r : ℝ, x i = (r : EReal)) (p : Fin 1024) (n : Fin 128) :
    k0_pay1 (F := Ideal) w x (ix2 p n) = ∑ k : Fin 2048, x (ix2 p k) * w (ix2 n k) := by
  have hw0 : ∀ i, w i - w i = 0 := fun i => sub_self_of_real (hw i)
  have hx0 : ∀ i, x i - x i = 0 := fun i => sub_self_of_real (hx i)
  simp only [k0_pay1, shapeCast_self, matmul, addf_apply, mm0_apply, truncf_apply, subf_apply]
  simp only [hw0, hx0, sub_zero, mul_zero, zero_mul, Finset.sum_const_zero, add_zero]

/-- The second body's payload: the one product. -/
theorem k2_pay1_apply (cf : FVec Ideal S1024x128 .f32) (w : FVec Ideal S128x2048 .bf16) (p : Fin 1024) (j : Fin 2048) :
    k2_pay1 (F := Ideal) cf w (ix2 p j) = ∑ n : Fin 128, cf (ix2 p n) * w (ix2 n j) := by
  simp only [k2_pay1, shapeCast_self, matmul, mm2_apply, truncf_apply]

/-! ## The arrays read at an element -/

/-- A row of the array is the row of its block of rows at the row's place in the block. -/
theorem rowBlk_apply {m : ℕ} {α : Type} (a : (⟨2, ![16384, m]⟩ : Shape).Idx → α) (t : Fin 16384) (k : Fin m) :
    rowBlk a (⟨t.val / 1024, by have := t.isLt; omega⟩ : Fin 16) (ix2 (⟨t.val % 1024, Nat.mod_lt _ (by decide)⟩ : Fin 1024) k) = a (ix2 t k) := by
  show a (ix2 (⟨t.val / 1024 * 1024 + t.val % 1024, _⟩ : Fin 16384) k) = a (ix2 t k)
  congr 2
  exact Fin.ext (by show t.val / 1024 * 1024 + t.val % 1024 = t.val; omega)

/-- The logits array at token `t` and node `n`, as the body computes it: the payload of the whole table and the token's
    block of rows, read at the token's row in the block. -/
theorem logitsOf_eq (a : FVec Ideal S16384x2048 .f32) (w : FVec Ideal S128x2048 .f32) (t : Fin 16384) (n : Fin 128) :
    logitsOf (F := Ideal) a w (ix2 t n)
      = k0_pay1 (F := Ideal) w (rowBlk a (⟨t.val / 1024, by have := t.isLt; omega⟩ : Fin 16)) (ix2 (⟨t.val % 1024, Nat.mod_lt _ (by decide)⟩ : Fin 1024) n) := rfl

/-- For finite tokens and a finite table, the logit of token `t` at node `n` is their inner product. -/
theorem logitsOf_apply (a : FVec Ideal S16384x2048 .f32) (w : FVec Ideal S128x2048 .f32)
    (ha : ∀ i, ∃ r : ℝ, a i = (r : EReal)) (hw : ∀ i, ∃ r : ℝ, w i = (r : EReal)) (t : Fin 16384) (n : Fin 128) :
    logitsOf (F := Ideal) a w (ix2 t n) = ∑ k : Fin 2048, a (ix2 t k) * w (ix2 n k) := by
  rw [logitsOf_eq, k0_pay1_apply w (rowBlk a _) hw (fun i => ha _)]
  exact Finset.sum_congr rfl fun k _ => by rw [rowBlk_apply]

/-- The output array at token `t` and column `j`, as the body computes it. -/
theorem outOf_eq (cf : FVec Ideal S16384x128 .f32) (w : FVec Ideal S128x2048 .bf16) (t : Fin 16384) (j : Fin 2048) :
    outOf (F := Ideal) cf w (ix2 t j)
      = k2_pay1 (F := Ideal) (rowBlk cf (⟨t.val / 1024, by have := t.isLt; omega⟩ : Fin 16)) w (ix2 (⟨t.val % 1024, Nat.mod_lt _ (by decide)⟩ : Fin 1024) j) := rfl

/-- The output of token `t` at column `j` is the inner product of the token's coefficients with column `j` of the table. -/
theorem outOf_apply (cf : FVec Ideal S16384x128 .f32) (w : FVec Ideal S128x2048 .bf16) (t : Fin 16384) (j : Fin 2048) :
    outOf (F := Ideal) cf w (ix2 t j) = ∑ n : Fin 128, cf (ix2 t n) * w (ix2 n j) := by
  rw [outOf_eq, k2_pay1_apply]
  exact Finset.sum_congr rfl fun k _ => by rw [rowBlk_apply]

end Cert.Proof.KI

end
-- ==== Proof.Spec.lean ====
/-
  The mathematics both programs compute, on the extended reals.  A token `t` (a row of `x`, 2048 features) walks a
  complete binary tree of 31 nodes from the root for five levels.  At a node `n` its logit is the inner product of
  the token with row `n` of `W1`; the walk goes to child `2 n + 1` when the logit is not positive and to child
  `2 n + 2` when it is.  The output row is the sum over the five visited nodes of `max logit 0` times row `n` of `W2`.
-/
import Idealize.ShloMosaic.PureOps.Ideal

noncomputable section

namespace Cert.Spec

open scoped BigOperators

variable (x : Fin 16384 → Fin 2048 → EReal) (w1 w2 : Fin 31 → Fin 2048 → EReal)

/-- The logit of token `t` at node `n`: the inner product with row `n` of `W1`; zero at a number that names no node
    (the padding rows of the 128-row table). -/
def logit (t : Fin 16384) (n : ℕ) : EReal :=
  if h : n < 31 then ∑ k : Fin 2048, x t k * w1 ⟨n, h⟩ k else 0

/-- The node token `t` visits at level `l`: the root, then the left child `2 n + 1`, or the right child `2 n + 2` when
    the logit at `n` is positive. -/
def node (t : Fin 16384) : ℕ → ℕ
  | 0 => 0
  | l + 1 => 2 * node t l + 1 + (if 0 < logit x w1 t (node t l) then 1 else 0)

/-- Row `n` of `W2` at column `j`; zero at a number that names no node. -/
def w2row (n : ℕ) (j : Fin 2048) : EReal :=
  if h : n < 31 then w2 ⟨n, h⟩ j else 0

/-- The contribution of level `l`: the rectified logit at the visited node times that node's row of `W2`. -/
def term (t : Fin 16384) (j : Fin 2048) (l : ℕ) : EReal :=
  max (logit x w1 t (node x w1 t l)) 0 * w2row w2 (node x w1 t l) j

/-- The output at `(t, j)`, accumulated level by level from zero: `((((0 + c₀) + c₁) + c₂) + c₃) + c₄`. -/
def treeOut (t : Fin 16384) (j : Fin 2048) : EReal :=
  ((((0 + term x w1 w2 t j 0) + term x w1 w2 t j 1) + term x w1 w2 t j 2) + term x w1 w2 t j 3) + term x w1 w2 t j 4

end Cert.Spec

end
-- ==== Proof.IValue.lean ====
/-
  The host stretches of the kernel's @main read at an element, and the buffers' contents between the items as
  functions of the launch memory: the tokens laid out as 16384 rows, each weight table padded with zero rows to 128 rows
  (the second narrowed, which changes nothing on the extended reals), the logits and the routed coefficients carried
  through a reshape between 16384 rows of 128 and one row of 2097152, and the two pipelines' arrays in closed form.
-/
import proofs.«207443_g73169062855234_cont_9to1c4b_643_41_alg».proof.Proof.IMain
import proofs.«207443_g73169062855234_cont_9to1c4b_643_41_alg».proof.Proof.IRegions
import proofs.«207443_g73169062855234_cont_9to1c4b_643_41_alg».proof.Proof.IArgs
import proofs.«207443_g73169062855234_cont_9to1c4b_643_41_alg».proof.Proof.IRegValue
import proofs.«207443_g73169062855234_cont_9to1c4b_643_41_alg».proof.Proof.Spec
import Idealize.ShloMosaic.Lib.KernelVsHost

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.StableHlo
open Idealize.SL.Sem
open scoped BigOperators

variable {F : FTy → Type} [FloatOps F]

/-! ## The first host stretch, buffer by buffer, from any contents -/

section Host0
variable (Vv : Valuation τ sig (Elt F))

theorem host0_v0 : after (hostOps0 (F := F)) Vv (Proc.devRef .tc main_v0)
    = shapeCast S16384x2048 (Vv (Proc.devRef .tc main_arg0)) shapeCasts_S2x8192x2048_S16384x2048 := by
  simp only [hostOps0]
  after_results_simp
  rfl

theorem host0_v1 : after (hostOps0 (F := F)) Vv (Proc.devRef .tc main_v1)
    = pad S128x2048 ![0, 0] ![97, 0] ![0, 0] (Vv (Proc.devRef .tc main_arg1)) (sitofp (F := F) .f32 (constantI S_ 32 0#32)) pads_S31x2048_S128x2048_0970_000 h_S_ := by
  simp only [hostOps0]
  after_results_simp
  rfl

theorem host0_v3 : after (hostOps0 (F := F)) Vv (Proc.devRef .tc main_v3)
    = truncf .bf16 (pad S128x2048 ![0, 0] ![97, 0] ![0, 0] (Vv (Proc.devRef .tc main_arg2)) (sitofp (F := F) .f32 (constantI S_ 32 0#32)) pads_S31x2048_S128x2048_0970_000 h_S_) bitsLt_bf16_f32 := by
  simp only [hostOps0]
  after_results_simp
  rfl

/-- The second stretch writes the flat logits only; -/
theorem host1_v5 : after (hostOps1 (F := F)) Vv (Proc.devRef .tc main_v5)
    = shapeCast S2097152 (Vv (Proc.devRef .tc main_v4)) shapeCasts_S16384x128_S2097152 := by
  simp only [hostOps1]
  after_results_simp
  rfl

/-- the third the coefficients as rows only. -/
theorem host2_v7 : after (hostOps2 (F := F)) Vv (Proc.devRef .tc main_v7)
    = shapeCast S16384x128 (Vv (Proc.devRef .tc main_v6)) shapeCasts_S2097152_S16384x128 := by
  simp only [hostOps2]
  after_results_simp
  rfl

end Host0

/-! ## The buffers between the items -/

section Reads
variable (m : (ℓ : Loc nD τ sig) → Buf (Elt F) ℓ) (W4 : Dev nD → Valuation τ sig (Elt F))

/-- The tokens as rows: row `t` is token `t mod 8192` of batch `t / 8192`. -/
theorem V1_v0_apply (c : Dev nD) (t : Fin 16384) (k : Fin 2048) :
    V1 m c main_v0 (ix2 t k)
      = m ((c : Thread nD τ).loc main_arg0) (ix3 (⟨t.val / 8192, by have := t.isLt; omega⟩ : Fin 2) (⟨t.val % 8192, Nat.mod_lt _ (by decide)⟩ : Fin 8192) k) := by
  show after hostOps0 (W0 m c) (Proc.devRef .tc main_v0) (ix2 t k) = _
  rw [host0_v0]
  refine shapeCast_apply _ _ (ix2 t k) (ix3 (⟨t.val / 8192, by have := t.isLt; omega⟩ : Fin 2) (⟨t.val % 8192, Nat.mod_lt _ (by decide)⟩ : Fin 8192) k) ?_
  rw [Shape.rowMajor_val_three, Shape.rowMajor_val_two]
  show (t.val / 8192 * 8192 + t.val % 8192) * 2048 + k.val = t.val * 2048 + k.val
  omega

/-- The first padded table at a row that names a node is that row of `W1`. -/
theorem V1_v1_apply_lo (c : Dev nD) (n : Fin 128) (h : n.val < 31) (k : Fin 2048) :
    V1 m c main_v1 (ix2 n k) = m ((c : Thread nD τ).loc main_arg1) (ix2 (⟨n.val, h⟩ : Fin 31) k) := by
  show after hostOps0 (W0 m c) (Proc.devRef .tc main_v1) (ix2 n k) = _
  rw [host0_v1]
  refine pad_apply_of_inside _ _ _ _ _ _ _ (ix2 n k) (ix2 (⟨n.val, h⟩ : Fin 31) k) fun a => ?_
  match a with
  | ⟨0, _⟩ => show n.val = 0 + n.val * (0 + 1); omega
  | ⟨1, _⟩ => show k.val = 0 + k.val * (0 + 1); omega

/-- The flat logits: element `128 t + n` is the logits array at `(t, n)`. -/
theorem W3_v5_apply (c : Dev nD) (t : Fin 16384) (n : Fin 128) :
    W3 m c (Proc.devRef .tc main_v5) (ix1 (⟨128 * t.val + n.val, by have := t.isLt; have := n.isLt; omega⟩ : Fin 2097152))
      = logitsOf (V1 m c main_v0) (V1 m c main_v1) (ix2 t n) := by
  have hv4 : W2 m c (Proc.devRef .tc main_v4) = logitsOf (V1 m c main_v0) (V1 m c main_v1) :=
    (W2_arr m c 2).trans (final0 (V1 m) (OO (F := F) 0) (BB (F := F) 0) c)
  show after hostOps1 (W2 m c) (Proc.devRef .tc main_v5) _ = _
  rw [host1_v5, hv4]
  refine shapeCast_apply _ _ _ (ix2 t n) ?_
  rw [Shape.rowMajor_val_two, Shape.rowMajor_val_one]
  show t.val * 128 + n.val = 128 * t.val + n.val
  omega

/-- The routed coefficients as rows: element `(t, n)` is element `128 t + n` of what the call left. -/
theorem V5_v7_apply (c : Dev nD) (t : Fin 16384) (n : Fin 128) :
    V5 W4 c main_v7 (ix2 t n)
      = W4 c (Proc.devRef .tc main_v6) (ix1 (⟨128 * t.val + n.val, by have := t.isLt; have := n.isLt; omega⟩ : Fin 2097152)) := by
  show after hostOps2 (W4 c) (Proc.devRef .tc main_v7) (ix2 t n) = _
  rw [host2_v7]
  refine shapeCast_apply _ _ (ix2 t n) _ ?_
  show (S2097152.rowMajor (ix1 (⟨128 * t.val + n.val, by have := t.isLt; have := n.isLt; omega⟩ : Fin 2097152))).val = (S16384x128.rowMajor (ix2 t n)).val
  rw [Shape.rowMajor_val_two, Shape.rowMajor_val_one]
  show 128 * t.val + n.val = t.val * 128 + n.val
  omega

/-- The output array after the second pipeline. -/
theorem W6_v8 (c : Dev nD) : W6 W4 c (Proc.devRef .tc main_v8) = outOf (V5 W4 c main_v7) (V5 W4 c main_v3) :=
  (W6_arr W4 c 2).trans (final2 (V5 W4) (OO (F := F) 1) (BB (F := F) 1) c)

end Reads

/-! ## At the extended reals: the padding is zero and the narrowing changes nothing -/

section AtIdeal
variable (m : (ℓ : Loc nD τ sig) → Buf (Elt Ideal) ℓ) (W4 : Dev nD → Valuation τ sig (Elt Ideal))

/-- The padding value, the integer zero converted, is the extended real zero. -/
theorem pad_value_zero : sitofp (F := Ideal) .f32 (constantI S_ 32 0#32) (Shape.Idx.first h_S_) = (0 : EReal) := by
  show (((0#32 : BitVec 32).toInt : ℝ) : EReal) = 0
  simp

/-- The first padded table at a row that names no node is zero. -/
theorem V1_v1_apply_hi (c : Dev nD) (n : Fin 128) (h : 31 ≤ n.val) (k : Fin 2048) : V1 m c main_v1 (ix2 n k) = (0 : EReal) := by
  show after hostOps0 (W0 m c) (Proc.devRef .tc main_v1) (ix2 n k) = _
  rw [host0_v1, pad_apply_of_not_inside _ _ _ _ _ _ _ (ix2 n k) (0 : Fin 2) (by
    show ¬(0 ≤ n.val ∧ (n.val - 0) % (0 + 1) = 0 ∧ (n.val - 0) / (0 + 1) < 31)
    omega)]
  exact pad_value_zero

/-- The second padded table, narrowed, at row `n` and column `j`: row `n` of `W2`, zero at a row that names no node. -/
theorem V5_v3_apply (hW4 : ∀ (d : Dev nD) (b : DevRef τ sig), b ≠ Proc.devRef .tc main_v6 → W4 d b = W3 m d b) (c : Dev nD) (n : Fin 128) (j : Fin 2048) :
    V5 W4 c main_v3 (ix2 n j) = Cert.Spec.w2row (fun n j => m ((c : Thread nD τ).loc main_arg2) (ix2 n j)) n.val j := by
  show W5 W4 c (Proc.devRef .tc main_v3) (ix2 n j) = _
  rw [W5_of m W4 hW4 c main_v3 (by decide) (by decide) (by decide) (by decide)]
  show after hostOps0 (W0 m c) (Proc.devRef .tc main_v3) (ix2 n j) = _
  rw [host0_v3, truncf_apply]
  unfold Cert.Spec.w2row
  by_cases h : n.val < 31
  · rw [dif_pos h]
    refine pad_apply_of_inside _ _ _ _ _ _ _ (ix2 n j) (ix2 (⟨n.val, h⟩ : Fin 31) j) fun a => ?_
    match a with
    | ⟨0, _⟩ => show n.val = 0 + n.val * (0 + 1); omega
    | ⟨1, _⟩ => show j.val = 0 + j.val * (0 + 1); omega
  · rw [dif_neg h, pad_apply_of_not_inside _ _ _ _ _ _ _ (ix2 n j) (0 : Fin 2) (by
      show ¬(0 ≤ n.val ∧ (n.val - 0) % (0 + 1) = 0 ∧ (n.val - 0) / (0 + 1) < 31)
      omega)]
    exact pad_value_zero

end AtIdeal

end Cert.Proof.KI

end
-- ==== Proof.IRegSpec.lean ====
/-
  The logits array against the shared mathematics: for real-valued tokens and a real-valued padded table whose rows
  below 31 are the rows of `W1` and whose other rows are zero, the element at token `t` and row `n` is the logit of
  `t` at node `n` — the inner product with row `n` of `W1`, and zero at a row that names no node (a sum of products
  with zero).
-/
import proofs.«207443_g73169062855234_cont_9to1c4b_643_41_alg».proof.Proof.IRegValue
import proofs.«207443_g73169062855234_cont_9to1c4b_643_41_alg».proof.Proof.Spec

noncomputable section

namespace Cert.Proof.KI

open Cert.KernelIdeal Cert.KernelIdeal.Gen
open Idealize.ShloMosaic Idealize.ShloMosaic.ValueIdx
open scoped BigOperators

/-- A padded table whose rows below 31 are real-valued rows of `w1` and whose other rows are zero is real-valued. -/
theorem real_of_padded (w : FVec Ideal S128x2048 .f32) (w1 : Fin 31 → Fin 2048 → EReal)
    (hw1 : ∀ n k, ∃ r : ℝ, w1 n k = (r : EReal))
    (hlo : ∀ (n : Fin 128) (h : n.val < 31) (k : Fin 2048), w (ix2 n k) = w1 ⟨n.val, h⟩ k)
    (hhi : ∀ n : Fin 128, 31 ≤ n.val → ∀ k : Fin 2048, w (ix2 n k) = 0) : ∀ i, ∃ r : ℝ, w i = (r : EReal) := by
  intro i
  rw [eq_ix2 i]
  by_cases h : (i 0).val < 31
  · obtain ⟨r, hr⟩ := hw1 ⟨(i 0).val, h⟩ (i 1)
    exact ⟨r, (hlo (i 0) h (i 1)).trans hr⟩
  · exact ⟨0, (hhi (i 0) (Nat.le_of_not_lt h) (i 1)).trans EReal.coe_zero.symm⟩

/-- The logits array at token `t` and row `n` of the padded table is the logit of `t` at node `n`. -/
theorem logitsOf_eq_logit (a : FVec Ideal S16384x2048 .f32) (w : FVec Ideal S128x2048 .f32) (w1 : Fin 31 → Fin 2048 → EReal)
    (ha : ∀ i, ∃ r : ℝ, a i = (r : EReal)) (hw : ∀ i, ∃ r : ℝ, w i = (r : EReal))
    (hlo : ∀ (n : Fin 128) (h : n.val < 31) (k : Fin 2048), w (ix2 n k) = w1 ⟨n.val, h⟩ k)
    (hhi : ∀ n : Fin 128, 31 ≤ n.val → ∀ k : Fin 2048, w (ix2 n k) = 0) (t : Fin 16384) (n : Fin 128) :
    logitsOf (F := Ideal) a w (ix2 t n) = Cert.Spec.logit (fun t k => a (ix2 t k)) w1 t n.val := by
  rw [logitsOf_apply a w ha hw]
  unfold Cert.Spec.logit
  by_cases h : n.val < 31
  · rw [dif_pos h]
    exact Finset.sum_congr rfl fun k _ => by rw [hlo n h k]
  · rw [dif_neg h]
    exact Finset.sum_eq_zero fun k _ => by rw [hhi n (Nat.le_of_not_lt h) k, mul_zero]

/-- The same from a real-valued `w1` alone. -/
theorem logitsOf_eq_logit' (a : FVec Ideal S16384x2048 .f32) (w : FVec Ideal S128x2048 .f32) (w1 : Fin 31 → Fin 2048 → EReal)
    (ha : ∀ i, ∃ r : ℝ, a i = (r : EReal)) (hw1 : ∀ n k, ∃ r : ℝ, w1 n k = (r : EReal))
    (hlo : ∀ (n : Fin 128) (h : n.val < 31) (k : Fin 2048), w (ix2 n k) = w1 ⟨n.val, h⟩ k)
    (hhi : ∀ n : Fin 128, 31 ≤ n.val → ∀ k : Fin 2048, w (ix2 n k) = 0) (t : Fin 16384) (n : Fin 128) :
    logitsOf (F := Ideal) a w (ix2 t n) = Cert.Spec.logit (fun t k => a (ix2 t k)) w1 t n.val :=
  logitsOf_eq_logit a w w1 ha (real_of_padded w w1 hw1 hlo hhi) hlo hhi t n

/-- The output array against the rows of `W2`: for a padded table whose row `n` is `w2row w2 n` (zero at a row that
    names no node), the element at token `t` and column `j` is the sum over the 128 rows of the token's coefficient
    times the row's entry. -/
theorem outOf_eq_sum_w2row (cf : FVec Ideal S16384x128 .f32) (w : FVec Ideal S128x2048 .bf16) (w2 : Fin 31 → Fin 2048 → EReal)
    (hw : ∀ (n : Fin 128) (j : Fin 2048), w (ix2 n j) = Cert.Spec.w2row w2 n.val j) (t : Fin 16384) (j : Fin 2048) :
    outOf (F := Ideal) cf w (ix2 t j) = ∑ n : Fin 128, cf (ix2 t n) * Cert.Spec.w2row w2 n.val j := by
  rw [outOf_apply]
  exact Finset.sum_congr rfl fun n _ => by rw [hw n j]

end Cert.Proof.KI

end
-- ==== Proof.Bridge.lean ====
/-
  A sum over the 128 padded nodes in which only the nodes of a five-level walk carry a nonzero coefficient is the sum
  of the five visited nodes' terms, accumulated level by level: the walk's nodes are pairwise distinct (each level
  lies strictly below the next), and a zero coefficient kills its term on the extended reals whatever the other
  factor is.
-/
import Idealize.ShloMosaic.PureOps.Ideal

noncomputable section

namespace Cert.Bridge

open scoped BigOperators

theorem sum_path (f g : ℕ → EReal) (p : ℕ → ℕ) (hp : StrictMono p) (hlt : ∀ l, l < 5 → p l < 128)
    [DecidablePred fun n : ℕ => ∃ l, l < 5 ∧ n = p l] :
    ∑ n : Fin 128, (if (∃ l, l < 5 ∧ n.val = p l) then f n.val else 0) * g n.val
      = ((((0 + f (p 0) * g (p 0)) + f (p 1) * g (p 1)) + f (p 2) * g (p 2)) + f (p 3) * g (p 3)) + f (p 4) * g (p 4) := by
  have h1 : ∀ n : Fin 128, (if (∃ l, l < 5 ∧ n.val = p l) then f n.val else 0) * g n.val
      = if (∃ l, l < 5 ∧ n.val = p l) then f n.val * g n.val else 0 := by
    intro n; split_ifs
    · rfl
    · exact zero_mul _
  simp_rw [h1]
  rw [← Finset.sum_filter]
  have himg : (Finset.univ.filter fun n : Fin 128 => ∃ l, l < 5 ∧ n.val = p l)
      = (Finset.range 5).attach.image (fun l => (⟨p l.1, hlt l.1 (Finset.mem_range.mp l.2)⟩ : Fin 128)) := by
    ext n
    simp only [Finset.mem_filter, Finset.mem_univ, true_and, Finset.mem_image, Finset.mem_attach, Subtype.exists, Finset.mem_range]
    constructor
    · rintro ⟨l, hl, e⟩; exact ⟨l, hl, Fin.ext e.symm⟩
    · rintro ⟨l, hl, e⟩; exact ⟨l, hl, (congrArg Fin.val e).symm⟩
  rw [himg, Finset.sum_image (by
    intro a _ b _ e
    exact Subtype.ext (hp.injective (congrArg Fin.val e)))]
  rw [Finset.sum_attach (Finset.range 5) (fun l => f (p l) * g (p l))]
  simp only [Finset.sum_range_succ, Finset.sum_range_zero]

end Cert.Bridge

end
-- ==== Proof.IRouteIdeal.lean ====
/-
  The routing walk on the extended reals against the specification: when a row of 128 words holds, at every node
  number, the token's logit there, the walk's nodes are the specification's nodes, the routed row is the rectified
  logit at the five visited nodes and zero elsewhere, and the product of the routed row with the padded second table
  is the specification's output, accumulated level by level.
-/
import proofs.«207443_g73169062855234_cont_9to1c4b_643_41_alg».proof.Proof.IScPure
import proofs.«207443_g73169062855234_cont_9to1c4b_643_41_alg».proof.Proof.Spec
import proofs.«207443_g73169062855234_cont_9to1c4b_643_41_alg».proof.Proof.Bridge
import Idealize.ShloMosaic.PureOps.Ideal.Laws

noncomputable section

namespace Cert.Proof.KI

open Idealize.ShloMosaic

theorem z32_ideal : z32 (F := Ideal) = (0 : EReal) := by
  unfold z32; rw [Ideal.ofBits_def]; exact Ideal.ofBits_zero_f32

theorem posBit_ideal (x : EReal) : posBit (F := Ideal) x = if 0 < x then 1 else 0 := by
  unfold posBit
  rw [z32_ideal, Ideal.cmpf_def]
  unfold Ideal.cmp
  by_cases h : (0 : EReal) < x <;> simp [h]

instance decPath (row : ℕ → EReal) (n : ℕ) : Decidable (∃ l, l < 5 ∧ n = pathN (F := Ideal) row l) :=
  decidable_of_iff _ (onPath_iff (F := Ideal) row n)

theorem routeRow_ideal (row : ℕ → EReal) (n : ℕ) :
    routeRow (F := Ideal) row n = if (∃ l, l < 5 ∧ n = pathN (F := Ideal) row l) then max (row n) 0 else 0 := by
  unfold routeRow
  rw [z32_ideal, Ideal.maximumf_def]
  by_cases h : onPath (F := Ideal) row n
  · rw [if_pos h, if_pos ((onPath_iff (F := Ideal) row n).mp h)]
  · rw [if_neg h, if_neg (fun h' => h ((onPath_iff (F := Ideal) row n).mpr h'))]

variable (x : Fin 16384 → Fin 2048 → EReal) (w1 w2 : Fin 31 → Fin 2048 → EReal)

/-- A row that holds the token's logits walks the specification's nodes. -/
theorem pathN_eq_node (t : Fin 16384) (row : ℕ → EReal) (hrow : ∀ n, n < 128 → row n = Cert.Spec.logit x w1 t n) :
    ∀ l, l < 5 → pathN (F := Ideal) row l = Cert.Spec.node x w1 t l
  | 0, _ => rfl
  | l + 1, hl => by
    have ih := pathN_eq_node t row hrow l (by omega)
    have hb := pathN_le (F := Ideal) row l
    have h128 : pathN (F := Ideal) row l < 128 := by
      have : 2 ^ (l + 1) ≤ 2 ^ 5 := Nat.pow_le_pow_right (by norm_num) (by omega)
      omega
    rw [pathN_succ, Cert.Spec.node, posBit_ideal, hrow _ h128, ih]

/-- The routed row times the padded second table is the specification's output. -/
theorem routed_sum (t : Fin 16384) (j : Fin 2048) (row : ℕ → EReal) (hrow : ∀ n, n < 128 → row n = Cert.Spec.logit x w1 t n) :
    ∑ n : Fin 128, routeRow (F := Ideal) row n.val * Cert.Spec.w2row w2 n.val j = Cert.Spec.treeOut x w1 w2 t j := by
  have hlt : ∀ l, l < 5 → pathN (F := Ideal) row l < 128 := fun l hl => by
    have hb := pathN_le (F := Ideal) row l
    have : 2 ^ (l + 1) ≤ 2 ^ 5 := Nat.pow_le_pow_right (by norm_num) (by omega)
    omega
  simp_rw [routeRow_ideal]
  rw [Cert.Bridge.sum_path (fun n => max (row n) 0) (fun n => Cert.Spec.w2row w2 n j) (pathN (F := Ideal) row) (pathN_strictMono (F := Ideal) row) hlt]
  unfold Cert.Spec.treeOut Cert.Spec.term
  simp only [← pathN_eq_node x w1 t row hrow 0 (by norm_num), ← pathN_eq_node x w1 t row hrow 1 (by norm_num),
    ← pathN_eq_node x w1 t row hrow 2 (by norm_num), ← pathN_eq_node x w1 t row hrow 3 (by norm_num),
    ← pathN_eq_node x w1 t row hrow 4 (by norm_num), ← hrow _ (hlt 0 (by norm_num)), ← hrow _ (hlt 1 (by norm_num)),
    ← hrow _ (hlt 2 (by norm_num)), ← hrow _ (hlt 3 (by norm_num)), ← hrow _ (hlt 4 (by norm_num))]

end Cert.Proof.KI

end
-- ==== Proof.IValueOut.lean ====
/-
  The kernel's output against the shared mathematics, on the extended reals: with the call's result the routing of
  the flat logits, the output array at token `t` and column `j` is the tree sum `treeOut` of the three arguments —
  the flat logits are the inner products with the rows of `W1` (zero at a row that names no node), the routed
  coefficients of token `t` are the routing of its row of logits, and their product with the padded second table is
  the tree sum.
-/
import proofs.«207443_g73169062855234_cont_9to1c4b_643_41_alg».proof.Proof.IValue
import proofs.«207443_g73169062855234_cont_9to1c4b_643_41_alg».proof.Proof.IRegSpec
import proofs.«207443_g73169062855234_cont_9to1c4b_643_41_alg».proof.Proof.IRouteIdeal

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.StableHlo
open Idealize.SL.Sem
open scoped BigOperators

section Out
variable (m : (ℓ : Loc nD τ sig) → Buf (Elt Ideal) ℓ) (W4 : Dev nD → Valuation τ sig (Elt Ideal))

/-- The tokens: token `t` is row `t mod 8192` of batch `t / 8192`. -/
def xOf (c : Dev nD) : Fin 16384 → Fin 2048 → EReal := fun t k =>
  m ((c : Thread nD τ).loc main_arg0) (ix3 (⟨t.val / 8192, by have := t.isLt; omega⟩ : Fin 2) (⟨t.val % 8192, Nat.mod_lt _ (by decide)⟩ : Fin 8192) k)
/-- The two weight tables. -/
def w1Of (c : Dev nD) : Fin 31 → Fin 2048 → EReal := fun n k => m ((c : Thread nD τ).loc main_arg1) (ix2 n k)
def w2Of (c : Dev nD) : Fin 31 → Fin 2048 → EReal := fun n j => m ((c : Thread nD τ).loc main_arg2) (ix2 n j)

/-- The flat logits, element `128 t + n`: the logit of token `t` at node `n`. -/
theorem W3_v5_logit (c : Dev nD)
    (ha0 : ∀ i, ∃ r : ℝ, m ((c : Thread nD τ).loc main_arg0) i = (r : EReal)) (ha1 : ∀ i, ∃ r : ℝ, m ((c : Thread nD τ).loc main_arg1) i = (r : EReal))
    (t : Fin 16384) (n : Fin 128) :
    W3 m c (Proc.devRef .tc main_v5) (ix1 (⟨128 * t.val + n.val, by have := t.isLt; have := n.isLt; omega⟩ : Fin 2097152))
      = Cert.Spec.logit (xOf m c) (w1Of m c) t n.val := by
  rw [W3_v5_apply]
  have ha : ∀ i : S16384x2048.Idx, ∃ r : ℝ, (V1 m c main_v0 : FVec Ideal S16384x2048 .f32) i = (r : EReal) := fun i => by
    obtain ⟨r, hr⟩ := ha0 (ix3 (⟨(i 0).val / 8192, by have := idx2_lt0 i; omega⟩ : Fin 2) (⟨(i 0).val % 8192, Nat.mod_lt _ (by decide)⟩ : Fin 8192) (i 1))
    exact ⟨r, (congrArg (V1 m c main_v0 : FVec Ideal S16384x2048 .f32) (eq_ix2 i)).trans ((V1_v0_apply m c (i 0) (i 1)).trans hr)⟩
  have hx : (fun (t : Fin 16384) (k : Fin 2048) => (V1 m c main_v0 : FVec Ideal S16384x2048 .f32) (ix2 t k)) = xOf m c :=
    funext fun t => funext fun k => V1_v0_apply m c t k
  rw [logitsOf_eq_logit' (V1 m c main_v0) (V1 m c main_v1) (w1Of m c) ha (fun n k => ha1 _)
    (fun n h k => V1_v1_apply_lo m c n h k) (fun n h k => V1_v1_apply_hi m c n h k) t n, hx]

/-- THE OUTPUT on the extended reals: with the call's result the routing of the flat logits, the output array at
    token `t` and column `j` is the tree sum of the three arguments. -/
theorem kernel_out (hW4 : ∀ (d : Dev nD) (b : DevRef τ sig), b ≠ Proc.devRef .tc main_v6 → W4 d b = W3 m d b) (c : Dev nD)
    (h6 : W4 c (Proc.devRef .tc main_v6) = routeV (F := Ideal) (N := 2097152) (W3 m c (Proc.devRef .tc main_v5)))
    (ha0 : ∀ i, ∃ r : ℝ, m ((c : Thread nD τ).loc main_arg0) i = (r : EReal)) (ha1 : ∀ i, ∃ r : ℝ, m ((c : Thread nD τ).loc main_arg1) i = (r : EReal))
    (t : Fin 16384) (j : Fin 2048) :
    W6 W4 c (Proc.devRef .tc main_v8) (ix2 t j) = Cert.Spec.treeOut (xOf m c) (w1Of m c) (w2Of m c) t j := by
  -- the row of logits the routing walks for token `t`
  let L : (⟨1, ![2097152]⟩ : Shape).Idx → EReal := W3 m c (Proc.devRef .tc main_v5)
  let row : ℕ → EReal := rowOf (F := Ideal) L t.val
  have hrow : ∀ n, n < 128 → row n = Cert.Spec.logit (xOf m c) (w1Of m c) t n := fun n hn => by
    have ht := t.isLt
    show rdW (F := Ideal) L (128 * t.val + n % 128) = _
    unfold rdW
    rw [Nat.mod_eq_of_lt hn, dif_pos (by omega)]
    exact W3_v5_logit m c ha0 ha1 t ⟨n, hn⟩
  -- the routed coefficients of token `t` are the routing of that row
  have hcf : ∀ n : Fin 128, (V5 W4 c main_v7 : FVec Ideal S16384x128 .f32) (ix2 t n) = routeRow (F := Ideal) row n.val := fun n => by
    have ht := t.isLt
    have hn := n.isLt
    rw [V5_v7_apply, h6]
    show routeRow (F := Ideal) (rowOf (F := Ideal) L ((128 * t.val + n.val) / 128)) ((128 * t.val + n.val) % 128) = _
    rw [show (128 * t.val + n.val) / 128 = t.val by omega, show (128 * t.val + n.val) % 128 = n.val by omega]
  rw [W6_v8, outOf_eq_sum_w2row (V5 W4 c main_v7) (V5 W4 c main_v3) (w2Of m c) (fun n j => V5_v3_apply m W4 hW4 c n j) t j]
  simp only [hcf]
  exact routed_sum (xOf m c) (w1Of m c) (w2Of m c) t j row hrow

end Out

end Cert.Proof.KI

end
-- ==== Proof.RefRun.lean ====
/-
  The reference program read as a straight line of tensor operations, and what it leaves in its result.
  The line is cut by the walk's levels: five opening operations (the tokens reshaped to rows, every token at the
  root, the accumulator at zero), then five levels of sixty-seven operations each.  A level gathers the rows of
  the first table at the tokens' nodes, sums the products with the tokens (the logits), rectifies them, gathers
  the rows of the second table, adds the rectified logit times that row to the accumulator, and moves every
  token to child `2 n + 1`, or `2 n + 2` where its logit is positive.  `stepOut` and `stepNode` are one level's
  two results as functions of what the level starts from; `accV` and `nodeV` iterate them; `out` is the
  accumulator after five levels, and `run` says every execution ends with the result buffer at `out` of the
  three arguments and the arguments unchanged.
-/
import proofs.«207443_g73169062855234_cont_9to1c4b_643_41_alg».proof.Defs
import proofs.«207443_g73169062855234_cont_9to1c4b_643_41_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The program as a list of operations -/

/-- The operations of one gather of rows (`jnp.take` along axis 0) over its arguments and its own buffers, in order. -/
def takeOps (arg0 : TRef sig ⟨S31x2048, .f32⟩) (arg1 : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 31#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 30#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S31x2048_S16384x1_S16384x2048_1_0_n_n_0_1_12048 x i),
    TRef.unary φ.v12 φ.v14 (broadcastInDim S16384x2048 ![0] bcast_S16384_S16384x2048_0),
    TRef.nullary φ.cst (constant S_ .f32 0x7FC00000#32),
    TRef.unary φ.cst φ.v15 (broadcastInDim S16384x2048 ![] bcast_S_S16384x2048),
    TRef.ternary φ.v14 φ.v13 φ.v15 φ.v16 select ]

/-- The operations of one rectification over its argument and its own buffers. -/
def reluOps (arg0 : TRef sig ⟨S16384, .f32⟩) (φ : fn_relu.Bufs) : List (HloOp τ sig (Elt F)) :=
  [ TRef.nullary φ.cst (constant S_ .f32 0x00000000#32),
    TRef.unary φ.cst φ.v0 (broadcastInDim S16384 ![] bcast_S_S16384),
    TRef.binary arg0 φ.v0 φ.v1 maximumf ]

theorem take_eq (arg0 : TRef sig ⟨S31x2048, .f32⟩) (arg1 : TRef sig ⟨S16384, .i32⟩) (φ : fn_take.Bufs) :
    fn_take.body (F := F) arg0 arg1 φ = seq (takeOps arg0 arg1 φ) := by
  simp only [fn_take.body, fn_where.body, takeOps, seq, bind_assoc, pure_bind]

theorem relu_eq (arg0 : TRef sig ⟨S16384, .f32⟩) (φ : fn_relu.Bufs) :
    fn_relu.body (F := F) arg0 φ = seq (reluOps arg0 φ) := by
  simp only [fn_relu.body, reluOps, seq, bind_assoc, pure_bind]

def opsInit : List (HloOp τ sig (Elt F)) :=
    [ reshape main_arg0 main_v0 rfl shapeCasts_S2x8192x2048_S16384x2048,
      nullary main_c (constantI S_ 32 0#32),
      unary main_c main_v1 (broadcastInDim S16384 ![] bcast_S_S16384 : (⟨S_, .i32⟩ : BufTy).Contents (Elt F) → (⟨S16384, .i32⟩ : BufTy).Contents (Elt F)),
      nullary main_cst (constant S_ .f32 0x00000000#32),
      unary main_cst main_v2 (broadcastInDim S16384x2048 ![] bcast_S_S16384x2048 : (⟨S_, .f32⟩ : BufTy).Contents (Elt F) → (⟨S16384x2048, .f32⟩ : BufTy).Contents (Elt F)) ]

def lvl0 : List (HloOp τ sig (Elt F)) :=
    takeOps (.of main_arg1) (.of main_v1) main_call0
    ++ [ binary main_v0 main_v3 main_v4 (mulf : (⟨S16384x2048, .f32⟩ : BufTy).Contents (Elt F) → (⟨S16384x2048, .f32⟩ : BufTy).Contents (Elt F) → (⟨S16384x2048, .f32⟩ : BufTy).Contents (Elt F)),
      nullary main_cst_0 (constant S_ .f32 0x00000000#32),
      binary main_v4 main_cst_0 main_v5 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)) ]
    ++ reluOps (.of main_v5) main_call1
    ++ takeOps (.of main_arg2) (.of main_v1) main_call2
    ++ [ unary main_v6 main_v8 (broadcastInDim S16384x1 ![0] bcast_S16384_S16384x1_0 : (⟨S16384, .f32⟩ : BufTy).Contents (Elt F) → (⟨S16384x1, .f32⟩ : BufTy).Contents (Elt F)),
      unary main_v8 main_v9 (broadcastInDim S16384x2048 ![0, 1] bcast_S16384x1_S16384x2048_0_1 : (⟨S16384x1, .f32⟩ : BufTy).Contents (Elt F) → (⟨S16384x2048, .f32⟩ : BufTy).Contents (Elt F)),
      binary main_v9 main_v7 main_v10 (mulf : (⟨S16384x2048, .f32⟩ : BufTy).Contents (Elt F) → (⟨S16384x2048, .f32⟩ : BufTy).Contents (Elt F) → (⟨S16384x2048, .f32⟩ : BufTy).Contents (Elt F)),
      binary main_v2 main_v10 main_v11 (addf : (⟨S16384x2048, .f32⟩ : BufTy).Contents (Elt F) → (⟨S16384x2048, .f32⟩ : BufTy).Contents (Elt F) → (⟨S16384x2048, .f32⟩ : BufTy).Contents (Elt F)),
      nullary main_c_1 (constantI S_ 32 2#32),
      unary main_c_1 main_v12 (broadcastInDim S16384 ![] bcast_S_S16384 : (⟨S_, .i32⟩ : BufTy).Contents (Elt F) → (⟨S16384, .i32⟩ : BufTy).Contents (Elt F)),
      binary main_v12 main_v1 main_v13 (muli : (⟨S16384, .i32⟩ : BufTy).Contents (Elt F) → (⟨S16384, .i32⟩ : BufTy).Contents (Elt F) → (⟨S16384, .i32⟩ : BufTy).Contents (Elt F)),
      nullary main_c_2 (constantI S_ 32 1#32),
      unary main_c_2 main_v14 (broadcastInDim S16384 ![] bcast_S_S16384 : (⟨S_, .i32⟩ : BufTy).Contents (Elt F) → (⟨S16384, .i32⟩ : BufTy).Contents (Elt F)),
      binary main_v13 main_v14 main_v15 (addi : (⟨S16384, .i32⟩ : BufTy).Contents (Elt F) → (⟨S16384, .i32⟩ : BufTy).Contents (Elt F) → (⟨S16384, .i32⟩ : BufTy).Contents (Elt F)),
      nullary main_cst_3 (constant S_ .f32 0x00000000#32),
      unary main_cst_3 main_v16 (broadcastInDim S16384 ![] bcast_S_S16384 : (⟨S_, .f32⟩ : BufTy).Contents (Elt F) → (⟨S16384, .f32⟩ : BufTy).Contents (Elt F)),
      binary main_v5 main_v16 main_v17 (cmpf .ogt : (⟨S16384, .f32⟩ : BufTy).Contents (Elt F) → (⟨S16384, .f32⟩ : BufTy).Contents (Elt F) → (⟨S16384, .i1⟩ : BufTy).Contents (Elt F)),
      unary main_v17 main_v18 ((extui 32 · natLt_1_32) : (⟨S16384, .i1⟩ : BufTy).Contents (Elt F) → (⟨S16384, .i32⟩ : BufTy).Contents (Elt F)),
      binary main_v15 main_v18 main_v19 (addi : (⟨S16384, .i32⟩ : BufTy).Contents (Elt F) → (⟨S16384, .i32⟩ : BufTy).Contents (Elt F) → (⟨S16384, .i32⟩ : BufTy).Contents (Elt F)) ]

def lvl1 : List (HloOp τ sig (Elt F)) :=
    takeOps (.of main_arg1) (.of main_v19) main_call3
    ++ [ binary main_v0 main_v20 main_v21 (mulf : (⟨S16384x2048, .f32⟩ : BufTy).Contents (Elt F) → (⟨S16384x2048, .f32⟩ : BufTy).Contents (Elt F) → (⟨S16384x2048, .f32⟩ : BufTy).Contents (Elt F)),
      nullary main_cst_4 (constant S_ .f32 0x00000000#32),
      binary main_v21 main_cst_4 main_v22 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)) ]
    ++ reluOps (.of main_v22) main_call4
    ++ takeOps (.of main_arg2) (.of main_v19) main_call5
    ++ [ unary main_v23 main_v25 (broadcastInDim S16384x1 ![0] bcast_S16384_S16384x1_0 : (⟨S16384, .f32⟩ : BufTy).Contents (Elt F) → (⟨S16384x1, .f32⟩ : BufTy).Contents (Elt F)),
      unary main_v25 main_v26 (broadcastInDim S16384x2048 ![0, 1] bcast_S16384x1_S16384x2048_0_1 : (⟨S16384x1, .f32⟩ : BufTy).Contents (Elt F) → (⟨S16384x2048, .f32⟩ : BufTy).Contents (Elt F)),
      binary main_v26 main_v24 main_v27 (mulf : (⟨S16384x2048, .f32⟩ : BufTy).Contents (Elt F) → (⟨S16384x2048, .f32⟩ : BufTy).Contents (Elt F) → (⟨S16384x2048, .f32⟩ : BufTy).Contents (Elt F)),
      binary main_v11 main_v27 main_v28 (addf : (⟨S16384x2048, .f32⟩ : BufTy).Contents (Elt F) → (⟨S16384x2048, .f32⟩ : BufTy).Contents (Elt F) → (⟨S16384x2048, .f32⟩ : BufTy).Contents (Elt F)),
      nullary main_c_5 (constantI S_ 32 2#32),
      unary main_c_5 main_v29 (broadcastInDim S16384 ![] bcast_S_S16384 : (⟨S_, .i32⟩ : BufTy).Contents (Elt F) → (⟨S16384, .i32⟩ : BufTy).Contents (Elt F)),
      binary main_v29 main_v19 main_v30 (muli : (⟨S16384, .i32⟩ : BufTy).Contents (Elt F) → (⟨S16384, .i32⟩ : BufTy).Contents (Elt F) → (⟨S16384, .i32⟩ : BufTy).Contents (Elt F)),
      nullary main_c_6 (constantI S_ 32 1#32),
      unary main_c_6 main_v31 (broadcastInDim S16384 ![] bcast_S_S16384 : (⟨S_, .i32⟩ : BufTy).Contents (Elt F) → (⟨S16384, .i32⟩ : BufTy).Contents (Elt F)),
      binary main_v30 main_v31 main_v32 (addi : (⟨S16384, .i32⟩ : BufTy).Contents (Elt F) → (⟨S16384, .i32⟩ : BufTy).Contents (Elt F) → (⟨S16384, .i32⟩ : BufTy).Contents (Elt F)),
      nullary main_cst_7 (constant S_ .f32 0x00000000#32),
      unary main_cst_7 main_v33 (broadcastInDim S16384 ![] bcast_S_S16384 : (⟨S_, .f32⟩ : BufTy).Contents (Elt F) → (⟨S16384, .f32⟩ : BufTy).Contents (Elt F)),
      binary main_v22 main_v33 main_v34 (cmpf .ogt : (⟨S16384, .f32⟩ : BufTy).Contents (Elt F) → (⟨S16384, .f32⟩ : BufTy).Contents (Elt F) → (⟨S16384, .i1⟩ : BufTy).Contents (Elt F)),
      unary main_v34 main_v35 ((extui 32 · natLt_1_32) : (⟨S16384, .i1⟩ : BufTy).Contents (Elt F) → (⟨S16384, .i32⟩ : BufTy).Contents (Elt F)),
      binary main_v32 main_v35 main_v36 (addi : (⟨S16384, .i32⟩ : BufTy).Contents (Elt F) → (⟨S16384, .i32⟩ : BufTy).Contents (Elt F) → (⟨S16384, .i32⟩ : BufTy).Contents (Elt F)) ]

def lvl2a : List (HloOp τ sig (Elt F)) :=
    takeOps (.of main_arg1) (.of main_v36) main_call6
    ++ [ binary main_v0 main_v37 main_v38 (mulf : (⟨S16384x2048, .f32⟩ : BufTy).Contents (Elt F) → (⟨S16384x2048, .f32⟩ : BufTy).Contents (Elt F) → (⟨S16384x2048, .f32⟩ : BufTy).Contents (Elt F)),
      nullary main_cst_8 (constant S_ .f32 0x00000000#32),
      binary main_v38 main_cst_8 main_v39 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)) ]
    ++ reluOps (.of main_v39) main_call7
    ++ takeOps (.of main_arg2) (.of main_v36) main_call8
    ++ [ unary main_v40 main_v42 (broadcastInDim S16384x1 ![0] bcast_S16384_S16384x1_0 : (⟨S16384, .f32⟩ : BufTy).Contents (Elt F) → (⟨S16384x1, .f32⟩ : BufTy).Contents (Elt F)),
      unary main_v42 main_v43 (broadcastInDim S16384x2048 ![0, 1] bcast_S16384x1_S16384x2048_0_1 : (⟨S16384x1, .f32⟩ : BufTy).Contents (Elt F) → (⟨S16384x2048, .f32⟩ : BufTy).Contents (Elt F)),
      binary main_v43 main_v41 main_v44 (mulf : (⟨S16384x2048, .f32⟩ : BufTy).Contents (Elt F) → (⟨S16384x2048, .f32⟩ : BufTy).Contents (Elt F) → (⟨S16384x2048, .f32⟩ : BufTy).Contents (Elt F)),
      binary main_v28 main_v44 main_v45 (addf : (⟨S16384x2048, .f32⟩ : BufTy).Contents (Elt F) → (⟨S16384x2048, .f32⟩ : BufTy).Contents (Elt F) → (⟨S16384x2048, .f32⟩ : BufTy).Contents (Elt F)),
      nullary main_c_9 (constantI S_ 32 2#32),
      unary main_c_9 main_v46 (broadcastInDim S16384 ![] bcast_S_S16384 : (⟨S_, .i32⟩ : BufTy).Contents (Elt F) → (⟨S16384, .i32⟩ : BufTy).Contents (Elt F)),
      binary main_v46 main_v36 main_v47 (muli : (⟨S16384, .i32⟩ : BufTy).Contents (Elt F) → (⟨S16384, .i32⟩ : BufTy).Contents (Elt F) → (⟨S16384, .i32⟩ : BufTy).Contents (Elt F)) ]

def lvl2b : List (HloOp τ sig (Elt F)) :=
    [ nullary main_c_10 (constantI S_ 32 1#32),
      unary main_c_10 main_v48 (broadcastInDim S16384 ![] bcast_S_S16384 : (⟨S_, .i32⟩ : BufTy).Contents (Elt F) → (⟨S16384, .i32⟩ : BufTy).Contents (Elt F)),
      binary main_v47 main_v48 main_v49 (addi : (⟨S16384, .i32⟩ : BufTy).Contents (Elt F) → (⟨S16384, .i32⟩ : BufTy).Contents (Elt F) → (⟨S16384, .i32⟩ : BufTy).Contents (Elt F)),
      nullary main_cst_11 (constant S_ .f32 0x00000000#32),
      unary main_cst_11 main_v50 (broadcastInDim S16384 ![] bcast_S_S16384 : (⟨S_, .f32⟩ : BufTy).Contents (Elt F) → (⟨S16384, .f32⟩ : BufTy).Contents (Elt F)),
      binary main_v39 main_v50 main_v51 (cmpf .ogt : (⟨S16384, .f32⟩ : BufTy).Contents (Elt F) → (⟨S16384, .f32⟩ : BufTy).Contents (Elt F) → (⟨S16384, .i1⟩ : BufTy).Contents (Elt F)),
      unary main_v51 main_v52 ((extui 32 · natLt_1_32) : (⟨S16384, .i1⟩ : BufTy).Contents (Elt F) → (⟨S16384, .i32⟩ : BufTy).Contents (Elt F)),
      binary main_v49 main_v52 main_v53 (addi : (⟨S16384, .i32⟩ : BufTy).Contents (Elt F) → (⟨S16384, .i32⟩ : BufTy).Contents (Elt F) → (⟨S16384, .i32⟩ : BufTy).Contents (Elt F)) ]

def lvl3 : List (HloOp τ sig (Elt F)) :=
    takeOps (.of main_arg1) (.of main_v53) main_call9
    ++ [ binary main_v0 main_v54 main_v55 (mulf : (⟨S16384x2048, .f32⟩ : BufTy).Contents (Elt F) → (⟨S16384x2048, .f32⟩ : BufTy).Contents (Elt F) → (⟨S16384x2048, .f32⟩ : BufTy).Contents (Elt F)),
      nullary main_cst_12 (constant S_ .f32 0x00000000#32),
      binary main_v55 main_cst_12 main_v56 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)) ]
    ++ reluOps (.of main_v56) main_call10
    ++ takeOps (.of main_arg2) (.of main_v53) main_call11
    ++ [ unary main_v57 main_v59 (broadcastInDim S16384x1 ![0] bcast_S16384_S16384x1_0 : (⟨S16384, .f32⟩ : BufTy).Contents (Elt F) → (⟨S16384x1, .f32⟩ : BufTy).Contents (Elt F)),
      unary main_v59 main_v60 (broadcastInDim S16384x2048 ![0, 1] bcast_S16384x1_S16384x2048_0_1 : (⟨S16384x1, .f32⟩ : BufTy).Contents (Elt F) → (⟨S16384x2048, .f32⟩ : BufTy).Contents (Elt F)),
      binary main_v60 main_v58 main_v61 (mulf : (⟨S16384x2048, .f32⟩ : BufTy).Contents (Elt F) → (⟨S16384x2048, .f32⟩ : BufTy).Contents (Elt F) → (⟨S16384x2048, .f32⟩ : BufTy).Contents (Elt F)),
      binary main_v45 main_v61 main_v62 (addf : (⟨S16384x2048, .f32⟩ : BufTy).Contents (Elt F) → (⟨S16384x2048, .f32⟩ : BufTy).Contents (Elt F) → (⟨S16384x2048, .f32⟩ : BufTy).Contents (Elt F)),
      nullary main_c_13 (constantI S_ 32 2#32),
      unary main_c_13 main_v63 (broadcastInDim S16384 ![] bcast_S_S16384 : (⟨S_, .i32⟩ : BufTy).Contents (Elt F) → (⟨S16384, .i32⟩ : BufTy).Contents (Elt F)),
      binary main_v63 main_v53 main_v64 (muli : (⟨S16384, .i32⟩ : BufTy).Contents (Elt F) → (⟨S16384, .i32⟩ : BufTy).Contents (Elt F) → (⟨S16384, .i32⟩ : BufTy).Contents (Elt F)),
      nullary main_c_14 (constantI S_ 32 1#32),
      unary main_c_14 main_v65 (broadcastInDim S16384 ![] bcast_S_S16384 : (⟨S_, .i32⟩ : BufTy).Contents (Elt F) → (⟨S16384, .i32⟩ : BufTy).Contents (Elt F)),
      binary main_v64 main_v65 main_v66 (addi : (⟨S16384, .i32⟩ : BufTy).Contents (Elt F) → (⟨S16384, .i32⟩ : BufTy).Contents (Elt F) → (⟨S16384, .i32⟩ : BufTy).Contents (Elt F)),
      nullary main_cst_15 (constant S_ .f32 0x00000000#32),
      unary main_cst_15 main_v67 (broadcastInDim S16384 ![] bcast_S_S16384 : (⟨S_, .f32⟩ : BufTy).Contents (Elt F) → (⟨S16384, .f32⟩ : BufTy).Contents (Elt F)),
      binary main_v56 main_v67 main_v68 (cmpf .ogt : (⟨S16384, .f32⟩ : BufTy).Contents (Elt F) → (⟨S16384, .f32⟩ : BufTy).Contents (Elt F) → (⟨S16384, .i1⟩ : BufTy).Contents (Elt F)),
      unary main_v68 main_v69 ((extui 32 · natLt_1_32) : (⟨S16384, .i1⟩ : BufTy).Contents (Elt F) → (⟨S16384, .i32⟩ : BufTy).Contents (Elt F)),
      binary main_v66 main_v69 main_v70 (addi : (⟨S16384, .i32⟩ : BufTy).Contents (Elt F) → (⟨S16384, .i32⟩ : BufTy).Contents (Elt F) → (⟨S16384, .i32⟩ : BufTy).Contents (Elt F)) ]

def lvl4 : List (HloOp τ sig (Elt F)) :=
    takeOps (.of main_arg1) (.of main_v70) main_call12
    ++ [ binary main_v0 main_v71 main_v72 (mulf : (⟨S16384x2048, .f32⟩ : BufTy).Contents (Elt F) → (⟨S16384x2048, .f32⟩ : BufTy).Contents (Elt F) → (⟨S16384x2048, .f32⟩ : BufTy).Contents (Elt F)),
      nullary main_cst_16 (constant S_ .f32 0x00000000#32),
      binary main_v72 main_cst_16 main_v73 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)) ]
    ++ reluOps (.of main_v73) main_call13
    ++ takeOps (.of main_arg2) (.of main_v70) main_call14
    ++ [ unary main_v74 main_v76 (broadcastInDim S16384x1 ![0] bcast_S16384_S16384x1_0 : (⟨S16384, .f32⟩ : BufTy).Contents (Elt F) → (⟨S16384x1, .f32⟩ : BufTy).Contents (Elt F)),
      unary main_v76 main_v77 (broadcastInDim S16384x2048 ![0, 1] bcast_S16384x1_S16384x2048_0_1 : (⟨S16384x1, .f32⟩ : BufTy).Contents (Elt F) → (⟨S16384x2048, .f32⟩ : BufTy).Contents (Elt F)),
      binary main_v77 main_v75 main_v78 (mulf : (⟨S16384x2048, .f32⟩ : BufTy).Contents (Elt F) → (⟨S16384x2048, .f32⟩ : BufTy).Contents (Elt F) → (⟨S16384x2048, .f32⟩ : BufTy).Contents (Elt F)),
      binary main_v62 main_v78 main_v79 (addf : (⟨S16384x2048, .f32⟩ : BufTy).Contents (Elt F) → (⟨S16384x2048, .f32⟩ : BufTy).Contents (Elt F) → (⟨S16384x2048, .f32⟩ : BufTy).Contents (Elt F)),
      nullary main_c_17 (constantI S_ 32 2#32),
      unary main_c_17 main_v80 (broadcastInDim S16384 ![] bcast_S_S16384 : (⟨S_, .i32⟩ : BufTy).Contents (Elt F) → (⟨S16384, .i32⟩ : BufTy).Contents (Elt F)),
      binary main_v80 main_v70 main_v81 (muli : (⟨S16384, .i32⟩ : BufTy).Contents (Elt F) → (⟨S16384, .i32⟩ : BufTy).Contents (Elt F) → (⟨S16384, .i32⟩ : BufTy).Contents (Elt F)),
      nullary main_c_18 (constantI S_ 32 1#32),
      unary main_c_18 main_v82 (broadcastInDim S16384 ![] bcast_S_S16384 : (⟨S_, .i32⟩ : BufTy).Contents (Elt F) → (⟨S16384, .i32⟩ : BufTy).Contents (Elt F)),
      binary main_v81 main_v82 main_v83 (addi : (⟨S16384, .i32⟩ : BufTy).Contents (Elt F) → (⟨S16384, .i32⟩ : BufTy).Contents (Elt F) → (⟨S16384, .i32⟩ : BufTy).Contents (Elt F)),
      nullary main_cst_19 (constant S_ .f32 0x00000000#32),
      unary main_cst_19 main_v84 (broadcastInDim S16384 ![] bcast_S_S16384 : (⟨S_, .f32⟩ : BufTy).Contents (Elt F) → (⟨S16384, .f32⟩ : BufTy).Contents (Elt F)),
      binary main_v73 main_v84 main_v85 (cmpf .ogt : (⟨S16384, .f32⟩ : BufTy).Contents (Elt F) → (⟨S16384, .f32⟩ : BufTy).Contents (Elt F) → (⟨S16384, .i1⟩ : BufTy).Contents (Elt F)),
      unary main_v85 main_v86 ((extui 32 · natLt_1_32) : (⟨S16384, .i1⟩ : BufTy).Contents (Elt F) → (⟨S16384, .i32⟩ : BufTy).Contents (Elt F)),
      binary main_v83 main_v86 main_v87 (addi : (⟨S16384, .i32⟩ : BufTy).Contents (Elt F) → (⟨S16384, .i32⟩ : BufTy).Contents (Elt F) → (⟨S16384, .i32⟩ : BufTy).Contents (Elt F)) ]

/-- The first window's operations. -/
def ops0 : List (HloOp τ sig (Elt F)) := opsInit ++ lvl0 ++ lvl1 ++ lvl2a
/-- The second window's operations. -/
def ops1 : List (HloOp τ sig (Elt F)) := lvl2b ++ lvl3 ++ lvl4
/-- All of them, in order. -/
def ops : List (HloOp τ sig (Elt F)) := ops0 ++ ops1

set_option maxRecDepth 8192 in
set_option maxHeartbeats 4000000 in
theorem part0_eq (c : Dev nD) : main_part0 (F := F) c = seq ops0 := by
  simp only [main_part0, take_eq, relu_eq, ops0, opsInit, lvl0, lvl1, lvl2a, seq_append, seq, bind_assoc, pure_bind, bind_pure_unit]

set_option maxRecDepth 8192 in
set_option maxHeartbeats 4000000 in
theorem part1_eq (c : Dev nD) : main_part1 (F := F) c = seq ops1 := by
  simp only [main_part1, take_eq, relu_eq, ops1, lvl2b, lvl3, lvl4, seq_append, seq, bind_assoc, pure_bind, bind_pure_unit]

theorem main_eq (c : Dev nD) : main (F := F) c = seq ops := by
  simp only [main, part0_eq, part1_eq, ops, seq_append]

/-! ## Every operation touches TensorCore references only and determines its result -/

/-- What the run asks of each operation. -/
def Good (op : HloOp τ sig (Elt F)) : Prop := op.bufs ⊆ tcRefs τ sig ∧ op.fresh = ∅

theorem good_append {l₁ l₂ : List (HloOp τ sig (Elt F))} (h₁ : l₁.Forall Good) (h₂ : l₂.Forall Good) : (l₁ ++ l₂).Forall Good :=
  List.forall_iff_forall_mem.mpr fun x hx =>
    (List.mem_append.mp hx).elim (List.forall_iff_forall_mem.mp h₁ x) (List.forall_iff_forall_mem.mp h₂ x)

theorem takeOps_good (arg0 : TRef sig ⟨S31x2048, .f32⟩) (arg1 : TRef sig ⟨S16384, .i32⟩) (φ : fn_take.Bufs) :
    (takeOps (F := F) arg0 arg1 φ).Forall Good :=
  ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem reluOps_good (arg0 : TRef sig ⟨S16384, .f32⟩) (φ : fn_relu.Bufs) : (reluOps (F := F) arg0 φ).Forall Good :=
  ⟨⟨nullary_bufs_sub .., rfl⟩, ⟨unary_bufs_sub .., rfl⟩, ⟨binary_bufs_sub .., rfl⟩⟩

theorem opsInit_good : (opsInit (F := F)).Forall Good :=
  (show List.Forall Good [ reshape main_arg0 main_v0 rfl shapeCasts_S2x8192x2048_S16384x2048, nullary main_c (constantI S_ 32 0#32), unary main_c main_v1 (broadcastInDim S16384 ![] bcast_S_S16384 : (⟨S_, .i32⟩ : BufTy).Contents (Elt F) → (⟨S16384, .i32⟩ : BufTy).Contents (Elt F)), nullary main_cst (constant S_ .f32 0x00000000#32), unary main_cst main_v2 (broadcastInDim S16384x2048 ![] bcast_S_S16384x2048 : (⟨S_, .f32⟩ : BufTy).Contents (Elt F) → (⟨S16384x2048, .f32⟩ : BufTy).Contents (Elt F)) ] from ⟨⟨reshape_bufs_sub .., rfl⟩, ⟨nullary_bufs_sub .., rfl⟩, ⟨unary_bufs_sub .., rfl⟩, ⟨nullary_bufs_sub .., rfl⟩, ⟨unary_bufs_sub .., rfl⟩⟩)

theorem lvl0_good : (lvl0 (F := F)).Forall Good :=
  (good_append (good_append (good_append (good_append (takeOps_good _ _ _) (show List.Forall Good [ binary main_v0 main_v3 main_v4 (mulf : (⟨S16384x2048, .f32⟩ : BufTy).Contents (Elt F) → (⟨S16384x2048, .f32⟩ : BufTy).Contents (Elt F) → (⟨S16384x2048, .f32⟩ : BufTy).Contents (Elt F)), nullary main_cst_0 (constant S_ .f32 0x00000000#32), binary main_v4 main_cst_0 main_v5 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)) ] from ⟨⟨binary_bufs_sub .., rfl⟩, ⟨nullary_bufs_sub .., rfl⟩, ⟨binary_bufs_sub .., rfl⟩⟩)) (reluOps_good _ _)) (takeOps_good _ _ _)) (show List.Forall Good [ unary main_v6 main_v8 (broadcastInDim S16384x1 ![0] bcast_S16384_S16384x1_0 : (⟨S16384, .f32⟩ : BufTy).Contents (Elt F) → (⟨S16384x1, .f32⟩ : BufTy).Contents (Elt F)), unary main_v8 main_v9 (broadcastInDim S16384x2048 ![0, 1] bcast_S16384x1_S16384x2048_0_1 : (⟨S16384x1, .f32⟩ : BufTy).Contents (Elt F) → (⟨S16384x2048, .f32⟩ : BufTy).Contents (Elt F)), binary main_v9 main_v7 main_v10 (mulf : (⟨S16384x2048, .f32⟩ : BufTy).Contents (Elt F) → (⟨S16384x2048, .f32⟩ : BufTy).Contents (Elt F) → (⟨S16384x2048, .f32⟩ : BufTy).Contents (Elt F)), binary main_v2 main_v10 main_v11 (addf : (⟨S16384x2048, .f32⟩ : BufTy).Contents (Elt F) → (⟨S16384x2048, .f32⟩ : BufTy).Contents (Elt F) → (⟨S16384x2048, .f32⟩ : BufTy).Contents (Elt F)), nullary main_c_1 (constantI S_ 32 2#32), unary main_c_1 main_v12 (broadcastInDim S16384 ![] bcast_S_S16384 : (⟨S_, .i32⟩ : BufTy).Contents (Elt F) → (⟨S16384, .i32⟩ : BufTy).Contents (Elt F)), binary main_v12 main_v1 main_v13 (muli : (⟨S16384, .i32⟩ : BufTy).Contents (Elt F) → (⟨S16384, .i32⟩ : BufTy).Contents (Elt F) → (⟨S16384, .i32⟩ : BufTy).Contents (Elt F)), nullary main_c_2 (constantI S_ 32 1#32), unary main_c_2 main_v14 (broadcastInDim S16384 ![] bcast_S_S16384 : (⟨S_, .i32⟩ : BufTy).Contents (Elt F) → (⟨S16384, .i32⟩ : BufTy).Contents (Elt F)), binary main_v13 main_v14 main_v15 (addi : (⟨S16384, .i32⟩ : BufTy).Contents (Elt F) → (⟨S16384, .i32⟩ : BufTy).Contents (Elt F) → (⟨S16384, .i32⟩ : BufTy).Contents (Elt F)), nullary main_cst_3 (constant S_ .f32 0x00000000#32), unary main_cst_3 main_v16 (broadcastInDim S16384 ![] bcast_S_S16384 : (⟨S_, .f32⟩ : BufTy).Contents (Elt F) → (⟨S16384, .f32⟩ : BufTy).Contents (Elt F)), binary main_v5 main_v16 main_v17 (cmpf .ogt : (⟨S16384, .f32⟩ : BufTy).Contents (Elt F) → (⟨S16384, .f32⟩ : BufTy).Contents (Elt F) → (⟨S16384, .i1⟩ : BufTy).Contents (Elt F)), unary main_v17 main_v18 ((extui 32 · natLt_1_32) : (⟨S16384, .i1⟩ : BufTy).Contents (Elt F) → (⟨S16384, .i32⟩ : BufTy).Contents (Elt F)), binary main_v15 main_v18 main_v19 (addi : (⟨S16384, .i32⟩ : BufTy).Contents (Elt F) → (⟨S16384, .i32⟩ : BufTy).Contents (Elt F) → (⟨S16384, .i32⟩ : BufTy).Contents (Elt F)) ] from ⟨⟨unary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩⟩))

theorem lvl1_good : (lvl1 (F := F)).Forall Good :=
  (good_append (good_append (good_append (good_append (takeOps_good _ _ _) (show List.Forall Good [ binary main_v0 main_v20 main_v21 (mulf : (⟨S16384x2048, .f32⟩ : BufTy).Contents (Elt F) → (⟨S16384x2048, .f32⟩ : BufTy).Contents (Elt F) → (⟨S16384x2048, .f32⟩ : BufTy).Contents (Elt F)), nullary main_cst_4 (constant S_ .f32 0x00000000#32), binary main_v21 main_cst_4 main_v22 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)) ] from ⟨⟨binary_bufs_sub .., rfl⟩, ⟨nullary_bufs_sub .., rfl⟩, ⟨binary_bufs_sub .., rfl⟩⟩)) (reluOps_good _ _)) (takeOps_good _ _ _)) (show List.Forall Good [ unary main_v23 main_v25 (broadcastInDim S16384x1 ![0] bcast_S16384_S16384x1_0 : (⟨S16384, .f32⟩ : BufTy).Contents (Elt F) → (⟨S16384x1, .f32⟩ : BufTy).Contents (Elt F)), unary main_v25 main_v26 (broadcastInDim S16384x2048 ![0, 1] bcast_S16384x1_S16384x2048_0_1 : (⟨S16384x1, .f32⟩ : BufTy).Contents (Elt F) → (⟨S16384x2048, .f32⟩ : BufTy).Contents (Elt F)), binary main_v26 main_v24 main_v27 (mulf : (⟨S16384x2048, .f32⟩ : BufTy).Contents (Elt F) → (⟨S16384x2048, .f32⟩ : BufTy).Contents (Elt F) → (⟨S16384x2048, .f32⟩ : BufTy).Contents (Elt F)), binary main_v11 main_v27 main_v28 (addf : (⟨S16384x2048, .f32⟩ : BufTy).Contents (Elt F) → (⟨S16384x2048, .f32⟩ : BufTy).Contents (Elt F) → (⟨S16384x2048, .f32⟩ : BufTy).Contents (Elt F)), nullary main_c_5 (constantI S_ 32 2#32), unary main_c_5 main_v29 (broadcastInDim S16384 ![] bcast_S_S16384 : (⟨S_, .i32⟩ : BufTy).Contents (Elt F) → (⟨S16384, .i32⟩ : BufTy).Contents (Elt F)), binary main_v29 main_v19 main_v30 (muli : (⟨S16384, .i32⟩ : BufTy).Contents (Elt F) → (⟨S16384, .i32⟩ : BufTy).Contents (Elt F) → (⟨S16384, .i32⟩ : BufTy).Contents (Elt F)), nullary main_c_6 (constantI S_ 32 1#32), unary main_c_6 main_v31 (broadcastInDim S16384 ![] bcast_S_S16384 : (⟨S_, .i32⟩ : BufTy).Contents (Elt F) → (⟨S16384, .i32⟩ : BufTy).Contents (Elt F)), binary main_v30 main_v31 main_v32 (addi : (⟨S16384, .i32⟩ : BufTy).Contents (Elt F) → (⟨S16384, .i32⟩ : BufTy).Contents (Elt F) → (⟨S16384, .i32⟩ : BufTy).Contents (Elt F)), nullary main_cst_7 (constant S_ .f32 0x00000000#32), unary main_cst_7 main_v33 (broadcastInDim S16384 ![] bcast_S_S16384 : (⟨S_, .f32⟩ : BufTy).Contents (Elt F) → (⟨S16384, .f32⟩ : BufTy).Contents (Elt F)), binary main_v22 main_v33 main_v34 (cmpf .ogt : (⟨S16384, .f32⟩ : BufTy).Contents (Elt F) → (⟨S16384, .f32⟩ : BufTy).Contents (Elt F) → (⟨S16384, .i1⟩ : BufTy).Contents (Elt F)), unary main_v34 main_v35 ((extui 32 · natLt_1_32) : (⟨S16384, .i1⟩ : BufTy).Contents (Elt F) → (⟨S16384, .i32⟩ : BufTy).Contents (Elt F)), binary main_v32 main_v35 main_v36 (addi : (⟨S16384, .i32⟩ : BufTy).Contents (Elt F) → (⟨S16384, .i32⟩ : BufTy).Contents (Elt F) → (⟨S16384, .i32⟩ : BufTy).Contents (Elt F)) ] from ⟨⟨unary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩⟩))

theorem lvl2a_good : (lvl2a (F := F)).Forall Good :=
  (good_append (good_append (good_append (good_append (takeOps_good _ _ _) (show List.Forall Good [ binary main_v0 main_v37 main_v38 (mulf : (⟨S16384x2048, .f32⟩ : BufTy).Contents (Elt F) → (⟨S16384x2048, .f32⟩ : BufTy).Contents (Elt F) → (⟨S16384x2048, .f32⟩ : BufTy).Contents (Elt F)), nullary main_cst_8 (constant S_ .f32 0x00000000#32), binary main_v38 main_cst_8 main_v39 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)) ] from ⟨⟨binary_bufs_sub .., rfl⟩, ⟨nullary_bufs_sub .., rfl⟩, ⟨binary_bufs_sub .., rfl⟩⟩)) (reluOps_good _ _)) (takeOps_good _ _ _)) (show List.Forall Good [ unary main_v40 main_v42 (broadcastInDim S16384x1 ![0] bcast_S16384_S16384x1_0 : (⟨S16384, .f32⟩ : BufTy).Contents (Elt F) → (⟨S16384x1, .f32⟩ : BufTy).Contents (Elt F)), unary main_v42 main_v43 (broadcastInDim S16384x2048 ![0, 1] bcast_S16384x1_S16384x2048_0_1 : (⟨S16384x1, .f32⟩ : BufTy).Contents (Elt F) → (⟨S16384x2048, .f32⟩ : BufTy).Contents (Elt F)), binary main_v43 main_v41 main_v44 (mulf : (⟨S16384x2048, .f32⟩ : BufTy).Contents (Elt F) → (⟨S16384x2048, .f32⟩ : BufTy).Contents (Elt F) → (⟨S16384x2048, .f32⟩ : BufTy).Contents (Elt F)), binary main_v28 main_v44 main_v45 (addf : (⟨S16384x2048, .f32⟩ : BufTy).Contents (Elt F) → (⟨S16384x2048, .f32⟩ : BufTy).Contents (Elt F) → (⟨S16384x2048, .f32⟩ : BufTy).Contents (Elt F)), nullary main_c_9 (constantI S_ 32 2#32), unary main_c_9 main_v46 (broadcastInDim S16384 ![] bcast_S_S16384 : (⟨S_, .i32⟩ : BufTy).Contents (Elt F) → (⟨S16384, .i32⟩ : BufTy).Contents (Elt F)), binary main_v46 main_v36 main_v47 (muli : (⟨S16384, .i32⟩ : BufTy).Contents (Elt F) → (⟨S16384, .i32⟩ : BufTy).Contents (Elt F) → (⟨S16384, .i32⟩ : BufTy).Contents (Elt F)) ] from ⟨⟨unary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩⟩))

theorem lvl2b_good : (lvl2b (F := F)).Forall Good :=
  (show List.Forall Good [ nullary main_c_10 (constantI S_ 32 1#32), unary main_c_10 main_v48 (broadcastInDim S16384 ![] bcast_S_S16384 : (⟨S_, .i32⟩ : BufTy).Contents (Elt F) → (⟨S16384, .i32⟩ : BufTy).Contents (Elt F)), binary main_v47 main_v48 main_v49 (addi : (⟨S16384, .i32⟩ : BufTy).Contents (Elt F) → (⟨S16384, .i32⟩ : BufTy).Contents (Elt F) → (⟨S16384, .i32⟩ : BufTy).Contents (Elt F)), nullary main_cst_11 (constant S_ .f32 0x00000000#32), unary main_cst_11 main_v50 (broadcastInDim S16384 ![] bcast_S_S16384 : (⟨S_, .f32⟩ : BufTy).Contents (Elt F) → (⟨S16384, .f32⟩ : BufTy).Contents (Elt F)), binary main_v39 main_v50 main_v51 (cmpf .ogt : (⟨S16384, .f32⟩ : BufTy).Contents (Elt F) → (⟨S16384, .f32⟩ : BufTy).Contents (Elt F) → (⟨S16384, .i1⟩ : BufTy).Contents (Elt F)), unary main_v51 main_v52 ((extui 32 · natLt_1_32) : (⟨S16384, .i1⟩ : BufTy).Contents (Elt F) → (⟨S16384, .i32⟩ : BufTy).Contents (Elt F)), binary main_v49 main_v52 main_v53 (addi : (⟨S16384, .i32⟩ : BufTy).Contents (Elt F) → (⟨S16384, .i32⟩ : BufTy).Contents (Elt F) → (⟨S16384, .i32⟩ : BufTy).Contents (Elt F)) ] from ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩⟩)

theorem lvl3_good : (lvl3 (F := F)).Forall Good :=
  (good_append (good_append (good_append (good_append (takeOps_good _ _ _) (show List.Forall Good [ binary main_v0 main_v54 main_v55 (mulf : (⟨S16384x2048, .f32⟩ : BufTy).Contents (Elt F) → (⟨S16384x2048, .f32⟩ : BufTy).Contents (Elt F) → (⟨S16384x2048, .f32⟩ : BufTy).Contents (Elt F)), nullary main_cst_12 (constant S_ .f32 0x00000000#32), binary main_v55 main_cst_12 main_v56 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)) ] from ⟨⟨binary_bufs_sub .., rfl⟩, ⟨nullary_bufs_sub .., rfl⟩, ⟨binary_bufs_sub .., rfl⟩⟩)) (reluOps_good _ _)) (takeOps_good _ _ _)) (show List.Forall Good [ unary main_v57 main_v59 (broadcastInDim S16384x1 ![0] bcast_S16384_S16384x1_0 : (⟨S16384, .f32⟩ : BufTy).Contents (Elt F) → (⟨S16384x1, .f32⟩ : BufTy).Contents (Elt F)), unary main_v59 main_v60 (broadcastInDim S16384x2048 ![0, 1] bcast_S16384x1_S16384x2048_0_1 : (⟨S16384x1, .f32⟩ : BufTy).Contents (Elt F) → (⟨S16384x2048, .f32⟩ : BufTy).Contents (Elt F)), binary main_v60 main_v58 main_v61 (mulf : (⟨S16384x2048, .f32⟩ : BufTy).Contents (Elt F) → (⟨S16384x2048, .f32⟩ : BufTy).Contents (Elt F) → (⟨S16384x2048, .f32⟩ : BufTy).Contents (Elt F)), binary main_v45 main_v61 main_v62 (addf : (⟨S16384x2048, .f32⟩ : BufTy).Contents (Elt F) → (⟨S16384x2048, .f32⟩ : BufTy).Contents (Elt F) → (⟨S16384x2048, .f32⟩ : BufTy).Contents (Elt F)), nullary main_c_13 (constantI S_ 32 2#32), unary main_c_13 main_v63 (broadcastInDim S16384 ![] bcast_S_S16384 : (⟨S_, .i32⟩ : BufTy).Contents (Elt F) → (⟨S16384, .i32⟩ : BufTy).Contents (Elt F)), binary main_v63 main_v53 main_v64 (muli : (⟨S16384, .i32⟩ : BufTy).Contents (Elt F) → (⟨S16384, .i32⟩ : BufTy).Contents (Elt F) → (⟨S16384, .i32⟩ : BufTy).Contents (Elt F)), nullary main_c_14 (constantI S_ 32 1#32), unary main_c_14 main_v65 (broadcastInDim S16384 ![] bcast_S_S16384 : (⟨S_, .i32⟩ : BufTy).Contents (Elt F) → (⟨S16384, .i32⟩ : BufTy).Contents (Elt F)), binary main_v64 main_v65 main_v66 (addi : (⟨S16384, .i32⟩ : BufTy).Contents (Elt F) → (⟨S16384, .i32⟩ : BufTy).Contents (Elt F) → (⟨S16384, .i32⟩ : BufTy).Contents (Elt F)), nullary main_cst_15 (constant S_ .f32 0x00000000#32), unary main_cst_15 main_v67 (broadcastInDim S16384 ![] bcast_S_S16384 : (⟨S_, .f32⟩ : BufTy).Contents (Elt F) → (⟨S16384, .f32⟩ : BufTy).Contents (Elt F)), binary main_v56 main_v67 main_v68 (cmpf .ogt : (⟨S16384, .f32⟩ : BufTy).Contents (Elt F) → (⟨S16384, .f32⟩ : BufTy).Contents (Elt F) → (⟨S16384, .i1⟩ : BufTy).Contents (Elt F)), unary main_v68 main_v69 ((extui 32 · natLt_1_32) : (⟨S16384, .i1⟩ : BufTy).Contents (Elt F) → (⟨S16384, .i32⟩ : BufTy).Contents (Elt F)), binary main_v66 main_v69 main_v70 (addi : (⟨S16384, .i32⟩ : BufTy).Contents (Elt F) → (⟨S16384, .i32⟩ : BufTy).Contents (Elt F) → (⟨S16384, .i32⟩ : BufTy).Contents (Elt F)) ] from ⟨⟨unary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩⟩))

theorem lvl4_good : (lvl4 (F := F)).Forall Good :=
  (good_append (good_append (good_append (good_append (takeOps_good _ _ _) (show List.Forall Good [ binary main_v0 main_v71 main_v72 (mulf : (⟨S16384x2048, .f32⟩ : BufTy).Contents (Elt F) → (⟨S16384x2048, .f32⟩ : BufTy).Contents (Elt F) → (⟨S16384x2048, .f32⟩ : BufTy).Contents (Elt F)), nullary main_cst_16 (constant S_ .f32 0x00000000#32), binary main_v72 main_cst_16 main_v73 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)) ] from ⟨⟨binary_bufs_sub .., rfl⟩, ⟨nullary_bufs_sub .., rfl⟩, ⟨binary_bufs_sub .., rfl⟩⟩)) (reluOps_good _ _)) (takeOps_good _ _ _)) (show List.Forall Good [ unary main_v74 main_v76 (broadcastInDim S16384x1 ![0] bcast_S16384_S16384x1_0 : (⟨S16384, .f32⟩ : BufTy).Contents (Elt F) → (⟨S16384x1, .f32⟩ : BufTy).Contents (Elt F)), unary main_v76 main_v77 (broadcastInDim S16384x2048 ![0, 1] bcast_S16384x1_S16384x2048_0_1 : (⟨S16384x1, .f32⟩ : BufTy).Contents (Elt F) → (⟨S16384x2048, .f32⟩ : BufTy).Contents (Elt F)), binary main_v77 main_v75 main_v78 (mulf : (⟨S16384x2048, .f32⟩ : BufTy).Contents (Elt F) → (⟨S16384x2048, .f32⟩ : BufTy).Contents (Elt F) → (⟨S16384x2048, .f32⟩ : BufTy).Contents (Elt F)), binary main_v62 main_v78 main_v79 (addf : (⟨S16384x2048, .f32⟩ : BufTy).Contents (Elt F) → (⟨S16384x2048, .f32⟩ : BufTy).Contents (Elt F) → (⟨S16384x2048, .f32⟩ : BufTy).Contents (Elt F)), nullary main_c_17 (constantI S_ 32 2#32), unary main_c_17 main_v80 (broadcastInDim S16384 ![] bcast_S_S16384 : (⟨S_, .i32⟩ : BufTy).Contents (Elt F) → (⟨S16384, .i32⟩ : BufTy).Contents (Elt F)), binary main_v80 main_v70 main_v81 (muli : (⟨S16384, .i32⟩ : BufTy).Contents (Elt F) → (⟨S16384, .i32⟩ : BufTy).Contents (Elt F) → (⟨S16384, .i32⟩ : BufTy).Contents (Elt F)), nullary main_c_18 (constantI S_ 32 1#32), unary main_c_18 main_v82 (broadcastInDim S16384 ![] bcast_S_S16384 : (⟨S_, .i32⟩ : BufTy).Contents (Elt F) → (⟨S16384, .i32⟩ : BufTy).Contents (Elt F)), binary main_v81 main_v82 main_v83 (addi : (⟨S16384, .i32⟩ : BufTy).Contents (Elt F) → (⟨S16384, .i32⟩ : BufTy).Contents (Elt F) → (⟨S16384, .i32⟩ : BufTy).Contents (Elt F)), nullary main_cst_19 (constant S_ .f32 0x00000000#32), unary main_cst_19 main_v84 (broadcastInDim S16384 ![] bcast_S_S16384 : (⟨S_, .f32⟩ : BufTy).Contents (Elt F) → (⟨S16384, .f32⟩ : BufTy).Contents (Elt F)), binary main_v73 main_v84 main_v85 (cmpf .ogt : (⟨S16384, .f32⟩ : BufTy).Contents (Elt F) → (⟨S16384, .f32⟩ : BufTy).Contents (Elt F) → (⟨S16384, .i1⟩ : BufTy).Contents (Elt F)), unary main_v85 main_v86 ((extui 32 · natLt_1_32) : (⟨S16384, .i1⟩ : BufTy).Contents (Elt F) → (⟨S16384, .i32⟩ : BufTy).Contents (Elt F)), binary main_v83 main_v86 main_v87 (addi : (⟨S16384, .i32⟩ : BufTy).Contents (Elt F) → (⟨S16384, .i32⟩ : BufTy).Contents (Elt F) → (⟨S16384, .i32⟩ : BufTy).Contents (Elt F)) ] from ⟨⟨unary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩⟩))

theorem ops_good : (ops (F := F)).Forall Good :=
  good_append (good_append (good_append (good_append opsInit_good lvl0_good) lvl1_good) lvl2a_good)
    (good_append (good_append lvl2b_good lvl3_good) lvl4_good)

theorem ops_sub : (ops : List (HloOp τ sig (Elt F))).Forall fun op => op.bufs ⊆ tcRefs τ sig :=
  List.forall_iff_forall_mem.mpr fun op h => (List.forall_iff_forall_mem.mp ops_good op h).1

theorem ops_fresh : ∀ op ∈ (ops : List (HloOp τ sig (Elt F))), op.fresh = ∅ :=
  fun op h => (List.forall_iff_forall_mem.mp ops_good op h).2

theorem scopedRefs_eq : (Finset.univ.filter fun b : Ref sig .tc => b.isScoped) = ∅ := by decide
theorem scopedSems_eq : (Finset.univ.filter fun sm : SemLoc sig => sm.isScoped .tc) = ∅ := by decide

/-! ## The values -/

/-- The row index a gather reads, per token: a negative index wrapped by the table's 31 rows, as a column. -/
def takeIdx (idx : (⟨S16384, .i32⟩ : BufTy).Contents (Elt F)) : (⟨S16384x1, .i32⟩ : BufTy).Contents (Elt F) :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 31#32))) idx)

/-- Whether the wrapped index names a row: `0 ≤ i ≤ 30`. -/
def takeMask (i5 : (⟨S16384x1, .i32⟩ : BufTy).Contents (Elt F)) : (⟨S16384, .i1⟩ : BufTy).Contents (Elt F) :=
  Host.reduce IntOp.andi
    (andi (cmpi .sge i5 (broadcastInDim S16384x1 ![] bcast_S_S16384x1 (constantI S_ 32 0#32)))
      (cmpi .sle i5 (broadcastInDim S16384x1 ![0, 1] bcast_S1x1_S16384x1_0_1 (broadcastInDim S1x1 ![1] bcast_S1_S1x1_1 (constantI S1 32 30#32)))))
    (constantI S_ 1 1#1) reducesTo_S16384x1_S16384_d1 h_S_

/-- The gathered rows of a 31-row table at the tokens' indices; a fill value where the index names no row. -/
def takeF (w : (⟨S31x2048, .f32⟩ : BufTy).Contents (Elt F)) (idx : (⟨S16384, .i32⟩ : BufTy).Contents (Elt F)) : (⟨S16384x2048, .f32⟩ : BufTy).Contents (Elt F) :=
  select (broadcastInDim S16384x2048 ![0] bcast_S16384_S16384x2048_0 (takeMask (takeIdx idx)))
    (Host.gather gather_S31x2048_S16384x1_S16384x2048_1_0_n_n_0_1_12048 w (takeIdx idx))
    (broadcastInDim S16384x2048 ![] bcast_S_S16384x2048 (constant S_ .f32 0x7FC00000#32))

/-- The tokens' logits at their current nodes: the row sums of the products with the gathered rows of the first table. -/
def logitF (xf : (⟨S16384x2048, .f32⟩ : BufTy).Contents (Elt F)) (w1 : (⟨S31x2048, .f32⟩ : BufTy).Contents (Elt F)) (node : (⟨S16384, .i32⟩ : BufTy).Contents (Elt F)) : (⟨S16384, .f32⟩ : BufTy).Contents (Elt F) :=
  Host.reduceAdd (mulf xf (takeF w1 node)) (constant S_ .f32 0x00000000#32) reducesTo_S16384x2048_S16384_d1 h_S_

/-- The rectification: the maximum with zero. -/
def reluF (v : (⟨S16384, .f32⟩ : BufTy).Contents (Elt F)) : (⟨S16384, .f32⟩ : BufTy).Contents (Elt F) :=
  maximumf v (broadcastInDim S16384 ![] bcast_S_S16384 (constant S_ .f32 0x00000000#32))

/-- One level's output: the accumulator plus the rectified logit times the gathered rows of the second table. -/
def stepOut (acc xf : (⟨S16384x2048, .f32⟩ : BufTy).Contents (Elt F)) (w1 w2 : (⟨S31x2048, .f32⟩ : BufTy).Contents (Elt F)) (node : (⟨S16384, .i32⟩ : BufTy).Contents (Elt F)) : (⟨S16384x2048, .f32⟩ : BufTy).Contents (Elt F) :=
  addf acc (mulf (broadcastInDim S16384x2048 ![0, 1] bcast_S16384x1_S16384x2048_0_1
    (broadcastInDim S16384x1 ![0] bcast_S16384_S16384x1_0 (reluF (logitF xf w1 node)))) (takeF w2 node))

/-- One level's next node: twice the node, plus one, plus one more where the logit is positive. -/
def stepNode (xf : (⟨S16384x2048, .f32⟩ : BufTy).Contents (Elt F)) (w1 : (⟨S31x2048, .f32⟩ : BufTy).Contents (Elt F)) (node : (⟨S16384, .i32⟩ : BufTy).Contents (Elt F)) : (⟨S16384, .i32⟩ : BufTy).Contents (Elt F) :=
  addi (addi (muli (broadcastInDim S16384 ![] bcast_S_S16384 (constantI S_ 32 2#32)) node) (broadcastInDim S16384 ![] bcast_S_S16384 (constantI S_ 32 1#32)))
    (extui 32 (cmpf .ogt (logitF xf w1 node) (broadcastInDim S16384 ![] bcast_S_S16384 (constant S_ .f32 0x00000000#32))) natLt_1_32)

/-- The tokens as rows: the argument reshaped. -/
def xfOf (x : (⟨S2x8192x2048, .f32⟩ : BufTy).Contents (Elt F)) : (⟨S16384x2048, .f32⟩ : BufTy).Contents (Elt F) :=
  shapeCast S16384x2048 x shapeCasts_S2x8192x2048_S16384x2048

/-- Every token starts at the root. -/
def node0 : (⟨S16384, .i32⟩ : BufTy).Contents (Elt F) := broadcastInDim S16384 ![] bcast_S_S16384 (constantI S_ 32 0#32)
/-- The accumulator starts at zero. -/
def acc0 : (⟨S16384x2048, .f32⟩ : BufTy).Contents (Elt F) := broadcastInDim S16384x2048 ![] bcast_S_S16384x2048 (constant S_ .f32 0x00000000#32)

/-- The tokens' nodes at each level. -/
def nodeV (xf : (⟨S16384x2048, .f32⟩ : BufTy).Contents (Elt F)) (w1 : (⟨S31x2048, .f32⟩ : BufTy).Contents (Elt F)) : ℕ → (⟨S16384, .i32⟩ : BufTy).Contents (Elt F)
  | 0 => node0
  | l + 1 => stepNode xf w1 (nodeV xf w1 l)

/-- The accumulator after each level. -/
def accV (xf : (⟨S16384x2048, .f32⟩ : BufTy).Contents (Elt F)) (w1 w2 : (⟨S31x2048, .f32⟩ : BufTy).Contents (Elt F)) : ℕ → (⟨S16384x2048, .f32⟩ : BufTy).Contents (Elt F)
  | 0 => acc0
  | l + 1 => stepOut (accV xf w1 w2 l) xf w1 w2 (nodeV xf w1 l)

/-- The program's result as a function of its three arguments: the accumulator after five levels. -/
def out (x : (⟨S2x8192x2048, .f32⟩ : BufTy).Contents (Elt F)) (w1 w2 : (⟨S31x2048, .f32⟩ : BufTy).Contents (Elt F)) : (⟨S16384x2048, .f32⟩ : BufTy).Contents (Elt F) :=
  accV (xfOf x) w1 w2 5

/-! ## What each level leaves in the buffers -/

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The third level's operations (they straddle the two windows). -/
def lvl2 : List (HloOp τ sig (Elt F)) := lvl2a ++ lvl2b

set_option maxRecDepth 8192 in
theorem init_v0 (V : Valuation τ sig (Elt F)) : after (opsInit (F := F)) V (main_v0 : DevRef τ sig) = xfOf (V (main_arg0 : DevRef τ sig)) := by
  simp only [opsInit]
  after_results_simp
  rfl
set_option maxRecDepth 8192 in
theorem init_v1 (V : Valuation τ sig (Elt F)) : after (opsInit (F := F)) V (main_v1 : DevRef τ sig) = node0 := by
  simp only [opsInit]
  after_results_simp
  rfl
set_option maxRecDepth 8192 in
theorem init_v2 (V : Valuation τ sig (Elt F)) : after (opsInit (F := F)) V (main_v2 : DevRef τ sig) = acc0 := by
  simp only [opsInit]
  after_results_simp
  rfl
set_option maxRecDepth 8192 in
theorem init_arg0 (V : Valuation τ sig (Elt F)) : after (opsInit (F := F)) V (main_arg0 : DevRef τ sig) = V (main_arg0 : DevRef τ sig) := by
  simp only [opsInit]
  after_results_simp
set_option maxRecDepth 8192 in
theorem init_arg1 (V : Valuation τ sig (Elt F)) : after (opsInit (F := F)) V (main_arg1 : DevRef τ sig) = V (main_arg1 : DevRef τ sig) := by
  simp only [opsInit]
  after_results_simp
set_option maxRecDepth 8192 in
theorem init_arg2 (V : Valuation τ sig (Elt F)) : after (opsInit (F := F)) V (main_arg2 : DevRef τ sig) = V (main_arg2 : DevRef τ sig) := by
  simp only [opsInit]
  after_results_simp

set_option maxRecDepth 8192 in
set_option maxHeartbeats 4000000 in
theorem lvl0_acc (V : Valuation τ sig (Elt F)) :
    after (lvl0 (F := F)) V (main_v11 : DevRef τ sig) = stepOut (V (main_v2 : DevRef τ sig)) (V (main_v0 : DevRef τ sig)) (V (main_arg1 : DevRef τ sig)) (V (main_arg2 : DevRef τ sig)) (V (main_v1 : DevRef τ sig)) := by
  simp only [lvl0, takeOps, reluOps, List.cons_append, List.nil_append]
  after_results_simp
  simp only [TRef.toBuf, TRef.ofBuf, cast_eq]
  rfl
set_option maxRecDepth 8192 in
set_option maxHeartbeats 4000000 in
theorem lvl0_node (V : Valuation τ sig (Elt F)) :
    after (lvl0 (F := F)) V (main_v19 : DevRef τ sig) = stepNode (V (main_v0 : DevRef τ sig)) (V (main_arg1 : DevRef τ sig)) (V (main_v1 : DevRef τ sig)) := by
  simp only [lvl0, takeOps, reluOps, List.cons_append, List.nil_append]
  after_results_simp
  simp only [TRef.toBuf, TRef.ofBuf, cast_eq]
  rfl
set_option maxRecDepth 8192 in
set_option maxHeartbeats 4000000 in
theorem lvl0_v0 (V : Valuation τ sig (Elt F)) : after (lvl0 (F := F)) V (main_v0 : DevRef τ sig) = V (main_v0 : DevRef τ sig) := by
  simp only [lvl0, takeOps, reluOps, List.cons_append, List.nil_append]
  after_results_simp
set_option maxRecDepth 8192 in
set_option maxHeartbeats 4000000 in
theorem lvl0_arg0 (V : Valuation τ sig (Elt F)) : after (lvl0 (F := F)) V (main_arg0 : DevRef τ sig) = V (main_arg0 : DevRef τ sig) := by
  simp only [lvl0, takeOps, reluOps, List.cons_append, List.nil_append]
  after_results_simp
set_option maxRecDepth 8192 in
set_option maxHeartbeats 4000000 in
theorem lvl0_arg1 (V : Valuation τ sig (Elt F)) : after (lvl0 (F := F)) V (main_arg1 : DevRef τ sig) = V (main_arg1 : DevRef τ sig) := by
  simp only [lvl0, takeOps, reluOps, List.cons_append, List.nil_append]
  after_results_simp
set_option maxRecDepth 8192 in
set_option maxHeartbeats 4000000 in
theorem lvl0_arg2 (V : Valuation τ sig (Elt F)) : after (lvl0 (F := F)) V (main_arg2 : DevRef τ sig) = V (main_arg2 : DevRef τ sig) := by
  simp only [lvl0, takeOps, reluOps, List.cons_append, List.nil_append]
  after_results_simp

set_option maxRecDepth 8192 in
set_option maxHeartbeats 4000000 in
theorem lvl1_acc (V : Valuation τ sig (Elt F)) :
    after (lvl1 (F := F)) V (main_v28 : DevRef τ sig) = stepOut (V (main_v11 : DevRef τ sig)) (V (main_v0 : DevRef τ sig)) (V (main_arg1 : DevRef τ sig)) (V (main_arg2 : DevRef τ sig)) (V (main_v19 : DevRef τ sig)) := by
  simp only [lvl1, takeOps, reluOps, List.cons_append, List.nil_append]
  after_results_simp
  simp only [TRef.toBuf, TRef.ofBuf, cast_eq]
  rfl
set_option maxRecDepth 8192 in
set_option maxHeartbeats 4000000 in
theorem lvl1_node (V : Valuation τ sig (Elt F)) :
    after (lvl1 (F := F)) V (main_v36 : DevRef τ sig) = stepNode (V (main_v0 : DevRef τ sig)) (V (main_arg1 : DevRef τ sig)) (V (main_v19 : DevRef τ sig)) := by
  simp only [lvl1, takeOps, reluOps, List.cons_append, List.nil_append]
  after_results_simp
  simp only [TRef.toBuf, TRef.ofBuf, cast_eq]
  rfl
set_option maxRecDepth 8192 in
set_option maxHeartbeats 4000000 in
theorem lvl1_v0 (V : Valuation τ sig (Elt F)) : after (lvl1 (F := F)) V (main_v0 : DevRef τ sig) = V (main_v0 : DevRef τ sig) := by
  simp only [lvl1, takeOps, reluOps, List.cons_append, List.nil_append]
  after_results_simp
set_option maxRecDepth 8192 in
set_option maxHeartbeats 4000000 in
theorem lvl1_arg0 (V : Valuation τ sig (Elt F)) : after (lvl1 (F := F)) V (main_arg0 : DevRef τ sig) = V (main_arg0 : DevRef τ sig) := by
  simp only [lvl1, takeOps, reluOps, List.cons_append, List.nil_append]
  after_results_simp
set_option maxRecDepth 8192 in
set_option maxHeartbeats 4000000 in
theorem lvl1_arg1 (V : Valuation τ sig (Elt F)) : after (lvl1 (F := F)) V (main_arg1 : DevRef τ sig) = V (main_arg1 : DevRef τ sig) := by
  simp only [lvl1, takeOps, reluOps, List.cons_append, List.nil_append]
  after_results_simp
set_option maxRecDepth 8192 in
set_option maxHeartbeats 4000000 in
theorem lvl1_arg2 (V : Valuation τ sig (Elt F)) : after (lvl1 (F := F)) V (main_arg2 : DevRef τ sig) = V (main_arg2 : DevRef τ sig) := by
  simp only [lvl1, takeOps, reluOps, List.cons_append, List.nil_append]
  after_results_simp

set_option maxRecDepth 8192 in
set_option maxHeartbeats 4000000 in
theorem lvl2_acc (V : Valuation τ sig (Elt F)) :
    after (lvl2 (F := F)) V (main_v45 : DevRef τ sig) = stepOut (V (main_v28 : DevRef τ sig)) (V (main_v0 : DevRef τ sig)) (V (main_arg1 : DevRef τ sig)) (V (main_arg2 : DevRef τ sig)) (V (main_v36 : DevRef τ sig)) := by
  simp only [lvl2, lvl2a, lvl2b, takeOps, reluOps, List.cons_append, List.nil_append]
  after_results_simp
  simp only [TRef.toBuf, TRef.ofBuf, cast_eq]
  rfl
set_option maxRecDepth 8192 in
set_option maxHeartbeats 4000000 in
theorem lvl2_node (V : Valuation τ sig (Elt F)) :
    after (lvl2 (F := F)) V (main_v53 : DevRef τ sig) = stepNode (V (main_v0 : DevRef τ sig)) (V (main_arg1 : DevRef τ sig)) (V (main_v36 : DevRef τ sig)) := by
  simp only [lvl2, lvl2a, lvl2b, takeOps, reluOps, List.cons_append, List.nil_append]
  after_results_simp
  simp only [TRef.toBuf, TRef.ofBuf, cast_eq]
  rfl
set_option maxRecDepth 8192 in
set_option maxHeartbeats 4000000 in
theorem lvl2_v0 (V : Valuation τ sig (Elt F)) : after (lvl2 (F := F)) V (main_v0 : DevRef τ sig) = V (main_v0 : DevRef τ sig) := by
  simp only [lvl2, lvl2a, lvl2b, takeOps, reluOps, List.cons_append, List.nil_append]
  after_results_simp
set_option maxRecDepth 8192 in
set_option maxHeartbeats 4000000 in
theorem lvl2_arg0 (V : Valuation τ sig (Elt F)) : after (lvl2 (F := F)) V (main_arg0 : DevRef τ sig) = V (main_arg0 : DevRef τ sig) := by
  simp only [lvl2, lvl2a, lvl2b, takeOps, reluOps, List.cons_append, List.nil_append]
  after_results_simp
set_option maxRecDepth 8192 in
set_option maxHeartbeats 4000000 in
theorem lvl2_arg1 (V : Valuation τ sig (Elt F)) : after (lvl2 (F := F)) V (main_arg1 : DevRef τ sig) = V (main_arg1 : DevRef τ sig) := by
  simp only [lvl2, lvl2a, lvl2b, takeOps, reluOps, List.cons_append, List.nil_append]
  after_results_simp
set_option maxRecDepth 8192 in
set_option maxHeartbeats 4000000 in
theorem lvl2_arg2 (V : Valuation τ sig (Elt F)) : after (lvl2 (F := F)) V (main_arg2 : DevRef τ sig) = V (main_arg2 : DevRef τ sig) := by
  simp only [lvl2, lvl2a, lvl2b, takeOps, reluOps, List.cons_append, List.nil_append]
  after_results_simp

set_option maxRecDepth 8192 in
set_option maxHeartbeats 4000000 in
theorem lvl3_acc (V : Valuation τ sig (Elt F)) :
    after (lvl3 (F := F)) V (main_v62 : DevRef τ sig) = stepOut (V (main_v45 : DevRef τ sig)) (V (main_v0 : DevRef τ sig)) (V (main_arg1 : DevRef τ sig)) (V (main_arg2 : DevRef τ sig)) (V (main_v53 : DevRef τ sig)) := by
  simp only [lvl3, takeOps, reluOps, List.cons_append, List.nil_append]
  after_results_simp
  simp only [TRef.toBuf, TRef.ofBuf, cast_eq]
  rfl
set_option maxRecDepth 8192 in
set_option maxHeartbeats 4000000 in
theorem lvl3_node (V : Valuation τ sig (Elt F)) :
    after (lvl3 (F := F)) V (main_v70 : DevRef τ sig) = stepNode (V (main_v0 : DevRef τ sig)) (V (main_arg1 : DevRef τ sig)) (V (main_v53 : DevRef τ sig)) := by
  simp only [lvl3, takeOps, reluOps, List.cons_append, List.nil_append]
  after_results_simp
  simp only [TRef.toBuf, TRef.ofBuf, cast_eq]
  rfl
set_option maxRecDepth 8192 in
set_option maxHeartbeats 4000000 in
theorem lvl3_v0 (V : Valuation τ sig (Elt F)) : after (lvl3 (F := F)) V (main_v0 : DevRef τ sig) = V (main_v0 : DevRef τ sig) := by
  simp only [lvl3, takeOps, reluOps, List.cons_append, List.nil_append]
  after_results_simp
set_option maxRecDepth 8192 in
set_option maxHeartbeats 4000000 in
theorem lvl3_arg0 (V : Valuation τ sig (Elt F)) : after (lvl3 (F := F)) V (main_arg0 : DevRef τ sig) = V (main_arg0 : DevRef τ sig) := by
  simp only [lvl3, takeOps, reluOps, List.cons_append, List.nil_append]
  after_results_simp
set_option maxRecDepth 8192 in
set_option maxHeartbeats 4000000 in
theorem lvl3_arg1 (V : Valuation τ sig (Elt F)) : after (lvl3 (F := F)) V (main_arg1 : DevRef τ sig) = V (main_arg1 : DevRef τ sig) := by
  simp only [lvl3, takeOps, reluOps, List.cons_append, List.nil_append]
  after_results_simp
set_option maxRecDepth 8192 in
set_option maxHeartbeats 4000000 in
theorem lvl3_arg2 (V : Valuation τ sig (Elt F)) : after (lvl3 (F := F)) V (main_arg2 : DevRef τ sig) = V (main_arg2 : DevRef τ sig) := by
  simp only [lvl3, takeOps, reluOps, List.cons_append, List.nil_append]
  after_results_simp

set_option maxRecDepth 8192 in
set_option maxHeartbeats 4000000 in
theorem lvl4_acc (V : Valuation τ sig (Elt F)) :
    after (lvl4 (F := F)) V (main_v79 : DevRef τ sig) = stepOut (V (main_v62 : DevRef τ sig)) (V (main_v0 : DevRef τ sig)) (V (main_arg1 : DevRef τ sig)) (V (main_arg2 : DevRef τ sig)) (V (main_v70 : DevRef τ sig)) := by
  simp only [lvl4, takeOps, reluOps, List.cons_append, List.nil_append]
  after_results_simp
  simp only [TRef.toBuf, TRef.ofBuf, cast_eq]
  rfl
set_option maxRecDepth 8192 in
set_option maxHeartbeats 4000000 in
theorem lvl4_node (V : Valuation τ sig (Elt F)) :
    after (lvl4 (F := F)) V (main_v87 : DevRef τ sig) = stepNode (V (main_v0 : DevRef τ sig)) (V (main_arg1 : DevRef τ sig)) (V (main_v70 : DevRef τ sig)) := by
  simp only [lvl4, takeOps, reluOps, List.cons_append, List.nil_append]
  after_results_simp
  simp only [TRef.toBuf, TRef.ofBuf, cast_eq]
  rfl
set_option maxRecDepth 8192 in
set_option maxHeartbeats 4000000 in
theorem lvl4_v0 (V : Valuation τ sig (Elt F)) : after (lvl4 (F := F)) V (main_v0 : DevRef τ sig) = V (main_v0 : DevRef τ sig) := by
  simp only [lvl4, takeOps, reluOps, List.cons_append, List.nil_append]
  after_results_simp
set_option maxRecDepth 8192 in
set_option maxHeartbeats 4000000 in
theorem lvl4_arg0 (V : Valuation τ sig (Elt F)) : after (lvl4 (F := F)) V (main_arg0 : DevRef τ sig) = V (main_arg0 : DevRef τ sig) := by
  simp only [lvl4, takeOps, reluOps, List.cons_append, List.nil_append]
  after_results_simp
set_option maxRecDepth 8192 in
set_option maxHeartbeats 4000000 in
theorem lvl4_arg1 (V : Valuation τ sig (Elt F)) : after (lvl4 (F := F)) V (main_arg1 : DevRef τ sig) = V (main_arg1 : DevRef τ sig) := by
  simp only [lvl4, takeOps, reluOps, List.cons_append, List.nil_append]
  after_results_simp
set_option maxRecDepth 8192 in
set_option maxHeartbeats 4000000 in
theorem lvl4_arg2 (V : Valuation τ sig (Elt F)) : after (lvl4 (F := F)) V (main_arg2 : DevRef τ sig) = V (main_arg2 : DevRef τ sig) := by
  simp only [lvl4, takeOps, reluOps, List.cons_append, List.nil_append]
  after_results_simp

/-! ## The whole line -/

theorem ops_split : (ops : List (HloOp τ sig (Elt F))) = opsInit ++ lvl0 ++ lvl1 ++ lvl2 ++ lvl3 ++ lvl4 := by
  simp only [ops, ops0, ops1, lvl2, List.append_assoc]

theorem after_out (V : Valuation τ sig (Elt F)) :
    after (ops (F := F)) V (main_v79 : DevRef τ sig) = out (V (main_arg0 : DevRef τ sig)) (V (main_arg1 : DevRef τ sig)) (V (main_arg2 : DevRef τ sig)) := by
  rw [ops_split]
  simp only [after_append]
  rw [lvl4_acc]
  rw [lvl3_acc, lvl3_node, lvl3_v0, lvl3_arg1, lvl3_arg2]
  rw [lvl2_acc, lvl2_node, lvl2_v0, lvl2_arg1, lvl2_arg2]
  rw [lvl1_acc, lvl1_node, lvl1_v0, lvl1_arg1, lvl1_arg2]
  rw [lvl0_acc, lvl0_node, lvl0_v0, lvl0_arg1, lvl0_arg2]
  rw [init_v0, init_v1, init_v2, init_arg1, init_arg2]
  rfl

theorem after_arg0 (V : Valuation τ sig (Elt F)) : after (ops (F := F)) V (main_arg0 : DevRef τ sig) = V (main_arg0 : DevRef τ sig) := by
  rw [ops_split]
  simp only [after_append]
  rw [lvl4_arg0, lvl3_arg0, lvl2_arg0, lvl1_arg0, lvl0_arg0, init_arg0]

theorem after_arg1 (V : Valuation τ sig (Elt F)) : after (ops (F := F)) V (main_arg1 : DevRef τ sig) = V (main_arg1 : DevRef τ sig) := by
  rw [ops_split]
  simp only [after_append]
  rw [lvl4_arg1, lvl3_arg1, lvl2_arg1, lvl1_arg1, lvl0_arg1, init_arg1]

theorem after_arg2 (V : Valuation τ sig (Elt F)) : after (ops (F := F)) V (main_arg2 : DevRef τ sig) = V (main_arg2 : DevRef τ sig) := by
  rw [ops_split]
  simp only [after_append]
  rw [lvl4_arg2, lvl3_arg2, lvl2_arg2, lvl1_arg2, lvl0_arg2, init_arg2]
/-- On every device, for any float values, from any memory with zero counters: every weakly fair execution of the
    program terminates with its result at `out` of the three arguments' launch contents, the arguments unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev nD,
      r.2.mem ((c.tc : Thread nD τ).loc main_v79) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v79).trans (after_out _), (h c main_arg0).trans (after_arg0 _),
      (h c main_arg1).trans (after_arg1 _), (h c main_arg2).trans (after_arg2 _)⟩)
    (run_seq scopedRefs_eq scopedSems_eq defs main (fun _ => ops) main_eq (fun _ => ops_sub) m ρ (fun _ => ops_fresh))

end Cert.ReferenceIdeal.RefRun

end
-- ==== Proof.RefValue.lean ====
/-
  The reference's result, element by element, is the specification's tree output.
  The gather of rows is read at an index: its start index is the token's node as a 32-bit word, wrapped if
  negative and clamped into `[0, 30]`, and the fill value is selected only where the wrapped index is outside
  that range.  By induction on the level the node at level `l` lies in `[2^l − 1, 2^(l+1) − 2]`, so for the five
  levels it names one of the 31 rows, as a word it does not overflow, the wrap and the clamp are the identity and
  the fill is never selected.  The logit is then the inner product of the token with that row of the first
  table (a sum from zero over the 2048 features), the rectification is the maximum with zero, and each level
  adds the specification's term to the accumulator, which starts at zero.  The reshape of the tokens to rows
  is row-major: token `t` is `(t / 8192, t % 8192)`.
-/
import proofs.«207443_g73169062855234_cont_9to1c4b_643_41_alg».proof.Proof.RefRun
import proofs.«207443_g73169062855234_cont_9to1c4b_643_41_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.RefRun Idealize.ShloMosaic Idealize.ShloMosaic.ValueIdx
open Cert.ReferenceIdeal.Facts₀ Cert.ReferenceIdeal.Facts
open scoped BigOperators

variable [Cert.ReferenceIdeal.Facts]

/-! ## Broadcasts read at an index -/

theorem bc_col {α : Type} (h : S16384.BroadcastsInDim S16384x1 ![0]) (g : S16384.Idx → α) (j : S16384x1.Idx) :
    broadcastInDim S16384x1 ![0] h g j = g (ix1 (j 0)) := by
  unfold broadcastInDim
  congr 1
  funext a
  match a with
  | ⟨0, _⟩ => rfl

theorem bc_row {α : Type} (h : S16384x1.BroadcastsInDim S16384x2048 ![0, 1]) (g : S16384x1.Idx → α) (j : S16384x2048.Idx) :
    broadcastInDim S16384x2048 ![0, 1] h g j = g (ix2 (j 0) 0) := by
  unfold broadcastInDim
  congr 1
  funext a
  match a with
  | ⟨0, _⟩ => rfl
  | ⟨1, _⟩ => rfl

theorem bc_mask {α : Type} (h : S16384.BroadcastsInDim S16384x2048 ![0]) (g : S16384.Idx → α) (j : S16384x2048.Idx) :
    broadcastInDim S16384x2048 ![0] h g j = g (ix1 (j 0)) := by
  unfold broadcastInDim
  congr 1
  funext a
  match a with
  | ⟨0, _⟩ => rfl

/-! ## The gather's pieces read at an index -/

/-- A negative index wrapped by the 31 rows. -/
def wrapIdx (n : BitVec 32) : BitVec 32 := Scalar.select (IntOp.cmpi .slt n 0#32) (IntOp.addi n 31#32) n

theorem takeIdx_apply (idx : IVec S16384 32) (j : S16384x1.Idx) :
    takeIdx (F := Ideal) idx j = wrapIdx (idx (ix1 (j 0))) := by
  rw [RefRun.takeIdx, bc_col]
  rfl

theorem takeMask_apply (i5 : IVec S16384x1 32) (t : Fin 16384) :
    takeMask (F := Ideal) i5 (ix1 t)
      = IntOp.andi (IntOp.andi (IntOp.cmpi .sge (i5 (ix2 t 0)) 0#32) (IntOp.cmpi .sle (i5 (ix2 t 0)) 30#32)) 1#1 := by
  unfold takeMask
  rw [Host.reduce_eq_fold_single IntOp.andi _ _ reducesTo_S16384x1_S16384_d1 (by decide : S16384x1.Reduces [1] S16384) h_S_]
  have hu : (Finset.univ : Finset (Fin (S16384x1.size 1))) = {(⟨0, by decide⟩ : Fin (S16384x1.size 1))} := by decide
  rw [hu, Finset.fold_singleton]
  have hl : (by decide : S16384x1.Reduces [1] S16384).lift (ix1 t) (⟨0, by decide⟩ : Fin (S16384x1.size 1)) = ix2 t 0 := by
    funext a
    match a with
    | ⟨0, _⟩ => exact Fin.ext rfl
    | ⟨1, _⟩ => exact Fin.ext rfl
  rw [Function.comp_apply, hl]
  rfl

/-- The gather's dimension numbers. -/
abbrev gd : GatherDims S31x2048 S16384x1 S16384x2048 := gather_S31x2048_S16384x1_S16384x2048_1_0_n_n_0_1_12048

theorem offCoord_one (y : S16384x2048.Idx) : gd.offCoord y (1 : Fin 2) = (y 1).val := by
  unfold GatherDims.offCoord
  rw [dif_pos (by decide : (1 : Fin 2) ∈ gd.sKept)]
  exact congrArg (fun k : Fin 2 => (y k).val) (by decide)

/-- The gather read at `(t, j)`: the table's row at the start index, read signed and clamped into `[0, 30]`. -/
theorem gather_apply {α : Type} (w : S31x2048.Idx → α) (i5 : IVec S16384x1 32) (y : S16384x2048.Idx) :
    Host.gather gd w i5 y = w (ix2 ⟨min (i5 (ix2 (y 0) 0)).toInt.toNat 30, by omega⟩ (y 1)) := by
  unfold Host.gather
  congr 1
  funext a
  refine Fin.ext ?_
  show gd.start y i5 a + gd.batchCoord y a + gd.offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    split
    · next ha =>
      have hsi : gd.siIdx y ⟨List.idxOf _ gd.startIndexMap, List.idxOf_lt_length_iff.2 ha⟩ = ix2 (y 0) 0 := by
        funext b; refine Fin.ext ?_
        match b with
        | ⟨0, _⟩ => rfl
        | ⟨1, _⟩ => rfl
      rw [hsi]
      rfl
    · next ha => exact absurd (List.mem_singleton.mpr rfl) ha
  | ⟨1, _⟩ =>
    change gd.start y i5 (1 : Fin 2) + 0 + gd.offCoord y (1 : Fin 2) = (y 1).val
    unfold GatherDims.start
    split
    · next ha => exact absurd ha (by decide)
    · rw [offCoord_one, Nat.zero_add]

/-! ## The same at an index given by its coordinates -/

theorem bc_mask' {α : Type} (h : S16384.BroadcastsInDim S16384x2048 ![0]) (g : S16384.Idx → α) (t : Fin 16384) (j : Fin 2048) :
    broadcastInDim S16384x2048 ![0] h g (ix2 t j) = g (ix1 t) := bc_mask h g (ix2 t j)
theorem bc_row' {α : Type} (h : S16384x1.BroadcastsInDim S16384x2048 ![0, 1]) (g : S16384x1.Idx → α) (t : Fin 16384) (j : Fin 2048) :
    broadcastInDim S16384x2048 ![0, 1] h g (ix2 t j) = g (ix2 t (0 : Fin 1)) := bc_row h g (ix2 t j)
theorem bc_col' {α : Type} (h : S16384.BroadcastsInDim S16384x1 ![0]) (g : S16384.Idx → α) (t : Fin 16384) :
    broadcastInDim S16384x1 ![0] h g (ix2 t (0 : Fin 1)) = g (ix1 t) := bc_col h g (ix2 t (0 : Fin 1))
theorem takeIdx_apply' (idx : IVec S16384 32) (t : Fin 16384) :
    RefRun.takeIdx (F := Ideal) idx (ix2 t (0 : Fin 1)) = wrapIdx (idx (ix1 t)) := takeIdx_apply idx (ix2 t (0 : Fin 1))
theorem gather_apply' {α : Type} (w : S31x2048.Idx → α) (i5 : IVec S16384x1 32) (t : Fin 16384) (j : Fin 2048) :
    Host.gather gd w i5 (ix2 t j) = w (ix2 ⟨min (i5 (ix2 t (0 : Fin 1))).toInt.toNat 30, by omega⟩ j) :=
  gather_apply w i5 (ix2 t j)

/-! ## Words in range -/

theorem wrap_ofNat (n : Fin 31) : wrapIdx (BitVec.ofNat 32 n.val) = BitVec.ofNat 32 n.val := by
  revert n; decide

theorem inrange_ofNat (n : Fin 31) :
    IntOp.andi (IntOp.andi (IntOp.cmpi .sge (BitVec.ofNat 32 n.val) 0#32) (IntOp.cmpi .sle (BitVec.ofNat 32 n.val) 30#32)) 1#1 = 1#1 := by
  revert n; decide

theorem clamp_ofNat (n : Fin 31) : min (BitVec.ofNat 32 n.val).toInt.toNat 30 = n.val := by
  revert n; decide

/-- The gathered row at a token whose index names a row: that row of the table. -/
theorem takeF_apply (w : FVec Ideal S31x2048 .f32) (idx : IVec S16384 32) (t : Fin 16384) (j : Fin 2048) (n : Fin 31)
    (hn : idx (ix1 t) = BitVec.ofNat 32 n.val) :
    takeF (F := Ideal) w idx (ix2 t j) = w (ix2 n j) := by
  unfold takeF
  rw [select_apply, bc_mask', takeMask_apply]
  simp only [gather_apply', takeIdx_apply', hn, wrap_ofNat, inrange_ofNat, clamp_ofNat, select_one]

/-! ## The reshape, the logit and the walk -/

section Walk

variable (x : FVec Ideal S2x8192x2048 .f32) (w1 w2 : FVec Ideal S31x2048 .f32)

/-- The tokens as rows of features: token `t` is `(t / 8192, t % 8192)`. -/
abbrev X : Fin 16384 → Fin 2048 → EReal :=
  fun t k => x (ix3 (⟨t.val / 8192, by have := t.isLt; omega⟩ : Fin 2) (⟨t.val % 8192, Nat.mod_lt _ (by decide)⟩ : Fin 8192) k)
/-- The first table's rows. -/
abbrev W1 : Fin 31 → Fin 2048 → EReal := fun n k => w1 (ix2 n k)
/-- The second table's rows. -/
abbrev W2 : Fin 31 → Fin 2048 → EReal := fun n k => w2 (ix2 n k)

theorem xfOf_apply (t : Fin 16384) (k : Fin 2048) : xfOf (F := Ideal) x (ix2 t k) = X x t k := by
  unfold xfOf shapeCast
  show x _ = x _
  congr 1
  apply Shape.reshapeEquiv_eq_of_rowMajor
  rw [Shape.rowMajor_val_three, Shape.rowMajor_val_two]
  show (t.val / 8192 * 8192 + t.val % 8192) * 2048 + k.val = t.val * 2048 + k.val
  have := Nat.div_add_mod' t.val 8192
  rw [this]

theorem zero_bits : Ideal.ofBits .f32 0x00000000#32 = 0 := by simp [Ideal.ofBits, Ideal.ieee]

theorem logitF_apply (node : IVec S16384 32) (t : Fin 16384) (n : Fin 31) (hn : node (ix1 t) = BitVec.ofNat 32 n.val) :
    logitF (F := Ideal) (xfOf x) w1 node (ix1 t) = ∑ k : Fin 2048, X x t k * W1 w1 n k := by
  unfold logitF Host.reduceAdd
  rw [Ideal.hostReduceAdd_def, Ideal.hostReduceAdd_single reducesTo_S16384x2048_S16384_d1 (by decide : S16384x2048.Reduces [1] S16384)]
  have hl : ∀ k : Fin 2048, (by decide : S16384x2048.Reduces [1] S16384).lift (ix1 t) k = ix2 t k := by
    intro k; funext a
    match a with
    | ⟨0, _⟩ => exact Fin.ext rfl
    | ⟨1, _⟩ => exact Fin.ext rfl
  rw [constant_apply, zero_bits, zero_add]
  show ∑ k : Fin 2048, _ = _
  refine Finset.sum_congr rfl fun k _ => ?_
  rw [hl k, mulf_apply, xfOf_apply, takeF_apply w1 node t k n hn]

theorem addi_apply {s : Shape} {w : ℕ} (a b : IVec s w) (i : s.Idx) : addi a b i = IntOp.addi (a i) (b i) := rfl
theorem muli_apply {s : Shape} {w : ℕ} (a b : IVec s w) (i : s.Idx) : muli a b i = IntOp.muli (a i) (b i) := rfl
theorem cmpf_ideal (p : CmpFPredicate) (a b : EReal) : FloatOps.cmpf (F := Ideal) (φ := .f32) p a b = Ideal.cmp p a b := rfl
theorem bcI {s t : Shape} (dims : Fin s.rank → Fin t.rank) (h : s.BroadcastsInDim t dims) (w : ℕ) (b : BitVec w) (j : t.Idx) :
    broadcastInDim t dims h (constantI s w b) j = b := rfl
theorem bcF {s t : Shape} (dims : Fin s.rank → Fin t.rank) (h : s.BroadcastsInDim t dims) (b : BitVec 32) (j : t.Idx) :
    broadcastInDim t dims h (constant (F := Ideal) s .f32 b) j = Ideal.ofBits .f32 b := rfl

/-- The next node's word: twice the node, plus one, plus the comparison's bit. -/
theorem next_ofNat (n : Fin 15) (c : Bool) :
    IntOp.addi (IntOp.addi (IntOp.muli 2#32 (BitVec.ofNat 32 n.val)) 1#32) ((BitVec.ofBool c).setWidth 32)
      = BitVec.ofNat 32 (2 * n.val + 1 + (if c then 1 else 0)) := by
  revert n c; decide

theorem node_bound (t : Fin 16384) (l : ℕ) : Spec.node (X x) (W1 w1) t l + 2 ≤ 2 ^ (l + 1) := by
  induction l with
  | zero => simp [Spec.node]
  | succ l ih =>
    rw [Spec.node, pow_succ]
    split <;> omega

theorem node_lt (t : Fin 16384) (l : ℕ) (hl : l ≤ 4) : Spec.node (X x) (W1 w1) t l < 31 := by
  have h := node_bound x w1 t l
  have : 2 ^ (l + 1) ≤ 2 ^ 5 := Nat.pow_le_pow_right (by decide) (by omega)
  omega

/-- The logit at a node that names a row is the inner product with that row. -/
theorem logit_eq (t : Fin 16384) (n : ℕ) (h : n < 31) :
    Spec.logit (X x) (W1 w1) t n = ∑ k : Fin 2048, X x t k * W1 w1 ⟨n, h⟩ k := by
  rw [Spec.logit, dif_pos h]

/-- The walk's nodes, as words: the specification's node at every level up to the last. -/
theorem nodeV_apply (t : Fin 16384) (l : ℕ) (hl : l ≤ 4) :
    nodeV (F := Ideal) (xfOf x) w1 l (ix1 t) = BitVec.ofNat 32 (Spec.node (X x) (W1 w1) t l) := by
  induction l with
  | zero => rfl
  | succ l ih =>
    have ihl := ih (by omega)
    have hlt : Spec.node (X x) (W1 w1) t l < 31 := node_lt x w1 t l (by omega)
    have hlt15 : Spec.node (X x) (W1 w1) t l < 15 := by
      have h := node_bound x w1 t l
      have : 2 ^ (l + 1) ≤ 2 ^ 4 := Nat.pow_le_pow_right (by decide) (by omega)
      omega
    have hlog := logitF_apply x w1 (nodeV (F := Ideal) (xfOf x) w1 l) t ⟨_, hlt⟩ ihl
    rw [nodeV]
    unfold stepNode
    rw [addi_apply, addi_apply, muli_apply, extui_apply, cmpf_apply, cmpf_ideal, bcI, bcI, bcF]
    rw [ihl, hlog, zero_bits, Spec.node, logit_eq x w1 t _ hlt]
    have hc : ∀ S : EReal, Ideal.cmp .ogt S 0 = BitVec.ofBool (decide (0 < S)) := fun _ => rfl
    rw [hc, next_ofNat ⟨_, hlt15⟩]
    simp only [decide_eq_true_eq]

end Walk

/-! ## The output -/

section Out

variable (x : FVec Ideal S2x8192x2048 .f32) (w1 w2 : FVec Ideal S31x2048 .f32)

/-- One level adds the specification's term. -/
theorem accV_succ_apply (t : Fin 16384) (j : Fin 2048) (l : ℕ) (hl : l ≤ 4) :
    accV (F := Ideal) (xfOf x) w1 w2 (l + 1) (ix2 t j)
      = accV (F := Ideal) (xfOf x) w1 w2 l (ix2 t j) + Spec.term (X x) (W1 w1) (W2 w2) t j l := by
  have hlt : Spec.node (X x) (W1 w1) t l < 31 := node_lt x w1 t l hl
  have hnode := nodeV_apply x w1 t l hl
  have hlog := logitF_apply x w1 (nodeV (F := Ideal) (xfOf x) w1 l) t ⟨_, hlt⟩ hnode
  rw [accV]
  unfold stepOut
  rw [addf_apply, mulf_apply, bc_row', bc_col', takeF_apply w2 _ t j ⟨_, hlt⟩ hnode]
  unfold reluF
  rw [maximumf_apply, bcF, zero_bits, hlog]
  rw [Spec.term, logit_eq x w1 t _ hlt, Spec.w2row, dif_pos hlt]

theorem accV_zero_apply (t : Fin 16384) (j : Fin 2048) : accV (F := Ideal) (xfOf x) w1 w2 0 (ix2 t j) = 0 := by
  rw [accV]
  unfold acc0
  rw [bcF, zero_bits]

/-- The program's result, element by element: the specification's output. -/
theorem out_apply (t : Fin 16384) (j : Fin 2048) :
    RefRun.out (F := Ideal) x w1 w2 (ix2 t j)
      = Cert.Spec.treeOut (fun t k => x (ix3 (⟨t.val / 8192, by have := t.isLt; omega⟩ : Fin 2) (⟨t.val % 8192, Nat.mod_lt _ (by decide)⟩ : Fin 8192) k))
          (fun n k => w1 (ix2 n k)) (fun n k => w2 (ix2 n k)) t j := by
  unfold RefRun.out
  rw [accV_succ_apply x w1 w2 t j 4 (by decide), accV_succ_apply x w1 w2 t j 3 (by decide), accV_succ_apply x w1 w2 t j 2 (by decide),
    accV_succ_apply x w1 w2 t j 1 (by decide), accV_succ_apply x w1 w2 t j 0 (by decide), accV_zero_apply]
  rfl

/-- The same as an equation between arrays. -/
theorem out_eq :
    RefRun.out (F := Ideal) x w1 w2
      = fun i => Cert.Spec.treeOut (fun t k => x (ix3 (⟨t.val / 8192, by have := t.isLt; omega⟩ : Fin 2) (⟨t.val % 8192, Nat.mod_lt _ (by decide)⟩ : Fin 8192) k))
          (fun n k => w1 (ix2 n k)) (fun n k => w2 (ix2 n k)) (i 0) (i 1) :=
  funext fun i => (congrArg (RefRun.out (F := Ideal) x w1 w2) (eq_ix2 i)).trans (out_apply x w1 w2 (i 0) (i 1))

end Out

end Cert.ReferenceIdeal.RefValue

end
-- ==== Proof.Finite.lean ====
/-
  The precondition read element by element: when the printed predicate "every entry of x, W1 and W2 has absolute
  value below +∞" is all ones at the extended reals, every entry of the three arrays is a real number.
-/
import proofs.«207443_g73169062855234_cont_9to1c4b_643_41_alg».proof.Pre_finite_inputs
import proofs.«207443_g73169062855234_cont_9to1c4b_643_41_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- An extended real whose absolute value lies below +∞ is a real. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Facts]

/-- Under the precondition every entry of the three argument arrays is a real number. -/
theorem reals (a0 : FVec Ideal S2x8192x2048 .f32) (a1 a2 : FVec Ideal S31x2048 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  rw [show ∀ (c d : IVec S_ 1), andi c d ValueIdx.ix0 = IntOp.andi (c ValueIdx.ix0) (d ValueIdx.ix0) from fun _ _ => rfl] at h0
  obtain ⟨h01, h2⟩ := IntOp.andi_eq_one.mp h0
  rw [show ∀ (c d : IVec S_ 1), andi c d ValueIdx.ix0 = IntOp.andi (c ValueIdx.ix0) (d ValueIdx.ix0) from fun _ _ => rfl] at h01
  obtain ⟨h0', h1⟩ := IntOp.andi_eq_one.mp h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.Finite

end
-- ==== Proof.IAlgebraic.lean ====
/-
  The idealized kernel's result against the reference's: under the precondition (every input entry a real number) the
  last valuation's result array is, entry by entry, the specification's output — the logits' residual products vanish,
  the routing visits the specification's nodes, the 128-node product collapses to the five visited nodes — and the
  reference's composed term is the same function of the arguments.
-/
import proofs.«207443_g73169062855234_cont_9to1c4b_643_41_alg».proof.Proof.IFrame
import proofs.«207443_g73169062855234_cont_9to1c4b_643_41_alg».proof.Proof.IValueOut
import proofs.«207443_g73169062855234_cont_9to1c4b_643_41_alg».proof.Proof.RefValue
import proofs.«207443_g73169062855234_cont_9to1c4b_643_41_alg».proof.Proof.Finite

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

open Idealize.ShloMosaic.ValueIdx

theorem kernel_value [Cert.Pre_finite_inputs.Facts] [Cert.ReferenceIdeal.Facts] (m : (ℓ : Loc nD τ sig) → Buf (Elt Ideal) ℓ) (hpre : Cert.Pre_KernelIdeal m) (c : Dev nD) :
    W6 (W4r m) c (Proc.devRef .tc main_v8)
      = Cert.ReferenceIdeal.RefRun.out (F := Ideal) (m ((c.tc : Thread nD τ).loc main_arg0)) (m ((c.tc : Thread nD τ).loc main_arg1))
          (m ((c.tc : Thread nD τ).loc main_arg2)) := by
  obtain ⟨h0, h1, -⟩ := Cert.Finite.reals _ _ _ (hpre c)
  funext i
  obtain ⟨t, j, rfl⟩ : ∃ (t : Fin 16384) (j : Fin 2048), i = ix2 t j := ⟨i 0, i 1, eq_ix2 i⟩
  rw [Cert.ReferenceIdeal.RefValue.out_apply]
  exact kernel_out m (W4r m) (W4r_ne m) c (by rw [W4r_v6]; rfl) h0 h1 t j

end Cert.Proof.KI

end
-- ==== Proof.BCommon.lean ====
/-
  The kernel's program as the SparseCore launch theorem sees it: its label signature (two TensorCore
  pipelines beside one SparseCore call), its body table, and the ghost algebra the proof runs in — the launch
  handshakes' rounds, the two pipelines' staging cells' rounds, and the counters of the tiles' own local copies.
-/
import proofs.«207443_g73169062855234_cont_9to1c4b_643_41_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207443_g73169062855234_cont_9to1c4b_643_41_alg».proof.Proof.Gen.Kernel
import proofs.«207443_g73169062855234_cont_9to1c4b_643_41_alg».proof.Proof.Gen.Kernel.Skeleton
import proofs.«207443_g73169062855234_cont_9to1c4b_643_41_alg».proof.Proof.Gen.Kernel.Launch
import proofs.«207443_g73169062855234_cont_9to1c4b_643_41_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- the launch handshakes' rounds, -/
abbrev UH : Type := URounds (GSem nD τ sig) ℕ
/-- the pipelines' staging cells' rounds, -/
abbrev UP : Type := URounds (GSem nD τ sig) Unit
/-- and both beside the counters of the tiles' local copies. -/
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

end Cert.Proof.KB

end
-- ==== Proof.BMain.lean ====
/-
  The TensorCore's program of the kernel as a chain of six items: a stretch of host operations (the
  reshape of x, the two zero paddings of the weight tables, the narrowing of the second), the first pipeline (the
  logits), a reshape, the SparseCore call (the routing), a reshape, the second pipeline (the output product).
  The buffers' contents between the items are folds of the host operations over the launch memory, with what each
  pipeline and the call leave named as parameters.
-/
import proofs.«207443_g73169062855234_cont_9to1c4b_643_41_alg».proof.Proof.BCommon

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## @main's host stretches -/

/-- Before the first pipeline: x laid out as 16384 rows; each weight table padded with zero rows to 128; the
    second narrowed. -/
abbrev hostOps0 : List (HloOp τ sig (Elt F)) :=
  [StableHlo.reshape main_arg0 main_v0 rfl shapeCasts_S2x8192x2048_S16384x2048,
   StableHlo.nullary main_c (constantI S_ 32 0#32),
   StableHlo.TRef.unary (.of main_c : StableHlo.TRef sig ⟨S_, .i32⟩) main_call0.v0 (sitofp .f32),
   StableHlo.TRef.binary (.of main_arg1 : StableHlo.TRef sig ⟨S31x2048, .f32⟩) main_call0.v0 main_call0.v1 (fun x v => pad S128x2048 ![0, 0] ![97, 0] ![0, 0] x v pads_S31x2048_S128x2048_0970_000 h_S_),
   StableHlo.nullary main_c_0 (constantI S_ 32 0#32),
   StableHlo.TRef.unary (.of main_c_0 : StableHlo.TRef sig ⟨S_, .i32⟩) main_call1.v0 (sitofp .f32),
   StableHlo.TRef.binary (.of main_arg2 : StableHlo.TRef sig ⟨S31x2048, .f32⟩) main_call1.v0 main_call1.v1 (fun x v => pad S128x2048 ![0, 0] ![97, 0] ![0, 0] x v pads_S31x2048_S128x2048_0970_000 h_S_),
   StableHlo.unary main_v2 main_v3 ((truncf .bf16 · bitsLt_bf16_f32) : (⟨S128x2048, .f32⟩ : BufTy).Contents (Elt F) → (⟨S128x2048, .bf16⟩ : BufTy).Contents (Elt F))]

/-- Between the first pipeline and the call: the logits as one row of 2097152 words. -/
abbrev hostOps1 : List (HloOp τ sig (Elt F)) :=
  [StableHlo.reshape main_v4 main_v5 rfl shapeCasts_S16384x128_S2097152]

/-- Between the call and the second pipeline: the routed coefficients as 16384 rows of 128. -/
abbrev hostOps2 : List (HloOp τ sig (Elt F)) :=
  [StableHlo.reshape main_v6 main_v7 rfl shapeCasts_S2097152_S16384x128]

/-- @main is the chain of its six items. -/
theorem main_chain (d : Dev nD) : main (F := F) d = Pipeline.chain
    [StableHlo.seq hostOps0,
     Prog.lift (.customCall (SparseCore.inner (Pipeline.entry 0)) ()),
     StableHlo.seq hostOps1,
     sc.run d 0,
     StableHlo.seq hostOps2,
     Prog.lift (.customCall (SparseCore.inner (Pipeline.entry 1)) ())] := by
  chain_rfl

end Cert.Proof.KB

end
-- ==== Proof.BLaunchElem.lean ====
/-
  The launch element of the kernel's ghost state: the handshakes' rounds for the SparseCore call, the two
  pipelines' staging cells' rounds funded as each TensorCore's ghost state for its two regions, and the tiles'
  copy counters, which no part of the launch consumes.
-/
import proofs.«207443_g73169062855234_cont_9to1c4b_643_41_alg».proof.Proof.BMain

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-- The pipelines have no prefetched tables. -/
abbrev adm : (p : Fin 2) → (pcfgs (F := F) p).Adm := fun p => (cfgs p).toPCfg_adm

/-- The launch element: the handshake cells' and the staging cells' initial rounds, the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What the launch deals each TensorCore for its two regions: both pipelines' cells' ghost state and duty tokens. -/
def G (d : Dev nD) : sProp 𝕄 :=
  iprop((bigSep Finset.univ fun p : Fin 2 => Pipeline.cellsGhost (Pipeline.pin (pcfgs (F := F)) adm) (EP (F := F)) p d)
    ∗ (bigSep Finset.univ fun p : Fin 2 => (Pipeline.toksInit (Pipeline.pin (pcfgs (F := F)) adm) (EP (F := F)) p d : sProp 𝕄)))

theorem bigSep_emp' {I : Type} (s : Finset I) : (bigSep s fun _ => iprop(emp)) = (iprop(emp) : sProp 𝕄) := bigSep_emp_const s

set_option backward.isDefEq.respectTransparency.types false in
/-- The launch element yields the handshakes' rounds, every TensorCore's ghost state for its regions, and nothing
    for the kernels' proofs (which consume nothing of the launch's). -/
theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (F := F) (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · unfold G; rw [bigSep_sep']
    isplitl [Hg]; · iexact Hg
    iexact Ht
  simp only [hx]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.BRegionStep.lean ====
/-
  One TensorCore pipeline entered from inside the SparseCore program's @main: the call of the pipeline's entry label
  is, in the extended label table, the lifted call of the pipeline library's own table, so the library's region step
  applies under the lifting.
-/
import proofs.«207443_g73169062855234_cont_9to1c4b_643_41_alg».proof.Proof.BLaunchElem

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

open Idealize.ShloMosaic.Pipeline (Dat RegionSeg)

set_option backward.isDefEq.respectTransparency.types false in
/-- The region step, lifted: from the boundary, the region's entry state, the level facts and the pipeline's ghost
    state, the lifted call runs to the boundary and the region's exit state. -/
theorem region_step {p : Fin 2}
    {pdats : (p : Fin 2) → (c : Dev nD) → Dat τ (Elt F) (HIx 1) ℕ UU ℕ (Pipeline.pin (pcfgs (F := F)) adm p) c}
    (R : RegionSeg (pcfgs (F := F)) adm pdats (none : HIx 1) (defs₀ (F := F)) 𝒱₀ (K (F := F)).L (K (F := F)).lev p)
    (d : Dev nD) (Φ : PUnit → sProp 𝕄) :
    iprop((iprop(boundary (T d) ∗ R.post d) -∗ Φ ⟨⟩)
        ∗ boundary (T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (T d) none) Set.univ
          (Prog.lift (.customCall (SparseCore.inner (Pipeline.entry p)) ())) Φ := by
  refine BI.Entails.trans ?_ ((K (F := F)).wp_liftProg (D (F := F)) 𝒱 (T d) Set.univ none
    (Prog.lift (.customCall (Pipeline.entry p) ())) Φ)
  refine BI.Entails.trans ?_ (Pipeline.RegionSeg.wp (pcfgs (F := F)) adm pdats (none : HIx 1) cellOf_inj (EP (F := F)) (defs₀ (F := F)) 𝒱₀
    (K (F := F)).L (K (F := F)).lev R d none (fun u hu => absurd hu (by simp)) (fun x => .ret x) Φ)
  show (_ : sProp 𝕄) ⊢ _
  iintro ⟨Hk, Hb, Hpre, Hlv, Hg, Ht⟩
  isplitl [Hk]
  · iintro H
    rw [wp_ret]; imodintro
    iapply Hk; iexact H
  isplitl [Hb]; · iexact Hb
  isplitl [Hpre]; · iexact Hpre
  isplitl [Hlv]; · iexact Hlv
  isplitl [Hg]; · iexact Hg
  iexact Ht

end Cert.Proof.KB

end
-- ==== Proof.BReg.lean ====
/-
  The two TensorCore pipelines of the kernel as the pipeline rule sees them: per pipeline, at a parameter
  `V` (the TensorCore's unscoped buffers' contents when the pipeline is entered), each window's block at a grid
  point, what the body leaves in the output window's staging buffer (the one store's payload over the two loaded
  blocks), the body's triple, the proof data (arrays at `V`, tallies and recorded pairs constant over the points)
  and the body obligation.
-/
import proofs.«207443_g73169062855234_cont_9to1c4b_643_41_alg».proof.Proof.BCommon
import Idealize.ShloMosaic.Lib.Pipeline.FrameBody
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- The index the pipelines' waits record their pairs at. -/
abbrev ι₀ : HIx 1 := none

/-! # Pipeline 0 (custom_call 0, `cc0__logits_block`), at the entry contents `V` -/

section Region0
variable (V : (c : Dev nD) → (b : Ref sig .tc) → Buf (Elt F) ((c : Thread nD τ).loc b))
variable (O : Dev nD → CellTallies nD τ sig (HIx 1)) (B : Dev nD → Set (SemLoc sig × HIx 1))

/-- Window `w`'s block at point `t`, read off its array as the pipeline finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s and
    whose body leaves the block in place. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block (the whole table) at every point, fetched there or not: its
    block index never moves. -/
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev r0_0 : Rect S1024x2048 := Rect.unit (s := S1024x2048) ![0, 0] S1024x2048.size Gen.inb_S1024x2048_S1024x2048_0_0
abbrev r0_1 : Rect S128x2048 := Rect.unit (s := S128x2048) ![0, 0] S128x2048.size Gen.inb_S128x2048_S128x2048_0_0
abbrev r0_2 : Rect S1024x128 := Rect.unit (s := S1024x128) ![0, 0] S1024x128.size Gen.inb_S1024x128_S1024x128_0_0

/-- The output window's staging buffer after the body, from the input windows' blocks: its one store, of the
    payload over the two loaded blocks. -/
def out0_2 (x0 : Vec F S1024x2048 .f32) (x1 : Vec F S128x2048 .f32) : Vec F S1024x128 .f32 :=
  View.canon [⟨r0_2, k0_pay1 (View.ld x1 r0_1) (View.ld x0 r0_0)⟩]

/-- The store covers the buffer. -/
theorem cover0_2 (p0 : Vec F S1024x128 .f32) (y : S1024x128.Idx) :
    ∃ pc ∈ ([⟨r0_2, p0⟩] : List (View.Piece (Elt F) S1024x128 .f32)), y ∈ pc.1.set :=
  View.cover_of_tiled [⟨r0_2, p0⟩] S1024x128.size (by rfl) y

set_option maxHeartbeats 1000000 in
/-- The body on whole staging memrefs, the inputs' at contents `x0`, `x1` and the output's at anything, runs to the
    continuation holding the inputs' as they were and the output's at `out0_2` of them. -/
theorem sound_kernel0 (c : Dev nD) (E : Set ℕ) (i : grid0.Coords) (arg0 : Memref sig .tc .vmem S1024x2048 .f32) (harg0 : arg0.IsWhole)
    (arg1 : Memref sig .tc .vmem S128x2048 .f32) (harg1 : arg1.IsWhole) (arg2 : Memref sig .tc .vmem S1024x128 .f32) (harg2 : arg2.IsWhole)
    (x0 : Vec F S1024x2048 .f32) (x1 : Vec F S128x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__logits_block i arg0 harg0 arg1 harg1 arg2 harg2) K := by
  simp only [cc0__logits_block_eq_skeleton]; unfold cc0__logits_block_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the pipeline on core `c`: the arrays as the pipeline finds them (`V`); after the body at point
    `t` each input's buffer at its block and the output's at `out0_2` of the input blocks; the invariant the core's scoped
    buffers that are no staging buffer of the pipeline, untouched; the core's tallies `O c` and recorded pairs within `B c` at every
    point (the body takes on nothing, pays nothing and waits for nothing); full shares. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.scopedRest (Ix := HIx 1) (Name := ℕ) (U := UU) (Lvl := ℕ) (Val := Elt F) spec0 c
  q _ := fullShare
  owed _ := O c
  recorded _ := B c

theorem A_eq0 (c : Dev nD) (w : Fin cfg0.W) : (dat0 V O B c).A w = V c (Pipeline.arrRef spec0 w) := by
  dsimp only [dat0]
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = out0_2 (iblk0 V c 0 t) (iblk0 V c 1 t) := by dsimp only [dat0]

theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d

/-! ## The body obligation -/

def bodyPre0 (c : Dev nD) (t : Fin cfg0.N) : sProp 𝕄 :=
  iprop((dat0 V O B c).Φ t.castSucc ∗ (dat0 V O B c).owesAt ι₀ t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d)))

def bodyPost0 (c : Dev nD) (t : Fin cfg0.N) : sProp 𝕄 :=
  iprop((dat0 V O B c).Φ t.succ ∗ (dat0 V O B c).owesAt ι₀ t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t))

/-- The body at any point: the inputs' memrefs hold their blocks, so `sound_kernel0` applies; the invariant and the
    core's `owes` pass through unread. -/
theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1]
  rw [show (dat0 V O B c).Φ t.succ = (dat0 V O B c).Φ t.castSucc from rfl,
    show (dat0 V O B c).owesAt ι₀ t.succ = (dat0 V O B c).owesAt ι₀ t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V O B c) (defs₀ (F := F)) Variants.none ι₀ Set.univ := fun t => by
  rw [bigSep_W0, bigSep_W0]
  exact sound_body0 V O B c t

end Region0

/-! # Pipeline 1 (custom_call 2, `cc2__out_block`), at the entry contents `V` -/

section Region2
variable (V : (c : Dev nD) → (b : Ref sig .tc) → Buf (Elt F) ((c : Thread nD τ).loc b))
variable (O : Dev nD → CellTallies nD τ sig (HIx 1)) (B : Dev nD → Set (SemLoc sig × HIx 1))

/-- Window `w`'s block at point `t`, read off its array as the pipeline finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is `V`'s and
    whose body leaves the block in place. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block (the whole table) at every point, fetched there or not: its
    block index never moves. -/
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole staging buffer -/

abbrev r2_0 : Rect S1024x128 := Rect.unit (s := S1024x128) ![0, 0] S1024x128.size Gen.inb_S1024x128_S1024x128_0_0
abbrev r2_1 : Rect S128x2048 := Rect.unit (s := S128x2048) ![0, 0] S128x2048.size Gen.inb_S128x2048_S128x2048_0_0
abbrev r2_2 : Rect S1024x2048 := Rect.unit (s := S1024x2048) ![0, 0] S1024x2048.size Gen.inb_S1024x2048_S1024x2048_0_0

/-- The output window's staging buffer after the body, from the input windows' blocks: its one store, of the
    payload over the two loaded blocks. -/
def out2_2 (x0 : Vec F S1024x128 .f32) (x1 : Vec F S128x2048 .bf16) : Vec F S1024x2048 .f32 :=
  View.canon [⟨r2_2, k2_pay1 (View.ld x0 r2_0) (View.ld x1 r2_1)⟩]

/-- The store covers the buffer. -/
theorem cover2_2 (p0 : Vec F S1024x2048 .f32) (y : S1024x2048.Idx) :
    ∃ pc ∈ ([⟨r2_2, p0⟩] : List (View.Piece (Elt F) S1024x2048 .f32)), y ∈ pc.1.set :=
  View.cover_of_tiled [⟨r2_2, p0⟩] S1024x2048.size (by rfl) y

set_option maxHeartbeats 1000000 in
/-- The body on whole staging memrefs, the inputs' at contents `x0`, `x1` and the output's at anything, runs to the
    continuation holding the inputs' as they were and the output's at `out2_2` of them. -/
theorem sound_kernel2 (c : Dev nD) (E : Set ℕ) (i : grid2.Coords) (arg0 : Memref sig .tc .vmem S1024x128 .f32) (harg0 : arg0.IsWhole)
    (arg1 : Memref sig .tc .vmem S128x2048 .bf16) (harg1 : arg1.IsWhole) (arg2 : Memref sig .tc .vmem S1024x2048 .f32) (harg2 : arg2.IsWhole)
    (x0 : Vec F S1024x128 .f32) (x1 : Vec F S128x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__out_block i arg0 harg0 arg1 harg1 arg2 harg2) K := by
  simp only [cc2__out_block_eq_skeleton]; unfold cc2__out_block_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data -/

/-- The proof data of the pipeline on core `c`: the arrays as the pipeline finds them (`V`); after the body at point
    `t` each input's buffer at its block and the output's at `out2_2` of the input blocks; the invariant the core's scoped
    buffers that are no staging buffer of the pipeline, untouched; the core's tallies `O c` and recorded pairs within `B c` at every
    point (the body takes on nothing, pays nothing and waits for nothing); full shares. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.scopedRest (Ix := HIx 1) (Name := ℕ) (U := UU) (Lvl := ℕ) (Val := Elt F) spec2 c
  q _ := fullShare
  owed _ := O c
  recorded _ := B c

theorem A_eq2 (c : Dev nD) (w : Fin cfg2.W) : (dat2 V O B c).A w = V c (Pipeline.arrRef spec2 w) := by
  dsimp only [dat2]
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = out2_2 (iblk2 V c 0 t) (iblk2 V c 1 t) := by dsimp only [dat2]

theorem before2_0 (c : Dev nD) (t : Fin cfg2.N) (d) : (dat2 V O B c).before 0 t d = iblk2 V c 0 t :=
  before2_0_of V (dat2 V O B c) (A_eq2 V O B c 0) (after2_0 V O B c) t d
theorem before2_1 (c : Dev nD) (t : Fin cfg2.N) (d) : (dat2 V O B c).before 1 t d = iblk2 V c 1 t :=
  before2_1_of V (dat2 V O B c) (A_eq2 V O B c 1) (after2_1 V O B c) t d

/-! ## The body obligation -/

def bodyPre2 (c : Dev nD) (t : Fin cfg2.N) : sProp 𝕄 :=
  iprop((dat2 V O B c).Φ t.castSucc ∗ (dat2 V O B c).owesAt ι₀ t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d)))

def bodyPost2 (c : Dev nD) (t : Fin cfg2.N) : sProp 𝕄 :=
  iprop((dat2 V O B c).Φ t.succ ∗ (dat2 V O B c).owesAt ι₀ t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t))

/-- The body at any point: the inputs' memrefs hold their blocks, so `sound_kernel2` applies; the invariant and the
    core's `owes` pass through unread. -/
theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1]
  rw [show (dat2 V O B c).Φ t.succ = (dat2 V O B c).Φ t.castSucc from rfl,
    show (dat2 V O B c).owesAt ι₀ t.succ = (dat2 V O B c).owesAt ι₀ t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V O B c) (defs₀ (F := F)) Variants.none ι₀ Set.univ := fun t => by
  rw [bigSep_W2, bigSep_W2]
  exact sound_body2 V O B c t

end Region2

/-! # The proof data family -/

/-- The prefetched tables' admissible contents: no pipeline has a table. -/
abbrev aA : (p : Fin 2) → (pcfgs (F := F) p).Adm := fun p => (cfgs p).toPCfg_adm

/-- Both pipelines' proof data, each at its own entry contents, tallies and recorded pairs: a literal `match`, so that
    `Pipeline.pin pcfgs aA p` at a numeral reduces to the printed configuration. -/
def pdats (V0 V2 : (c : Dev nD) → (b : Ref sig .tc) → Buf (Elt F) ((c : Thread nD τ).loc b))
    (O : (p : Fin 2) → Dev nD → CellTallies nD τ sig (HIx 1)) (B : (p : Fin 2) → Dev nD → Set (SemLoc sig × HIx 1)) :
    (p : Fin 2) → (c : Dev nD) → Dat τ (Elt F) (HIx 1) ℕ UU ℕ (Pipeline.pin (pcfgs (F := F)) aA p) c
  | ⟨0, _⟩ => fun c => dat0 V0 (O 0) (B 0) c
  | ⟨1, _⟩ => fun c => dat2 V2 (O 1) (B 1) c

section Family
variable (V0 V2 : (c : Dev nD) → (b : Ref sig .tc) → Buf (Elt F) ((c : Thread nD τ).loc b))
  (O : (p : Fin 2) → Dev nD → CellTallies nD τ sig (HIx 1)) (B : (p : Fin 2) → Dev nD → Set (SemLoc sig × HIx 1))

theorem pdats_zero (c : Dev nD) : pdats V0 V2 O B 0 c = dat0 V0 (O 0) (B 0) c := rfl
theorem pdats_one (c : Dev nD) : pdats V0 V2 O B 1 c = dat2 V2 (O 1) (B 1) c := rfl

/-- The body obligations, as the pipeline rule takes them. -/
theorem hbody0 (c : Dev nD) : BodyObligationLoose (pdats V0 V2 O B 0 c) (defs₀ (F := F)) 𝒱₀ ι₀ Set.univ :=
  (body_obligation0 V0 (O 0) (B 0) c).loose
theorem hbody2 (c : Dev nD) : BodyObligationLoose (pdats V0 V2 O B 1 c) (defs₀ (F := F)) 𝒱₀ ι₀ Set.univ :=
  (body_obligation2 V2 (O 1) (B 1) c).loose

/-! ## The arrays at entry and the input arrays at exit -/

theorem arrAt0_zero (c : Dev nD) (w : Fin cfg0.W) : (pdats V0 V2 O B 0 c).arrAt w 0 = V0 c (Pipeline.arrRef spec0 w) :=
  A_eq0 V0 (O 0) (B 0) c w
theorem arrAt2_zero (c : Dev nD) (w : Fin cfg2.W) : (pdats V0 V2 O B 1 c).arrAt w 0 = V2 c (Pipeline.arrRef spec2 w) :=
  A_eq2 V2 (O 1) (B 1) c w
theorem arrAt0_in0 (c : Dev nD) (n : Nat) : (pdats V0 V2 O B 0 c).arrAt 0 n = V0 c main_v0 :=
  ((dat0 V0 (O 0) (B 0) c).arrAt_in 0 rfl n).trans (A_eq0 V0 (O 0) (B 0) c 0)
theorem arrAt0_in1 (c : Dev nD) (n : Nat) : (pdats V0 V2 O B 0 c).arrAt 1 n = V0 c main_v1 :=
  ((dat0 V0 (O 0) (B 0) c).arrAt_in 1 rfl n).trans (A_eq0 V0 (O 0) (B 0) c 1)
theorem arrAt2_in0 (c : Dev nD) (n : Nat) : (pdats V0 V2 O B 1 c).arrAt 0 n = V2 c main_v7 :=
  ((dat2 V2 (O 1) (B 1) c).arrAt_in 0 rfl n).trans (A_eq2 V2 (O 1) (B 1) c 0)
theorem arrAt2_in1 (c : Dev nD) (n : Nat) : (pdats V0 V2 O B 1 c).arrAt 1 n = V2 c main_v3 :=
  ((dat2 V2 (O 1) (B 1) c).arrAt_in 1 rfl n).trans (A_eq2 V2 (O 1) (B 1) c 1)

/-- The invariant, the tallies and the recorded pairs of either pipeline's data, at every point. -/
theorem pdats_Φ0 (c : Dev nD) (t) : (pdats V0 V2 O B 0 c).Φ t = Pipeline.scopedRest (Ix := HIx 1) (Name := ℕ) (U := UU) (Lvl := ℕ) (Val := Elt F) spec0 c := rfl
theorem pdats_Φ2 (c : Dev nD) (t) : (pdats V0 V2 O B 1 c).Φ t = Pipeline.scopedRest (Ix := HIx 1) (Name := ℕ) (U := UU) (Lvl := ℕ) (Val := Elt F) spec2 c := rfl
theorem pdats_owed0 (c : Dev nD) (t) : (pdats V0 V2 O B 0 c).owed t = O 0 c := rfl
theorem pdats_owed2 (c : Dev nD) (t) : (pdats V0 V2 O B 1 c).owed t = O 1 c := rfl
theorem pdats_recorded0 (c : Dev nD) (t) : (pdats V0 V2 O B 0 c).recorded t = B 0 c := rfl
theorem pdats_recorded2 (c : Dev nD) (t) : (pdats V0 V2 O B 1 c).recorded t = B 1 c := rfl

end Family

end Cert.Proof.KB

end
-- ==== Proof.BRegions.lean ====
/-
  The two TensorCore pipelines as regions of @main over one thread state: between two items the TensorCore holds
  every unscoped buffer whole at a named valuation, beside what it owes the SparseCore launch (the start signals of
  the one call, owed until the call) with its recorded waits below that call's levels. Region 0 computes the logits
  from the reshaped x and the padded W1; region 1 the output from the routed coefficients and the padded, narrowed W2.
-/
import proofs.«207443_g73169062855234_cont_9to1c4b_643_41_alg».proof.Proof.BRegionStep
import proofs.«207443_g73169062855234_cont_9to1c4b_643_41_alg».proof.Proof.BReg
import Idealize.ShloMosaic.Lib.Pipeline.Frame
import Idealize.ShloMosaic.Lib.Pipeline.RegionsLoop
import Idealize.ShloMosaic.Lib.Pipeline.FrameSuffix

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

open Idealize.ShloMosaic.Pipeline (Dat RegionSeg)

variable (m : (ℓ : Loc nD τ sig) → Buf (Elt F) ℓ)
-- the unscoped buffers' contents after the SparseCore call: a parameter here (the routing's value)
variable (W4 : Dev nD → Valuation τ sig (Elt F))

/-! ## What the TensorCore owes and has recorded, before call `n` -/

/-- Before call `n` the TensorCore owes the later calls' start signals; -/
abbrev OO : (p : Fin 2) → Dev nD → CellTallies nD τ sig (HIx 1) := fun p d => (K (F := F)).Otc d p.val
/-- and its recorded waits sit at or below level `8 n`. -/
abbrev BB : (p : Fin 2) → Dev nD → Set (SemLoc sig × HIx 1) := fun p d => {x | (K (F := F)).lev (T d, x.1) x.2 ≤ 8 * p.val}

/-- The handshake debts sit at a call's index, never at the pipelines' own. -/
theorem OO_none (p : Fin 2) (d : Dev nD) (g : GSem nD τ sig) : OO (F := F) p d g none = 0 := by
  by_contra h
  have := SparseCore.Cfg.lev_of_Otc_pos (K := K (F := F)) (d := d) (n := p.val) (g := g) (ι := none) (Nat.pos_of_ne_zero h)
  rw [SparseCore.Cfg.lev_none] at this; omega

/-- The thread state's debt part before call `n`. -/
abbrev Rr (p : Fin 2) (d : Dev nD) : sProp 𝕄 :=
  iprop(∃ W, ⌜(K (F := F)).WBelow (T d) W (8 * p.val)⌝ ∗ owes (T d) ((K (F := F)).Otc d p.val) W)

/-! ## The buffers' contents between the items -/

abbrev W0 (d : Dev nD) : Valuation τ sig (Elt F) := fun b => m (d, b)
abbrev W1 (d : Dev nD) : Valuation τ sig (Elt F) := StableHlo.after hostOps0 (W0 m d)
abbrev V1 : (c : Dev nD) → (b : Ref sig .tc) → Buf (Elt F) ((c : Thread nD τ).loc b) := fun c b => W1 m c b
/-- After the first pipeline: its arrays at what it leaves, everything else as entered. -/
def W2 (d : Dev nD) : Valuation τ sig (Elt F) :=
  Pipeline.withArrays spec0 d (W1 m d) fun w => (dat0 (V1 m) (OO (F := F) 0) (BB (F := F) 0) d).arrAt w cfg0.N
abbrev V2 : (c : Dev nD) → (b : Ref sig .tc) → Buf (Elt F) ((c : Thread nD τ).loc b) := fun c b => W2 m c b
abbrev W3 (d : Dev nD) : Valuation τ sig (Elt F) := StableHlo.after hostOps1 (W2 m d)
abbrev W5 (d : Dev nD) : Valuation τ sig (Elt F) := StableHlo.after hostOps2 (W4 d)
abbrev V5 : (c : Dev nD) → (b : Ref sig .tc) → Buf (Elt F) ((c : Thread nD τ).loc b) := fun c b => W5 W4 c b
/-- After the second pipeline. -/
def W6 (d : Dev nD) : Valuation τ sig (Elt F) :=
  Pipeline.withArrays spec2 d (W5 W4 d) fun w => (dat2 (V5 W4) (OO (F := F) 1) (BB (F := F) 1) d).arrAt w cfg2.N
abbrev V6 : (c : Dev nD) → (b : Ref sig .tc) → Buf (Elt F) ((c : Thread nD τ).loc b) := fun c b => W6 W4 c b

/-- Both pipelines' proof data, each at its region's entry contents. -/
abbrev PD : (p : Fin 2) → (c : Dev nD) → Dat τ (Elt F) (HIx 1) ℕ UU ℕ (Pipeline.pin (pcfgs (F := F)) aA p) c :=
  pdats (V1 m) (V5 W4) (OO (F := F)) (BB (F := F))

theorem W2_arr (c : Dev nD) (w : Fin cfg0.W) :
    W2 m c (Proc.devRef .tc (Pipeline.arrRef spec0 w)) = (dat0 (V1 m) (OO (F := F) 0) (BB (F := F) 0) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) (OO (F := F) 0) (BB (F := F) 0) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W6_arr (c : Dev nD) (w : Fin cfg2.W) :
    W6 W4 c (Proc.devRef .tc (Pipeline.arrRef spec2 w)) = (dat2 (V5 W4) (OO (F := F) 1) (BB (F := F) 1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 W4 c (Proc.devRef .tc b) = W5 W4 c (Proc.devRef .tc b) := by
  unfold W6; exact Pipeline.withArrays_of_ne spec2 c _ _ b hb
theorem hF2 (c : Dev nD) (w : Fin cfg2.W) : (dat2 (V5 W4) (OO (F := F) 1) (BB (F := F) 1) c).arrAt w cfg2.N = V6 W4 c (Pipeline.arrRef spec2 w) :=
  (W6_arr W4 c w).symm
theorem hrest2 (c : Dev nD) : ∀ b, b ∉ Finset.univ.image (Pipeline.arrRef spec2) → V6 W4 c b = V5 W4 c b :=
  fun b hb => W6_of_ne W4 c b fun w e => hb (Finset.mem_image.mpr ⟨w, Finset.mem_univ _, e⟩)

/-! ## The wait evidence: the pipelines' waits sit at the index no handshake debt is at -/

theorem hwaits (p : Fin 2) (c : Dev nD) :
    (levAts (K (F := F)).L (K (F := F)).lev : sProp 𝕄) ⊢ Pipeline.cellsWaits (Pipeline.pin (pcfgs (F := F)) aA) (PD m W4) (none : HIx 1) p c :=
  Pipeline.cellsWaits_intro (Pipeline.pin (pcfgs (F := F)) aA) (PD m W4) (none : HIx 1) p c fun w s t => by
    have ho : (PD m W4 p c).owed t = OO (F := F) p c := by
      match p with
      | ⟨0, _⟩ => rfl
      | ⟨1, _⟩ => rfl
    rw [ho]
    exact (K (F := F)).mayWait_none _ (OO_none p c)

end Cert.Proof.KB

end
-- ==== Proof.BRegSegs.lean ====
/-
  The two pipelines' segment records: what the pipeline library's region step asks of each region beyond its body.
-/
import proofs.«207443_g73169062855234_cont_9to1c4b_643_41_alg».proof.Proof.BRegions

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

open Idealize.ShloMosaic.Pipeline (Dat RegionSeg)

variable (m : (ℓ : Loc nD τ sig) → Buf (Elt F) ℓ) (W4 : Dev nD → Valuation τ sig (Elt F))

set_option backward.isDefEq.respectTransparency.types false in
/-- Pipeline 0 as a region over the thread state: its arrays split out of the unscoped buffers at entry and put back
    at the exit contents; the debt to the launch carried through unchanged, its recorded waits still below the
    call's levels (the pipeline's own waits sit at level zero); no semaphore of the kernel's own. -/
def reg0 : RegionSeg (pcfgs (F := F)) aA (PD m W4) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := hbody0 (V1 m) (V5 W4) (OO (F := F)) (BB (F := F)) c
  hwaits c := hwaits m W4 0 c
  pre c := iprop(held (T c) (Pipeline.ucRefs τ sig) (W1 m c) ∗ Rr (F := F) 0 c)
  post c := iprop(held (T c) (Pipeline.ucRefs τ sig) (W2 m c) ∗ Rr (F := F) 0 c)
  X c := iprop(emp)
  Y c := iprop(emp)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) aA (PD m W4) launch0.win launch0.arr_whole c
      ((PD m W4 0 c).share_full fun _ => rfl) (V1 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun x hx => Or.inl (hW x hx)
      iexact HO
    isplitr; · iempintro
    iexact Hrest
  hin c := by
    rw [pdats_Φ0]
    iintro ⟨-, -, Hr⟩; iexact Hr
  hout c := by
    rw [Pipeline.ownSems0_none, pdats_Φ0]
    iintro Hr
    isplitr; · iempintro
    isplitr; · iempintro
    iexact Hr
  hexit c := by
    have hjoin := Pipeline.unscopedBufs_of_arrays (p := 0) (pcfgs (F := F)) aA (Ix := HIx 1) (Name := ℕ) (U := UU) (Lvl := ℕ)
      launch0.win launch0.arr_whole c (PD m W4) ((PD m W4 0 c).share_full fun _ => rfl)
      (V1 m c) (V2 m c) ((PD m W4 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro x hx
      rcases hW hx with h | ⟨w, s, rfl⟩
      · exact h
      · exact Nat.zero_le _
    iexact HO

set_option backward.isDefEq.respectTransparency.types false in
/-- Pipeline 1 as a region over the thread state: its arrays split out of the unscoped buffers at entry and put back
    at the exit contents; the debt to the launch carried through unchanged, its recorded waits still below the
    call's levels (the pipeline's own waits sit at level zero); no semaphore of the kernel's own. -/
def reg1 : RegionSeg (pcfgs (F := F)) aA (PD m W4) (none : HIx 1) (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := hbody2 (V1 m) (V5 W4) (OO (F := F)) (BB (F := F)) c
  hwaits c := hwaits m W4 1 c
  pre c := iprop(held (T c) (Pipeline.ucRefs τ sig) (W5 W4 c) ∗ Rr (F := F) 1 c)
  post c := iprop(held (T c) (Pipeline.ucRefs τ sig) (W6 W4 c) ∗ Rr (F := F) 1 c)
  X c := iprop(emp)
  Y c := iprop(emp)
  Z c := Pipeline.unscopedRest (Ix := HIx 1) (Name := ℕ) (U := UU) (Lvl := ℕ) spec2 c (V5 W4 c)
  hentry c := by
    rw [Pipeline.ownSems0_none]
    have hsplit := Pipeline.arrays_of_unscopedBufs (p := 1) (pcfgs (F := F)) aA (PD m W4) launch2.win launch2.arr_whole c
      ((PD m W4 1 c).share_full fun _ => rfl) (V5 W4 c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun x hx => Or.inl (hW x hx)
      iexact HO
    isplitr; · iempintro
    iexact Hrest
  hin c := by
    rw [pdats_Φ2]
    iintro ⟨-, -, Hr⟩; iexact Hr
  hout c := by
    rw [Pipeline.ownSems0_none, pdats_Φ2]
    iintro Hr
    isplitr; · iempintro
    isplitr; · iempintro
    iexact Hr
  hexit c := by
    have hjoin := Pipeline.unscopedBufs_of_arrays (p := 1) (pcfgs (F := F)) aA (Ix := HIx 1) (Name := ℕ) (U := UU) (Lvl := ℕ)
      launch2.win launch2.arr_whole c (PD m W4) ((PD m W4 1 c).share_full fun _ => rfl)
      (V5 W4 c) (V6 W4 c) ((PD m W4 1 c).arrAt · cfg2.N) (hF2 W4 c) (hrest2 W4 c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro x hx
      rcases hW hx with h | ⟨w, s, rfl⟩
      · exact h
      · exact Nat.zero_le _
    iexact HO

end Cert.Proof.KB

end
-- ==== Proof.BHMain.lean ====
/-
  @main on the TensorCore, inside the SparseCore launch: the first host stretch, the first pipeline's region (entered
  owing the call's start signals), the reshape of the logits, the SparseCore call (the logits and the coefficient
  array handed over whole, taken back with the coefficients routed), the reshape back, the second pipeline's region.
-/
import proofs.«207443_g73169062855234_cont_9to1c4b_643_41_alg».proof.Proof.BRegSegs

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

open Idealize.ShloMosaic.Pipeline (Dat RegionSeg)

variable (m : (ℓ : Loc nD τ sig) → Buf (Elt F) ℓ) (ρ : Dev nD → PrngReg) (W4 : Dev nD → Valuation τ sig (Elt F))

/-! ## The host stretches touch only unscoped buffers and allocate none -/

theorem hsub0 : ∀ op ∈ (hostOps0 : List (HloOp τ sig (Elt F))), op.bufs ⊆ Pipeline.ucRefs τ sig := by
  intro op h
  simp only [hostOps0, List.mem_cons, List.mem_nil_iff, or_false] at h
  rcases h with rfl | rfl | rfl | rfl | rfl | rfl | rfl | rfl <;>
    exact Pipeline.sub_ucRefs _ (by first | exact StableHlo.reshape_bufs_sub .. | exact StableHlo.nullary_bufs_sub .. | exact StableHlo.unary_bufs_sub .. | exact StableHlo.binary_bufs_sub ..)
theorem hfresh0 : ∀ op ∈ (hostOps0 : List (HloOp τ sig (Elt F))), op.fresh = ∅ := by
  intro op h
  simp only [hostOps0, List.mem_cons, List.mem_nil_iff, or_false] at h
  rcases h with rfl | rfl | rfl | rfl | rfl | rfl | rfl | rfl <;> rfl
theorem hsub1 : ∀ op ∈ (hostOps1 : List (HloOp τ sig (Elt F))), op.bufs ⊆ Pipeline.ucRefs τ sig := by
  intro op h
  simp only [hostOps1, List.mem_cons, List.mem_nil_iff, or_false] at h
  subst h; exact Pipeline.sub_ucRefs _ (by first | exact StableHlo.reshape_bufs_sub .. | exact StableHlo.nullary_bufs_sub .. | exact StableHlo.unary_bufs_sub .. | exact StableHlo.binary_bufs_sub ..)
theorem hfresh1 : ∀ op ∈ (hostOps1 : List (HloOp τ sig (Elt F))), op.fresh = ∅ := by
  intro op h
  simp only [hostOps1, List.mem_cons, List.mem_nil_iff, or_false] at h
  subst h; rfl
theorem hsub2 : ∀ op ∈ (hostOps2 : List (HloOp τ sig (Elt F))), op.bufs ⊆ Pipeline.ucRefs τ sig := by
  intro op h
  simp only [hostOps2, List.mem_cons, List.mem_nil_iff, or_false] at h
  subst h; exact Pipeline.sub_ucRefs _ (by first | exact StableHlo.reshape_bufs_sub .. | exact StableHlo.nullary_bufs_sub .. | exact StableHlo.unary_bufs_sub .. | exact StableHlo.binary_bufs_sub ..)
theorem hfresh2 : ∀ op ∈ (hostOps2 : List (HloOp τ sig (Elt F))), op.fresh = ∅ := by
  intro op h
  simp only [hostOps2, List.mem_cons, List.mem_nil_iff, or_false] at h
  subst h; rfl

/-! ## The call's two arrays among the unscoped buffers -/

abbrev v5' : DevRef τ sig := Proc.devRef .tc (main_v5 : Ref sig .tc)
abbrev v6' : DevRef τ sig := Proc.devRef .tc (main_v6 : Ref sig .tc)
abbrev S56 : Finset (DevRef τ sig) := {v5', v6'}

theorem S56_sub : S56 ⊆ Pipeline.ucRefs τ sig := by decide

theorem held_S56 (d : Dev nD) (W : Valuation τ sig (Elt F)) :
    (held (SparseCore.T d) S56 W : sProp 𝕄) = iprop(((SparseCore.T d).loc main_v5 ↦{fullShare} W v5') ∗ ((SparseCore.T d).loc main_v6 ↦{fullShare} W v6')) := by
  unfold held S56
  rw [SparseCore.bigSep_insert' (by decide), bigSep_singleton]

/-- What @main leaves the claim: every unscoped buffer at the last valuation. -/
abbrev FIN (d : Dev nD) : sProp 𝕄 := held (SparseCore.T d) (Pipeline.ucRefs τ sig) (W6 W4 d)

/-- The two pipelines' ghost state, one after the other. -/
theorem G_eq (d : Dev nD) : G (F := F) d
    = iprop((Pipeline.cellsGhost (Pipeline.pin (pcfgs (F := F)) adm) (EP (F := F)) 0 d ∗ Pipeline.cellsGhost (Pipeline.pin (pcfgs (F := F)) adm) (EP (F := F)) 1 d)
        ∗ ((Pipeline.toksInit (Pipeline.pin (pcfgs (F := F)) adm) (EP (F := F)) 0 d : sProp 𝕄) ∗ Pipeline.toksInit (Pipeline.pin (pcfgs (F := F)) adm) (EP (F := F)) 1 d)) := by
  unfold G
  rw [show (Finset.univ : Finset (Fin 2)) = {0, 1} by decide, SparseCore.bigSep_insert' (by decide), bigSep_singleton,
    SparseCore.bigSep_insert' (by decide), bigSep_singleton]

include W4 in
set_option backward.isDefEq.respectTransparency.types false in
/-- Pipeline 0's region step with its entry and exit states spelt out. -/
theorem region0_step (d : Dev nD) (Φ : PUnit → sProp 𝕄) :
    iprop((iprop(boundary (SparseCore.T d) ∗ held (SparseCore.T d) (Pipeline.ucRefs τ sig) (W2 m d) ∗ Rr (F := F) 0 d) -∗ Φ ⟨⟩)
        ∗ boundary (SparseCore.T d) ∗ (held (SparseCore.T d) (Pipeline.ucRefs τ sig) (W1 m d) ∗ Rr (F := F) 0 d) ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d) none) Set.univ
          (Prog.lift (.customCall (SparseCore.inner (Pipeline.entry 0)) ())) Φ :=
  region_step (reg0 m W4) d Φ

include m in
set_option backward.isDefEq.respectTransparency.types false in
/-- Pipeline 1's region step with its entry and exit states spelt out. -/
theorem region1_step (d : Dev nD) (Φ : PUnit → sProp 𝕄) :
    iprop((iprop(boundary (SparseCore.T d) ∗ held (SparseCore.T d) (Pipeline.ucRefs τ sig) (W6 W4 d) ∗ Rr (F := F) 1 d) -∗ Φ ⟨⟩)
        ∗ boundary (SparseCore.T d) ∗ (held (SparseCore.T d) (Pipeline.ucRefs τ sig) (W5 W4 d) ∗ Rr (F := F) 1 d) ∗ levAts (K (F := F)).L (K (F := F)).lev
        ∗ Pipeline.cellsGhost (Pipeline.pin (pcfgs (F := F)) adm) (EP (F := F)) 1 d ∗ Pipeline.toksInit (Pipeline.pin (pcfgs (F := F)) adm) (EP (F := F)) 1 d)
      ⊢ wp frame (wpE ((K (F := F)).defs (D (F := F))) 𝒱 (SparseCore.T d) none) Set.univ
          (Prog.lift (.customCall (SparseCore.inner (Pipeline.entry 1)) ())) Φ :=
  region_step (reg1 m W4) d Φ

set_option backward.isDefEq.respectTransparency.types false in
/-- @main on device `d`'s TensorCore. -/
theorem hmain (P : (K (F := F)).Pay (nD := nD) (Val := Elt F) (Name := ℕ) (U := UU))
    (hst : ∀ d : Dev nD, iprop(((SparseCore.T d).loc main_v5 ↦{fullShare} W3 m d v5') ∗ ∃ f, (SparseCore.T d).loc main_v6 ↦{fullShare} f)
      ⊢ (bigSep Finset.univ fun c : Fin ((K (F := F)).nCore 0) => P.st 0 d c : sProp 𝕄))
    (hdn : ∀ d : Dev nD, (bigSep Finset.univ fun c : Fin ((K (F := F)).nCore 0) => P.dn 0 d c : sProp 𝕄)
      ⊢ iprop(((SparseCore.T d).loc main_v5 ↦{fullShare} W3 m d v5') ∗ ((SparseCore.T d).loc main_v6 ↦{fullShare} W4 d v6')))
    (hW4 : ∀ (d : Dev nD) (b : DevRef τ sig), b ≠ v6' → W4 d b = W3 m d b)
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN W4 d) := by
  rw [main_chain d]
  simp only [Pipeline.chain_cons, Pipeline.chain_nil]
  unfold SparseCore.Cfg.tcRes
  rw [show (unscopedBufs d (fun b => m ((SparseCore.T d).loc b)) : sProp 𝕄) = held (SparseCore.T d) (Pipeline.ucRefs τ sig) (W0 m d) from
    Pipeline.unscopedBufs_held d (W0 m d), G_eq]
  iintro ⟨#Hctx, Hst, ⟨Hb, Hheld, -, -⟩, ⟨Hg0, Hg1⟩, ⟨Ht0, Ht1⟩⟩
  ihave #Hlv := (SparseCore.Cfg.ctx_levAts κ) $$ Hctx
  -- item 0: the first host stretch
  iapply (StableHlo.wp_seq 𝒱 none Set.univ d (Pipeline.ucRefs τ sig) _ hostOps0 hsub0 hfresh0 (W0 m d)) $$ [Hb Hheld]
  · isplitl [Hb] <;> iassumption
  iintro ⟨Hb, Hheld⟩
  -- item 1: the first pipeline, entered owing the call's start signals
  rw [wp_bind]
  unfold SparseCore.Cfg.tcSt
  icases Hst with ⟨HO, Hrest⟩
  iapply (region0_step m W4 d _) $$ [Hb Hheld HO Hg0 Ht0 Hrest Hg1 Ht1]
  isplitr [Hb Hheld HO Hg0 Ht0]
  swap
  · isplitl [Hb]; · iexact Hb
    isplitl [Hheld HO]
    · isplitl [Hheld]; · iexact Hheld
      iexact HO
    isplitr; · iexact Hlv
    isplitl [Hg0]; · iexact Hg0
    iexact Ht0
  iintro ⟨Hb, Hheld, HO⟩
  -- item 2: the logits as one row
  iapply (StableHlo.wp_seq 𝒱 none Set.univ d (Pipeline.ucRefs τ sig) _ hostOps1 hsub1 hfresh1 (W2 m d)) $$ [Hb Hheld]
  · isplitl [Hb] <;> iassumption
  iintro ⟨Hb, Hheld⟩
  -- item 3: the SparseCore call
  rw [wp_bind]
  ihave Hh := (Entails.of_eq (StableHlo.held_sub_split (SparseCore.T d) S56_sub (W3 m d))) $$ Hheld
  icases Hh with ⟨H56, Hother⟩
  ihave H56' := (Entails.of_eq (held_S56 (F := F) d (W3 m d))) $$ H56
  icases H56' with ⟨H5, H6⟩
  iapply ((K (F := F)).wp_run (D (F := F)) 𝒱 (EH := EH) (P := P) κ d 0) $$ [HO Hrest H5 H6 Hb Hother Hg1 Ht1]
  isplitr; · iexact Hctx
  isplitl [HO Hrest]
  · unfold SparseCore.Cfg.tcSt
    isplitl [HO]; · iexact HO
    iexact Hrest
  isplitl [H5 H6]
  · iapply (hst d)
    isplitl [H5]; · iexact H5
    iexists _; iexact H6
  iintro ⟨Hst, Hdn⟩
  ihave Hdn' := (hdn d) $$ Hdn
  icases Hdn' with ⟨H5, H6⟩
  -- the unscoped buffers after the call
  ihave Hheld := (show iprop(((SparseCore.T d).loc main_v5 ↦{fullShare} W3 m d v5') ∗ ((SparseCore.T d).loc main_v6 ↦{fullShare} W4 d v6')
        ∗ held (SparseCore.T d) (Pipeline.ucRefs τ sig \ S56) (W3 m d)) ⊢ (held (SparseCore.T d) (Pipeline.ucRefs τ sig) (W4 d) : sProp 𝕄) from by
      rw [StableHlo.held_sub_split (SparseCore.T d) S56_sub (W4 d), held_S56, hW4 d v5' (by decide),
        show (held (SparseCore.T d) (Pipeline.ucRefs τ sig \ S56) (W4 d) : sProp 𝕄) = held (SparseCore.T d) (Pipeline.ucRefs τ sig \ S56) (W3 m d) from
          bigSep_congr fun b hb => by
            rw [hW4 d b (fun e => (Finset.mem_sdiff.mp hb).2 (e ▸ by decide))]]
      iintro ⟨H5, H6, Ho⟩
      isplitl [H5 H6]
      · isplitl [H5] <;> iassumption
      iexact Ho) $$ [H5 H6 Hother]
  · isplitl [H5]; · iexact H5
    isplitl [H6]; · iexact H6
    iexact Hother
  -- item 4: the routed coefficients as rows
  iapply (StableHlo.wp_seq 𝒱 none Set.univ d (Pipeline.ucRefs τ sig) _ hostOps2 hsub2 hfresh2 (W4 d)) $$ [Hb Hheld]
  · isplitl [Hb] <;> iassumption
  iintro ⟨Hb, Hheld⟩
  -- item 5: the second pipeline, owing nothing more
  rw [wp_bind]
  unfold SparseCore.Cfg.tcSt
  icases Hst with ⟨HO, Hrest⟩
  iapply (region1_step m W4 d _) $$ [Hb Hheld HO Hg1 Ht1 Hrest]
  isplitr [Hb Hheld HO Hg1 Ht1]
  swap
  · isplitl [Hb]; · iexact Hb
    isplitl [Hheld HO]
    · isplitl [Hheld]; · iexact Hheld
      iexact HO
    isplitr; · iexact Hlv
    isplitl [Hg1]; · iexact Hg1
    iexact Ht1
  iintro ⟨-, Hheld, HO⟩
  rw [wp_pure]; imodintro
  isplitl [HO Hrest]
  · isplitl [HO]; · iexact HO
    iexact Hrest
  iexact Hheld

end Cert.Proof.KB

end
-- ==== Proof.BScPure.lean ====
/-
  The routing walk as a function of a flat array of logits, for any float instance: a row of 128 words is walked from
  node 0 for five levels, going to child `2 n + 1`, or to `2 n + 2` when the word at `n` is greater than zero; the
  routed row holds the rectified word at each visited node and zero elsewhere.
-/
import proofs.«207443_g73169062855234_cont_9to1c4b_643_41_alg».proof.Proof.BCommon
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

section Pure

variable [FloatOps F]

/-- The float zero the walk compares against and rectifies with. -/
def z32 : F .f32 := FloatOps.ofBits .f32 0#32

/-- `1` when the word is (ordered) greater than zero, else `0`: the step to the right child. -/
def posBit (x : F .f32) : ℕ := (FloatOps.cmpf .ogt x (z32 (F := F))).toNat

theorem posBit_le_one (x : F .f32) : posBit x ≤ 1 := by
  unfold posBit; have := (FloatOps.cmpf .ogt x (z32 (F := F))).isLt; omega

/-- The node a row's walk visits at level `l`. -/
def pathN (row : ℕ → F .f32) : ℕ → ℕ
  | 0 => 0
  | l + 1 => 2 * pathN row l + 1 + posBit (row (pathN row l))

theorem pathN_zero (row : ℕ → F .f32) : pathN row 0 = 0 := rfl
theorem pathN_succ (row : ℕ → F .f32) (l : ℕ) : pathN row (l + 1) = 2 * pathN row l + 1 + posBit (row (pathN row l)) := rfl

/-- The node at level `l` is at most `2 ^ (l + 1) - 2`. -/
theorem pathN_le (row : ℕ → F .f32) : ∀ l, pathN row l + 2 ≤ 2 ^ (l + 1)
  | 0 => by simp [pathN]
  | l + 1 => by
    have h := pathN_le row l
    have hb := posBit_le_one (row (pathN row l))
    rw [pathN_succ, pow_succ]; omega

theorem pathN_lt_succ (row : ℕ → F .f32) (l : ℕ) : pathN row l < pathN row (l + 1) := by
  rw [pathN_succ]; omega

theorem pathN_strictMono (row : ℕ → F .f32) : StrictMono (pathN row) := strictMono_nat_of_lt_succ (pathN_lt_succ row)

/-- `n` is one of the five nodes the row's walk visits. -/
def onPath (row : ℕ → F .f32) (n : ℕ) : Prop :=
  n = pathN row 0 ∨ n = pathN row 1 ∨ n = pathN row 2 ∨ n = pathN row 3 ∨ n = pathN row 4

instance (row : ℕ → F .f32) (n : ℕ) : Decidable (onPath row n) := by unfold onPath; infer_instance

theorem onPath_iff (row : ℕ → F .f32) (n : ℕ) : onPath row n ↔ ∃ l, l < 5 ∧ n = pathN row l := by
  unfold onPath
  constructor
  · rintro (h | h | h | h | h)
    exacts [⟨0, by omega, h⟩, ⟨1, by omega, h⟩, ⟨2, by omega, h⟩, ⟨3, by omega, h⟩, ⟨4, by omega, h⟩]
  · rintro ⟨l, hl, h⟩
    have : l = 0 ∨ l = 1 ∨ l = 2 ∨ l = 3 ∨ l = 4 := by omega
    rcases this with rfl | rfl | rfl | rfl | rfl <;> simp [h]

/-- The routed row: the rectified word at a visited node, zero elsewhere. -/
def routeRow (row : ℕ → F .f32) (n : ℕ) : F .f32 :=
  if onPath row n then FloatOps.maximumf (row n) (z32 (F := F)) else z32

/-- Word `k` of a flat array; zero past its end. -/
def rdW {N : ℕ} (L : (⟨1, ![N]⟩ : Shape).Idx → F .f32) (k : ℕ) : F .f32 :=
  if h : k < N then L (ix1 ⟨k, h⟩) else z32

/-- Row `t` of a flat array of rows of 128 words. -/
def rowOf {N : ℕ} (L : (⟨1, ![N]⟩ : Shape).Idx → F .f32) (t : ℕ) : ℕ → F .f32 := fun n => rdW L (128 * t + n % 128)

/-- The routed array: every row of 128 words routed. -/
def routeV {N : ℕ} (L : (⟨1, ![N]⟩ : Shape).Idx → F .f32) : (⟨1, ![N]⟩ : Shape).Idx → F .f32 :=
  fun j => routeRow (rowOf L ((j 0).val / 128)) ((j 0).val % 128)

end Pure

end Cert.Proof.KB

end
-- ==== Proof.BScDefs.lean ====
/-
  The routing kernel's operands as the launch sees them: the two flat arrays (the logits and the routed coefficients)
  cut into the 64 chunks of 32768 words the 32 vector subcores copy in and out, two per subcore, and what the launch's
  handshakes carry: the logits unchanged and the coefficients, on the way back, the routed logits.
-/
import proofs.«207443_g73169062855234_cont_9to1c4b_643_41_alg».proof.Proof.BScPure

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The two arrays and their chunks -/

abbrev v5Loc (d : Dev nD) : Loc nD τ sig := (SparseCore.T d).loc main_v5
abbrev v6Loc (d : Dev nD) : Loc nD τ sig := (SparseCore.T d).loc main_v6

-- the kernel's memrefs, spelt as the body table passes them
local notation "v5V" => (Memref.whole Cert.Kernel.main_v5_scv : Memref Cert.Kernel.sig Kind.scVector Space.hbm Cert.Kernel.S2097152 EltTy.f32)
local notation "v6V" => (Memref.whole Cert.Kernel.main_v6_scv : Memref Cert.Kernel.sig Kind.scVector Space.hbm Cert.Kernel.S2097152 EltTy.f32)

/-- The routed logits, at the arrays' own types. -/
def route [FloatOps F] {d : Dev nD} (L : Buf (Elt F) (v5Loc d)) : Buf (Elt F) (v6Loc d) := routeV (F := F) (N := 2097152) L

/-- Where chunk `r` of vector subcore `s` of SparseCore `c` begins. -/
def chunkOff (c : Fin 2) (s : Fin 16) (r : Fin 2) : ℕ := 131072 * s.val + 65536 * c.val + 32768 * r.val

theorem chunk_inb (c : Fin 2) (s : Fin 16) (r : Fin 2) : ∀ a, (![chunkOff c s r] : Fin 1 → ℕ) a + S32768.size a ≤ S2097152.size a := by
  intro a
  have hc := c.isLt; have hs := s.isLt; have hr := r.isLt
  match a with
  | 0 => show chunkOff c s r + 32768 ≤ 2097152; unfold chunkOff; omega

abbrev chunk (c : Fin 2) (s : Fin 16) (r : Fin 2) : Rect S2097152 := Rect.unit (s := S2097152) ![chunkOff c s r] S32768.size (chunk_inb c s r)
abbrev chunkSet (c : Fin 2) (s : Fin 16) (r : Fin 2) : Finset S2097152.Idx := (chunk c s r).set

theorem mem_chunkSet {c : Fin 2} {s : Fin 16} {r : Fin 2} {j : S2097152.Idx} :
    j ∈ chunkSet c s r ↔ chunkOff c s r ≤ (j 0).val ∧ (j 0).val < chunkOff c s r + 32768 := by
  unfold chunkSet chunk
  rw [Rect.mem_set_unit]
  constructor
  · intro h; exact h 0
  · intro h a; match a with | 0 => exact h

variable [FloatOps F]

/-- A chunk of the logits at `f`, a chunk of the coefficients at `f`. -/
abbrev pc5 (d : Dev nD) (c : Fin 2) (s : Fin 16) (r : Fin 2) (f : Buf (Elt F) (v5Loc d)) : sProp 𝕄 := v5Loc d ↦[chunkSet c s r]{fullShare} f
abbrev pc6 (d : Dev nD) (c : Fin 2) (s : Fin 16) (r : Fin 2) (f : Buf (Elt F) (v6Loc d)) : sProp 𝕄 := v6Loc d ↦[chunkSet c s r]{fullShare} f

/-- What a vector subcore's task is handed: its two chunks of the logits, its two chunks of the coefficients at
    whatever they hold. -/
def goP (Lf : (d : Dev nD) → Buf (Elt F) (v5Loc d)) (d : Dev nD) (c : Fin 2) (s : Fin 16) : sProp 𝕄 :=
  iprop(pc5 d c s 0 (Lf d) ∗ pc5 d c s 1 (Lf d) ∗ (∃ f, pc6 d c s 0 f) ∗ (∃ f, pc6 d c s 1 f))

/-- What it hands back: the logits' chunks unchanged, the coefficients' chunks at the routed logits. -/
def tdP (Lf : (d : Dev nD) → Buf (Elt F) (v5Loc d)) (d : Dev nD) (c : Fin 2) (s : Fin 16) : sProp 𝕄 :=
  iprop(pc5 d c s 0 (Lf d) ∗ pc5 d c s 1 (Lf d) ∗ pc6 d c s 0 (route (Lf d)) ∗ pc6 d c s 1 (route (Lf d)))

instance goP_storable (Lf : (d : Dev nD) → Buf (Elt F) (v5Loc d)) (d : Dev nD) (c : Fin 2) (s : Fin 16) :
    BI.Storable (upEmb : UEmb _ 𝕄) (goP (F := F) Lf d c s) := by unfold goP; infer_instance
instance tdP_storable (Lf : (d : Dev nD) → Buf (Elt F) (v5Loc d)) (d : Dev nD) (c : Fin 2) (s : Fin 16) :
    BI.Storable (upEmb : UEmb _ 𝕄) (tdP (F := F) Lf d c s) := by unfold tdP; infer_instance

/-- The one SparseCore call's payloads: a SparseCore is handed its sixteen subcores' tasks' chunks and hands them back;
    a task its own. Nothing of the launch's is consumed by the kernel's proof. -/
def P (_m : (ℓ : Loc nD τ sig) → Buf (Elt F) ℓ) (Lf : (d : Dev nD) → Buf (Elt F) (v5Loc d)) :
    (K (F := F)).Pay (nD := nD) (Val := Elt F) (Name := ℕ) (U := UU) where
  st := fun q d c => match q with | 0 => bigSep Finset.univ fun s : Fin 16 => goP Lf d (Fin.cast nCore_zero c) s
  dn := fun q d c => match q with | 0 => bigSep Finset.univ fun s : Fin 16 => tdP Lf d (Fin.cast nCore_zero c) s
  go := fun q d c i => match q with | 0 => goP Lf d (Fin.cast nCore_zero c) (Fin.cast nSub_zero i)
  td := fun q d c i => match q with | 0 => tdP Lf d (Fin.cast nCore_zero c) (Fin.cast nSub_zero i)
  x := fun _ _ => iprop(emp)

variable (m : (ℓ : Loc nD τ sig) → Buf (Elt F) ℓ) (Lf : (d : Dev nD) → Buf (Elt F) (v5Loc d))

instance P_storable : (P (F := F) m Lf).IsStorable where
  st q d c := match q with
    | 0 => (inferInstance : BI.Storable (upEmb : UEmb _ 𝕄) (bigSep Finset.univ fun s : Fin 16 => goP Lf d (Fin.cast nCore_zero c) s))
  dn q d c := match q with
    | 0 => (inferInstance : BI.Storable (upEmb : UEmb _ 𝕄) (bigSep Finset.univ fun s : Fin 16 => tdP Lf d (Fin.cast nCore_zero c) s))
  go q d c i := match q with
    | 0 => (inferInstance : BI.Storable (upEmb : UEmb _ 𝕄) (goP Lf d (Fin.cast nCore_zero c) (Fin.cast nSub_zero i)))
  td q d c i := match q with
    | 0 => (inferInstance : BI.Storable (upEmb : UEmb _ 𝕄) (tdP Lf d (Fin.cast nCore_zero c) (Fin.cast nSub_zero i)))

end Cert.Proof.KB

end
-- ==== Proof.BScTile.lean ====
/-
  One vector subcore's task of the routing kernel, as the launch deals it: the subcore's two chunks of each array as
  the body slices them against the chunks the launch names, and the subcore's own scratch buffers and DMA cells.
-/
import proofs.«207443_g73169062855234_cont_9to1c4b_643_41_alg».proof.Proof.BScDefs
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}
open Idealize.ShloMosaic.Tactic

local notation "𝕄" => MT nD τ sig (HIx 1) (Elt F) ℕ UU ℕ

-- the kernel's memrefs, spelt as the body table passes them
local notation "v5V" => (Memref.whole Cert.Kernel.main_v5_scv : Memref Cert.Kernel.sig Kind.scVector Space.hbm Cert.Kernel.S2097152 EltTy.f32)
local notation "v6V" => (Memref.whole Cert.Kernel.main_v6_scv : Memref Cert.Kernel.sig Kind.scVector Space.hbm Cert.Kernel.S2097152 EltTy.f32)
local notation "a4V" => (Memref.whole Cert.Kernel.cc1_scratch0 : Memref Cert.Kernel.sig Kind.scVector Space.vmem Cert.Kernel.S32768 EltTy.f32)
local notation "a5V" => (Memref.whole Cert.Kernel.cc1_scratch1 : Memref Cert.Kernel.sig Kind.scVector Space.vmem Cert.Kernel.S32768 EltTy.f32)

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)
abbrev VT (d : Dev nD) (L : grid1.Coords) : Thread nD τ := V d (cV L) (jV L)

/-- The two chunks of each array AS THE BODY SLICES THEM. -/
abbrev rect0 (L : grid1.Coords) : Rect S2097152 := Rect.unit (s := S2097152) (k1_off2 L 0#32) S32768.size (k1_off2_inb L 0)
abbrev rect1 (L : grid1.Coords) : Rect S2097152 := Rect.unit (s := S2097152) (k1_off2 L 32768#32) S32768.size (k1_off2_inb L 1)
abbrev v5c0 (L : grid1.Coords) : Memref sig .scVector .hbm S32768 .f32 := (v5V).slice (rect0 L) (fun _ => rfl)
abbrev v5c1 (L : grid1.Coords) : Memref sig .scVector .hbm S32768 .f32 := (v5V).slice (rect1 L) (fun _ => rfl)
abbrev v6c0 (L : grid1.Coords) : Memref sig .scVector .hbm S32768 .f32 := (v6V).slice (rect0 L) (fun _ => rfl)
abbrev v6c1 (L : grid1.Coords) : Memref sig .scVector .hbm S32768 .f32 := (v6V).slice (rect1 L) (fun _ => rfl)

theorem off0_eq : k1_off2 L 0#32 = ![chunkOff (cL L) (sL L) 0] := by
  have h := k1_off2_eq L ⟨0, by decide⟩
  refine h.trans ?_
  funext a; match a with | 0 => simp [chunkOff]
theorem off1_eq : k1_off2 L 32768#32 = ![chunkOff (cL L) (sL L) 1] := by
  have h := k1_off2_eq L ⟨1, by decide⟩
  refine h.trans ?_
  funext a; match a with | 0 => simp [chunkOff]
theorem rect0_eq : rect0 L = chunk (cL L) (sL L) 0 := Rect.unit_congr (off0_eq L) _ _
theorem rect1_eq : rect1 L = chunk (cL L) (sL L) 1 := Rect.unit_congr (off1_eq L) _ _

theorem slice5_set (c : Fin 2) (s : Fin 16) (r : Fin 2) : ((v5V).view.slice (chunk c s r)).set = chunkSet c s r := by
  show ((View.whole (main_v5_scv : Ref sig .scVector)).slice (chunk c s r)).set = _
  rw [View.set_slice]; exact Finset.map_refl
theorem slice6_set (c : Fin 2) (s : Fin 16) (r : Fin 2) : ((v6V).view.slice (chunk c s r)).set = chunkSet c s r := by
  show ((View.whole (main_v6_scv : Ref sig .scVector)).slice (chunk c s r)).set = _
  rw [View.set_slice]; exact Finset.map_refl

theorem set_v5c0 : (v5c0 L).view.set = chunkSet (cL L) (sL L) 0 := by
  show ((v5V).view.slice (rect0 L)).set = _
  exact rect0_eq L ▸ slice5_set (cL L) (sL L) 0
theorem set_v5c1 : (v5c1 L).view.set = chunkSet (cL L) (sL L) 1 := by
  show ((v5V).view.slice (rect1 L)).set = _
  exact rect1_eq L ▸ slice5_set (cL L) (sL L) 1
theorem set_v6c0 : (v6c0 L).view.set = chunkSet (cL L) (sL L) 0 := by
  show ((v6V).view.slice (rect0 L)).set = _
  exact rect0_eq L ▸ slice6_set (cL L) (sL L) 0
theorem set_v6c1 : (v6c1 L).view.set = chunkSet (cL L) (sL L) 1 := by
  show ((v6V).view.slice (rect1 L)).set = _
  exact rect1_eq L ▸ slice6_set (cL L) (sL L) 1

theorem pts_v5c0 (f : Buf (Elt F) (v5Loc d)) :
    ((v5c0 L).view.loc (VT d L) ↦[(v5c0 L).view.set]{fullShare} f : sProp 𝕄) = v5Loc d ↦[chunkSet (cL L) (sL L) 0]{fullShare} f := by
  rw [set_v5c0]
theorem pts_v5c1 (f : Buf (Elt F) (v5Loc d)) :
    ((v5c1 L).view.loc (VT d L) ↦[(v5c1 L).view.set]{fullShare} f : sProp 𝕄) = v5Loc d ↦[chunkSet (cL L) (sL L) 1]{fullShare} f := by
  rw [set_v5c1]
theorem pts_v6c0 (f : Buf (Elt F) (v6Loc d)) :
    ((v6c0 L).view.loc (VT d L) ↦[(v6c0 L).view.set]{fullShare} f : sProp 𝕄) = v6Loc d ↦[chunkSet (cL L) (sL L) 0]{fullShare} f := by
  rw [set_v6c0]
theorem pts_v6c1 (f : Buf (Elt F) (v6Loc d)) :
    ((v6c1 L).view.loc (VT d L) ↦[(v6c1 L).view.set]{fullShare} f : sProp 𝕄) = v6Loc d ↦[chunkSet (cL L) (sL L) 1]{fullShare} f := by
  rw [set_v6c1]
theorem pts_a4 (f : Buf (Elt F) ((VT d L).loc cc1_scratch0)) :
    ((a4V).view.loc (VT d L) ↦[(a4V).view.set]{fullShare} f : sProp 𝕄) = (VT d L).loc cc1_scratch0 ↦{fullShare} f := by
  rw [View.set_whole]
theorem pts_a5 (f : Buf (Elt F) ((VT d L).loc cc1_scratch1)) :
    ((a5V).view.loc (VT d L) ↦[(a5V).view.set]{fullShare} f : sProp 𝕄) = (VT d L).loc cc1_scratch1 ↦{fullShare} f := by
  rw [View.set_whole]

/-- The four DMA cells the task names, one per copy. -/
abbrev cell0 (d : Dev nD) (L : grid1.Coords) : GSem nD τ sig := (VT d L, SemLoc.dma cc1_scoped0.sem)
abbrev cell1 (d : Dev nD) (L : grid1.Coords) : GSem nD τ sig := (VT d L, SemLoc.dma cc1_scoped1.sem)
abbrev cell2 (d : Dev nD) (L : grid1.Coords) : GSem nD τ sig := (VT d L, SemLoc.dma cc1_scoped2.sem)
abbrev cell3 (d : Dev nD) (L : grid1.Coords) : GSem nD τ sig := (VT d L, SemLoc.dma cc1_scoped3.sem)
abbrev cells0 (d : Dev nD) (L : grid1.Coords) : sProp 𝕄 :=
  iprop(semVal (cell0 d L) 0 ∗ semVal (cell1 d L) 0 ∗ semVal (cell2 d L) 0 ∗ semVal (cell3 d L) 0)

theorem cell_mem (s : DmaSem sig) : ((VT d L, SemLoc.dma s) : GSem nD τ sig) ∈ ownCells (VT d L) :=
  mem_ownCells.mpr ⟨rfl, (show ∀ s : DmaSem sig, (SemLoc.dma s : SemLoc sig).isScoped .scVector = true by decide) _⟩

theorem cell_ne {s s' : DmaSem sig} (h : s ≠ s') : ((VT d L, SemLoc.dma s) : GSem nD τ sig) ≠ (VT d L, SemLoc.dma s') :=
  fun e => h (by have := congrArg (fun g : GSem nD τ sig => g.2) e; simpa using this)

theorem sem10 : (cc1_scoped1.sem : DmaSem sig) ≠ cc1_scoped0.sem := by decide
theorem sem20 : (cc1_scoped2.sem : DmaSem sig) ≠ cc1_scoped0.sem := by decide
theorem sem21 : (cc1_scoped2.sem : DmaSem sig) ≠ cc1_scoped1.sem := by decide
theorem sem30 : (cc1_scoped3.sem : DmaSem sig) ≠ cc1_scoped0.sem := by decide
theorem sem31 : (cc1_scoped3.sem : DmaSem sig) ≠ cc1_scoped1.sem := by decide
theorem sem32 : (cc1_scoped3.sem : DmaSem sig) ≠ cc1_scoped2.sem := by decide

/-- The subcore's own cells at zero: the four the task names, one by one, and the rest. -/
theorem ownSems0_V :
    (ownSems0 (VT d L) : sProp 𝕄)
      = iprop(semVal (cell0 d L) 0 ∗ semVal (cell1 d L) 0 ∗ semVal (cell2 d L) 0 ∗ semVal (cell3 d L) 0
          ∗ bigSep (((((ownCells (VT d L)).erase (cell0 d L)).erase (cell1 d L)).erase (cell2 d L)).erase (cell3 d L)) fun g => semVal g 0) := by
  unfold SparseCore.Cfg.ownSems0
  rw [SparseCore.bigSep_erase' (cell_mem d L cc1_scoped0.sem),
    SparseCore.bigSep_erase' (Finset.mem_erase.mpr ⟨cell_ne d L sem10, cell_mem d L cc1_scoped1.sem⟩),
    SparseCore.bigSep_erase' (Finset.mem_erase.mpr ⟨cell_ne d L sem21, Finset.mem_erase.mpr ⟨cell_ne d L sem20, cell_mem d L cc1_scoped2.sem⟩⟩),
    SparseCore.bigSep_erase' (Finset.mem_erase.mpr ⟨cell_ne d L sem32, Finset.mem_erase.mpr ⟨cell_ne d L sem31,
      Finset.mem_erase.mpr ⟨cell_ne d L sem30, cell_mem d L cc1_scoped3.sem⟩⟩⟩)]

/-- The two scratch buffers are among the subcore's own: they are them, at some contents, and the rest. -/
theorem ownBufs_V :
    (ownBufs (VT d L) : sProp 𝕄)
      = iprop((∃ f, (VT d L).loc cc1_scratch0 ↦{fullShare} f) ∗ (∃ f, (VT d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Tile

end Cert.Proof.KB

end
-- ==== Proof.BScVal.lean ====
/-
  The pure facts the routing kernel's loop invariants step by: the scratch zeroed sixteen words a trip, the first 32
  words of a row re-zeroed a row a trip, and a chunk's rows routed as the whole array's are.
-/
import proofs.«207443_g73169062855234_cont_9to1c4b_643_41_alg».proof.Proof.BScPure
import Idealize.ShloMosaic.Lib.WritesUnit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The zeroing passes, and a chunk's rows against the whole array's -/

section Val

variable [FloatOps F]

local notation "a5V" => (Memref.whole Cert.Kernel.cc1_scratch1 : Memref Cert.Kernel.sig Kind.scVector Space.vmem Cert.Kernel.S32768 EltTy.f32)

/-- the scratch zeroed below word `16 k` -/
def Φ1 (k : ℕ) (g : Vec F S32768 .f32) : Prop := ∀ j : S32768.Idx, (j 0).val < 16 * k → g j = z32

/-- the walk's invariant: rows below `16 k` routed, the rest zero -/
def Φw (A : Vec F S32768 .f32) (k : ℕ) (g : Vec F S32768 .f32) : Prop :=
  ∀ j : S32768.Idx, g j = if (j 0).val / 128 < 16 * k then routeV (F := F) (N := 32768) A j else z32

/-- the rows below `k` re-zeroed in their first 32 words, the rest as `R` -/
def Φz (R : Vec F S32768 .f32) (k : ℕ) (g : Vec F S32768 .f32) : Prop :=
  ∀ j : S32768.Idx, g j = if (j 0).val / 128 < k ∧ (j 0).val % 128 < 32 then z32 else R j

theorem pay17_apply (x : S16.Idx) : (k1_pay17 (F := F)) x = z32 := rfl

theorem Φ1_step (k : Fin k1_t1_loop.trips) (g : Vec F S32768 .f32) (h : ∀ a, (k1_off1 k) a + S16.size a ≤ S32768.size a)
    (hg : Φ1 (F := F) k.val g) :
    Φ1 (F := F) (k.val + 1) ((a5V).view.writes (Elt F) g [⟨Rect.unit (k1_off1 k) S16.size h, k1_pay17⟩]) := by
  intro j hj
  have hr := View.read_writes_cons_unit (Val := Elt F) (a5V).view g h (k1_pay17 (F := F)) [] j (k1_off1_eq k)
  rw [show (a5V).view.read (Elt F) ((a5V).view.writes (Elt F) g [⟨Rect.unit (k1_off1 k) S16.size h, k1_pay17⟩]) j
      = ((a5V).view.writes (Elt F) g [⟨Rect.unit (k1_off1 k) S16.size h, k1_pay17⟩]) j from rfl] at hr
  rw [hr]
  split
  · rfl
  · rename_i hn
    have hlt : (j 0).val < 16 * k.val := by
      by_contra hc
      apply hn
      intro a
      match a with
      | 0 => exact ⟨by show 16 * k.val ≤ (j 0).val; omega, by show (j 0).val < 16 * k.val + 16; omega⟩
    exact hg j hlt

theorem Φ1_zero (g : Vec F S32768 .f32) : Φ1 (F := F) 0 g := by
  intro j hj; omega

theorem Φw_init (A g : Vec F S32768 .f32) (hg : Φ1 (F := F) 2048 g) : Φw (F := F) A 0 g := by
  intro j
  rw [if_neg (by omega)]
  have hj : (j 0).val < 32768 := (j 0).isLt
  exact hg j (by show (j 0).val < 16 * 2048; omega)

theorem Φz_zero (R : Vec F S32768 .f32) : Φz (F := F) R 0 R := by
  intro j
  rw [if_neg (by omega)]

theorem Φz_step (k : Fin k1_t3_loop.trips) (R g : Vec F S32768 .f32)
    (h4 : ∀ a, (k1_off4 k) a + S16.size a ≤ S32768.size a) (h3 : ∀ a, (k1_off3 k) a + S16.size a ≤ S32768.size a)
    (hg : Φz (F := F) R k.val g) :
    Φz (F := F) R (k.val + 1)
      ((a5V).view.writes (Elt F) g [⟨Rect.unit (k1_off4 k) S16.size h4, k1_pay17⟩, ⟨Rect.unit (k1_off3 k) S16.size h3, k1_pay17⟩]) := by
  intro j
  have hk : k.val < 256 := Nat.lt_of_lt_of_le k.isLt k1_t3_abs.2.1
  have hr4 := View.read_writes_cons_unit (Val := Elt F) (a5V).view g h4 (k1_pay17 (F := F))
    [⟨Rect.unit (k1_off3 k) S16.size h3, k1_pay17⟩] j (k1_off4_eq k)
  have hr3 := View.read_writes_cons_unit (Val := Elt F) (a5V).view g h3 (k1_pay17 (F := F)) [] j (k1_off3_eq k)
  rw [show (a5V).view.read (Elt F) ((a5V).view.writes (Elt F) g [⟨Rect.unit (k1_off4 k) S16.size h4, k1_pay17⟩, ⟨Rect.unit (k1_off3 k) S16.size h3, k1_pay17⟩]) j
      = ((a5V).view.writes (Elt F) g [⟨Rect.unit (k1_off4 k) S16.size h4, k1_pay17⟩, ⟨Rect.unit (k1_off3 k) S16.size h3, k1_pay17⟩]) j from rfl] at hr4
  rw [hr4]
  have hgj := hg j
  split
  · rename_i hin
    have h0 := hin 0
    have h1 : 128 * k.val + 16 ≤ (j 0).val := h0.1
    have h2 : (j 0).val < 128 * k.val + 16 + 16 := h0.2
    rw [if_pos ⟨by omega, by omega⟩]
    rfl
  · rename_i hn4
    rw [hr3]
    split
    · rename_i hin
      have h0 := hin 0
      have h1 : 128 * k.val ≤ (j 0).val := h0.1
      have h2 : (j 0).val < 128 * k.val + 16 := h0.2
      rw [if_pos ⟨by omega, by omega⟩]
      rfl
    · rename_i hn3
      show g j = _
      rw [hgj]
      have hout : ¬ (128 * k.val ≤ (j 0).val ∧ (j 0).val < 128 * k.val + 32) := by
        intro ⟨hlo, hhi⟩
        by_cases hc : (j 0).val < 128 * k.val + 16
        · exact hn3 fun a => match a with | 0 => ⟨hlo, hc⟩
        · exact hn4 fun a => match a with | 0 => ⟨by show 128 * k.val + 16 ≤ (j 0).val; omega, by show (j 0).val < 128 * k.val + 16 + 16; omega⟩
      by_cases hc : (j 0).val / 128 < k.val ∧ (j 0).val % 128 < 32
      · rw [if_pos hc, if_pos ⟨by omega, hc.2⟩]
      · rw [if_neg hc, if_neg]
        intro ⟨hl, hm⟩
        apply hc
        refine ⟨?_, hm⟩
        by_contra hge
        apply hout
        omega

/-- A word beyond node 30 of a row is never visited: the routed row is zero there. -/
theorem routeRow_high (row : ℕ → F .f32) (n : ℕ) (hn : 31 ≤ n) : routeRow row n = z32 := by
  unfold routeRow
  rw [if_neg]
  intro h
  obtain ⟨l, hl, rfl⟩ := (onPath_iff row n).mp h
  have h1 := pathN_le row l
  have h2 : 2 ^ (l + 1) ≤ 2 ^ 5 := Nat.pow_le_pow_right (by decide) (by omega)
  omega

/-- After the re-zeroing pass over all 256 rows, the routed chunk is all zero. -/
theorem Φw_of_Φz (A A' R g : Vec F S32768 .f32) (hR : Φw (F := F) A 16 R) (hg : Φz (F := F) R 256 g) : Φw (F := F) A' 0 g := by
  intro j
  rw [if_neg (by omega), hg j]
  have hj : (j 0).val < 32768 := (j 0).isLt
  by_cases hm : (j 0).val % 128 < 32
  · rw [if_pos ⟨by omega, hm⟩]
  · rw [if_neg (fun h => hm h.2), hR j, if_pos (by omega)]
    exact routeRow_high _ _ (by omega)

/-- A chunk of 32768 words at a multiple of 32768 routes as those rows of the whole array do. -/
theorem routeV_chunk (Lf : (⟨1, ![2097152]⟩ : Shape).Idx → F .f32) (A : (⟨1, ![32768]⟩ : Shape).Idx → F .f32) (q : ℕ) (hq : q < 64)
    (hA : ∀ x : (⟨1, ![32768]⟩ : Shape).Idx, A x = rdW Lf (32768 * q + (x 0).val))
    (x : (⟨1, ![32768]⟩ : Shape).Idx) (j : (⟨1, ![2097152]⟩ : Shape).Idx) (hj : (j 0).val = 32768 * q + (x 0).val) :
    routeV (F := F) A x = routeV (F := F) Lf j := by
  have hx : (x 0).val < 32768 := (x 0).isLt
  unfold routeV
  rw [hj, show (32768 * q + (x 0).val) / 128 = 256 * q + (x 0).val / 128 by omega,
    show (32768 * q + (x 0).val) % 128 = (x 0).val % 128 by omega]
  congr 1
  funext n
  unfold rowOf
  have hm : 128 * ((x 0).val / 128) + n % 128 < 32768 := by omega
  rw [show rdW A (128 * ((x 0).val / 128) + n % 128) = A (ix1 ⟨128 * ((x 0).val / 128) + n % 128, hm⟩) from dif_pos hm, hA]
  congr 1
  show 32768 * q + (128 * ((x 0).val / 128) + n % 128) = 128 * (256 * q + (x 0).val / 128) + n % 128
  omega

end Val

end Cert.Proof.KB

end
-- ==== Proof.BScRLanes.lean ====
/-
  Two facts about the routing walk's vectors of sixteen lanes.  An indexed store without mask or accumulation whose
  lanes name distinct elements writes lane `k`'s value at the element lane `k` names and leaves every other element.
  The walk's index vectors, lane by lane, are the first word of row `16 k + lane` plus a node: the node starts at zero
  and goes to `2 n + 1`, plus one where the word read is positive, so it stays below 128 and the index below the
  32768 words of the chunk; as 32-bit words nothing wraps.
-/
import proofs.«207443_g73169062855234_cont_9to1c4b_643_41_alg».proof.Proof.BScPure

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## An indexed store whose lanes name distinct elements -/

section StoreIdx

variable {s : Shape} {e : EltTy} {dd : Fin 1 → Nat}

theorem idx_ext_iff {j i : s.Idx} : (∀ a, (j a).val = (i a).val) ↔ j = i :=
  ⟨fun h => funext fun a => Fin.ext (h a), fun h a => by rw [h]⟩

/-- One lane of an unmasked indexed store without accumulation. -/
def laneStore (idxs : Fin s.rank → IVec ⟨1, dd⟩ 32) (v : Vec F ⟨1, dd⟩ e) (h : ∀ a x, (idxs a x).toNat < s.size a)
    (g : Vec F s e) (k : Fin (dd 0)) : Vec F s e :=
  fun j => if (∀ a, (j a).val = ((idxAt idxs h (Shape.ofLane k)) a).val) then v (Shape.ofLane k) else g j

theorem storeIdx_eq_foldl (f : Vec F s e) (idxs : Fin s.rank → IVec ⟨1, dd⟩ 32) (v : Vec F ⟨1, dd⟩ e)
    (h : ∀ a x, (idxs a x).toNat < s.size a) :
    storeIdx f idxs v (fun _ => 1#1) false h = (List.finRange (dd 0)).foldl (laneStore idxs v h) f := by
  unfold storeIdx
  congr 1
  funext g k
  simp
  rfl

theorem foldl_laneStore_miss (idxs : Fin s.rank → IVec ⟨1, dd⟩ 32) (v : Vec F ⟨1, dd⟩ e) (h : ∀ a x, (idxs a x).toNat < s.size a) (j : s.Idx) :
    ∀ (l : List (Fin (dd 0))) (g : Vec F s e), (∀ k ∈ l, idxAt idxs h (Shape.ofLane k) ≠ j) → (l.foldl (laneStore idxs v h) g) j = g j
  | [], g, _ => rfl
  | k :: l, g, hm => by
    rw [List.foldl_cons, foldl_laneStore_miss idxs v h j l _ fun k' hk' => hm k' (List.mem_cons_of_mem _ hk')]
    unfold laneStore
    rw [if_neg]
    intro hji
    exact hm k (List.mem_cons_self ..) (idx_ext_iff.mp hji).symm

theorem foldl_laneStore_hit (idxs : Fin s.rank → IVec ⟨1, dd⟩ 32) (v : Vec F ⟨1, dd⟩ e) (h : ∀ a x, (idxs a x).toNat < s.size a)
    (hinj : ∀ k k' : Fin (dd 0), idxAt idxs h (Shape.ofLane k) = idxAt idxs h (Shape.ofLane k') → k = k') (k : Fin (dd 0)) :
    ∀ (l : List (Fin (dd 0))) (g : Vec F s e), l.Nodup → k ∈ l →
      (l.foldl (laneStore idxs v h) g) (idxAt idxs h (Shape.ofLane k)) = v (Shape.ofLane k)
  | [], _, _, hk => absurd hk (List.not_mem_nil)
  | k0 :: l, g, hnd, hk => by
    rw [List.foldl_cons]
    rcases List.mem_cons.mp hk with rfl | hk'
    · rw [foldl_laneStore_miss idxs v h _ l _ fun k' hk' e' => (List.nodup_cons.mp hnd).1 (hinj k' k e' ▸ hk')]
      unfold laneStore
      rw [if_pos fun a => rfl]
    · exact foldl_laneStore_hit idxs v h hinj k l _ (List.nodup_cons.mp hnd).2 hk'

/-- Distinct lanes: the element lane `k` names takes lane `k`'s value. -/
theorem storeIdx_hit (f : Vec F s e) (idxs : Fin s.rank → IVec ⟨1, dd⟩ 32) (v : Vec F ⟨1, dd⟩ e) (h : ∀ a x, (idxs a x).toNat < s.size a)
    (hinj : ∀ k k' : Fin (dd 0), idxAt idxs h (Shape.ofLane k) = idxAt idxs h (Shape.ofLane k') → k = k') (k : Fin (dd 0)) :
    storeIdx f idxs v (fun _ => 1#1) false h (idxAt idxs h (Shape.ofLane k)) = v (Shape.ofLane k) := by
  rw [storeIdx_eq_foldl]
  exact foldl_laneStore_hit idxs v h hinj k _ f (List.nodup_finRange _) (List.mem_finRange k)

/-- An element no lane names keeps its value. -/
theorem storeIdx_miss (f : Vec F s e) (idxs : Fin s.rank → IVec ⟨1, dd⟩ 32) (v : Vec F ⟨1, dd⟩ e) (h : ∀ a x, (idxs a x).toNat < s.size a)
    (j : s.Idx) (hm : ∀ k : Fin (dd 0), idxAt idxs h (Shape.ofLane k) ≠ j) :
    storeIdx f idxs v (fun _ => 1#1) false h j = f j := by
  rw [storeIdx_eq_foldl]
  exact foldl_laneStore_miss idxs v h j _ f fun k _ => hm k

end StoreIdx

/-! ## The walk's index vectors, lane by lane -/

section Walk

/-- The sixteen lane numbers. -/
abbrev v4i : IVec S16 32 := iota .scVector S16 32 [0] iota_S16_d0_w32_scVector

/-- A lane's number. -/
abbrev ln (x : S16.Idx) : ℕ := (x 0).val
theorem ln_lt (x : S16.Idx) : ln x < 16 := (x 0).isLt

theorem v4i_apply (x : S16.Idx) : v4i x = BitVec.ofNat 32 (ln x) := by
  unfold v4i iota
  simp

/-- `b` holds, lane by lane, the first word of row `16 k + lane`. -/
def RowBase (b : IVec S16 32) (k : ℕ) : Prop := ∀ x, (b x).toNat = 128 * (16 * k + ln x)
/-- `n` holds, lane by lane, the node `N`. -/
def NodeIs (n : IVec S16 32) (N : S16.Idx → ℕ) : Prop := ∀ x, (n x).toNat = N x

theorem rowBase_t2 (k : Fin k1_t2_loop.trips) : RowBase (k1_pay1 v4i 0#32 1#32 k) k.val := by
  intro x
  have hk : k.val < 16 := Nat.lt_of_lt_of_le k.isLt k1_t2_abs.2.1
  have hx := ln_lt x
  unfold k1_pay1
  simp only [muli, addi, broadcast, IntOp.muli, IntOp.addi, Scalar.muli, Scf.iv, v4i_apply]
  simp only [BitVec.toNat_mul, BitVec.toNat_add, BitVec.toNat_ofNat]
  omega
theorem rowBase_t4 (k : Fin k1_t4_loop.trips) : RowBase (k1_pay9 v4i 0#32 1#32 k) k.val := by
  intro x
  have hk : k.val < 16 := Nat.lt_of_lt_of_le k.isLt k1_t4_abs.2.1
  have hx := ln_lt x
  unfold k1_pay9
  simp only [muli, addi, broadcast, IntOp.muli, IntOp.addi, Scalar.muli, Scf.iv, v4i_apply]
  simp only [BitVec.toNat_mul, BitVec.toNat_add, BitVec.toNat_ofNat]
  omega

/-- A row's base plus a node below 128 does not wrap. -/
theorem idx_toNat {b n : IVec S16 32} {k : ℕ} {N : S16.Idx → ℕ} (hb : RowBase b k) (hn : NodeIs n N) (hk : k < 16) (hN : ∀ x, N x < 128)
    (x : S16.Idx) : (addi b n x).toNat = 128 * (16 * k + ln x) + N x := by
  have h1 := hb x; have h2 := hn x; have h3 := hN x; have hx := ln_lt x
  simp only [addi, IntOp.addi, BitVec.toNat_add, h1, h2]
  omega

theorem idx_inb {b n : IVec S16 32} {k : ℕ} {N : S16.Idx → ℕ} (hb : RowBase b k) (hn : NodeIs n N) (hk : k < 16) (hN : ∀ x, N x < 128) :
    ∀ a x, ((![addi b n] : Fin 1 → IVec S16 32) a x).toNat < S32768.size a := by
  intro a x
  match a with
  | 0 =>
    show (addi b n x).toNat < 32768
    rw [idx_toNat hb hn hk hN]
    have h3 := hN x; have hx := ln_lt x
    omega

/-- The next node: twice the node plus one, plus one more where the word read is positive. -/
def nxt (n : IVec S16 32) (v : Vec F S16 .f32) : IVec S16 32 :=
  addi (addi (muli (broadcast S16 2#32) n) (broadcast S16 1#32))
    (extui 32 (cmpf .ogt v (broadcast S16 (FloatOps.ofBits .f32 0#32))) natLt_1_32)

theorem nxt_node {n : IVec S16 32} {N : S16.Idx → ℕ} (hn : NodeIs n N) (hN : ∀ x, N x < 128) (v : Vec F S16 .f32) :
    NodeIs (nxt n v) fun x => 2 * N x + 1 + posBit (v x) := by
  intro x
  have h2 := hn x; have h3 := hN x
  have hb : posBit (v x) ≤ 1 := posBit_le_one _
  unfold nxt posBit z32 at *
  simp only [addi, muli, broadcast, extui, cmpf, IntOp.addi, IntOp.muli, BitVec.toNat_add, BitVec.toNat_mul, BitVec.toNat_ofNat,
    BitVec.toNat_setWidth, h2] at *
  omega

end Walk

/-! ## The walk's payloads as steps of the node, and the index checks -/

section Checks

theorem pay2_eq : k1_pay2 = broadcast S16 (0#32 : BitVec 32) := rfl
theorem pay10_eq : k1_pay10 = broadcast S16 (0#32 : BitVec 32) := rfl
theorem pay4_eq (v18 : Vec F S16 .f32) : k1_pay4 v18 = nxt k1_pay2 v18 := rfl
theorem pay6_eq (v18 v30 : Vec F S16 .f32) : k1_pay6 v18 v30 = nxt (k1_pay4 v18) v30 := rfl
theorem pay18_eq (v18 v30 v42 : Vec F S16 .f32) :
    k1_pay18 v42 (k1_pay8 v18 v30) (FloatOps.ofBits .f32 0#32) = nxt (k1_pay6 v18 v30) v42 := rfl
theorem pay20_eq (b : IVec S16 32) (v18 v30 v42 v54 : Vec F S16 .f32) :
    k1_pay20 b v42 (k1_pay8 v18 v30) (FloatOps.ofBits .f32 0#32) v54
      = addi b (nxt (k1_pay18 v42 (k1_pay8 v18 v30) (FloatOps.ofBits .f32 0#32)) v54) := rfl
theorem pay12_eq (v18 : Vec F S16 .f32) : k1_pay12 v18 = nxt k1_pay10 v18 := rfl
theorem pay14_eq (v18 v30 : Vec F S16 .f32) : k1_pay14 v18 v30 = nxt (k1_pay12 v18) v30 := rfl
theorem pay22_eq (v18 v30 v42 : Vec F S16 .f32) :
    k1_pay22 v42 (k1_pay16 v18 v30) (FloatOps.ofBits .f32 0#32) = nxt (k1_pay14 v18 v30) v42 := rfl
theorem pay24_eq (b : IVec S16 32) (v18 v30 v42 v54 : Vec F S16 .f32) :
    k1_pay24 b v42 (k1_pay16 v18 v30) (FloatOps.ofBits .f32 0#32) v54
      = addi b (nxt (k1_pay22 v42 (k1_pay16 v18 v30) (FloatOps.ofBits .f32 0#32)) v54) := rfl

/-- Every lane's node is at most `B`. -/
def NodeLe (n : IVec S16 32) (B : ℕ) : Prop := ∀ x, (n x).toNat ≤ B

theorem nodeLe_zero : NodeLe (broadcast S16 (0#32 : BitVec 32)) 0 := fun _ => Nat.le_refl 0

/-- A step from nodes at most `B` ends at nodes at most `2 B + 2`. -/
theorem nxt_le {n : IVec S16 32} {B : ℕ} (hn : NodeLe n B) (hB : B < 128) (v : Vec F S16 .f32) : NodeLe (nxt n v) (2 * B + 2) := by
  intro x
  have h : (nxt n v x).toNat = 2 * (n x).toNat + 1 + posBit (v x) :=
    nxt_node (n := n) (N := fun x => (n x).toNat) (fun _ => rfl) (fun x => Nat.lt_of_le_of_lt (hn x) hB) v x
  have hb : posBit (v x) ≤ 1 := posBit_le_one _
  have hx := hn x
  rw [h]; omega

theorem idx_inb_le {b n : IVec S16 32} {k B : ℕ} (hb : RowBase b k) (hk : k < 16) (hn : NodeLe n B) (hB : B < 128) :
    ∀ a x, ((![addi b n] : Fin 1 → IVec S16 32) a x).toNat < S32768.size a :=
  idx_inb (N := fun x => (n x).toNat) hb (fun _ => rfl) hk fun x => Nat.lt_of_le_of_lt (hn x) hB

theorem t2_lt (k : Fin k1_t2_loop.trips) : k.val < 16 := Nat.lt_of_lt_of_le k.isLt k1_t2_abs.2.1
theorem t4_lt (k : Fin k1_t4_loop.trips) : k.val < 16 := Nat.lt_of_lt_of_le k.isLt k1_t4_abs.2.1

theorem le_pay2 : NodeLe k1_pay2 0 := nodeLe_zero
theorem le_pay4 (v18 : Vec F S16 .f32) : NodeLe (k1_pay4 v18) 2 := nxt_le le_pay2 (by decide) v18
theorem le_pay6 (v18 v30 : Vec F S16 .f32) : NodeLe (k1_pay6 v18 v30) 6 := nxt_le (le_pay4 v18) (by decide) v30
theorem le_pay18 (v18 v30 v42 : Vec F S16 .f32) :
    NodeLe (k1_pay18 v42 (k1_pay8 v18 v30) (FloatOps.ofBits .f32 0#32)) 14 := nxt_le (le_pay6 v18 v30) (by decide) v42
theorem le_nxt18 (v18 v30 v42 v54 : Vec F S16 .f32) :
    NodeLe (nxt (k1_pay18 v42 (k1_pay8 v18 v30) (FloatOps.ofBits .f32 0#32)) v54) 30 := nxt_le (le_pay18 v18 v30 v42) (by decide) v54
theorem le_pay10 : NodeLe k1_pay10 0 := nodeLe_zero
theorem le_pay12 (v18 : Vec F S16 .f32) : NodeLe (k1_pay12 v18) 2 := nxt_le le_pay10 (by decide) v18
theorem le_pay14 (v18 v30 : Vec F S16 .f32) : NodeLe (k1_pay14 v18 v30) 6 := nxt_le (le_pay12 v18) (by decide) v30
theorem le_pay22 (v18 v30 v42 : Vec F S16 .f32) :
    NodeLe (k1_pay22 v42 (k1_pay16 v18 v30) (FloatOps.ofBits .f32 0#32)) 14 := nxt_le (le_pay14 v18 v30) (by decide) v42
theorem le_nxt22 (v18 v30 v42 v54 : Vec F S16 .f32) :
    NodeLe (nxt (k1_pay22 v42 (k1_pay16 v18 v30) (FloatOps.ofBits .f32 0#32)) v54) 30 := nxt_le (le_pay22 v18 v30 v42) (by decide) v54

theorem chk1_ok (k : Fin k1_t2_loop.trips) : k1_chk1 (addi (k1_pay1 v4i 0#32 1#32 k) k1_pay2) := by
  have h := idx_inb_le (rowBase_t2 k) (t2_lt k) le_pay2 (by decide)
  exact ⟨h, h⟩
theorem chk2_ok (k : Fin k1_t2_loop.trips) (v18 : Vec F S16 .f32) : k1_chk2 (addi (k1_pay1 v4i 0#32 1#32 k) (k1_pay4 v18)) := by
  have h := idx_inb_le (rowBase_t2 k) (t2_lt k) (le_pay4 v18) (by decide)
  exact ⟨h, h⟩
theorem chk3_ok (k : Fin k1_t2_loop.trips) (v18 v30 : Vec F S16 .f32) : k1_chk3 (addi (k1_pay1 v4i 0#32 1#32 k) (k1_pay6 v18 v30)) := by
  have h := idx_inb_le (rowBase_t2 k) (t2_lt k) (le_pay6 v18 v30) (by decide)
  exact ⟨h, h⟩
theorem chk4_ok (k : Fin k1_t2_loop.trips) (v18 v30 v42 : Vec F S16 .f32) :
    k1_chk4 (addi (k1_pay1 v4i 0#32 1#32 k) (k1_pay18 v42 (k1_pay8 v18 v30) (FloatOps.ofBits .f32 0#32))) := by
  have h := idx_inb_le (rowBase_t2 k) (t2_lt k) (le_pay18 v18 v30 v42) (by decide)
  exact ⟨h, h⟩
theorem chk5_ok (k : Fin k1_t2_loop.trips) (v18 v30 v42 v54 : Vec F S16 .f32) :
    k1_chk5 (k1_pay20 (k1_pay1 v4i 0#32 1#32 k) v42 (k1_pay8 v18 v30) (FloatOps.ofBits .f32 0#32) v54) := by
  rw [pay20_eq]
  have h := idx_inb_le (rowBase_t2 k) (t2_lt k) (le_nxt18 v18 v30 v42 v54) (by decide)
  exact ⟨h, h⟩
theorem chk6_ok (k : Fin k1_t4_loop.trips) : k1_chk6 (addi (k1_pay9 v4i 0#32 1#32 k) k1_pay10) := by
  have h := idx_inb_le (rowBase_t4 k) (t4_lt k) le_pay10 (by decide)
  exact ⟨h, h⟩
theorem chk7_ok (k : Fin k1_t4_loop.trips) (v18 : Vec F S16 .f32) : k1_chk7 (addi (k1_pay9 v4i 0#32 1#32 k) (k1_pay12 v18)) := by
  have h := idx_inb_le (rowBase_t4 k) (t4_lt k) (le_pay12 v18) (by decide)
  exact ⟨h, h⟩
theorem chk8_ok (k : Fin k1_t4_loop.trips) (v18 v30 : Vec F S16 .f32) : k1_chk8 (addi (k1_pay9 v4i 0#32 1#32 k) (k1_pay14 v18 v30)) := by
  have h := idx_inb_le (rowBase_t4 k) (t4_lt k) (le_pay14 v18 v30) (by decide)
  exact ⟨h, h⟩
theorem chk9_ok (k : Fin k1_t4_loop.trips) (v18 v30 v42 : Vec F S16 .f32) :
    k1_chk9 (addi (k1_pay9 v4i 0#32 1#32 k) (k1_pay22 v42 (k1_pay16 v18 v30) (FloatOps.ofBits .f32 0#32))) := by
  have h := idx_inb_le (rowBase_t4 k) (t4_lt k) (le_pay22 v18 v30 v42) (by decide)
  exact ⟨h, h⟩
theorem chk10_ok (k : Fin k1_t4_loop.trips) (v18 v30 v42 v54 : Vec F S16 .f32) :
    k1_chk10 (k1_pay24 (k1_pay9 v4i 0#32 1#32 k) v42 (k1_pay16 v18 v30) (FloatOps.ofBits .f32 0#32) v54) := by
  rw [pay24_eq]
  have h := idx_inb_le (rowBase_t4 k) (t4_lt k) (le_nxt22 v18 v30 v42 v54) (by decide)
  exact ⟨h, h⟩

theorem trips1 : Scf.trips k1_t1_loop.lb k1_t1_loop.ub k1_t1_loop.st = 2048 := by decide
theorem trips2 : Scf.trips k1_t2_loop.lb k1_t2_loop.ub k1_t2_loop.st = 16 := by decide
theorem trips3 : Scf.trips k1_t3_loop.lb k1_t3_loop.ub k1_t3_loop.st = 256 := by decide
theorem trips4 : Scf.trips k1_t4_loop.lb k1_t4_loop.ub k1_t4_loop.st = 16 := by decide

end Checks

end Cert.Proof.KB

end
-- ==== Proof.BScRWalk.lean ====
/-
  One trip of the routing walk.  Sixteen lanes walk sixteen consecutive rows of 128 words: row `16 k + lane`.  At
  each of the five levels a lane reads the word at its node, stores the word rectified at the same place of the
  routed array, and moves to child `2 n + 1`, or `2 n + 2` where the word is positive; so lane by lane the node at
  level `l` is the row's path node `pathN row l`.  Lanes lie in distinct rows, hence name distinct elements, and a
  level's store writes exactly the sixteen places `128 · row + pathN row l`.  From an array that holds the routed
  rows below row `16 k` and zero elsewhere, the five stores leave the routed rows below row `16 (k + 1)` and zero
  elsewhere: a place of one of the sixteen rows is written iff it is on the row's path, with the rectified word.
-/
import proofs.«207443_g73169062855234_cont_9to1c4b_643_41_alg».proof.Proof.BScRLanes
import proofs.«207443_g73169062855234_cont_9to1c4b_643_41_alg».proof.Proof.BScVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The element a lane names -/

section Lanes

/-- The index vector's words are inside the chunk of 32768 words. -/
abbrev Inb (i : IVec S16 32) : Prop := ∀ a x, ((![i] : Fin 1 → IVec S16 32) a x).toNat < S32768.size a

theorem ln_ofLane (l : Fin 16) : ln (Shape.ofLane (d := ![16]) l : S16.Idx) = l.val := rfl

/-- The element lane `x` names: word `node` of row `16 k + lane`. -/
theorem idxAt_val {b n : IVec S16 32} {k : ℕ} {N : S16.Idx → ℕ} (hb : RowBase b k) (hk : k < 16) (hn : NodeIs n N) (hN : ∀ x, N x < 128)
    (h : Inb (addi b n)) (x : S16.Idx) :
    ((idxAt (s := S32768) (![addi b n] : Fin 1 → IVec S16 32) h x) 0).val = 128 * (16 * k + ln x) + N x :=
  idx_toNat hb hn hk hN x

/-- Distinct lanes name distinct elements: they lie in distinct rows. -/
theorem lanes_inj {b n : IVec S16 32} {k : ℕ} {N : S16.Idx → ℕ} (hb : RowBase b k) (hk : k < 16) (hn : NodeIs n N) (hN : ∀ x, N x < 128)
    (h : Inb (addi b n)) (l l' : Fin 16)
    (e : idxAt (s := S32768) (![addi b n] : Fin 1 → IVec S16 32) h (Shape.ofLane (d := ![16]) l)
      = idxAt (s := S32768) (![addi b n] : Fin 1 → IVec S16 32) h (Shape.ofLane (d := ![16]) l')) : l = l' := by
  have e0 := congrArg (fun i : S32768.Idx => (i 0).val) e
  simp only [idxAt_val hb hk hn hN h, ln_ofLane] at e0
  have h1 := hN (Shape.ofLane (d := ![16]) l); have h2 := hN (Shape.ofLane (d := ![16]) l')
  exact Fin.ext (by omega)

end Lanes

/-! ## One level: sixteen words read, rectified, stored at the same places -/

section Level

/-- The rectification of sixteen words. -/
def relu16 (v : Vec F S16 .f32) : Vec F S16 .f32 := maximumf v (broadcast S16 (FloatOps.ofBits .f32 0#32))

/-- The sixteen words at the index vector's places. -/
def ld (A : Vec F S32768 .f32) (i : IVec S16 32) (h : Inb i) : Vec F S16 .f32 := loadIdx (F := F) (e := .f32) A ![i] h

/-- The array after a level: the rectified words stored at the places they were read from. -/
def st (A g : Vec F S32768 .f32) (i : IVec S16 32) (h h' : Inb i) : Vec F S32768 .f32 :=
  storeIdx (F := F) (e := .f32) g ![i] (relu16 (ld A i h)) (fun _ => 1#1) false h'

theorem relu16_apply (v : Vec F S16 .f32) (x : S16.Idx) : relu16 v x = FloatOps.maximumf (v x) (z32 (F := F)) := rfl

/-- The word a lane reads: word `N` of its row. -/
theorem ld_apply {b n : IVec S16 32} {k : ℕ} {N : S16.Idx → ℕ} (hb : RowBase b k) (hk : k < 16) (hn : NodeIs n N) (hN : ∀ x, N x < 128)
    (A : Vec F S32768 .f32) (h : Inb (addi b n)) (x : S16.Idx) :
    ld A (addi b n) h x = rowOf A (16 * k + ln x) (N x) := by
  have hx := ln_lt x; have hNx := hN x
  have hlt : 128 * (16 * k + ln x) + N x < 32768 := by omega
  have hi : idxAt (s := S32768) (![addi b n] : Fin 1 → IVec S16 32) h x = ix1 ⟨128 * (16 * k + ln x) + N x, hlt⟩ :=
    idx_ext_iff.mp fun a => match a with | 0 => idxAt_val hb hk hn hN h x
  unfold ld loadIdx
  rw [hi]
  unfold rowOf rdW
  rw [Nat.mod_eq_of_lt hNx, dif_pos hlt]

/-- After a level, an element holds the rectified word if some lane names it, and what it held otherwise. -/
theorem st_apply {b n : IVec S16 32} {k : ℕ} {N : S16.Idx → ℕ} (hb : RowBase b k) (hk : k < 16) (hn : NodeIs n N) (hN : ∀ x, N x < 128)
    (A g : Vec F S32768 .f32) (h h' : Inb (addi b n)) (j : S32768.Idx) :
    st A g (addi b n) h h' j
      = if ∃ l : Fin 16, (j 0).val = 128 * (16 * k + l.val) + N (Shape.ofLane (d := ![16]) l)
          then FloatOps.maximumf (A j) (z32 (F := F)) else g j := by
  unfold st
  split
  · next hex =>
    obtain ⟨l, hl⟩ := hex
    have hj : idxAt (s := S32768) (![addi b n] : Fin 1 → IVec S16 32) h' (Shape.ofLane (d := ![16]) l) = j :=
      idx_ext_iff.mp fun a => match a with | 0 => (idxAt_val hb hk hn hN h' _).trans hl.symm
    have hj' : idxAt (s := S32768) (![addi b n] : Fin 1 → IVec S16 32) h (Shape.ofLane (d := ![16]) l) = j := hj
    rw [← hj, storeIdx_hit g _ _ h' (lanes_inj hb hk hn hN h') l, relu16_apply]
    unfold ld loadIdx
    rw [hj']
  · next hne =>
    refine storeIdx_miss g _ _ h' j fun l hl => hne ⟨l, ?_⟩
    have := idxAt_val hb hk hn hN h' (Shape.ofLane (d := ![16]) l)
    rw [hl] at this
    exact this

end Level

/-! ## One trip -/

section Trip

variable (A : Vec F S32768 .f32) (k : ℕ)

/-- The node lane `x`'s row visits at level `l`. -/
abbrev Nl (l : ℕ) (x : S16.Idx) : ℕ := pathN (rowOf A (16 * k + ln x)) l

theorem Nl_lt (l : ℕ) (hl : l ≤ 4) (x : S16.Idx) : Nl A k l x < 128 := by
  have h := pathN_le (rowOf A (16 * k + ln x)) l
  have : 2 ^ (l + 1) ≤ 2 ^ 5 := Nat.pow_le_pow_right (by decide) (by omega)
  show pathN _ l < 128
  omega

/-- A step of the node vector follows the rows' paths. -/
theorem nodeIs_succ {b n : IVec S16 32} (hb : RowBase b k) (hk : k < 16) (l : ℕ) (hl : l ≤ 4) (hn : NodeIs n (Nl A k l))
    (h : Inb (addi b n)) : NodeIs (nxt n (ld A (addi b n) h)) (Nl A k (l + 1)) := by
  intro x
  have e : (nxt n (ld A (addi b n) h) x).toNat = 2 * Nl A k l x + 1 + posBit (ld A (addi b n) h x) :=
    nxt_node hn (Nl_lt A k l hl) (ld A (addi b n) h) x
  rw [e, ld_apply hb hk hn (Nl_lt A k l hl) A h x]
  rfl

/-- A level's places, row by row: the row's path node at that level. -/
theorem hit_iff (l : ℕ) (hl : l ≤ 4) (j : S32768.Idx) :
    (∃ κ : Fin 16, (j 0).val = 128 * (16 * k + κ.val) + Nl A k l (Shape.ofLane (d := ![16]) κ))
      ↔ (16 * k ≤ (j 0).val / 128 ∧ (j 0).val / 128 < 16 * k + 16 ∧ (j 0).val % 128 = pathN (rowOf A ((j 0).val / 128)) l) := by
  constructor
  · rintro ⟨κ, hκ⟩
    have hN := Nl_lt A k l hl (Shape.ofLane (d := ![16]) κ)
    have hκl := κ.isLt
    have hr : (j 0).val / 128 = 16 * k + κ.val := by omega
    have hm : (j 0).val % 128 = Nl A k l (Shape.ofLane (d := ![16]) κ) := by omega
    refine ⟨by omega, by omega, ?_⟩
    rw [hm, hr]
    rfl
  · rintro ⟨h1, h2, h3⟩
    refine ⟨⟨(j 0).val / 128 - 16 * k, by omega⟩, ?_⟩
    have hr : 16 * k + ((j 0).val / 128 - 16 * k) = (j 0).val / 128 := by omega
    show (j 0).val = 128 * (16 * k + ((j 0).val / 128 - 16 * k)) + pathN (rowOf A (16 * k + ((j 0).val / 128 - 16 * k))) l
    rw [hr, ← h3]
    omega

/-- The word of a row at a place of the chunk. -/
theorem rowOf_at (j : S32768.Idx) : rowOf A ((j 0).val / 128) ((j 0).val % 128) = A j := by
  unfold rowOf rdW
  have hj : (j 0).val < 32768 := (j 0).isLt
  have e : 128 * ((j 0).val / 128) + (j 0).val % 128 % 128 = (j 0).val := by omega
  rw [dif_pos (by omega)]
  congr 1
  funext a; match a with | ⟨0, _⟩ => exact Fin.ext e

theorem ite5 {α : Type} (c0 c1 c2 c3 c4 : Prop) [Decidable c0] [Decidable c1] [Decidable c2] [Decidable c3] [Decidable c4] (M z : α) :
    (if c4 then M else if c3 then M else if c2 then M else if c1 then M else if c0 then M else z)
      = if (c0 ∨ c1 ∨ c2 ∨ c3 ∨ c4) then M else z := by
  by_cases h4 : c4 <;> by_cases h3 : c3 <;> by_cases h2 : c2 <;> by_cases h1 : c1 <;> by_cases h0 : c0 <;> simp [*]

/-- Five levels from the root over sixteen rows: the rows routed, everything else as it was. -/
theorem walk_core (g : Vec F S32768 .f32) (hk : k < 16) (b : IVec S16 32) (hb : RowBase b k) (hg : Φw (F := F) A k g)
    (n0 n1 n2 n3 n4 : IVec S16 32)
    (h0 h0' : Inb (addi b n0)) (h1 h1' : Inb (addi b n1)) (h2 h2' : Inb (addi b n2)) (h3 h3' : Inb (addi b n3)) (h4 h4' : Inb (addi b n4))
    (e0 : n0 = broadcast S16 (0#32 : BitVec 32))
    (e1 : n1 = nxt n0 (ld A (addi b n0) h0)) (e2 : n2 = nxt n1 (ld A (addi b n1) h1))
    (e3 : n3 = nxt n2 (ld A (addi b n2) h2)) (e4 : n4 = nxt n3 (ld A (addi b n3) h3)) :
    Φw (F := F) A (k + 1)
      (st A (st A (st A (st A (st A g (addi b n0) h0 h0') (addi b n1) h1 h1') (addi b n2) h2 h2') (addi b n3) h3 h3') (addi b n4) h4 h4') := by
  have hn0 : NodeIs n0 (Nl A k 0) := by subst e0; intro x; rfl
  have hn1 : NodeIs n1 (Nl A k 1) := by subst e1; exact nodeIs_succ A k hb hk 0 (by decide) hn0 h0
  have hn2 : NodeIs n2 (Nl A k 2) := by subst e2; exact nodeIs_succ A k hb hk 1 (by decide) hn1 h1
  have hn3 : NodeIs n3 (Nl A k 3) := by subst e3; exact nodeIs_succ A k hb hk 2 (by decide) hn2 h2
  have hn4 : NodeIs n4 (Nl A k 4) := by subst e4; exact nodeIs_succ A k hb hk 3 (by decide) hn3 h3
  intro j
  rw [st_apply hb hk hn4 (Nl_lt A k 4 (by decide)), st_apply hb hk hn3 (Nl_lt A k 3 (by decide)),
    st_apply hb hk hn2 (Nl_lt A k 2 (by decide)), st_apply hb hk hn1 (Nl_lt A k 1 (by decide)),
    st_apply hb hk hn0 (Nl_lt A k 0 (by decide)), hg j]
  simp only [hit_iff A k _ (by decide : (4 : ℕ) ≤ 4), hit_iff A k _ (by decide : (3 : ℕ) ≤ 4), hit_iff A k _ (by decide : (2 : ℕ) ≤ 4),
    hit_iff A k _ (by decide : (1 : ℕ) ≤ 4), hit_iff A k _ (by decide : (0 : ℕ) ≤ 4)]
  by_cases hr : 16 * k ≤ (j 0).val / 128 ∧ (j 0).val / 128 < 16 * k + 16
  · have c1 : ¬ (j 0).val / 128 < 16 * k := by omega
    have c2 : (j 0).val / 128 < 16 * (k + 1) := by omega
    simp only [hr.1, hr.2, true_and, c1, c2, if_true, if_false]
    unfold routeV routeRow onPath
    rw [rowOf_at]
    exact ite5 _ _ _ _ _ _ _
  · have c : ((j 0).val / 128 < 16 * (k + 1)) ↔ ((j 0).val / 128 < 16 * k) := by omega
    have f : ∀ p : Prop, ¬ (16 * k ≤ (j 0).val / 128 ∧ (j 0).val / 128 < 16 * k + 16 ∧ p) := fun p hp => hr ⟨hp.1, hp.2.1⟩
    simp only [f, if_false, c]

end Trip

/-! ## The two walks' trips, as the kernel spells them -/

section Trips

theorem walk_trip2 (A g : Vec F S32768 .f32) (k : Fin k1_t2_loop.trips) (hg : Φw (F := F) A k.val g) :
    Φw (F := F) A (k.val + 1)
      (let b := k1_pay1 v4i 0#32 1#32 k
       let i0 := addi b k1_pay2
       let l0 := loadIdx (F := F) (e := .f32) A ![i0] (chk1_ok k).1
       let i1 := addi b (k1_pay4 l0)
       let l1 := loadIdx (F := F) (e := .f32) A ![i1] (chk2_ok k l0).1
       let i2 := addi b (k1_pay6 l0 l1)
       let l2 := loadIdx (F := F) (e := .f32) A ![i2] (chk3_ok k l0 l1).1
       let i3 := addi b (k1_pay18 l2 (k1_pay8 l0 l1) (FloatOps.ofBits .f32 0#32))
       let l3 := loadIdx (F := F) (e := .f32) A ![i3] (chk4_ok k l0 l1 l2).1
       let i4 := k1_pay20 b l2 (k1_pay8 l0 l1) (FloatOps.ofBits .f32 0#32) l3
       let l4 := loadIdx (F := F) (e := .f32) A ![i4] (chk5_ok k l0 l1 l2 l3).1
       storeIdx (storeIdx (storeIdx (storeIdx (storeIdx g ![i0] (k1_pay3 l0) (fun _ => 1#1) false (chk1_ok k).2) ![i1] (k1_pay5 l1) (fun _ => 1#1) false (chk2_ok k l0).2)
         ![i2] (k1_pay7 l2) (fun _ => 1#1) false (chk3_ok k l0 l1).2) ![i3] (k1_pay19 l3) (fun _ => 1#1) false (chk4_ok k l0 l1 l2).2) ![i4] (k1_pay21 l4) (fun _ => 1#1) false (chk5_ok k l0 l1 l2 l3).2) := by
  have h := walk_core A k.val g (t2_lt k) (k1_pay1 v4i 0#32 1#32 k) (rowBase_t2 k) hg k1_pay2 (k1_pay4 (loadIdx (F := F) (e := .f32) A ![addi (k1_pay1 v4i 0#32 1#32 k) k1_pay2] (chk1_ok k).1)) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)) (k1_pay18 (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (k1_pay8 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)) (FloatOps.ofBits .f32 0#32))
    (nxt (k1_pay18 (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (k1_pay8 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)) (FloatOps.ofBits .f32 0#32)) (loadIdx (F := F) (e := .f32) A ![addi (k1_pay1 v4i 0#32 1#32 k) (k1_pay18 (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (k1_pay8 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)) (FloatOps.ofBits .f32 0#32))] (chk4_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1)).1))
    (chk1_ok k).1 (chk1_ok k).2 (chk2_ok k (loadIdx (F := F) (e := .f32) A ![addi (k1_pay1 v4i 0#32 1#32 k) k1_pay2] (chk1_ok k).1)).1 (chk2_ok k (loadIdx (F := F) (e := .f32) A ![addi (k1_pay1 v4i 0#32 1#32 k) k1_pay2] (chk1_ok k).1)).2 (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1 (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).2
    (chk4_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1)).1 (chk4_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1)).2 (chk5_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (loadIdx (F := F) (e := .f32) A ![addi (k1_pay1 v4i 0#32 1#32 k) (k1_pay18 (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (k1_pay8 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)) (FloatOps.ofBits .f32 0#32))] (chk4_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1)).1)).1 (chk5_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (loadIdx (F := F) (e := .f32) A ![addi (k1_pay1 v4i 0#32 1#32 k) (k1_pay18 (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1) (k1_pay8 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)) (FloatOps.ofBits .f32 0#32))] (chk4_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1) (loadIdx (F := F) (e := .f32) A ![addi (k1_pay1 v4i 0#32 1#32 k) (k1_pay6 (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1))] (chk3_ok k (loadIdx (F := F) (e := .f32) A ![addi (k1_pay1 v4i 0#32 1#32 k) k1_pay2] (chk1_ok k).1) (loadIdx (F := F) (e := .f32) A ![addi (k1_pay1 v4i 0#32 1#32 k) (k1_pay4 (loadIdx (F := F) (e := .f32) A ![addi (k1_pay1 v4i 0#32 1#32 k) k1_pay2] (chk1_ok k).1))] (chk2_ok k (loadIdx (F := F) (e := .f32) A ![addi (k1_pay1 v4i 0#32 1#32 k) k1_pay2] (chk1_ok k).1)).1)).1)).1)).2
    rfl rfl rfl rfl rfl
  exact h

theorem walk_trip4 (A g : Vec F S32768 .f32) (k : Fin k1_t4_loop.trips) (hg : Φw (F := F) A k.val g) :
    Φw (F := F) A (k.val + 1)
      (let b := k1_pay9 v4i 0#32 1#32 k
       let i0 := addi b k1_pay10
       let l0 := loadIdx (F := F) (e := .f32) A ![i0] (chk6_ok k).1
       let i1 := addi b (k1_pay12 l0)
       let l1 := loadIdx (F := F) (e := .f32) A ![i1] (chk7_ok k l0).1
       let i2 := addi b (k1_pay14 l0 l1)
       let l2 := loadIdx (F := F) (e := .f32) A ![i2] (chk8_ok k l0 l1).1
       let i3 := addi b (k1_pay22 l2 (k1_pay16 l0 l1) (FloatOps.ofBits .f32 0#32))
       let l3 := loadIdx (F := F) (e := .f32) A ![i3] (chk9_ok k l0 l1 l2).1
       let i4 := k1_pay24 b l2 (k1_pay16 l0 l1) (FloatOps.ofBits .f32 0#32) l3
       let l4 := loadIdx (F := F) (e := .f32) A ![i4] (chk10_ok k l0 l1 l2 l3).1
       storeIdx (storeIdx (storeIdx (storeIdx (storeIdx g ![i0] (k1_pay11 l0) (fun _ => 1#1) false (chk6_ok k).2) ![i1] (k1_pay13 l1) (fun _ => 1#1) false (chk7_ok k l0).2)
         ![i2] (k1_pay15 l2) (fun _ => 1#1) false (chk8_ok k l0 l1).2) ![i3] (k1_pay23 l3) (fun _ => 1#1) false (chk9_ok k l0 l1 l2).2) ![i4] (k1_pay25 l4) (fun _ => 1#1) false (chk10_ok k l0 l1 l2 l3).2) := by
  have h := walk_core A k.val g (t4_lt k) (k1_pay9 v4i 0#32 1#32 k) (rowBase_t4 k) hg k1_pay10 (k1_pay12 (loadIdx (F := F) (e := .f32) A ![addi (k1_pay9 v4i 0#32 1#32 k) k1_pay10] (chk6_ok k).1)) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)) (k1_pay22 (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (k1_pay16 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)) (FloatOps.ofBits .f32 0#32))
    (nxt (k1_pay22 (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (k1_pay16 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)) (FloatOps.ofBits .f32 0#32)) (loadIdx (F := F) (e := .f32) A ![addi (k1_pay9 v4i 0#32 1#32 k) (k1_pay22 (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (k1_pay16 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)) (FloatOps.ofBits .f32 0#32))] (chk9_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1)).1))
    (chk6_ok k).1 (chk6_ok k).2 (chk7_ok k (loadIdx (F := F) (e := .f32) A ![addi (k1_pay9 v4i 0#32 1#32 k) k1_pay10] (chk6_ok k).1)).1 (chk7_ok k (loadIdx (F := F) (e := .f32) A ![addi (k1_pay9 v4i 0#32 1#32 k) k1_pay10] (chk6_ok k).1)).2 (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1 (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).2
    (chk9_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1)).1 (chk9_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1)).2 (chk10_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (loadIdx (F := F) (e := .f32) A ![addi (k1_pay9 v4i 0#32 1#32 k) (k1_pay22 (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (k1_pay16 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)) (FloatOps.ofBits .f32 0#32))] (chk9_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1)).1)).1 (chk10_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (loadIdx (F := F) (e := .f32) A ![addi (k1_pay9 v4i 0#32 1#32 k) (k1_pay22 (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1) (k1_pay16 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)) (FloatOps.ofBits .f32 0#32))] (chk9_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1) (loadIdx (F := F) (e := .f32) A ![addi (k1_pay9 v4i 0#32 1#32 k) (k1_pay14 (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1))] (chk8_ok k (loadIdx (F := F) (e := .f32) A ![addi (k1_pay9 v4i 0#32 1#32 k) k1_pay10] (chk6_ok k).1) (loadIdx (F := F) (e := .f32) A ![addi (k1_pay9 v4i 0#32 1#32 k) (k1_pay12 (loadIdx (F := F) (e := .f32) A ![addi (k1_pay9 v4i 0#32 1#32 k) k1_pay10] (chk6_ok k).1))] (chk7_ok k (loadIdx (F := F) (e := .f32) A ![addi (k1_pay9 v4i 0#32 1#32 k) k1_pay10] (chk6_ok k).1)).1)).1)).1)).2
    rfl rfl rfl rfl rfl
  exact h

end Trips

end Cert.Proof.KB

end
-- ==== Proof.BScOut.lean ====
/-
  What the routing task's two passes leave, against the routed array: a chunk of the logits copied into the scratch
  and routed row by row is the routed whole array at the chunk's words, so the coefficients' chunk written back from
  the routed scratch holds the routed logits there.
-/
import proofs.«207443_g73169062855234_cont_9to1c4b_643_41_alg».proof.Proof.BScTile
import proofs.«207443_g73169062855234_cont_9to1c4b_643_41_alg».proof.Proof.BScVal
import Idealize.ShloMosaic.Lib.Pipeline.Value

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

-- the kernel's memrefs, spelt as the body table passes them
local notation "v5V" => (Memref.whole Cert.Kernel.main_v5_scv : Memref Cert.Kernel.sig Kind.scVector Space.hbm Cert.Kernel.S2097152 EltTy.f32)
local notation "v6V" => (Memref.whole Cert.Kernel.main_v6_scv : Memref Cert.Kernel.sig Kind.scVector Space.hbm Cert.Kernel.S2097152 EltTy.f32)
local notation "a4V" => (Memref.whole Cert.Kernel.cc1_scratch0 : Memref Cert.Kernel.sig Kind.scVector Space.vmem Cert.Kernel.S32768 EltTy.f32)
local notation "a5V" => (Memref.whole Cert.Kernel.cc1_scratch1 : Memref Cert.Kernel.sig Kind.scVector Space.vmem Cert.Kernel.S32768 EltTy.f32)

section Out

variable (d : Dev nD) (L : grid1.Coords) [FloatOps F]

/-- A chunk read off the logits and routed on its own is the routed whole array at the chunk's words. -/
theorem chunk_route (Lf : Buf (Elt F) (v5Loc d)) (c : Fin 2) (s : Fin 16) (r : Fin 2) (A : Vec F S32768 .f32)
    (hA : ∀ x : S32768.Idx, A x = Lf ((chunk c s r).emb x)) (x : S32768.Idx) :
    routeV (F := F) (N := 32768) A x = (route Lf : Buf (Elt F) (v6Loc d)) ((chunk c s r).emb x) := by
  have hc := c.isLt; have hs := s.isLt; have hr := r.isLt
  have hx : (x 0).val < 32768 := (x 0).isLt
  have hemb : (((chunk c s r).emb x) 0).val = 32768 * (4 * s.val + 2 * c.val + r.val) + (x 0).val := by
    show chunkOff c s r + 1 * (x 0).val = _
    unfold chunkOff; omega
  refine routeV_chunk (F := F) Lf A (4 * s.val + 2 * c.val + r.val) (by omega) (fun y => ?_) x ((chunk c s r).emb x) hemb
  have hy : (y 0).val < 32768 := (y 0).isLt
  rw [hA y]
  unfold rdW
  rw [dif_pos (by omega)]
  congr 1
  funext a
  match a with
  | ⟨0, _⟩ =>
    refine Fin.ext ?_
    show chunkOff c s r + 1 * (y 0).val = 32768 * (4 * s.val + 2 * c.val + r.val) + (y 0).val
    unfold chunkOff; omega

/-- A word of the subcore's chunk, as the body slices it, is that word of the chunk the launch names. -/
theorem emb0_eq (y : S32768.Idx) : (rect0 L).emb y = (chunk (cL L) (sL L) 0).emb y :=
  funext fun a => match a with
    | ⟨0, _⟩ => Fin.ext (by
      show k1_off2 L 0#32 0 + 1 * (y 0).val = chunkOff (cL L) (sL L) 0 + 1 * (y 0).val
      rw [off0_eq L]; rfl)
theorem emb1_eq (y : S32768.Idx) : (rect1 L).emb y = (chunk (cL L) (sL L) 1).emb y :=
  funext fun a => match a with
    | ⟨0, _⟩ => Fin.ext (by
      show k1_off2 L 32768#32 0 + 1 * (y 0).val = chunkOff (cL L) (sL L) 1 + 1 * (y 0).val
      rw [off1_eq L]; rfl)

/-- The scratch a pass routes holds the subcore's chunk of the logits. -/
theorem scratch0 (Lf : Buf (Elt F) (v5Loc d)) (A : Vec F S32768 .f32)
    (hA : (a4V).view.writes (Elt F) (a4V).view.junk [⟨Rect.whole cc1_scratch0.ty.shape, ReadAs.same.apply ((v5c0 L).view.read (Elt F) Lf)⟩] = A)
    (x : S32768.Idx) : A x = Lf ((rect0 L).emb x) := by
  have h := congrFun (View.read_writes_whole (Val := Elt F) (a4V).view (a4V).view.junk (ReadAs.same.apply ((v5c0 L).view.read (Elt F) Lf))) x
  rw [hA] at h
  exact h
theorem scratch1 (Lf : Buf (Elt F) (v5Loc d)) (A : Vec F S32768 .f32)
    (hA : (a4V).view.writes (Elt F) (a4V).view.junk [⟨Rect.whole cc1_scratch0.ty.shape, ReadAs.same.apply ((v5c1 L).view.read (Elt F) Lf)⟩] = A)
    (x : S32768.Idx) : A x = Lf ((rect1 L).emb x) := by
  have h := congrFun (View.read_writes_whole (Val := Elt F) (a4V).view (a4V).view.junk (ReadAs.same.apply ((v5c1 L).view.read (Elt F) Lf))) x
  rw [hA] at h
  exact h

theorem out0 (Lf : Buf (Elt F) (v5Loc d)) (A g2 : Vec F S32768 .f32)
    (hA : (a4V).view.writes (Elt F) (a4V).view.junk [⟨Rect.whole cc1_scratch0.ty.shape, ReadAs.same.apply ((v5c0 L).view.read (Elt F) Lf)⟩] = A)
    (hg2 : Φw (F := F) A 16 g2) :
    ∀ i ∈ (v6c0 L).view.set, ((v6c0 L).view.writes (Elt F) (v6c0 L).view.junk [⟨Rect.whole S32768, ReadAs.same.apply ((a5V).view.read (Elt F) g2)⟩]) i = (route Lf : Buf (Elt F) (v6Loc d)) i := by
  intro i hi
  obtain ⟨x, rfl⟩ := View.exists_emb_of_mem_set _ hi
  have hx : (x 0).val < 32768 := (x 0).isLt
  have h1 := congrFun (View.read_writes_whole (Val := Elt F) (v6c0 L).view (v6c0 L).view.junk (ReadAs.same.apply ((a5V).view.read (Elt F) g2))) x
  rw [View.read_apply, cast_eq] at h1
  have hemb : (v6c0 L).view.emb x = (chunk (cL L) (sL L) 0).emb x := (emb0_eq L x)
  rw [h1, hemb]
  show g2 x = _
  rw [hg2 x, if_pos (by omega)]
  have hA' : ∀ y : S32768.Idx, A y = Lf ((chunk (cL L) (sL L) 0).emb y) := fun y => (scratch0 d L Lf A hA y).trans (congrArg Lf (emb0_eq L y))
  exact chunk_route d Lf (cL L) (sL L) 0 A hA' x

theorem out1 (Lf : Buf (Elt F) (v5Loc d)) (A1 g : Vec F S32768 .f32)
    (hA1 : (a4V).view.writes (Elt F) (a4V).view.junk [⟨Rect.whole cc1_scratch0.ty.shape, ReadAs.same.apply ((v5c1 L).view.read (Elt F) Lf)⟩] = A1)
    (hg : Φw (F := F) A1 16 g) : ∀ x : S32768.Idx, g x = (route Lf : Buf (Elt F) (v6Loc d)) ((rect1 L).emb x) := by
  intro x
  have hx : (x 0).val < 32768 := (x 0).isLt
  rw [hg x, if_pos (by omega)]
  have hA' : ∀ y : S32768.Idx, A1 y = Lf ((chunk (cL L) (sL L) 1).emb y) := fun y => (scratch1 d L Lf A1 hA1 y).trans (congrArg Lf (emb1_eq L y))
  rw [chunk_route d Lf (cL L) (sL L) 1 A1 hA' x, emb1_eq L x]

theorem out1' (Lf : Buf (Elt F) (v5Loc d)) (f61 : Buf (Elt F) (v6Loc d)) (g : Vec F S32768 .f32)
    (hg : ∀ x : S32768.Idx, g x = (route Lf : Buf (Elt F) (v6Loc d)) ((rect1 L).emb x)) :
    ∀ i ∈ (v6c1 L).view.set, ((v6c1 L).view.writes (Elt F) f61 [⟨Rect.whole S32768, ReadAs.same.apply ((a5V).view.read (Elt F) g)⟩]) i = (route Lf : Buf (Elt F) (v6Loc d)) i := by
  intro i hi
  obtain ⟨x, rfl⟩ := View.exists_emb_of_mem_set _ hi
  have h1 := congrFun (View.read_writes_whole (Val := Elt F) (v6c1 L).view f61 (ReadAs.same.apply ((a5V).view.read (Elt F) g))) x
  rw [View.read_apply, cast_eq] at h1
  have hemb : (v6c1 L).view.emb x = (rect1 L).emb x := rfl
  rw [h1, hemb]
  exact hg x

end Out

end Cert.Proof.KB

end
-- ==== Proof.BScBody.lean ====
/-
  The routing kernel's body on one vector subcore: the coefficients' scratch zeroed, a chunk of logits copied in, each
  of its 256 rows walked from the root for five levels — sixteen rows a trip, a level being a gather of the sixteen
  words at the rows' current nodes, their rectified values scattered to the same places of the coefficients' scratch, the
  nodes stepped to a child —, the scratch copied out; then the second chunk the same, only the first 32 words of each row
  re-zeroed (a walk writes nodes up to 30). The loops by invariants that carry the value; what leaves is the routed logits.
-/
import proofs.«207443_g73169062855234_cont_9to1c4b_643_41_alg».proof.Proof.BScTile
import proofs.«207443_g73169062855234_cont_9to1c4b_643_41_alg».proof.Proof.BScVal
import proofs.«207443_g73169062855234_cont_9to1c4b_643_41_alg».proof.Proof.BScRLanes
import proofs.«207443_g73169062855234_cont_9to1c4b_643_41_alg».proof.Proof.BScRWalk
import proofs.«207443_g73169062855234_cont_9to1c4b_643_41_alg».proof.Proof.BScOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}
open Idealize.ShloMosaic.Tactic

local notation "𝕄" => MT nD τ sig (HIx 1) (Elt F) ℕ UU ℕ

-- the kernel's memrefs, spelt as the body table passes them
local notation "v5V" => (Memref.whole Cert.Kernel.main_v5_scv : Memref Cert.Kernel.sig Kind.scVector Space.hbm Cert.Kernel.S2097152 EltTy.f32)
local notation "v6V" => (Memref.whole Cert.Kernel.main_v6_scv : Memref Cert.Kernel.sig Kind.scVector Space.hbm Cert.Kernel.S2097152 EltTy.f32)
local notation "a4V" => (Memref.whole Cert.Kernel.cc1_scratch0 : Memref Cert.Kernel.sig Kind.scVector Space.vmem Cert.Kernel.S32768 EltTy.f32)
local notation "a5V" => (Memref.whole Cert.Kernel.cc1_scratch1 : Memref Cert.Kernel.sig Kind.scVector Space.vmem Cert.Kernel.S32768 EltTy.f32)

section Tile

variable (d : Dev nD) (L : grid1.Coords)

variable [FloatOps F]
/-- The first zeroing loop's invariant: the coefficients' scratch zero below word `16 k`. -/
def I1 (k : ℕ) (_ : PUnit) : sProp 𝕄 :=
  iprop(∃ g : Buf (Elt F) ((a5V).view.loc (VT d L)), ((a5V).view.loc (VT d L) ↦[(a5V).view.set]{fullShare} g) ∗ ⌜Φ1 (F := F) k g⌝)

/-- A walk loop's invariant: the logits' scratch at the chunk, the coefficients' scratch routed in its rows below `16 k`, zero above. -/
def I2 (A : Buf (Elt F) ((a4V).view.loc (VT d L))) (k : ℕ) (_ : PUnit) : sProp 𝕄 :=
  iprop(((a4V).view.loc (VT d L) ↦[(a4V).view.set]{fullShare} A)
    ∗ ∃ g : Buf (Elt F) ((a5V).view.loc (VT d L)), ((a5V).view.loc (VT d L) ↦[(a5V).view.set]{fullShare} g) ∗ ⌜Φw (F := F) A k g⌝)

/-- One level of the walk: sixteen words gathered from the logits' scratch, rectified, scattered into the
    coefficients' scratch at the same places. -/
theorem wp_level {α : Type} (idx : IVec S16 32)
    (h1 h2 : ∀ a x, ((![idx] : Fin 1 → IVec S16 32) a x).toNat < S32768.size a)
    (pay : Vec F S16 .f32 → Vec F S16 .f32)
    (A : Buf (Elt F) ((a4V).view.loc (VT d L))) (g : Buf (Elt F) ((a5V).view.loc (VT d L)))
    (k : Vec F S16 .f32 → Prog (TpuEff nD τ sig (Elt F) Λ₀ (VT d L).2) α) (Q : α → sProp 𝕄) :
    (iprop(((a4V).view.loc (VT d L) ↦[(a4V).view.set]{fullShare} A)
        ∗ ((a5V).view.loc (VT d L) ↦[(a5V).view.set]{fullShare} g)
        ∗ ((((a4V).view.loc (VT d L) ↦[(a4V).view.set]{fullShare} A)
            ∗ ((a5V).view.loc (VT d L) ↦[(a5V).view.set]{fullShare}
                (storeIdx (F := F) (e := .f32) g ![idx] (pay (loadIdx (F := F) (e := .f32) A ![idx] h1)) (fun _ => 1#1) false h2 : Vec F S32768 .f32)))
          -∗ wp frame (wpE (defs₀ (F := F)) 𝒱₀ (VT d L) none) Set.univ (k (loadIdx (F := F) (e := .f32) A ![idx] h1)) Q)) : sProp 𝕄)
      ⊢ wp frame (wpE (defs₀ (F := F)) 𝒱₀ (VT d L) none) Set.univ
          (SparseCore.vectorLoadIdx a4V ![idx] h1 (View.loads_vmem h_S32768) >>= fun v =>
            SparseCore.vectorStoreIdx a5V ![idx] (pay v) (fun _ => 1#1) false h2 (View.stores_vmem_bits_univ h_S32768 rfl) >>= fun _ => k v) Q := by
  iintro ⟨H4, H5, Hk⟩
  iapply (SparseCore.wp_vectorLoadIdx (defs := defs₀ (F := F)) 𝒱₀ (VT d L) none Set.univ (base := a4V) (S := (a4V).view.set) (q := fullShare) (f := A)
    (by rw [Memref.set_access_whole, View.set_whole])) $$ H4
  iintro H4
  iapply (SparseCore.wp_vectorStoreIdx (defs := defs₀ (F := F)) 𝒱₀ (VT d L) none Set.univ (base := a5V) (f := g)) $$ [H5]
  · rw [Memref.set_access_whole, ← View.set_whole]; iexact H5
  iintro H5
  simp only [Memref.read_access_whole, Memref.write_access_whole_univ]
  iapply Hk
  isplitl [H4]; · iexact H4
  rw [Memref.set_access_whole, ← View.set_whole]
  iexact H5

/-- The re-zeroing loop's invariant. -/
def I3 (R : Buf (Elt F) ((a5V).view.loc (VT d L))) (k : ℕ) (_ : PUnit) : sProp 𝕄 :=
  iprop(∃ g : Buf (Elt F) ((a5V).view.loc (VT d L)), ((a5V).view.loc (VT d L) ↦[(a5V).view.set]{fullShare} g) ∗ ⌜Φz (F := F) R k g⌝)

/-- The kernel up to its last copy-out: both chunks walked, the first copied out, the second left routed in the scratch. -/
theorem part3_run (Lf : Buf (Elt F) (v5Loc d)) (O : CellTallies nD τ sig (HIx 1)) (W : Waits sig (HIx 1))
    (f60 : Buf (Elt F) (v6Loc d)) (g4 : Buf (Elt F) ((a4V).view.loc (VT d L))) (g5 : Buf (Elt F) ((a5V).view.loc (VT d L))) :
    (iprop(Transfers.MayWaits (VT d L) (default : HIx 1) O
        ∗ ((v5c0 L).view.loc (VT d L) ↦[(v5c0 L).view.set]{fullShare} Lf)
        ∗ ((v5c1 L).view.loc (VT d L) ↦[(v5c1 L).view.set]{fullShare} Lf)
        ∗ ((v6c0 L).view.loc (VT d L) ↦[(v6c0 L).view.set]{fullShare} f60)
        ∗ ((a4V).view.loc (VT d L) ↦[(a4V).view.set]{fullShare} g4)
        ∗ ((a5V).view.loc (VT d L) ↦[(a5V).view.set]{fullShare} g5)
        ∗ semVal (cell0 d L) 0 ∗ semVal (cell1 d L) 0 ∗ semVal (cell2 d L) 0
        ∗ owes (VT d L) O W) : sProp 𝕄)
      ⊢ wp frame (wpE (defs₀ (F := F)) 𝒱₀ (VT d L) none) Set.univ
          (k1_part3 L v5V (Memref.isWhole_whole _) v6V (Memref.isWhole_whole _) a4V (Memref.isWhole_whole _) a5V (Memref.isWhole_whole _)
            cc1_scoped0 cc1_scoped1 cc1_scoped2 cc1_scoped3)
          fun _ => iprop(((v5c0 L).view.loc (VT d L) ↦[(v5c0 L).view.set]{fullShare} Lf)
            ∗ ((v5c1 L).view.loc (VT d L) ↦[(v5c1 L).view.set]{fullShare} Lf)
            ∗ ((v6c0 L).view.loc (VT d L) ↦[(v6c0 L).view.set]{fullShare} (route Lf : Buf (Elt F) (v6Loc d)))
            ∗ (∃ g, (a4V).view.loc (VT d L) ↦[(a4V).view.set]{fullShare} g)
            ∗ (∃ g : Buf (Elt F) ((a5V).view.loc (VT d L)), ((a5V).view.loc (VT d L) ↦[(a5V).view.set]{fullShare} g)
                ∗ ⌜∀ x : S32768.Idx, g x = (route Lf : Buf (Elt F) (v6Loc d)) ((rect1 L).emb x)⌝)
            ∗ semVal (cell0 d L) 0 ∗ semVal (cell1 d L) 0 ∗ semVal (cell2 d L) 0
            ∗ ∃ W', owes (VT d L) O W') := by
  iintro ⟨#Hmw, H50, H51, H60, H4, H5, Hc0, Hc1, Hc2, HO⟩
  sl_unfold [k1_part3, k1_part3_skel]
  sl_exec
  sl_for (I1 (F := F) d L) $$ [H5]
  case region =>
    intro k _
    unfold I1
    iintro ⟨%g, H5, %hg⟩
    sl_exec
    sl_step
    iexists _
    isplitl [H5]; · iexact H5
    ipureintro
    exact Φ1_step k g _ hg
  · unfold I1
    iexists g5
    isplitl [H5]; · iexact H5
    ipureintro
    exact Φ1_zero g5
  iintro %_ HI
  unfold I1
  icases HI with ⟨%g1, H5, %hg1⟩
  sl_exec
  unfold part3_run.sl.dma0
  generalize hA : View.writes _ (Elt F) (View.junk _) [_] = A
  sl_for (I2 (F := F) d L A) $$ [H4 H5]
  case region =>
    intro k _
    unfold I2
    iintro ⟨H4, %g, H5, %hg⟩
    sl_exec (disch := first | sl_exact chk1_ok k)
    iapply (wp_level (F := F) d L)
    isplitl [H4]; · iexact H4
    isplitl [H5]; · iexact H5
    iintro ⟨H4, H5⟩
    sl_exec (disch := first | exact chk2_ok k _)
    iapply (wp_level (F := F) d L)
    isplitl [H4]; · iexact H4
    isplitl [H5]; · iexact H5
    iintro ⟨H4, H5⟩
    sl_exec (disch := first | exact chk3_ok k _ _)
    iapply (wp_level (F := F) d L)
    isplitl [H4]; · iexact H4
    isplitl [H5]; · iexact H5
    iintro ⟨H4, H5⟩
    sl_exec (disch := first | exact chk4_ok k _ _ _)
    iapply (wp_level (F := F) d L)
    isplitl [H4]; · iexact H4
    isplitl [H5]; · iexact H5
    iintro ⟨H4, H5⟩
    sl_exec (disch := first | exact chk5_ok k _ _ _ _)
    iapply (wp_level (F := F) d L)
    isplitl [H4]; · iexact H4
    isplitl [H5]; · iexact H5
    iintro ⟨H4, H5⟩
    sl_exec
    sl_step
    isplitl [H4]; · iexact H4
    iexists _
    isplitl [H5]; · iexact H5
    ipureintro
    unfold part3_run.sl.v17 part3_run.sl.v29 part3_run.sl.v41 part3_run.sl.v53 part3_run.sl.v65 part3_run.sl.v4
    exact walk_trip2 A g k hg
  · unfold I2
    isplitl [H4]; · iexact H4
    iexists g1
    isplitl [H5]; · iexact H5
    ipureintro
    exact Φw_init A g1 (trips1 ▸ hg1)
  iintro %_ HI
  unfold I2
  icases HI with ⟨H4, %g2, H5, %hg2⟩
  sl_exec
  unfold part3_run.sl.dma0_1 part3_run.sl.dma0_2
  generalize hA1 : View.writes (Memref.whole cc1_scratch0).view (Elt F) (View.junk _) [_] = A1
  sl_for (I3 (F := F) d L g2) $$ [H5]
  case region =>
    intro k _
    unfold I3
    iintro ⟨%g, H5, %hg⟩
    sl_exec
    sl_step
    iexists _
    isplitl [H5]; · iexact H5
    ipureintro
    exact Φz_step k g2 g _ _ hg
  · unfold I3
    iexists g2
    isplitl [H5]; · iexact H5
    ipureintro
    exact Φz_zero g2
  iintro %_ HI
  unfold I3
  icases HI with ⟨%g3, H5, %hg3⟩
  sl_for (I2 (F := F) d L A1) $$ [H4 H5]
  case region =>
    intro k _
    unfold I2
    iintro ⟨H4, %g, H5, %hg⟩
    sl_exec (disch := first | sl_exact chk6_ok k)
    iapply (wp_level (F := F) d L)
    isplitl [H4]; · iexact H4
    isplitl [H5]; · iexact H5
    iintro ⟨H4, H5⟩
    sl_exec (disch := first | exact chk7_ok k _)
    iapply (wp_level (F := F) d L)
    isplitl [H4]; · iexact H4
    isplitl [H5]; · iexact H5
    iintro ⟨H4, H5⟩
    sl_exec (disch := first | exact chk8_ok k _ _)
    iapply (wp_level (F := F) d L)
    isplitl [H4]; · iexact H4
    isplitl [H5]; · iexact H5
    iintro ⟨H4, H5⟩
    sl_exec (disch := first | exact chk9_ok k _ _ _)
    iapply (wp_level (F := F) d L)
    isplitl [H4]; · iexact H4
    isplitl [H5]; · iexact H5
    iintro ⟨H4, H5⟩
    sl_exec (disch := first | exact chk10_ok k _ _ _ _)
    iapply (wp_level (F := F) d L)
    isplitl [H4]; · iexact H4
    isplitl [H5]; · iexact H5
    iintro ⟨H4, H5⟩
    sl_exec
    sl_step
    isplitl [H4]; · iexact H4
    iexists _
    isplitl [H5]; · iexact H5
    ipureintro
    unfold part3_run.sl.v17_1 part3_run.sl.v29_1 part3_run.sl.v41_1 part3_run.sl.v53_1 part3_run.sl.v65_1 part3_run.sl.v4
    exact walk_trip4 A1 g k hg
  · unfold I2
    isplitl [H4]; · iexact H4
    iexists g3
    isplitl [H5]; · iexact H5
    ipureintro
    exact Φw_of_Φz A A1 g2 g3 (trips2 ▸ hg2) (trips3 ▸ hg3)
  iintro %_ HI
  unfold I2
  icases HI with ⟨H4, %g4', H5, %hg4⟩
  sl_exec
  sl_step
  isplitl [H50]; · iexact H50
  isplitl [H51]; · iexact H51
  isplitl [H60]
  · iapply (Entails.of_eq (pointsTo_congr (out0 (F := F) d L Lf A g2 hA (trips2 ▸ hg2))))
    iexact H60
  isplitl [H4]; · iexists _; iexact H4
  isplitl [H5]
  · iexists g4'
    isplitl [H5]; · iexact H5
    ipureintro
    exact out1 (F := F) d L Lf A1 g4' hA1 (trips4 ▸ hg4)
  isplitl [Hc0]; · iexact Hc0
  isplitl [Hc1]; · iexact Hc1
  isplitl [Hc2]; · iexact Hc2
  iexists _; iexact HO

/-- The task's body run from the pieces the launch dealt it, in the BODY'S spelling. -/
theorem tile_run (Lf : Buf (Elt F) (v5Loc d)) (O : CellTallies nD τ sig (HIx 1)) (W : Waits sig (HIx 1))
    (f60 f61 : Buf (Elt F) (v6Loc d)) (g4 : Buf (Elt F) ((a4V).view.loc (VT d L))) (g5 : Buf (Elt F) ((a5V).view.loc (VT d L))) :
    (iprop(Transfers.MayWaits (VT d L) (default : HIx 1) O
        ∗ ((v5c0 L).view.loc (VT d L) ↦[(v5c0 L).view.set]{fullShare} Lf)
        ∗ ((v5c1 L).view.loc (VT d L) ↦[(v5c1 L).view.set]{fullShare} Lf)
        ∗ ((v6c0 L).view.loc (VT d L) ↦[(v6c0 L).view.set]{fullShare} f60)
        ∗ ((v6c1 L).view.loc (VT d L) ↦[(v6c1 L).view.set]{fullShare} f61)
        ∗ ((a4V).view.loc (VT d L) ↦[(a4V).view.set]{fullShare} g4)
        ∗ ((a5V).view.loc (VT d L) ↦[(a5V).view.set]{fullShare} g5)
        ∗ cells0 d L
        ∗ owes (VT d L) O W) : sProp 𝕄)
      ⊢ wp frame (wpE (defs₀ (F := F)) 𝒱₀ (VT d L) none) Set.univ
          (cc1__route_kernel L v5V (Memref.isWhole_whole _) v6V (Memref.isWhole_whole _) a4V (Memref.isWhole_whole _) a5V (Memref.isWhole_whole _)
            cc1_scoped0 cc1_scoped1 cc1_scoped2 cc1_scoped3)
          fun _ => iprop(((v5c0 L).view.loc (VT d L) ↦[(v5c0 L).view.set]{fullShare} Lf)
            ∗ ((v5c1 L).view.loc (VT d L) ↦[(v5c1 L).view.set]{fullShare} Lf)
            ∗ ((v6c0 L).view.loc (VT d L) ↦[(v6c0 L).view.set]{fullShare} (route Lf : Buf (Elt F) (v6Loc d)))
            ∗ ((v6c1 L).view.loc (VT d L) ↦[(v6c1 L).view.set]{fullShare} (route Lf : Buf (Elt F) (v6Loc d)))
            ∗ (∃ g, (a4V).view.loc (VT d L) ↦[(a4V).view.set]{fullShare} g)
            ∗ (∃ g, (a5V).view.loc (VT d L) ↦[(a5V).view.set]{fullShare} g)
            ∗ cells0 d L
            ∗ ∃ W', owes (VT d L) O W') := by
  iintro ⟨#Hmw, H50, H51, H60, H61, H4, H5, ⟨Hc0, Hc1, Hc2, Hc3⟩, HO⟩
  sl_unfold [cc1__route_kernel, cc1__route_kernel_skel]
  iapply (Entails.of_eq (wp_bind _ _ _ _ _ _).symm)
  iapply (wp_wand_r Idealize.ShloMosaic.frame (wpE (defs₀ (F := F)) 𝒱₀ (VT d L) none) Set.univ)
  isplitl [H50 H51 H60 H4 H5 Hc0 Hc1 Hc2 HO]
  · iapply (part3_run (F := F) d L Lf O W f60 g4 g5)
    isplitr; · iexact Hmw
    isplitl [H50]; · iexact H50
    isplitl [H51]; · iexact H51
    isplitl [H60]; · iexact H60
    isplitl [H4]; · iexact H4
    isplitl [H5]; · iexact H5
    isplitl [Hc0]; · iexact Hc0
    isplitl [Hc1]; · iexact Hc1
    isplitl [Hc2]; · iexact Hc2
    iexact HO
  iintro %_ ⟨H50, H51, H60, ⟨%a4, H4⟩, ⟨%g, H5, %hg⟩, Hc0, Hc1, Hc2, ⟨%W', HO⟩⟩
  sl_exec
  sl_step
  unfold tile_run.sl.dma0
  isplitl [H50]; · iexact H50
  isplitl [H51]; · iexact H51
  isplitl [H60]; · iexact H60
  isplitl [H61]
  · iapply (Entails.of_eq (pointsTo_congr (out1' (F := F) d L Lf f61 g hg)))
    iexact H61
  isplitl [H4]; · iexists _; iexact H4
  isplitl [H5]; · iexists _; iexact H5
  isplitl [Hc0 Hc1 Hc2 Hc3]
  · isplitl [Hc0]; · iexact Hc0
    isplitl [Hc1]; · iexact Hc1
    isplitl [Hc2]; · iexact Hc2
    iexact Hc3
  iexists _; iexact HO

/-- The task on vector subcore `(L 0, L 1)` of device `d`, from what the launch deals it to what it hands back. -/
theorem tile_body (hF : (K (F := F)).Facts) (Lf : (d : Dev nD) → Buf (Elt F) (v5Loc d))
    (O : CellTallies nD τ sig (HIx 1)) (W : Waits sig (HIx 1)) (hO : ∀ g, O g none = 0) :
    iprop(levAts (K (F := F)).L (K (F := F)).lev ∗ emp
        ∗ goP (F := F) Lf d (cL L) (sL L)
        ∗ scopedBufs (VT d L) ∗ scopedSems0 (VT d L) ∗ owes (VT d L) O W)
      ⊢ wp frame (wpE (defs₀ (F := F)) 𝒱₀ (VT d L) none) Set.univ
          (cc1__route_kernel L v5V (Memref.isWhole_whole _) v6V (Memref.isWhole_whole _) a4V (Memref.isWhole_whole _) a5V (Memref.isWhole_whole _)
            cc1_scoped0 cc1_scoped1 cc1_scoped2 cc1_scoped3)
          fun _ => iprop(tdP (F := F) Lf d (cL L) (sL L)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold goP tdP
  iintro ⟨#Hlv, -, ⟨H50, H51, ⟨%f60, H60⟩, ⟨%f61, H61⟩⟩, ⟨⟨%g4, H4⟩, ⟨%g5, H5⟩, Hbufs⟩, ⟨Hc0, Hc1, Hc2, Hc3, Hsems⟩, HO⟩
  ihave Hmw := (show levAts (K (F := F)).L (K (F := F)).lev ⊢ Transfers.MayWaits (VT d L) (default : HIx 1) O from
    (K (F := F)).mayWaits_none (thr := VT d L) hO) $$ Hlv
  ihave H50 := (Entails.of_eq (pts_v5c0 (F := F) d L _).symm) $$ H50
  ihave H51 := (Entails.of_eq (pts_v5c1 (F := F) d L _).symm) $$ H51
  ihave H60 := (Entails.of_eq (pts_v6c0 (F := F) d L _).symm) $$ H60
  ihave H61 := (Entails.of_eq (pts_v6c1 (F := F) d L _).symm) $$ H61
  ihave H4 := (Entails.of_eq (pts_a4 (F := F) d L _).symm) $$ H4
  ihave H5 := (Entails.of_eq (pts_a5 (F := F) d L _).symm) $$ H5
  iapply (wp_wand_r Idealize.ShloMosaic.frame (wpE (defs₀ (F := F)) 𝒱₀ (VT d L) none) Set.univ)
  isplitl [H50 H51 H60 H61 H4 H5 Hc0 Hc1 Hc2 Hc3 HO]
  · iapply (tile_run (F := F) d L (Lf d) O W f60 f61 g4 g5)
    isplitr; · iexact Hmw
    isplitl [H50]; · iexact H50
    isplitl [H51]; · iexact H51
    isplitl [H60]; · iexact H60
    isplitl [H61]; · iexact H61
    isplitl [H4]; · iexact H4
    isplitl [H5]; · iexact H5
    isplitl [Hc0 Hc1 Hc2 Hc3]
    · isplitl [Hc0]; · iexact Hc0
      isplitl [Hc1]; · iexact Hc1
      isplitl [Hc2]; · iexact Hc2
      iexact Hc3
    iexact HO
  iintro %_ ⟨H50, H51, H60, H61, ⟨%a4, H4⟩, ⟨%a5, H5⟩, ⟨Hc0, Hc1, Hc2, Hc3⟩, ⟨%W', HO⟩⟩
  isplitl [H50 H51 H60 H61]
  · isplitl [H50]; · iapply (Entails.of_eq (pts_v5c0 (F := F) d L _)); iexact H50
    isplitl [H51]; · iapply (Entails.of_eq (pts_v5c1 (F := F) d L _)); iexact H51
    isplitl [H60]; · iapply (Entails.of_eq (pts_v6c0 (F := F) d L _)); iexact H60
    iapply (Entails.of_eq (pts_v6c1 (F := F) d L _)); iexact H61
  isplitl [H4 H5 Hbufs]
  · isplitl [H4]; · iexists _; iapply (Entails.of_eq (pts_a4 (F := F) d L _)); iexact H4
    isplitl [H5]; · iexists _; iapply (Entails.of_eq (pts_a5 (F := F) d L _)); iexact H5
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists W'; isplitr
  · ipureintro; intro p _
    rcases p.2 with _ | q
    · exact .inr (.inl rfl)
    · exact .inr (.inr (congrArg some (Subsingleton.elim q 0)))
  · iexact HO

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__route_kernel (coordsV c s)
          v5V (Memref.isWhole_whole _) v6V (Memref.isWhole_whole _) a4V (Memref.isWhole_whole _) a5V (Memref.isWhole_whole _)
          cc1_scoped0 cc1_scoped1 cc1_scoped2 cc1_scoped3) ⟨⟩ c s := rfl

theorem tileObl (m : (ℓ : Loc nD τ sig) → Buf (Elt F) ℓ) (Lf : (d : Dev nD) → Buf (Elt F) (v5Loc d)) :
    (K (F := F)).TileObl (D (F := F)) 𝒱 (P m Lf) v₀ 0 := by
  intro d c i O W hO _ _
  simp only [show (P m Lf).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) facts Lf O W hO

end Tile

end Cert.Proof.KB

end
-- ==== Proof.BScTSplit.lean ====
/-
  The routing call's operands split and gathered: the 64 chunks of 32768 words — two per vector subcore, sixteen
  subcores per SparseCore, two SparseCores — are pairwise disjoint and cover the 2097152 words of a flat array, so each
  array held whole is its chunks held one by one, and back; and a SparseCore's share is by definition its sixteen
  subcores' shares.
-/
import proofs.«207443_g73169062855234_cont_9to1c4b_643_41_alg».proof.Proof.BScDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The 64 chunks partition a flat array -/

/-- A chunk's name: SparseCore, vector subcore, first or second chunk. -/
abbrev CIx : Type := Fin 2 × Fin 16 × Fin 2
abbrev chunkOf (p : CIx) : Finset S2097152.Idx := chunkSet p.1 p.2.1 p.2.2

/-- Two chunks with different names share no word: a word's chunk is its number divided by 32768. -/
theorem chunk_disjoint : ∀ p ∈ (Finset.univ : Finset CIx), ∀ p' ∈ (Finset.univ : Finset CIx), p ≠ p' → Disjoint (chunkOf p) (chunkOf p') := by
  rintro ⟨c, s, r⟩ - ⟨c', s', r'⟩ - h
  show Disjoint (chunkSet c s r) (chunkSet c' s' r')
  rw [Finset.disjoint_left]
  intro j hj hj'
  rw [mem_chunkSet] at hj hj'
  unfold chunkOff at hj hj'
  have h1 := c.isLt; have h2 := s.isLt; have h3 := r.isLt
  have h1' := c'.isLt; have h2' := s'.isLt; have h3' := r'.isLt
  apply h
  have hc : c = c' := Fin.ext (by omega)
  have hs : s = s' := Fin.ext (by omega)
  have hr : r = r' := Fin.ext (by omega)
  rw [hc, hs, hr]

/-- Every word is in a chunk. -/
theorem chunk_cover : (Finset.univ : Finset S2097152.Idx) = (Finset.univ : Finset CIx).biUnion chunkOf := by
  ext j
  simp only [Finset.mem_univ, Finset.mem_biUnion, true_and, true_iff]
  have hj : (j 0).val < 2097152 := (j 0).isLt
  refine ⟨((⟨(j 0).val / 65536 % 2, Nat.mod_lt _ (by decide)⟩ : Fin 2), (⟨(j 0).val / 131072, by omega⟩ : Fin 16), (⟨(j 0).val / 32768 % 2, Nat.mod_lt _ (by decide)⟩ : Fin 2)), ?_⟩
  show j ∈ chunkSet _ _ _
  rw [mem_chunkSet]
  unfold chunkOff
  dsimp only
  omega

variable [FloatOps F]

/-- An array held whole is its chunks held one by one, grouped by SparseCore and subcore. -/
theorem whole_eq_chunks (ℓ : Loc nD τ sig) (Kc : CIx → Finset (Idx ℓ))
    (hd : ∀ p ∈ (Finset.univ : Finset CIx), ∀ p' ∈ (Finset.univ : Finset CIx), p ≠ p' → Disjoint (Kc p) (Kc p'))
    (hc : (Finset.univ : Finset (Idx ℓ)) = (Finset.univ : Finset CIx).biUnion Kc) (f : Buf (Elt F) ℓ) :
    (ℓ ↦{fullShare} f : sProp 𝕄)
      = bigSep Finset.univ fun c : Fin 2 => bigSep Finset.univ fun s : Fin 16 =>
          iprop((ℓ ↦[Kc (c, s, 0)]{fullShare} f) ∗ ℓ ↦[Kc (c, s, 1)]{fullShare} f) := by
  show (pointsTo ℓ Finset.univ fullShare f : sProp 𝕄) = _
  rw [hc, pointsTo_biUnion _ _ hd, bigSep_univ_prod]
  refine bigSep_congr fun c _ => ?_
  rw [bigSep_univ_prod]
  refine bigSep_congr fun s _ => ?_
  exact bigSep_univ_two _

/-- Both arrays held whole are, subcore by subcore, the subcore's two chunks of each. -/
theorem both_eq_chunks (d : Dev nD) (f5 : Buf (Elt F) (v5Loc d)) (f6 : Buf (Elt F) (v6Loc d)) :
    (iprop((v5Loc d ↦{fullShare} f5) ∗ v6Loc d ↦{fullShare} f6) : sProp 𝕄)
      = bigSep Finset.univ fun c : Fin 2 => bigSep Finset.univ fun s : Fin 16 =>
          iprop(iprop(pc5 d c s 0 f5 ∗ pc5 d c s 1 f5) ∗ iprop(pc6 d c s 0 f6 ∗ pc6 d c s 1 f6)) := by
  rw [whole_eq_chunks (v5Loc d) chunkOf chunk_disjoint chunk_cover f5, whole_eq_chunks (v6Loc d) chunkOf chunk_disjoint chunk_cover f6,
    ← bigSep_sep']
  exact bigSep_congr fun c _ => (bigSep_sep' _ _ _).symm

variable (m : (ℓ : Loc nD τ sig) → Buf (Elt F) ℓ) (Lf : (d : Dev nD) → Buf (Elt F) (v5Loc d))

/-! ## The call's operands dealt to the SparseCores, and its results gathered -/

/-- A subcore's two chunks of each array, the coefficients' at `f`, are its task's operands; -/
theorem goP_of_chunks (d : Dev nD) (c : Fin 2) (s : Fin 16) (f : Buf (Elt F) (v6Loc d)) :
    (iprop(iprop(pc5 d c s 0 (Lf d) ∗ pc5 d c s 1 (Lf d)) ∗ iprop(pc6 d c s 0 f ∗ pc6 d c s 1 f)) : sProp 𝕄) ⊢ goP Lf d c s := by
  unfold goP
  iintro ⟨⟨H0, H1⟩, ⟨H2, H3⟩⟩
  isplitl [H0]; · iexact H0
  isplitl [H1]; · iexact H1
  isplitl [H2]; · iexists f; iexact H2
  iexists f; iexact H3

/-- and its task's results are its two chunks of each array, the coefficients' at the routed logits. -/
theorem chunks_of_tdP (d : Dev nD) (c : Fin 2) (s : Fin 16) :
    (tdP Lf d c s : sProp 𝕄)
      ⊢ iprop(iprop(pc5 d c s 0 (Lf d) ∗ pc5 d c s 1 (Lf d)) ∗ iprop(pc6 d c s 0 (route (Lf d)) ∗ pc6 d c s 1 (route (Lf d)))) := by
  unfold tdP
  iintro ⟨H0, H1, H2, H3⟩
  isplitl [H0 H1]
  · isplitl [H0]; · iexact H0
    iexact H1
  isplitl [H2]; · iexact H2
  iexact H3

theorem st0_at (d : Dev nD) (f : Buf (Elt F) (v6Loc d)) :
    iprop((v5Loc d ↦{fullShare} Lf d) ∗ v6Loc d ↦{fullShare} f)
      ⊢ (bigSep Finset.univ (fun c : Fin ((K (F := F)).nCore 0) => (P m Lf).st 0 d c) : sProp 𝕄) := by
  rw [both_eq_chunks d (Lf d) f]
  show _ ⊢ bigSep (Finset.univ : Finset (Fin 2)) fun c => bigSep Finset.univ fun s : Fin 16 => goP Lf d (Fin.cast nCore_zero c) s
  refine bigSep_mono fun c _ => bigSep_mono fun s _ => ?_
  rw [show Fin.cast nCore_zero c = c from Fin.ext rfl]
  exact goP_of_chunks Lf d c s f

/-- The TensorCore's two arrays, the logits at `Lf d` and the coefficients at anything, are the SparseCores' operands. -/
theorem st0 (d : Dev nD) :
    iprop(((SparseCore.T d).loc main_v5 ↦{fullShare} Lf d) ∗ ∃ f, (SparseCore.T d).loc main_v6 ↦{fullShare} f)
      ⊢ (bigSep Finset.univ (fun c : Fin ((K (F := F)).nCore 0) => (P m Lf).st 0 d c) : sProp 𝕄) := by
  iintro ⟨H5, ⟨%f, H6⟩⟩
  iapply (st0_at m Lf d f)
  isplitl [H5]; · iexact H5
  iexact H6

/-- The SparseCores' results are the two arrays whole: the logits unchanged, the coefficients the routed logits. -/
theorem dn0 (d : Dev nD) :
    (bigSep Finset.univ (fun c : Fin ((K (F := F)).nCore 0) => (P m Lf).dn 0 d c) : sProp 𝕄)
      ⊢ iprop(((SparseCore.T d).loc main_v5 ↦{fullShare} Lf d) ∗ (SparseCore.T d).loc main_v6 ↦{fullShare} route (Lf d)) := by
  show _ ⊢ (iprop((v5Loc d ↦{fullShare} Lf d) ∗ v6Loc d ↦{fullShare} route (Lf d)) : sProp 𝕄)
  rw [both_eq_chunks d (Lf d) (route (Lf d))]
  show (bigSep (Finset.univ : Finset (Fin 2)) fun c => bigSep Finset.univ fun s : Fin 16 => tdP Lf d (Fin.cast nCore_zero c) s) ⊢ _
  refine bigSep_mono fun c _ => bigSep_mono fun s _ => ?_
  rw [show Fin.cast nCore_zero c = c from Fin.ext rfl]
  exact chunks_of_tdP Lf d c s

/-- A SparseCore's operands are its sixteen subcores' tasks' operands, and its results theirs. -/
theorem vecSplit : (K (F := F)).VecSplit' (P m Lf) 0 := by
  intro d c
  have hgo : (bigSep Finset.univ fun i : Fin ((K (F := F)).nSub 0) => (P m Lf).go 0 d c i) = (P m Lf).st 0 d c := by
    show (bigSep (Finset.univ : Finset (Fin 16)) fun i => goP Lf d (Fin.cast nCore_zero c) (Fin.cast nSub_zero i))
      = bigSep Finset.univ fun s : Fin 16 => goP Lf d (Fin.cast nCore_zero c) s
    exact bigSep_congr fun i _ => congrArg (goP Lf d (Fin.cast nCore_zero c)) (Fin.ext rfl)
  have htd : (bigSep Finset.univ fun i : Fin ((K (F := F)).nSub 0) => (P m Lf).td 0 d c i) = (P m Lf).dn 0 d c := by
    show (bigSep (Finset.univ : Finset (Fin 16)) fun i => tdP Lf d (Fin.cast nCore_zero c) (Fin.cast nSub_zero i))
      = bigSep Finset.univ fun s : Fin 16 => tdP Lf d (Fin.cast nCore_zero c) s
    exact bigSep_congr fun i _ => congrArg (tdP Lf d (Fin.cast nCore_zero c)) (Fin.ext rfl)
  rw [hgo, htd]
  iintro H
  imodintro
  isplitl [H]; · iexact H
  iintro H; iexact H

end Cert.Proof.KB

end
-- ==== Proof.BSc.lean ====
/-
  The routing kernel's side of the launch, gathered: the arrays' locations, the routed logits, the handshakes' payloads,
  each vector subcore's task, how a SparseCore's share splits among its subcores, and the call's operands and results
  as the TensorCore holds them.
-/
import proofs.«207443_g73169062855234_cont_9to1c4b_643_41_alg».proof.Proof.BScBody
import proofs.«207443_g73169062855234_cont_9to1c4b_643_41_alg».proof.Proof.BScTSplit
-- ==== Proof.BRun.lean ====
/-
  The kernel's run: every weakly fair execution of the device's threads — @main on the TensorCore, the two
  sequencers, the thirty-two vector subcores — terminates, nothing faulting, and every unscoped buffer of the
  TensorCore ends at the last valuation of the fold through @main, the SparseCore call's array at the routed logits.
-/
import proofs.«207443_g73169062855234_cont_9to1c4b_643_41_alg».proof.Proof.BHMain
import proofs.«207443_g73169062855234_cont_9to1c4b_643_41_alg».proof.Proof.BSc

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The logits as the call finds them, -/
def Lf (d : Dev nD) : Buf (Elt F) (v5Loc d) := W3 m d v5'
/-- and the unscoped buffers after the call: the coefficient array at the routed logits, the rest untouched. -/
def W4r (d : Dev nD) : Valuation τ sig (Elt F) := Function.update (W3 m d) v6' (route (Lf m d))

theorem W4r_ne (d : Dev nD) (b : DevRef τ sig) (h : b ≠ v6') : W4r m d b = W3 m d b := Function.update_of_ne h _ _
theorem W4r_v6 (d : Dev nD) : W4r m d v6' = route (Lf m d) := Function.update_self _ _ _

/-- What the claim reads off a final state: every unscoped buffer of the TensorCore at the last valuation. -/
abbrev fq (d : Dev nD) (s' : Phys nD τ sig (Elt F)) : Prop :=
  ∀ b ∈ Pipeline.ucRefs τ sig, s'.mem.mem ((d, b) : Loc nD τ sig) = W6 (W4r m) d b

theorem hfin (d : Dev nD) (s' : Phys nD τ sig (Elt F)) : iprop(FIN (W4r m) d ∗ SI s') ⊢ (⌜fq m d s'⌝ : sProp 𝕄) := by
  rw [show FIN (W4r m) d = (bigSep (Pipeline.ucRefs τ sig) fun b => (((d, b) : Loc nD τ sig) ↦{fullShare} W6 (W4r m) d b : sProp 𝕄)) from rfl]
  iintro ⟨Hh, HSI⟩
  ihave Hr := (pointsTo_read_all (Pipeline.ucRefs τ sig) (fun b => ((d, b) : Loc nD τ sig)) (W6 (W4r m) d) s') $$ [Hh HSI]
  · isplitl [Hh] <;> iassumption
  icases Hr with ⟨%h, -⟩
  ipureintro; exact h

abbrev QC : PUnit × MemSt nD τ sig (Elt F) → Prop :=
  fun r => ∀ d : Dev nD, ∀ b ∈ Pipeline.ucRefs τ sig, r.2.mem ((d, b) : Loc nD τ sig) = W6 (W4r m) d b

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (Lf m)) facts v₀
    (fun q hq => match q with | 0 => nomatch hq)
    (fun q _ => match q with | 0 => tileObl m (Lf m))
    (fun q _ => match q with | 0 => SparseCore.Cfg.VecSplit.of_plain (vecSplit m (Lf m)))
    m ρ main (G (F := F)) (FIN (W4r m)) (u₀ (F := F))
    (sep_elim_left.trans (hu₀ (P m (Lf m)) (fun _ _ => rfl)))
    (hmain m ρ (W4r m) (P m (Lf m)) (fun d => st0 m (Lf m) d)
      (fun d => by rw [W4r_v6]; exact dn0 m (Lf m) d) (W4r_ne m))
    (fq m) (hfin m) (QC m) (fun _ h => h)

end Cert.Proof.KB

end
-- ==== Proof.BArgs.lean ====
/-
  The three argument arrays end as launched: no host operation writes one, neither pipeline has one among its output
  windows, and the call writes the routed coefficients only. A buffer that nothing after the first host stretch writes
  holds at the end what that stretch left.
-/
import proofs.«207443_g73169062855234_cont_9to1c4b_643_41_alg».proof.Proof.BRegions

set_option maxRecDepth 16384

noncomputable section

namespace Cert.Proof.KB

open Cert.Kernel Cert.Kernel.Gen
open Idealize.ShloMosaic Idealize.ShloMosaic.TcCoe
open Idealize.ShloMosaic.StableHlo
open Idealize.SL.Sem

variable {F : FTy → Type} [FloatOps F]

/-! ## What the host stretches leave at a buffer they do not write -/

section Host
variable (Vv : Valuation τ sig (Elt F))

theorem host0_arg0 : after (hostOps0 (F := F)) Vv (Proc.devRef .tc main_arg0) = Vv (Proc.devRef .tc main_arg0) := by
  simp only [hostOps0]
  after_results_simp
theorem host0_arg1 : after (hostOps0 (F := F)) Vv (Proc.devRef .tc main_arg1) = Vv (Proc.devRef .tc main_arg1) := by
  simp only [hostOps0]
  after_results_simp
theorem host0_arg2 : after (hostOps0 (F := F)) Vv (Proc.devRef .tc main_arg2) = Vv (Proc.devRef .tc main_arg2) := by
  simp only [hostOps0]
  after_results_simp

/-- The second stretch writes the flat logits only; -/
theorem host1_of_ne (r : Ref sig .tc) (h : r ≠ main_v5) : after (hostOps1 (F := F)) Vv (Proc.devRef .tc r) = Vv (Proc.devRef .tc r) := by
  simp only [hostOps1, after_cons, after_nil]
  exact reshape_result_ne _ _ _ _ _ _ Vv h

/-- the third the coefficients as rows only. -/
theorem host2_of_ne (r : Ref sig .tc) (h : r ≠ main_v7) : after (hostOps2 (F := F)) Vv (Proc.devRef .tc r) = Vv (Proc.devRef .tc r) := by
  simp only [hostOps2, after_cons, after_nil]
  exact reshape_result_ne _ _ _ _ _ _ Vv h

end Host

/-! ## The buffers nothing after the first stretch writes -/

section Rest
variable (m : (ℓ : Loc nD τ sig) → Buf (Elt F) ℓ) (W4 : Dev nD → Valuation τ sig (Elt F))
variable (hW4 : ∀ (d : Dev nD) (b : DevRef τ sig), b ≠ Proc.devRef .tc main_v6 → W4 d b = W3 m d b)
include hW4

/-- A buffer that neither the first pipeline's windows, nor the call, nor the two reshapes write holds after the third
    stretch what the first stretch left (`hW4`: the call writes the routed coefficients only). -/
theorem W5_of (c : Dev nD) (r : Ref sig .tc)
    (h7 : r ≠ main_v7) (h6 : r ≠ main_v6) (h5 : r ≠ main_v5) (h0 : ∀ w, Pipeline.arrRef spec0 w ≠ r) :
    W5 W4 c (Proc.devRef .tc r) = W1 m c (Proc.devRef .tc r) :=
  calc W5 W4 c (Proc.devRef .tc r)
    _ = W4 c (Proc.devRef .tc r) := host2_of_ne (W4 c) r h7
    _ = W3 m c (Proc.devRef .tc r) := hW4 c _ (devRef_ne_of_ne h6)
    _ = W2 m c (Proc.devRef .tc r) := host1_of_ne (W2 m c) r h5
    _ = W1 m c (Proc.devRef .tc r) := W2_of_ne m c r h0

/-- The same after the second pipeline, for a buffer that is none of its arrays either. -/
theorem W6_of (c : Dev nD) (r : Ref sig .tc)
    (h7 : r ≠ main_v7) (h6 : r ≠ main_v6) (h5 : r ≠ main_v5) (h0 : ∀ w, Pipeline.arrRef spec0 w ≠ r) (h2 : ∀ w, Pipeline.arrRef spec2 w ≠ r) :
    W6 W4 c (Proc.devRef .tc r) = W1 m c (Proc.devRef .tc r) :=
  (W6_of_ne W4 c r h2).trans (W5_of m W4 hW4 c r h7 h6 h5 h0)

/-- The arguments end as launched. -/
theorem W6_arg0 (c : Dev nD) : W6 W4 c (Proc.devRef .tc main_arg0) = m ((c, Proc.devRef .tc main_arg0) : Loc nD τ sig) :=
  (W6_of m W4 hW4 c main_arg0 (by decide) (by decide) (by decide) (by decide) (by decide)).trans (host0_arg0 (W0 m c))
theorem W6_arg1 (c : Dev nD) : W6 W4 c (Proc.devRef .tc main_arg1) = m ((c, Proc.devRef .tc main_arg1) : Loc nD τ sig) :=
  (W6_of m W4 hW4 c main_arg1 (by decide) (by decide) (by decide) (by decide) (by decide)).trans (host0_arg1 (W0 m c))
theorem W6_arg2 (c : Dev nD) : W6 W4 c (Proc.devRef .tc main_arg2) = m ((c, Proc.devRef .tc main_arg2) : Loc nD τ sig) :=
  (W6_of m W4 hW4 c main_arg2 (by decide) (by decide) (by decide) (by decide) (by decide)).trans (host0_arg2 (W0 m c))

end Rest

end Cert.Proof.KB

end
-- ==== Proof.BFrame.lean ====
/-
  The kernel's run read at the claim's buffers: the result array at the last valuation's, each argument array
  as launched (no host operation, no pipeline and not the call writes an argument).
-/
import proofs.«207443_g73169062855234_cont_9to1c4b_643_41_alg».proof.Proof.BRun
import proofs.«207443_g73169062855234_cont_9to1c4b_643_41_alg».proof.Proof.BArgs

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

theorem mem_uc (b : Ref sig .tc) (h : ¬ (Proc.devRef .tc b : DevRef τ sig).isScoped := by decide) : Proc.devRef .tc b ∈ Pipeline.ucRefs τ sig :=
  Finset.mem_filter.mpr ⟨StableHlo.devRef_mem_tcRefs b, h⟩

/-- Every weakly fair execution terminates; the result array ends at the last valuation's, the arguments as launched. -/
theorem frame_run [∀ e, Nonempty (Elt F e)] :
    θ_run (Cert.Kernel.defs (F := F)) (Cert.Kernel.threads (F := F)) ⟨m, fun _ => 0, ρ⟩ (fun r => ∀ c : Dev nD,
      r.2.mem ((c.tc : Thread nD τ).loc main_v8) = W6 (W4r m) c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.Kernel.defs (F := F)) _ _).mono (fun r h c =>
    ⟨h c _ (mem_uc main_v8),
      (h c _ (mem_uc main_arg0)).trans (W6_arg0 m (W4r m) (W4r_ne m) c),
      (h c _ (mem_uc main_arg1)).trans (W6_arg1 m (W4r m) (W4r_ne m) c),
      (h c _ (mem_uc main_arg2)).trans (W6_arg2 m (W4r m) (W4r_ne m) c)⟩) (run_main m ρ)

end Cert.Proof.KB

end
-- ==== Proof.lean ====
/-
  The proof of the claim. The kernel computes logits = x·W1ᵀ on the TensorCore (in six bf16 products whose residual
  operands vanish at the extended reals), routes each token down a binary tree of depth four on the SparseCores'
  thirty-two vector subcores (writing the rectified logit at the five visited nodes of a zeroed row), and multiplies
  the routed rows by W2 on the TensorCore; the reference walks the same tree with gathers, accumulating level by level.
  The frames: the launch of the SparseCore call with both TensorCore pipelines entered as regions of @main, once per
  float instance. The values meet in the specification of Proof/Spec.lean.
-/
import proofs.«207443_g73169062855234_cont_9to1c4b_643_41_alg».proof.Defs
import proofs.«207443_g73169062855234_cont_9to1c4b_643_41_alg».proof.Proof.Preserves
import proofs.«207443_g73169062855234_cont_9to1c4b_643_41_alg».proof.Proof.IAlgebraic
import proofs.«207443_g73169062855234_cont_9to1c4b_643_41_alg».proof.Proof.BFrame
import proofs.«207443_g73169062855234_cont_9to1c4b_643_41_alg».proof.Proof.Gen.Kernel
import proofs.«207443_g73169062855234_cont_9to1c4b_643_41_alg».proof.Proof.Gen.KernelIdeal
import proofs.«207443_g73169062855234_cont_9to1c4b_643_41_alg».proof.Proof.Gen.ReferenceIdeal
import proofs.«207443_g73169062855234_cont_9to1c4b_643_41_alg».proof.Proof.Gen.Pre_finite_inputs
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m g _ => (θ_run (Cert.Kernel.defs (F := Bits)) _ _).mono (fun _ h c => (h c).2) (Cert.Proof.KB.frame_run (F := Bits) m g)

theorem frame_pi : Cert.frame_KernelIdeal (hKernelIdeal := Cert.KernelIdeal.Gen.facts) (hPre_finite_inputs := Cert.Pre_finite_inputs.Gen.facts) :=
  fun m g _ => (θ_run (Cert.KernelIdeal.defs (F := Ideal)) _ _).mono (fun _ h c => (h c).2) (Cert.Proof.KI.frame_run (F := Ideal) m g)

theorem frame_ri : Cert.frame_ReferenceIdeal (hReferenceIdeal := Cert.ReferenceIdeal.Gen.facts) (hPre_finite_inputs := Cert.Pre_finite_inputs.Gen.facts) :=
  fun m g _ => (θ_run (Cert.ReferenceIdeal.defs (F := Ideal)) _ _).mono (fun _ h c => (h c).2) (Cert.ReferenceIdeal.RefRun.run (F := Ideal) m g)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.ReferenceIdeal.RefRun.out (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run (Cert.KernelIdeal.defs (F := Ideal)) _ _).mono
      (fun _ h c => ⟨(h c).1.trans (Cert.Proof.KI.kernel_value m hpre c), (h c).2⟩) (Cert.Proof.KI.frame_run (F := Ideal) m g)
  · refine (θ_run (Cert.ReferenceIdeal.defs (F := Ideal)) _ _).mono (fun _ h c => ⟨?_, (h c).2⟩)
      (Cert.ReferenceIdeal.RefRun.run (F := Ideal) m' g')
    rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, Cert.Proof.Parts.preserves, algebraic⟩

end Cert.Proof

end
